-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x256 : Shape := ⟨3, ![4, 16384, 256]⟩
abbrev S64x256 : Shape := ⟨2, ![64, 256]⟩
abbrev S_ : Shape := ⟨0, ![]⟩

class Facts : Prop where
  bcast_S_S4x16384x256 : S_.BroadcastsInDim S4x16384x256 (![] : Fin 0 → Fin S4x16384x256.rank)
  reducesTo_S4x16384x256_S_d0_1_2 : S4x16384x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn_part2 {F : FTy → Type} [FloatOps F] (main_arg7 : FVec F S64x256 .f32) (main_v33 : IVec S_ 1) : IVec S_ 1 :=
  let main_v34 : FVec F S64x256 .f32 := Host.absf main_arg7
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  main_v38

def fn_part1 {F : FTy → Type} [FloatOps F] (main_arg4 : FVec F S64x256 .f32) (main_arg5 : FVec F S64x256 .f32) (main_arg6 : FVec F S64x256 .f32) (main_arg7 : FVec F S64x256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_v33

def fn {F : FTy → Type} [FloatOps F] (main_arg0 : FVec F S4x16384x256 .f32) (main_arg1 : FVec F S4x16384x256 .f32) (main_arg2 : FVec F S64x256 .f32) (main_arg3 : FVec F S64x256 .f32) (main_arg4 : FVec F S64x256 .f32) (main_arg5 : FVec F S64x256 .f32) (main_arg6 : FVec F S64x256 .f32) (main_arg7 : FVec F S64x256 .f32) : IVec S_ 1 :=
  let main_v0 : FVec F S4x16384x256 .f32 := Host.absf main_arg0
  let main_cst : FVec F S_ .f32 := constant S_ .f32 0x7F800000#32
  let main_v1 : FVec F S4x16384x256 .f32 := broadcastInDim S4x16384x256 ![] bcast_S_S4x16384x256 main_cst
  let main_v2 : IVec S4x16384x256 1 := cmpf .olt main_v0 main_v1
  let main_c : IVec S_ 1 := constantI S_ 1 1#1
  let main_v3 : IVec S_ 1 := (fun x v => Host.reduce IntOp.andi x v reducesTo_S4x16384x256_S_d0_1_2 h_S_) main_v2 main_c
  let main_v4 : FVec F S4x16384x256 .f32 := Host.absf main_arg1
  let main_cst_0 : FVec F S_ .f32 := constant S_ .f32 0x7F800000#32
  let main_v5 : FVec F S4x16384x256 .f32 := broadcastInDim S4x16384x256 ![] bcast_S_S4x16384x256 main_cst_0
  let main_v6 : IVec S4x16384x256 1 := cmpf .olt main_v4 main_v5
  let main_c_1 : IVec S_ 1 := constantI S_ 1 1#1
  let main_v7 : IVec S_ 1 := (fun x v => Host.reduce IntOp.andi x v reducesTo_S4x16384x256_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_arg5 main_arg6 main_arg7 main_v13 main_v16
-- ==== Kernel.lean ====
abbrev S4x16384x256 : Shape := ⟨3, ![4, 16384, 256]⟩
abbrev S64x256 : Shape := ⟨2, ![64, 256]⟩
abbrev S4x64x64 : Shape := ⟨3, ![4, 64, 64]⟩
abbrev S4x16384x128 : Shape := ⟨3, ![4, 16384, 128]⟩
abbrev S1x4096x256 : Shape := ⟨3, ![1, 4096, 256]⟩
abbrev S1x64x64 : Shape := ⟨3, ![1, 64, 64]⟩
abbrev S1x4096x128 : Shape := ⟨3, ![1, 4096, 128]⟩
abbrev S64x1 : Shape := ⟨2, ![64, 1]⟩
abbrev S64x64 : Shape := ⟨2, ![64, 64]⟩
abbrev S4096x256 : Shape := ⟨2, ![4096, 256]⟩
abbrev S64x4096 : Shape := ⟨2, ![64, 4096]⟩
abbrev S64 : Shape := ⟨1, ![64]⟩
abbrev S4096x64 : Shape := ⟨2, ![4096, 64]⟩
abbrev S4096 : Shape := ⟨1, ![4096]⟩
abbrev S4096x1 : Shape := ⟨2, ![4096, 1]⟩
abbrev S4096x128 : Shape := ⟨2, ![4096, 128]⟩
abbrev S4x16384x64 : Shape := ⟨3, ![4, 16384, 64]⟩
abbrev S1x4096x64 : Shape := ⟨3, ![1, 4096, 64]⟩

abbrev nBuf : Space → Nat
  | .hbm => 13
  | .vmem => 32
  | .smem => 0
  | _ => 0

abbrev bufTy : (tb : Table) → Fin (tcTables nBuf tb) → BufTy
  | .hbm, ⟨0, _⟩ => ⟨S4x16384x256, .f32⟩
  | .hbm, ⟨1, _⟩ => ⟨S4x16384x256, .f32⟩
  | .hbm, ⟨2, _⟩ => ⟨S64x256, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S64x256, .f32⟩
  | .hbm, ⟨8, _⟩ => ⟨S4x64x64, .f32⟩
  | .hbm, ⟨9, _⟩ => ⟨S4x64x64, .f32⟩
  | .hbm, ⟨10, _⟩ => ⟨S4x16384x128, .bf16⟩
  | .hbm, ⟨11, _⟩ => ⟨S4x16384x64, .f32⟩
  | .hbm, ⟨12, _⟩ => ⟨S4x16384x64, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S1x64x64, .f32⟩
  | .local _ .vmem, ⟨11, _⟩ => ⟨S1x64x64, .f32⟩
  | .local _ .vmem, ⟨12, _⟩ => ⟨S1x64x64, .f32⟩
  | .local _ .vmem, ⟨13, _⟩ => ⟨S1x64x64, .f32⟩
  | .local _ .vmem, ⟨14, _⟩ => ⟨S1x4096x128, .bf16⟩
  | .local _ .vmem, ⟨15, _⟩ => ⟨S1x4096x128, .bf16⟩
  | .local _ .vmem, ⟨16, _⟩ => ⟨S64x1, .f32⟩
  | .local _ .vmem, ⟨17, _⟩ => ⟨S64x1, .f32⟩
  | .local _ .vmem, ⟨18, _⟩ => ⟨S64x64, .f32⟩
  | .local _ .vmem, ⟨19, _⟩ => ⟨S64x1, .f32⟩
  | .local _ .vmem, ⟨20, _⟩ => ⟨S64x1, .f32⟩
  | .local _ .vmem, ⟨21, _⟩ => ⟨S64x64, .f32⟩
  | .local _ .vmem, ⟨22, _⟩ => ⟨S1x4096x128, .bf16⟩
  | .local _ .vmem, ⟨23, _⟩ => ⟨S1x4096x128, .bf16⟩
  | .local _ .vmem, ⟨24, _⟩ => ⟨S1x64x64, .f32⟩
  | .local _ .vmem, ⟨25, _⟩ => ⟨S1x64x64, .f32⟩
  | .local _ .vmem, ⟨26, _⟩ => ⟨S1x64x64, .f32⟩
  | .local _ .vmem, ⟨27, _⟩ => ⟨S1x64x64, .f32⟩
  | .local _ .vmem, ⟨28, _⟩ => ⟨S1x4096x64, .f32⟩
  | .local _ .vmem, ⟨29, _⟩ => ⟨S1x4096x64, .f32⟩
  | .local _ .vmem, ⟨30, _⟩ => ⟨S1x4096x64, .f32⟩
  | .local _ .vmem, ⟨31, _⟩ => ⟨S1x4096x64, .f32⟩
  | _, _ => ⟨S4x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v117 : BitVec 1 := Scalar.cmpi .eq arg1 c3_i32
  let v118 : BitVec 32 := Scalar.extui v117
  let c0_i32_66 : BitVec 32 := 0#32
  let v119 : BitVec 1 := Scalar.cmpi .ne v118 c0_i32_66
  v119

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x4096x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  reduces_S64x4096_S64 : S64x4096.Reduces [1] S64
  shapeCasts_S64_S64x1 : S64.ShapeCasts S64x1
  broadcasts_S64x1_S64x4096 : S64x1.Broadcasts S64x4096
  broadcasts_S64x1_S64x64 : S64x1.Broadcasts S64x64
  reduces_S4096x64_S4096 : S4096x64.Reduces [1] S4096
  shapeCasts_S4096_S4096x1 : S4096.ShapeCasts S4096x1
  broadcasts_S4096x1_S4096x64 : S4096x1.Broadcasts S4096x64
  concatenates_S4096x64_S4096x64_S4096x128_d1 : Shape.Concatenates [S4096x64, S4096x64] S4096x128 1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  packedbf16_S1x4096x128_S1x4096x128_0_0_0 : (Rect.unit (s := S1x4096x128) ![0, 0, 0] S1x4096x128.size inb_S1x4096x128_S1x4096x128_0_0_0).PackedRows (EltTy.packing .bf16)
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  slices_S4096x128_o0_0_S4096x64 : S4096x128.Slices ![0, 0] S4096x64
  slices_S4096x128_o0_64_S4096x64 : S4096x128.Slices ![0, 64] S4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  dot_S64x256_S4096x256_S64x4096_1_1_0_0_n_n_wf : DotDims.WF S64x256 S4096x256 S64x4096 [1] [1] [0] [0] [] []
  dot_S64x4096_S64x4096_S64x64_1_1_0_0_n_n_wf : DotDims.WF S64x4096 S64x4096 S64x64 [1] [1] [0] [0] [] []
  dot_S4096x256_S64x256_S4096x64_1_1_0_0_n_n_wf : DotDims.WF S4096x256 S64x256 S4096x64 [1] [1] [0] [0] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x16384x256.size a
  hwx0_0 : ∀ i : grid0.Coords, EltTy.bits .f32 = 32 ∨ (Rect.block (s := S4x16384x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x16384x256.size a
  hwx0_1 : ∀ i : grid0.Coords, EltTy.bits .f32 = 32 ∨ (Rect.block (s := S4x16384x256) S1x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .f32 = 32 ∨ (Rect.block (s := S64x256) S64x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64.size a ≤ S4x64x64.size a
  hwx0_8 : ∀ i : grid0.Coords, EltTy.bits .f32 = 32 ∨ (Rect.block (s := S4x64x64) S1x64x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x64.size a ≤ S4x64x64.size a
  hwx0_9 : ∀ i : grid0.Coords, EltTy.bits .f32 = 32 ∨ (Rect.block (s := S4x64x64) S1x64x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x4096x128.size a ≤ S4x16384x128.size a
  hwx0_10 : ∀ i : grid0.Coords, EltTy.bits .bf16 = 32 ∨ (Rect.block (s := S4x16384x128) S1x4096x128.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S4x16384x128.size a
  hwx1_0 : ∀ i : grid1.Coords, EltTy.bits .bf16 = 32 ∨ (Rect.block (s := S4x16384x128) S1x4096x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S4x64x64.size a
  hwx1_1 : ∀ i : grid1.Coords, EltTy.bits .f32 = 32 ∨ (Rect.block (s := S4x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x64.size a ≤ S4x64x64.size a
  hwx1_2 : ∀ i : grid1.Coords, EltTy.bits .f32 = 32 ∨ (Rect.block (s := S4x64x64) S1x64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x64.size a ≤ S4x16384x64.size a
  hwx1_3 : ∀ i : grid1.Coords, EltTy.bits .f32 = 32 ∨ (Rect.block (s := S4x16384x64) S1x4096x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096x64.size a ≤ S4x16384x64.size a
  hwx1_4 : ∀ i : grid1.Coords, EltTy.bits .f32 = 32 ∨ (Rect.block (s := S4x16384x64) S1x4096x64.size (cc1_transform_4 i) (hinb1_4 i)).WholeWords (EltTy.packing .f32)

variable [Facts₀]

def dot_S64x256_S4096x256_S64x4096_1_1_0_0_n_n : DotDims S64x256 S4096x256 S64x4096 where
  lhsContracting := [1]
  rhsContracting := [1]
  lhsNonContracting := [0]
  rhsNonContracting := [0]
  lhsBatch := []
  rhsBatch := []
  wf := dot_S64x256_S4096x256_S64x4096_1_1_0_0_n_n_wf
def dot_S64x4096_S64x4096_S64x64_1_1_0_0_n_n : DotDims S64x4096 S64x4096 S64x64 where
  lhsContracting := [1]
  rhsContracting := [1]
  lhsNonContracting := [0]
  rhsNonContracting := [0]
  lhsBatch := []
  rhsBatch := []
  wf := dot_S64x4096_S64x4096_S64x64_1_1_0_0_n_n_wf
def dot_S4096x256_S64x256_S4096x64_1_1_0_0_n_n : DotDims S4096x256 S64x256 S4096x64 where
  lhsContracting := [1]
  rhsContracting := [1]
  lhsNonContracting := [0]
  rhsNonContracting := [0]
  lhsBatch := []
  rhsBatch := []
  wf := dot_S4096x256_S64x256_S4096x64_1_1_0_0_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1x64x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1x64x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S1x4096x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun _ => false | ⟨_ + 11, h⟩ => absurd h (Nat.not_lt.2 (Nat.le_add_left _ _))

abbrev win1_0 : Pipeline.Window sig grid1 :=
  Pipeline.Window.ofSpec (Memref.whole main_v0_2) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x4096x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1x4096x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x16384x256 : Shape := ⟨3, ![4, 16384, 256]⟩
abbrev S64x256 : Shape := ⟨2, ![64, 256]⟩
abbrev S4x16384x64 : Shape := ⟨3, ![4, 16384, 64]⟩
abbrev S_ : Shape := ⟨0, ![]⟩
abbrev S4x64 : Shape := ⟨2, ![4, 64]⟩
abbrev S4x1x64 : Shape := ⟨3, ![4, 1, 64]⟩
abbrev S4x16384 : Shape := ⟨2, ![4, 16384]⟩
abbrev S4x16384x1 : Shape := ⟨3, ![4, 16384, 1]⟩
abbrev S4x64x64 : Shape := ⟨3, ![4, 64, 64]⟩

abbrev nBuf : Space → Nat
  | .hbm => 74
  | .vmem => 0
  | .smem => 0
  | _ => 0

abbrev bufTy : (tb : Table) → Fin (tcTables nBuf tb) → BufTy
  | .hbm, ⟨0, _⟩ => ⟨S4x16384x256, .f32⟩
  | .hbm, ⟨1, _⟩ => ⟨S4x16384x256, .f32⟩
  | .hbm, ⟨2, _⟩ => ⟨S64x256, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S64x256, .f32⟩
  | .hbm, ⟨8, _⟩ => ⟨S4x16384x64, .f32⟩
  | .hbm, ⟨9, _⟩ => ⟨S4x16384x64, .f32⟩
  | .hbm, ⟨10, _⟩ => ⟨S4x16384x64, .f32⟩
  | .hbm, ⟨11, _⟩ => ⟨S4x16384x64, .f32⟩
  | .hbm, ⟨12, _⟩ => ⟨S4x16384x64, .f32⟩
  | .hbm, ⟨13, _⟩ => ⟨S4x16384x64, .f32⟩
  | .hbm, ⟨14, _⟩ => ⟨S_, .f32⟩
  | .hbm, ⟨15, _⟩ => ⟨S4x64, .f32⟩
  | .hbm, ⟨16, _⟩ => ⟨S_, .f32⟩
  | .hbm, ⟨17, _⟩ => ⟨S4x64, .f32⟩
  | .hbm, ⟨18, _⟩ => ⟨S4x64, .f32⟩
  | .hbm, ⟨19, _⟩ => ⟨S4x1x64, .f32⟩
  | .hbm, ⟨20, _⟩ => ⟨S4x16384x64, .f32⟩
  | .hbm, ⟨21, _⟩ => ⟨S4x16384x64, .f32⟩
  | .hbm, ⟨22, _⟩ => ⟨S4x16384x64, .f32⟩
  | .hbm, ⟨23, _⟩ => ⟨S_, .f32⟩
  | .hbm, ⟨24, _⟩ => ⟨S4x64, .f32⟩
  | .hbm, ⟨25, _⟩ => ⟨S4x1x64, .f32⟩
  | .hbm, ⟨26, _⟩ => ⟨S4x16384x64, .f32⟩
  | .hbm, ⟨27, _⟩ => ⟨S4x16384x64, .f32⟩
  | .hbm, ⟨28, _⟩ => ⟨S_, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x1x64, .f32⟩
  | .hbm, ⟨34, _⟩ => ⟨S4x16384x64, .f32⟩
  | .hbm, ⟨35, _⟩ => ⟨S4x16384x64, .f32⟩
  | .hbm, ⟨36, _⟩ => ⟨S4x16384x64, .f32⟩
  | .hbm, ⟨37, _⟩ => ⟨S_, .f32⟩
  | .hbm, ⟨38, _⟩ => ⟨S4x64, .f32⟩
  | .hbm, ⟨39, _⟩ => ⟨S4x1x64, .f32⟩
  | .hbm, ⟨40, _⟩ => ⟨S4x16384x64, .f32⟩
  | .hbm, ⟨41, _⟩ => ⟨S4x16384x64, .f32⟩
  | .hbm, ⟨42, _⟩ => ⟨S_, .f32⟩
  | .hbm, ⟨43, _⟩ => ⟨S4x16384, .f32⟩
  | .hbm, ⟨44, _⟩ => ⟨S_, .f32⟩
  | .hbm, ⟨45, _⟩ => ⟨S4x16384, .f32⟩
  | .hbm, ⟨46, _⟩ => ⟨S4x16384, .f32⟩
  | .hbm, ⟨47, _⟩ => ⟨S4x16384x1, .f32⟩
  | .hbm, ⟨48, _⟩ => ⟨S4x16384x64, .f32⟩
  | .hbm, ⟨49, _⟩ => ⟨S4x16384x64, .f32⟩
  | .hbm, ⟨50, _⟩ => ⟨S4x16384x64, .f32⟩
  | .hbm, ⟨51, _⟩ => ⟨S_, .f32⟩
  | .hbm, ⟨52, _⟩ => ⟨S4x16384, .f32⟩
  | .hbm, ⟨53, _⟩ => ⟨S4x16384x1, .f32⟩
  | .hbm, ⟨54, _⟩ => ⟨S4x16384x64, .f32⟩
  | .hbm, ⟨55, _⟩ => ⟨S4x16384x64, .f32⟩
  | .hbm, ⟨56, _⟩ => ⟨S_, .f32⟩
  | .hbm, ⟨57, _⟩ => ⟨S4x16384, .f32⟩
  | .hbm, ⟨58, _⟩ => ⟨S_, .f32⟩
  | .hbm, ⟨59, _⟩ => ⟨S4x16384, .f32⟩
  | .hbm, ⟨60, _⟩ => ⟨S4x16384, .f32⟩
  | .hbm, ⟨61, _⟩ => ⟨S4x16384x1, .f32⟩
  | .hbm, ⟨62, _⟩ => ⟨S4x16384x64, .f32⟩
  | .hbm, ⟨63, _⟩ => ⟨S4x16384x64, .f32⟩
  | .hbm, ⟨64, _⟩ => ⟨S4x16384x64, .f32⟩
  | .hbm, ⟨65, _⟩ => ⟨S_, .f32⟩
  | .hbm, ⟨66, _⟩ => ⟨S4x16384, .f32⟩
  | .hbm, ⟨67, _⟩ => ⟨S4x16384x1, .f32⟩
  | .hbm, ⟨68, _⟩ => ⟨S4x16384x64, .f32⟩
  | .hbm, ⟨69, _⟩ => ⟨S4x16384x64, .f32⟩
  | .hbm, ⟨70, _⟩ => ⟨S4x64x64, .f32⟩
  | .hbm, ⟨71, _⟩ => ⟨S4x64x64, .f32⟩
  | .hbm, ⟨72, _⟩ => ⟨S4x16384x64, .f32⟩
  | .hbm, ⟨73, _⟩ => ⟨S4x16384x64, .f32⟩
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  reducesTo_S4x16384x64_S4x64_d1 : S4x16384x64.ReducesTo [1] S4x64
  h_S_ : 0 < S_.numel
  bcast_S_S4x64 : S_.BroadcastsInDim S4x64 (![] : Fin 0 → Fin S4x64.rank)
  bcast_S4x64_S4x1x64_0_2 : S4x64.BroadcastsInDim S4x1x64 (![0, 2] : Fin 2 → Fin S4x1x64.rank)
  bcast_S4x1x64_S4x16384x64_0_1_2 : S4x1x64.BroadcastsInDim S4x16384x64 (![0, 1, 2] : Fin 3 → Fin S4x16384x64.rank)
  reducesTo_S4x16384x64_S4x16384_d2 : S4x16384x64.ReducesTo [2] S4x16384
  bcast_S_S4x16384 : S_.BroadcastsInDim S4x16384 (![] : Fin 0 → Fin S4x16384.rank)
  bcast_S4x16384_S4x16384x1_0_1 : S4x16384.BroadcastsInDim S4x16384x1 (![0, 1] : Fin 2 → Fin S4x16384x1.rank)
  bcast_S4x16384x1_S4x16384x64_0_1_2 : S4x16384x1.BroadcastsInDim S4x16384x64 (![0, 1, 2] : Fin 3 → Fin S4x16384x64.rank)
  dot_S4x16384x256_S64x256_S4x16384x64_2_1_01_0_n_n_wf : DotDims.WF S4x16384x256 S64x256 S4x16384x64 [2] [1] [0, 1] [0] [] []
  dot_S4x16384x64_S4x16384x64_S4x64x64_1_1_2_2_0_0_wf : DotDims.WF S4x16384x64 S4x16384x64 S4x64x64 [1] [1] [2] [2] [0] [0]
  dot_S4x16384x64_S4x64x64_S4x16384x64_2_1_1_2_0_0_wf : DotDims.WF S4x16384x64 S4x64x64 S4x16384x64 [2] [1] [1] [2] [0] [0]

variable [Facts₀]

def dot_S4x16384x256_S64x256_S4x16384x64_2_1_01_0_n_n : DotDims S4x16384x256 S64x256 S4x16384x64 where
  lhsContracting := [2]
  rhsContracting := [1]
  lhsNonContracting := [0, 1]
  rhsNonContracting := [0]
  lhsBatch := []
  rhsBatch := []
  wf := dot_S4x16384x256_S64x256_S4x16384x64_2_1_01_0_n_n_wf
def dot_S4x16384x64_S4x16384x64_S4x64x64_1_1_2_2_0_0 : DotDims S4x16384x64 S4x16384x64 S4x64x64 where
  lhsContracting := [1]
  rhsContracting := [1]
  lhsNonContracting := [2]
  rhsNonContracting := [2]
  lhsBatch := [0]
  rhsBatch := [0]
  wf := dot_S4x16384x64_S4x16384x64_S4x64x64_1_1_2_2_0_0_wf
def dot_S4x16384x64_S4x64x64_S4x16384x64_2_1_1_2_0_0 : DotDims S4x16384x64 S4x64x64 S4x16384x64 where
  lhsContracting := [2]
  rhsContracting := [1]
  lhsNonContracting := [1]
  rhsNonContracting := [2]
  lhsBatch := [0]
  rhsBatch := [0]
  wf := dot_S4x16384x64_S4x64x64_S4x16384x64_2_1_1_2_0_0_wf

class Facts : Prop extends Facts₀ where

variable [Facts]
-- ==== Proof.Bits.MainRun.lean ====
import proofs.«174424_j489626271899_2_alg».proof.Proof.Gen.Kernel.Launch
import proofs.«174424_j489626271899_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The run of @main over its two kernel regions

@main is two kernel calls and nothing else. For any float instance `F` and any proof data `dat0`, `dat1` of the two
pipelines — given at every entry contents `V`, with the arrays read off `V`, full shares, nothing owed, the body
obligation, and an invariant that the scoped rest and the generator register enter at the first point and leave at
the last — this file folds the buffer contents through the two regions (`Wlaunch`, `Wmid`, `Wend`), shows that
every execution terminates with each unscoped buffer at `Wend` (`run_all`), reads the fold at the arguments and at
the results, and concludes that the arguments end as launched (`frame_all`). -/

variable {F : FTy → Type} [FloatOps F]

local notation "𝕄" => MT nD τ sig Unit (Elt F) ℕ (UR sig nD τ) ℕ

/-- The contents of a core's buffers, read at the TensorCore's references. -/
abbrev TcVal (F : FTy → Type) [FloatOps F] : Type :=
  (c : Dev nD) → (b : Ref sig .tc) → Buf (Elt F) ((c : Thread nD τ).loc b)

/-! # The buffer contents at each boundary of the run: the launch, between the two regions, the return -/

section Fold

variable (dat0 : TcVal F → (c : Dev nD) → Dat τ (Elt F) Unit ℕ (UR sig nD τ) ℕ cfg0 c)
variable (dat1 : TcVal F → (c : Dev nD) → Dat τ (Elt F) Unit ℕ (UR sig nD τ) ℕ cfg1 c)
variable (m : (ℓ : Loc nD τ sig) → Buf (Elt F) ℓ)

/-- Core `c`'s buffers at launch. -/
abbrev Wlaunch : Dev nD → Valuation τ sig (Elt F) := fun c b => m (((c : Thread nD τ)).1, b)
/-- The launch contents read at the TensorCore's references: what region 0 is entered at. -/
abbrev Vin : TcVal F := fun c b => Wlaunch m c b

/-- When region 0 is left: each of its arrays at what its write-backs leave (an input as entered), every other
    buffer as at launch. -/
def Wmid (c : Dev nD) : Valuation τ sig (Elt F) :=
  Pipeline.withArrays spec0 c (Wlaunch m c) fun w => (dat0 (Vin m) c).arrAt w cfg0.N
/-- The same read at the TensorCore's references: what region 1 is entered at. -/
abbrev Vmid : TcVal F := fun c b => Wmid dat0 m c b
/-- When region 1 is left: each of its arrays at what its write-backs leave, every other buffer as region 0 left it. -/
def Wend (c : Dev nD) : Valuation τ sig (Elt F) :=
  Pipeline.withArrays spec1 c (Wmid dat0 m c) fun w => (dat1 (Vmid dat0 m) c).arrAt w cfg1.N
/-- The same read at the TensorCore's references. -/
abbrev Vend : TcVal F := fun c b => Wend dat0 dat1 m c b

theorem Wmid_arr (c : Dev nD) (w : Fin cfg0.W) :
    Wmid dat0 m c (Proc.devRef .tc (Pipeline.arrRef spec0 w)) = (dat0 (Vin m) c).arrAt w cfg0.N := by
  unfold Wmid; exact Pipeline.withArrays_arr spec0 launch0.win.arr_inj c _ _ w
theorem Wmid_of_ne (c : Dev nD) (b : Ref sig .tc) (hb : ∀ w, Pipeline.arrRef spec0 w ≠ b) :
    Wmid dat0 m c (Proc.devRef .tc b) = Wlaunch m c (Proc.devRef .tc b) := by
  unfold Wmid; exact Pipeline.withArrays_of_ne spec0 c _ _ b hb
theorem Wend_arr (c : Dev nD) (w : Fin cfg1.W) :
    Wend dat0 dat1 m c (Proc.devRef .tc (Pipeline.arrRef spec1 w)) = (dat1 (Vmid dat0 m) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend dat0 dat1 m c (Proc.devRef .tc b) = Wmid dat0 m c (Proc.devRef .tc b) := by
  unfold Wend; exact Pipeline.withArrays_of_ne spec1 c _ _ b hb

/-- Region 0's exit contents have each of its arrays at what the pipeline leaves, -/
theorem mid_arr (c : Dev nD) (w : Fin cfg0.W) : (dat0 (Vin m) c).arrAt w cfg0.N = Vmid dat0 m c (Pipeline.arrRef spec0 w) :=
  (Wmid_arr dat0 m c w).symm
/-- and every buffer that is none of its arrays as it was entered. -/
theorem mid_rest (c : Dev nD) : ∀ b, b ∉ Finset.univ.image (Pipeline.arrRef spec0) → Vmid dat0 m c b = Vin m c b :=
  fun b hb => Wmid_of_ne dat0 m c b fun w e => hb (Finset.mem_image.mpr ⟨w, Finset.mem_univ _, e⟩)
/-- The same of region 1. -/
theorem end_arr (c : Dev nD) (w : Fin cfg1.W) : (dat1 (Vmid dat0 m) c).arrAt w cfg1.N = Vend dat0 dat1 m c (Pipeline.arrRef spec1 w) :=
  (Wend_arr dat0 dat1 m c w).symm
theorem end_rest (c : Dev nD) : ∀ b, b ∉ Finset.univ.image (Pipeline.arrRef spec1) → Vend dat0 dat1 m c b = Vmid dat0 m c b :=
  fun b hb => Wend_of_ne dat0 dat1 m c b fun w e => hb (Finset.mem_image.mpr ⟨w, Finset.mem_univ _, e⟩)

/-! ## Reading the fold: the results -/

/-- Between the regions, region 0's three results hold what its write-backs leave. -/
theorem Vmid_main_v0_0 (c : Dev nD) : Vmid dat0 m c main_v0_0 = (dat0 (Vin m) c).arrAt 8 cfg0.N := Wmid_arr dat0 m c 8
theorem Vmid_main_v0_1 (c : Dev nD) : Vmid dat0 m c main_v0_1 = (dat0 (Vin m) c).arrAt 9 cfg0.N := Wmid_arr dat0 m c 9
theorem Vmid_main_v0_2 (c : Dev nD) : Vmid dat0 m c main_v0_2 = (dat0 (Vin m) c).arrAt 10 cfg0.N := Wmid_arr dat0 m c 10

/-- At the return, the program's two results hold what region 1's write-backs leave. -/
theorem Wend_main_v1_0 (c : Dev nD) :
    Wend dat0 dat1 m c (Proc.devRef .tc main_v1_0) = (dat1 (Vmid dat0 m) c).arrAt 3 cfg1.N := Wend_arr dat0 dat1 m c 3
theorem Wend_main_v1_1 (c : Dev nD) :
    Wend dat0 dat1 m c (Proc.devRef .tc main_v1_1) = (dat1 (Vmid dat0 m) c).arrAt 4 cfg1.N := Wend_arr dat0 dat1 m c 4

end Fold

/-! ## Reading the fold: the arguments

Region 0 reads each argument through an input window, which is never written back; region 1 has no window on an
argument. So at either boundary an argument's buffer holds its launch contents. -/

section Args

variable (dat0 : TcVal F → (c : Dev nD) → Dat τ (Elt F) Unit ℕ (UR sig nD τ) ℕ cfg0 c)
variable (dat1 : TcVal F → (c : Dev nD) → Dat τ (Elt F) Unit ℕ (UR sig nD τ) ℕ cfg1 c)
variable (hA0 : ∀ V c w, (dat0 V c).A w = V c (Pipeline.arrRef spec0 w))
variable (m : (ℓ : Loc nD τ sig) → Buf (Elt F) ℓ)
include hA0

theorem Vmid_main_arg0 (c : Dev nD) : Vmid dat0 m c main_arg0 = m ((c : Thread nD τ).loc main_arg0) :=
  calc Wmid dat0 m c (Proc.devRef .tc main_arg0)
    _ = (dat0 (Vin m) c).arrAt 0 cfg0.N := Wmid_arr dat0 m c 0
    _ = (dat0 (Vin m) c).A 0 := (dat0 (Vin m) c).arrAt_in 0 rfl _
    _ = Vin m c (Pipeline.arrRef spec0 0) := hA0 (Vin m) c 0
    _ = m ((c : Thread nD τ).loc main_arg0) := rfl
theorem Wend_main_arg0 (c : Dev nD) :
    Wend dat0 dat1 m c (Proc.devRef .tc main_arg0) = m ((c : Thread nD τ).loc main_arg0) :=
  (Wend_of_ne dat0 dat1 m c main_arg0 (by decide)).trans (Vmid_main_arg0 dat0 hA0 m c)

theorem Vmid_main_arg1 (c : Dev nD) : Vmid dat0 m c main_arg1 = m ((c : Thread nD τ).loc main_arg1) :=
  calc Wmid dat0 m c (Proc.devRef .tc main_arg1)
    _ = (dat0 (Vin m) c).arrAt 1 cfg0.N := Wmid_arr dat0 m c 1
    _ = (dat0 (Vin m) c).A 1 := (dat0 (Vin m) c).arrAt_in 1 rfl _
    _ = Vin m c (Pipeline.arrRef spec0 1) := hA0 (Vin m) c 1
    _ = m ((c : Thread nD τ).loc main_arg1) := rfl
theorem Wend_main_arg1 (c : Dev nD) :
    Wend dat0 dat1 m c (Proc.devRef .tc main_arg1) = m ((c : Thread nD τ).loc main_arg1) :=
  (Wend_of_ne dat0 dat1 m c main_arg1 (by decide)).trans (Vmid_main_arg1 dat0 hA0 m c)

theorem Vmid_main_arg2 (c : Dev nD) : Vmid dat0 m c main_arg2 = m ((c : Thread nD τ).loc main_arg2) :=
  calc Wmid dat0 m c (Proc.devRef .tc main_arg2)
    _ = (dat0 (Vin m) c).arrAt 2 cfg0.N := Wmid_arr dat0 m c 2
    _ = (dat0 (Vin m) c).A 2 := (dat0 (Vin m) c).arrAt_in 2 rfl _
    _ = Vin m c (Pipeline.arrRef spec0 2) := hA0 (Vin m) c 2
    _ = m ((c : Thread nD τ).loc main_arg2) := rfl
theorem Wend_main_arg2 (c : Dev nD) :
    Wend dat0 dat1 m c (Proc.devRef .tc main_arg2) = m ((c : Thread nD τ).loc main_arg2) :=
  (Wend_of_ne dat0 dat1 m c main_arg2 (by decide)).trans (Vmid_main_arg2 dat0 hA0 m c)

theorem Vmid_main_arg3 (c : Dev nD) : Vmid dat0 m c main_arg3 = m ((c : Thread nD τ).loc main_arg3) :=
  calc Wmid dat0 m c (Proc.devRef .tc main_arg3)
    _ = (dat0 (Vin m) c).arrAt 3 cfg0.N := Wmid_arr dat0 m c 3
    _ = (dat0 (Vin m) c).A 3 := (dat0 (Vin m) c).arrAt_in 3 rfl _
    _ = Vin m c (Pipeline.arrRef spec0 3) := hA0 (Vin m) c 3
    _ = m ((c : Thread nD τ).loc main_arg3) := rfl
theorem Wend_main_arg3 (c : Dev nD) :
    Wend dat0 dat1 m c (Proc.devRef .tc main_arg3) = m ((c : Thread nD τ).loc main_arg3) :=
  (Wend_of_ne dat0 dat1 m c main_arg3 (by decide)).trans (Vmid_main_arg3 dat0 hA0 m c)

theorem Vmid_main_arg4 (c : Dev nD) : Vmid dat0 m c main_arg4 = m ((c : Thread nD τ).loc main_arg4) :=
  calc Wmid dat0 m c (Proc.devRef .tc main_arg4)
    _ = (dat0 (Vin m) c).arrAt 4 cfg0.N := Wmid_arr dat0 m c 4
    _ = (dat0 (Vin m) c).A 4 := (dat0 (Vin m) c).arrAt_in 4 rfl _
    _ = Vin m c (Pipeline.arrRef spec0 4) := hA0 (Vin m) c 4
    _ = m ((c : Thread nD τ).loc main_arg4) := rfl
theorem Wend_main_arg4 (c : Dev nD) :
    Wend dat0 dat1 m c (Proc.devRef .tc main_arg4) = m ((c : Thread nD τ).loc main_arg4) :=
  (Wend_of_ne dat0 dat1 m c main_arg4 (by decide)).trans (Vmid_main_arg4 dat0 hA0 m c)

theorem Vmid_main_arg5 (c : Dev nD) : Vmid dat0 m c main_arg5 = m ((c : Thread nD τ).loc main_arg5) :=
  calc Wmid dat0 m c (Proc.devRef .tc main_arg5)
    _ = (dat0 (Vin m) c).arrAt 5 cfg0.N := Wmid_arr dat0 m c 5
    _ = (dat0 (Vin m) c).A 5 := (dat0 (Vin m) c).arrAt_in 5 rfl _
    _ = Vin m c (Pipeline.arrRef spec0 5) := hA0 (Vin m) c 5
    _ = m ((c : Thread nD τ).loc main_arg5) := rfl
theorem Wend_main_arg5 (c : Dev nD) :
    Wend dat0 dat1 m c (Proc.devRef .tc main_arg5) = m ((c : Thread nD τ).loc main_arg5) :=
  (Wend_of_ne dat0 dat1 m c main_arg5 (by decide)).trans (Vmid_main_arg5 dat0 hA0 m c)

theorem Vmid_main_arg6 (c : Dev nD) : Vmid dat0 m c main_arg6 = m ((c : Thread nD τ).loc main_arg6) :=
  calc Wmid dat0 m c (Proc.devRef .tc main_arg6)
    _ = (dat0 (Vin m) c).arrAt 6 cfg0.N := Wmid_arr dat0 m c 6
    _ = (dat0 (Vin m) c).A 6 := (dat0 (Vin m) c).arrAt_in 6 rfl _
    _ = Vin m c (Pipeline.arrRef spec0 6) := hA0 (Vin m) c 6
    _ = m ((c : Thread nD τ).loc main_arg6) := rfl
theorem Wend_main_arg6 (c : Dev nD) :
    Wend dat0 dat1 m c (Proc.devRef .tc main_arg6) = m ((c : Thread nD τ).loc main_arg6) :=
  (Wend_of_ne dat0 dat1 m c main_arg6 (by decide)).trans (Vmid_main_arg6 dat0 hA0 m c)

theorem Vmid_main_arg7 (c : Dev nD) : Vmid dat0 m c main_arg7 = m ((c : Thread nD τ).loc main_arg7) :=
  calc Wmid dat0 m c (Proc.devRef .tc main_arg7)
    _ = (dat0 (Vin m) c).arrAt 7 cfg0.N := Wmid_arr dat0 m c 7
    _ = (dat0 (Vin m) c).A 7 := (dat0 (Vin m) c).arrAt_in 7 rfl _
    _ = Vin m c (Pipeline.arrRef spec0 7) := hA0 (Vin m) c 7
    _ = m ((c : Thread nD τ).loc main_arg7) := rfl
theorem Wend_main_arg7 (c : Dev nD) :
    Wend dat0 dat1 m c (Proc.devRef .tc main_arg7) = m ((c : Thread nD τ).loc main_arg7) :=
  (Wend_of_ne dat0 dat1 m c main_arg7 (by decide)).trans (Vmid_main_arg7 dat0 hA0 m c)

end Args

/-! # The run: @main as its two regions, from the launch to the return -/

/-- Owing nothing, whatever pairs the core's waits have recorded, is owing proof data's first tallies within their
    first bound, when those tallies are zero and the bound is everything. -/
theorem owesAt_first {cfg : Cfg sig Λ₀} {c : Dev nD} (dat : Dat τ (Elt F) Unit ℕ (UR sig nD τ) ℕ cfg c)
    (h0 : dat.owed 0 = 0) (hr : dat.recorded 0 = Set.univ) :
    iprop(∃ W, owes (c : Thread nD τ) (0 : CellTallies nD τ sig Unit) W) ⊢ (dat.owesAt () 0 : sProp 𝕄) := by
  unfold Pipeline.Dat.owesAt Pipeline.owesWithin Pipeline.Dat.bound
  rw [h0, hr]
  iintro ⟨%W, HO⟩; iexists W; isplitr; · ipureintro; exact fun _ _ => Or.inl trivial
  iexact HO

/-- Owing proof data's last tallies, zero, is owing nothing. -/
theorem owesAt_last {cfg : Cfg sig Λ₀} {c : Dev nD} (dat : Dat τ (Elt F) Unit ℕ (UR sig nD τ) ℕ cfg c)
    (hN : dat.owed (Fin.last cfg.N) = 0) :
    (dat.owesAt () (Fin.last cfg.N) : sProp 𝕄) ⊢ iprop(∃ W, owes (c : Thread nD τ) (0 : CellTallies nD τ sig Unit) W) := by
  unfold Pipeline.Dat.owesAt Pipeline.owesWithin
  rw [hN]
  iintro ⟨%W, -, HO⟩; iexists W; iexact HO

section Run

variable (dat0 : TcVal F → (c : Dev nD) → Dat τ (Elt F) Unit ℕ (UR sig nD τ) ℕ cfg0 c)
variable (dat1 : TcVal F → (c : Dev nD) → Dat τ (Elt F) Unit ℕ (UR sig nD τ) ℕ cfg1 c)
variable (m : (ℓ : Loc nD τ sig) → Buf (Elt F) ℓ)

/-- The prefetched tables' admissible contents: no pipeline has a table. -/
abbrev adm : (p : Fin 2) → (pcfgs (F := F) p).Adm := fun p => (cfgs p).toPCfg_adm

/-- Each pipeline's proof data at the contents its region is entered at: region 0 at the launch contents, region 1
    at what region 0 leaves. -/
def pdats : (p : Fin 2) → (c : Dev nD) → Dat τ (Elt F) Unit ℕ (UR sig nD τ) ℕ (Pipeline.pin (pcfgs (F := F)) adm p) c
  | ⟨0, _⟩ => fun c => dat0 (Vin m) c
  | ⟨1, _⟩ => fun c => dat1 (Vmid dat0 m) c

abbrev 𝒱₀ : Variants := Variants.none
/-- No core owes another anything: no level is assigned. -/
abbrev L : GSem nD τ sig → Finset Unit := fun _ => ∅
abbrev lv : GSem nD τ sig → Unit → ℕ := fun _ _ => 0

/-- What a core holds beside its buffers at every boundary: its generator register at some state, and that it owes
    nothing. -/
abbrev Side (c : Dev nD) : sProp 𝕄 :=
  iprop((∃ r, prngReg c r) ∗ ∃ W, owes (c : Thread nD τ) (0 : CellTallies nD τ sig Unit) W)
/-- A core's state at a boundary: every unscoped buffer at the boundary's contents, and the side. -/
abbrev At (W : Dev nD → Valuation τ sig (Elt F)) (c : Dev nD) : sProp 𝕄 :=
  iprop(StableHlo.held (c : Thread nD τ) (Pipeline.ucRefs τ sig) (W c) ∗ Side (F := F) c)
/-- The state at the return without the owing part: every unscoped buffer at the last contents, the generator
    register at some state. -/
abbrev Last (c : Dev nD) : sProp 𝕄 :=
  iprop(StableHlo.held (c : Thread nD τ) (Pipeline.ucRefs τ sig) (Wend dat0 dat1 m c) ∗ ∃ r, prngReg c r)

/-- An unscoped TensorCore reference is among those a core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (hA0 : ∀ V c w, (dat0 V c).A w = V c (Pipeline.arrRef spec0 w))
variable (hq0 : ∀ V c w, (dat0 V c).q w = fullShare)
variable (howed0 : ∀ V c t, (dat0 V c).owed t = 0)
variable (hrec0 : ∀ V c t, (dat0 V c).recorded t = Set.univ)
variable (hbody0 : ∀ V c, BodyObligation (dat0 V c) (defs₀ (F := F)) Variants.none () Set.univ)
variable (hin0 : ∀ V c, Pipeline.ΦA spec0 c ⊢ (dat0 V c).Φ 0)
variable (hout0 : ∀ V c, (dat0 V c).Φ (Fin.last cfg0.N) ⊢ Pipeline.ΦA spec0 c)
variable (hA1 : ∀ V c w, (dat1 V c).A w = V c (Pipeline.arrRef spec1 w))
variable (hq1 : ∀ V c w, (dat1 V c).q w = fullShare)
variable (howed1 : ∀ V c t, (dat1 V c).owed t = 0)
variable (hrec1 : ∀ V c t, (dat1 V c).recorded t = Set.univ)
variable (hbody1 : ∀ V c, BodyObligation (dat1 V c) (defs₀ (F := F)) Variants.none () Set.univ)
variable (hin1 : ∀ V c, Pipeline.ΦA spec1 c ⊢ (dat1 V c).Φ 0)
variable (hout1 : ∀ V c, (dat1 V c).Φ (Fin.last cfg1.N) ⊢ Pipeline.ΦA spec1 c)

set_option backward.isDefEq.respectTransparency.types false in
/-- Region 0 over the cores' states: entered from every unscoped buffer at the launch contents, left with them at
    `Wmid`. At entry its arrays are split out of the unscoped buffers, at exit put back at what the write-backs
    leave; the generator register and the scoped buffers no window stages go into the body's invariant at the first
    point and come back from it at the last; nothing is owed; the kernel has no semaphore of its own. -/
def reg0 : Pipeline.RegionSeg (pcfgs (F := F)) adm (pdats dat0 dat1 m) () defs₀ 𝒱₀ L lv 0 where
  win := launch0.win.to₀
  block_pos := launch0.block_pos
  stage_whole := launch0.stage_whole
  K := PEmpty
  osem k := k.elim
  ho := Pipeline.OwnSemFacts.none _
  hbody c := (hbody0 (Vin m) c).loose
  hwaits := Pipeline.hwaits_of_owed_zero _ _ _ _ L lv 0 fun c t => howed0 (Vin m) c t
  pre := At (Wlaunch m)
  post := At (Wmid dat0 m)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => hq0 (Vin m) c w) (Vin m c) fun w => hA0 (Vin m) c w
    rw [Pipeline.unscopedBufs_held] at hsplit
    have howes := owesAt_first (dat0 (Vin m) c) (howed0 (Vin m) c 0) (hrec0 (Vin m) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    refine BIBase.Entails.trans ?_ (hin0 (Vin m) c)
    unfold Pipeline.ΦA
    iintro ⟨Hp, -, Hr⟩
    isplitl [Hr]; · iexact Hr
    iexact Hp
  hout c := by
    rw [Pipeline.ownSems0_none]
    refine BIBase.Entails.trans (hout0 (Vin m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => hq0 (Vin m) c w)
      (Vin m c) (Vmid dat0 m c) ((pdats dat0 dat1 m 0 c).arrAt · cfg0.N) (mid_arr dat0 m c) (mid_rest dat0 m c)
    rw [Pipeline.unscopedBufs_held] at hjoin
    have howes := owesAt_last (dat0 (Vin m) c) (howed0 (Vin m) c _)
    iintro ⟨Ha, HO, HY, Hrest⟩
    imodintro
    isplitl [Ha Hrest]
    · iapply hjoin; isplitl [Ha] <;> iassumption
    isplitl [HY]; · iexact HY
    iapply howes; iexact HO

set_option backward.isDefEq.respectTransparency.types false in
/-- Region 1 over the cores' states: entered from every unscoped buffer at `Wmid`, left with them at `Wend`, the
    contents the launch reads at the return. The same four steps as region 0's. -/
def reg1 : Pipeline.RegionSeg (pcfgs (F := F)) adm (pdats dat0 dat1 m) () defs₀ 𝒱₀ L lv 1 where
  win := launch1.win.to₀
  block_pos := launch1.block_pos
  stage_whole := launch1.stage_whole
  K := PEmpty
  osem k := k.elim
  ho := Pipeline.OwnSemFacts.none _
  hbody c := (hbody1 (Vmid dat0 m) c).loose
  hwaits := Pipeline.hwaits_of_owed_zero _ _ _ _ L lv 1 fun c t => howed1 (Vmid dat0 m) c t
  pre := At (Wmid dat0 m)
  post c := iprop(Last dat0 dat1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => hq1 (Vmid dat0 m) c w) (Vmid dat0 m c) fun w => hA1 (Vmid dat0 m) c w
    rw [Pipeline.unscopedBufs_held] at hsplit
    have howes := owesAt_first (dat1 (Vmid dat0 m) c) (howed1 (Vmid dat0 m) c 0) (hrec1 (Vmid dat0 m) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    refine BIBase.Entails.trans ?_ (hin1 (Vmid dat0 m) c)
    unfold Pipeline.ΦA
    iintro ⟨Hp, -, Hr⟩
    isplitl [Hr]; · iexact Hr
    iexact Hp
  hout c := by
    rw [Pipeline.ownSems0_none]
    refine BIBase.Entails.trans (hout1 (Vmid dat0 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => hq1 (Vmid dat0 m) c w)
      (Vmid dat0 m c) (Vend dat0 dat1 m c) ((pdats dat0 dat1 m 1 c).arrAt · cfg1.N) (end_arr dat0 dat1 m c) (end_rest dat0 dat1 m c)
    rw [Pipeline.unscopedBufs_held] at hjoin
    have howes := owesAt_last (dat1 (Vmid dat0 m) c) (howed1 (Vmid dat0 m) c _)
    iintro ⟨Ha, HO, HY, Hrest⟩
    imodintro
    isplitl [Ha Hrest HY]
    · isplitl [Ha Hrest]
      · iapply hjoin; isplitl [Ha] <;> iassumption
      iexact HY
    iapply howes; iexact HO

/-! ## @main as the two regions, and the launch -/

/-- @main's two segments in order: a region per kernel call, no host operation between or around them. -/
abbrev segs : List (Pipeline.Seg (pcfgs (F := F)) adm (pdats dat0 dat1 m) () defs₀ 𝒱₀ L lv) :=
  [ .region (reg0 dat0 dat1 m hA0 hq0 howed0 hrec0 hbody0 hin0 hout0),
    .region (reg1 dat0 dat1 m hA1 hq1 howed1 hrec1 hbody1 hin1 hout1) ]

/-- @main is the run of those segments. -/
theorem main_run (c : Dev nD) :
    main (F := F) c = Pipeline.Seg.run (segs dat0 dat1 m hA0 hq0 howed0 hrec0 hbody0 hin0 hout0 hA1 hq1 howed1 hrec1 hbody1 hin1 hout1) :=
  main_segs adm (pdats dat0 dat1 m) () 𝒱₀ L lv _ _ c

include hA0 hq0 howed0 hrec0 hbody0 hin0 hout0 hA1 hq1 howed1 hrec1 hbody1 hin1 hout1

set_option backward.isDefEq.respectTransparency.types false in
/-- The run of @main. At the compiled mesh, from any memory `m` with zero semaphore counters, every weakly fair execution of
    @main on the TensorCores terminates, nothing faulting, and in every final state each unscoped buffer of each core
    holds the last contents of the fold, `Wend`: the launch over the two segments, the last state read against the
    final memory buffer by buffer. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Wend dat0 dat1 m c b) :=
  Pipeline.θ_run_regions_kit (pcfgs (F := F)) adm (pdats dat0 dat1 m) () cellOf_inj emb₁ defs₀ 𝒱₀ L lv m ρ main
    (segs dat0 dat1 m hA0 hq0 howed0 hrec0 hbody0 hin0 hout0 hA1 hq1 howed1 hrec1 hbody1 hin1 hout1)
    (fun c Q => by rw [main_run dat0 dat1 m hA0 hq0 howed0 hrec0 hbody0 hin0 hout0 hA1 hq1 howed1 hrec1 hbody1 hin1 hout1 c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (Wlaunch m)) (Tₙ := Last dat0 dat1 m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wlaunch m c)
        from Pipeline.unscopedBufs_held c (Wlaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (Wend dat0 dat1 m c) s')
      isplitl [Hh] <;> iassumption)
    (hQ := fun s h c => h c)

/-- The arguments end as launched: the program terminates on every core, faults nowhere, and leaves each of its eight argument arrays as
    launched. From the run: an argument's buffer is unscoped, and the fold at it walks back to the launch memory. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (Q := fun r => ∀ c : Dev nD,
      ∀ b ∈ Pipeline.ucRefs τ sig, r.2.mem (((c : Thread nD τ)).1, b) = Wend dat0 dat1 m c b) (fun r h c =>
    ⟨(h c _ (mem_uc main_arg0 (by decide))).trans (Wend_main_arg0 dat0 dat1 hA0 m c),
     (h c _ (mem_uc main_arg1 (by decide))).trans (Wend_main_arg1 dat0 dat1 hA0 m c),
     (h c _ (mem_uc main_arg2 (by decide))).trans (Wend_main_arg2 dat0 dat1 hA0 m c),
     (h c _ (mem_uc main_arg3 (by decide))).trans (Wend_main_arg3 dat0 dat1 hA0 m c),
     (h c _ (mem_uc main_arg4 (by decide))).trans (Wend_main_arg4 dat0 dat1 hA0 m c),
     (h c _ (mem_uc main_arg5 (by decide))).trans (Wend_main_arg5 dat0 dat1 hA0 m c),
     (h c _ (mem_uc main_arg6 (by decide))).trans (Wend_main_arg6 dat0 dat1 hA0 m c),
     (h c _ (mem_uc main_arg7 (by decide))).trans (Wend_main_arg7 dat0 dat1 hA0 m c)⟩)
    (run_all dat0 dat1 m hA0 hq0 howed0 hrec0 hbody0 hin0 hout0 hA1 hq1 howed1 hrec1 hbody1 hin1 hout1 ρ)

end Run

end Cert.Kernel.Gen2

end
-- ==== Proof.Bits.Region0Runs.lean ====
/-
  Region 0 (the reduction kernel, 16 grid points (b, n) in row-major order, n the token tile): what its three control
  cases share. The body initialises the six carried buffers (running maxima m0, m1, denominators l0, l1, accumulators
  acc0, acc1) when n = 0, updates them and stores the query block at every point, and stores the two context blocks
  acc / l when n = 3. Here: the two conditions in closed form over the grid, where the context windows are idle,
  the staging and carried memrefs by name, each window's block read off the entry contents, and the region's
  invariant with the carried buffers spelled out.
-/
import proofs.«174424_j489626271899_2_alg».proof.Proof.Gen.Kernel.Launch
import proofs.«174424_j489626271899_2_alg».proof.Proof.Gen.Kernel.Skeleton
import proofs.«174424_j489626271899_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer contents of a core when the region is entered, read at a TensorCore reference. -/
abbrev Entry (F : FTy → Type) [FloatOps F] : Type := (c : Dev nD) → (b : Ref sig .tc) → Buf (Elt F) ((c : Thread nD τ).loc b)

variable (V : Entry F)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not (an unfetched input's
    block index has not moved since the point before), for any proof data whose array is the entry contents and whose body
    leaves the block in place. One statement per input window: a window's block type reduces only at a literal window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The first conditional (the carried buffers are initialised): the token-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (the context blocks are stored): the token-tile coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the context windows 8 and 9 are idle -/

theorem idleAt0_8 : ∀ t : Fin cfg0.N, ¬cond0_1 (grid0.coords t) → cfg0.idle 8 (grid0.coords t) = true := by decide +kernel
theorem idleAt0_9 : ∀ t : Fin cfg0.N, ¬cond0_1 (grid0.coords t) → cfg0.idle 9 (grid0.coords t) = true := by decide +kernel
theorem noFlush0_8 : ∀ t : Fin cfg0.N, ¬cond0_1 (grid0.coords t) → (cfg0.win 8).flush t = false := by decide +kernel
theorem noFlush0_9 : ∀ t : Fin cfg0.N, ¬cond0_1 (grid0.coords t) → (cfg0.win 9).flush t = false := by decide +kernel
theorem liveAt0_8 : ∀ t : Fin cfg0.N, cond0_1 (grid0.coords t) → cfg0.idle 8 (grid0.coords t) = false := by decide +kernel
theorem liveAt0_9 : ∀ t : Fin cfg0.N, cond0_1 (grid0.coords t) → cfg0.idle 9 (grid0.coords t) = false := by decide +kernel
/-- Every other window is live at every point. -/
theorem liveAt0 : ∀ w : Fin cfg0.W, w ≠ 8 → w ≠ 9 → ∀ i : grid0.Coords, cfg0.idle w i = false := by decide +kernel

/-! ## The memrefs the body is called with -/

abbrev ms0_0 (t : Fin cfg0.N) : Memref sig .tc .vmem S1x4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4096x128 .bf16 := win0_10.stage (cfg0.slots t 10)
abbrev hs0_10 (t : Fin cfg0.N) : (ms0_10 t).IsWhole := hstage0_10 ((cfg0.slots t 10).cast nbuf0_10)
/-- The six carried buffers: whole scoped buffers of the kernel's own. -/
abbrev scM0_0 : Memref sig .tc .vmem S64x1 .f32 := Memref.whole cc0_scratch0
abbrev scM0_1 : Memref sig .tc .vmem S64x1 .f32 := Memref.whole cc0_scratch1
abbrev scM0_2 : Memref sig .tc .vmem S64x64 .f32 := Memref.whole cc0_scratch2
abbrev scM0_3 : Memref sig .tc .vmem S64x1 .f32 := Memref.whole cc0_scratch3
abbrev scM0_4 : Memref sig .tc .vmem S64x1 .f32 := Memref.whole cc0_scratch4
abbrev scM0_5 : Memref sig .tc .vmem S64x64 .f32 := Memref.whole cc0_scratch5
/-- Views through which the contents of the outputs' buffers and of the carried buffers are stated. -/
abbrev VO0_8 : View sig .tc .vmem S1x64x64 .f32 := (Memref.whole cc0_stg8_0 : Memref sig .tc .vmem S1x64x64 .f32).view
abbrev VO0_9 : View sig .tc .vmem S1x64x64 .f32 := (Memref.whole cc0_stg9_0 : Memref sig .tc .vmem S1x64x64 .f32).view
abbrev VO0_10 : View sig .tc .vmem S1x4096x128 .bf16 := (Memref.whole cc0_stg10_0 : Memref sig .tc .vmem S1x4096x128 .bf16).view
abbrev VS0_0 : View sig .tc .vmem S64x1 .f32 := scM0_0.view
abbrev VS0_1 : View sig .tc .vmem S64x1 .f32 := scM0_1.view
abbrev VS0_2 : View sig .tc .vmem S64x64 .f32 := scM0_2.view
abbrev VS0_3 : View sig .tc .vmem S64x1 .f32 := scM0_3.view
abbrev VS0_4 : View sig .tc .vmem S64x1 .f32 := scM0_4.view
abbrev VS0_5 : View sig .tc .vmem S64x64 .f32 := scM0_5.view

/-- The scoped buffers of the core that region 0 neither stages nor carries (the other region's staging buffers), each whole
    at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's plain invariant (every scoped buffer it does not stage at some contents, the generator register at some
    state) with the six carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ rest0 (F := F) c) ∗ (∃ r, prngReg c r)) := by
  unfold Pipeline.ΦA rest0; rw [scopedRest0_eq]; simp only [scM0_0, scM0_1, scM0_2, scM0_3, scM0_4, scM0_5, owns_whole]; try rfl

end Cert.Kernel.Gen2

end
-- ==== Proof.Bits.Region0RunA.lean ====
/-
  Region 0's body at the first token tile (n = 0): the first conditional taken, the second not. The six carried buffers come in at anything, are initialised (running maxima at the finite sentinel, denominators and accumulators at zero), then updated with the tile; the query block is stored; the two context windows are handed back untouched.
-/
import proofs.«174424_j489626271899_2_alg».proof.Proof.Bits.Region0Runs

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the query window's buffer and in each carried buffer (last store first), with
    the proof that from the inputs at their contents, the context windows at any contents (handed back untouched) and the
    query window and the carried buffers at anything, the body runs to the continuation holding the inputs as they were
    and each stored buffer with its pieces written. The pieces are found by the run itself. -/
noncomputable def kernelRun0_A (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x4096x128 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x64 .f32) (harg18 : arg18.IsWhole) (hc0 : cond0_0 i) (hc1 : ¬cond0_1 i)
    (x0 x1 : Vec F S1x4096x256 .f32) (x2 x3 x4 x5 x6 x7 : Vec F S64x256 .f32) :
    Σ' (L10 : List (View.Piece (Elt F) S1x4096x128 .bf16)) (LS0 : List (View.Piece (Elt F) S64x1 .f32)) (LS1 : List (View.Piece (Elt F) S64x1 .f32)) (LS2 : List (View.Piece (Elt F) S64x64 .f32)) (LS3 : List (View.Piece (Elt F) S64x1 .f32)) (LS4 : List (View.Piece (Elt F) S64x1 .f32)), { LS5 : List (View.Piece (Elt F) S64x64 .f32) //
      ∀ (xi8 xi9 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4) ∗ (∃ f, arg18.view.loc (c : Thread nD τ) ↦[arg18.view.set]{fullShare} arg18.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun xi8 xi9 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Gen2

end
-- ==== Proof.Bits.Region0RunB.lean ====
/-
  Region 0's body at the middle token tiles (n = 1, 2): neither conditional taken. The carried buffers come in at what the tile before left, are updated, and the query block is stored; the two context windows are handed back untouched.
-/
import proofs.«174424_j489626271899_2_alg».proof.Proof.Bits.Region0RunA

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the query window's buffer and in each carried buffer (last store first), with
    the proof that from the inputs at their contents, the context windows at any contents (handed back untouched), the
    query window at anything and the carried buffers at `xs·`, the body runs to the continuation holding the inputs as
    they were and each stored buffer with its pieces written. The pieces are found by the run itself. -/
noncomputable def kernelRun0_B (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x4096x128 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x64 .f32) (harg18 : arg18.IsWhole) (hc0 : ¬cond0_0 i) (hc1 : ¬cond0_1 i)
    (x0 x1 : Vec F S1x4096x256 .f32) (x2 x3 x4 x5 x6 x7 : Vec F S64x256 .f32) (xs0 xs1 : Vec F S64x1 .f32) (xs2 : Vec F S64x64 .f32) (xs3 xs4 : Vec F S64x1 .f32) (xs5 : Vec F S64x64 .f32) :
    Σ' (L10 : List (View.Piece (Elt F) S1x4096x128 .bf16)) (LS0 : List (View.Piece (Elt F) S64x1 .f32)) (LS1 : List (View.Piece (Elt F) S64x1 .f32)) (LS2 : List (View.Piece (Elt F) S64x64 .f32)) (LS3 : List (View.Piece (Elt F) S64x1 .f32)) (LS4 : List (View.Piece (Elt F) S64x1 .f32)), { LS5 : List (View.Piece (Elt F) S64x64 .f32) //
      ∀ (xi8 xi9 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4) ∗ (∃ f, arg18.view.loc (c : Thread nD τ) ↦[arg18.view.set]{fullShare} arg18.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun xi8 xi9 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hf9
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Gen2

end
-- ==== Proof.Bits.Region0RunC.lean ====
/-
  Region 0's body at the last token tile (n = 3): the first conditional not taken, the second taken. The carried buffers come in at what the tile before left and are updated, the query block is stored, and the two context blocks acc / l are stored into windows 8 and 9.
-/
import proofs.«174424_j489626271899_2_alg».proof.Proof.Bits.Region0RunB

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three output windows' buffers and in each carried buffer (last store first),
    with the proof that from the inputs at their contents, the output windows at anything and the carried buffers at
    `xs·`, the body runs to the continuation holding the inputs as they were and each stored buffer with its pieces
    written. The pieces are found by the run itself. -/
noncomputable def kernelRun0_C (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x4096x128 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x64 .f32) (harg18 : arg18.IsWhole) (hc0 : ¬cond0_0 i) (hc1 : cond0_1 i)
    (x0 x1 : Vec F S1x4096x256 .f32) (x2 x3 x4 x5 x6 x7 : Vec F S64x256 .f32) (xs0 xs1 : Vec F S64x1 .f32) (xs2 : Vec F S64x64 .f32) (xs3 xs4 : Vec F S64x1 .f32) (xs5 : Vec F S64x64 .f32) :
    Σ' (L8 : List (View.Piece (Elt F) S1x64x64 .f32)) (L9 : List (View.Piece (Elt F) S1x64x64 .f32)) (L10 : List (View.Piece (Elt F) S1x4096x128 .bf16)) (LS0 : List (View.Piece (Elt F) S64x1 .f32)) (LS1 : List (View.Piece (Elt F) S64x1 .f32)) (LS2 : List (View.Piece (Elt F) S64x64 .f32)) (LS3 : List (View.Piece (Elt F) S64x1 .f32)) (LS4 : List (View.Piece (Elt F) S64x1 .f32)), { LS5 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4) ∗ (∃ f, arg18.view.loc (c : Thread nD τ) ↦[arg18.view.set]{fullShare} arg18.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Gen2

end
-- ==== Proof.Bits.Region0.lean ====
/-
  Region 0, from its three runs to its proof data: what each case leaves in the output windows and in the six carried
  buffers (its stores read back; they cover each buffer), what the buffers hold after each grid point by recursion on the
  point (the carried buffers of point (b, n) feed point (b, n + 1); at n = 0 they are initialised afresh), the region's
  invariant with the carried buffers named after every point, the proof data, and the body obligation.
-/
import proofs.«174424_j489626271899_2_alg».proof.Proof.Bits.Region0RunC

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- The carried buffers' contents: running maximum, denominator and accumulator of stream 0, then of stream 1. -/
abbrev Carry (F : FTy → Type) [FloatOps F] : Type :=
  Vec F S64x1 .f32 × Vec F S64x1 .f32 × Vec F S64x64 .f32 × Vec F S64x1 .f32 × Vec F S64x1 .f32 × Vec F S64x64 .f32
/-- The three output windows' buffers: the two context blocks and the query block. -/
abbrev Outs (F : FTy → Type) [FloatOps F] : Type := Vec F S1x64x64 .f32 × Vec F S1x64x64 .f32 × Vec F S1x4096x128 .bf16

/-! ## The runs at a grid point: the point's memrefs, the carried buffers' memrefs, the input windows' blocks -/

abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)
abbrev runB (c : Dev nD) (t : Fin cfg0.N) (h0 : ¬t.val % 4 = 0) (h1 : ¬t.val % 4 = 3) (xs : Carry F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) xs.1 xs.2.1 xs.2.2.1 xs.2.2.2.1 xs.2.2.2.2.1 xs.2.2.2.2.2
abbrev runC (c : Dev nD) (t : Fin cfg0.N) (h0 : ¬t.val % 4 = 0) (h1 : t.val % 4 = 3) (xs : Carry F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) xs.1 xs.2.1 xs.2.2.1 xs.2.2.2.1 xs.2.2.2.2.1 xs.2.2.2.2.2

/-! ## Each case's stores cover the buffers they are made into -/

theorem coverA (c : Dev nD) (t : Fin cfg0.N) (h0 : t.val % 4 = 0) (h1 : ¬t.val % 4 = 3) :
    (∀ y : S1x4096x128.Idx, ∃ pc ∈ (runA V c t h0 h1).1, y ∈ pc.1.set)
      ∧ (∀ y : S64x1.Idx, ∃ pc ∈ (runA V c t h0 h1).2.1, y ∈ pc.1.set)
      ∧ (∀ y : S64x1.Idx, ∃ pc ∈ (runA V c t h0 h1).2.2.1, y ∈ pc.1.set)
      ∧ (∀ y : S64x64.Idx, ∃ pc ∈ (runA V c t h0 h1).2.2.2.1, y ∈ pc.1.set)
      ∧ (∀ y : S64x1.Idx, ∃ pc ∈ (runA V c t h0 h1).2.2.2.2.1, y ∈ pc.1.set)
      ∧ (∀ y : S64x1.Idx, ∃ pc ∈ (runA V c t h0 h1).2.2.2.2.2.1, y ∈ pc.1.set)
      ∧ (∀ y : S64x64.Idx, ∃ pc ∈ (runA V c t h0 h1).2.2.2.2.2.2.1, y ∈ pc.1.set) :=
  ⟨fun y => View.cover_of_tiledL ((runA V c t h0 h1).1) S1x4096x128.size (by sl_kernel_rfl) y,
    fun y => View.cover_of_tiledL ((runA V c t h0 h1).2.1) S64x1.size (by sl_kernel_rfl) y,
    fun y => View.cover_of_tiledL ((runA V c t h0 h1).2.2.1) S64x1.size (by sl_kernel_rfl) y,
    fun y => View.cover_of_tiledL ((runA V c t h0 h1).2.2.2.1) S64x64.size (by sl_kernel_rfl) y,
    fun y => View.cover_of_tiledL ((runA V c t h0 h1).2.2.2.2.1) S64x1.size (by sl_kernel_rfl) y,
    fun y => View.cover_of_tiledL ((runA V c t h0 h1).2.2.2.2.2.1) S64x1.size (by sl_kernel_rfl) y,
    fun y => View.cover_of_tiledL ((runA V c t h0 h1).2.2.2.2.2.2.1) S64x64.size (by sl_kernel_rfl) y⟩
theorem coverB (c : Dev nD) (t : Fin cfg0.N) (h0 : ¬t.val % 4 = 0) (h1 : ¬t.val % 4 = 3) (xs : Carry F) :
    (∀ y : S1x4096x128.Idx, ∃ pc ∈ (runB V c t h0 h1 xs).1, y ∈ pc.1.set)
      ∧ (∀ y : S64x1.Idx, ∃ pc ∈ (runB V c t h0 h1 xs).2.1, y ∈ pc.1.set)
      ∧ (∀ y : S64x1.Idx, ∃ pc ∈ (runB V c t h0 h1 xs).2.2.1, y ∈ pc.1.set)
      ∧ (∀ y : S64x64.Idx, ∃ pc ∈ (runB V c t h0 h1 xs).2.2.2.1, y ∈ pc.1.set)
      ∧ (∀ y : S64x1.Idx, ∃ pc ∈ (runB V c t h0 h1 xs).2.2.2.2.1, y ∈ pc.1.set)
      ∧ (∀ y : S64x1.Idx, ∃ pc ∈ (runB V c t h0 h1 xs).2.2.2.2.2.1, y ∈ pc.1.set)
      ∧ (∀ y : S64x64.Idx, ∃ pc ∈ (runB V c t h0 h1 xs).2.2.2.2.2.2.1, y ∈ pc.1.set) :=
  ⟨fun y => View.cover_of_tiledL ((runB V c t h0 h1 xs).1) S1x4096x128.size (by sl_kernel_rfl) y,
    fun y => View.cover_of_tiledL ((runB V c t h0 h1 xs).2.1) S64x1.size (by sl_kernel_rfl) y,
    fun y => View.cover_of_tiledL ((runB V c t h0 h1 xs).2.2.1) S64x1.size (by sl_kernel_rfl) y,
    fun y => View.cover_of_tiledL ((runB V c t h0 h1 xs).2.2.2.1) S64x64.size (by sl_kernel_rfl) y,
    fun y => View.cover_of_tiledL ((runB V c t h0 h1 xs).2.2.2.2.1) S64x1.size (by sl_kernel_rfl) y,
    fun y => View.cover_of_tiledL ((runB V c t h0 h1 xs).2.2.2.2.2.1) S64x1.size (by sl_kernel_rfl) y,
    fun y => View.cover_of_tiledL ((runB V c t h0 h1 xs).2.2.2.2.2.2.1) S64x64.size (by sl_kernel_rfl) y⟩
theorem coverC (c : Dev nD) (t : Fin cfg0.N) (h0 : ¬t.val % 4 = 0) (h1 : t.val % 4 = 3) (xs : Carry F) :
    (∀ y : S1x64x64.Idx, ∃ pc ∈ (runC V c t h0 h1 xs).1, y ∈ pc.1.set)
      ∧ (∀ y : S1x64x64.Idx, ∃ pc ∈ (runC V c t h0 h1 xs).2.1, y ∈ pc.1.set)
      ∧ (∀ y : S1x4096x128.Idx, ∃ pc ∈ (runC V c t h0 h1 xs).2.2.1, y ∈ pc.1.set)
      ∧ (∀ y : S64x1.Idx, ∃ pc ∈ (runC V c t h0 h1 xs).2.2.2.1, y ∈ pc.1.set)
      ∧ (∀ y : S64x1.Idx, ∃ pc ∈ (runC V c t h0 h1 xs).2.2.2.2.1, y ∈ pc.1.set)
      ∧ (∀ y : S64x64.Idx, ∃ pc ∈ (runC V c t h0 h1 xs).2.2.2.2.2.1, y ∈ pc.1.set)
      ∧ (∀ y : S64x1.Idx, ∃ pc ∈ (runC V c t h0 h1 xs).2.2.2.2.2.2.1, y ∈ pc.1.set)
      ∧ (∀ y : S64x1.Idx, ∃ pc ∈ (runC V c t h0 h1 xs).2.2.2.2.2.2.2.1, y ∈ pc.1.set)
      ∧ (∀ y : S64x64.Idx, ∃ pc ∈ (runC V c t h0 h1 xs).2.2.2.2.2.2.2.2.1, y ∈ pc.1.set) :=
  ⟨fun y => View.cover_of_tiledL ((runC V c t h0 h1 xs).1) S1x64x64.size (by sl_kernel_rfl) y,
    fun y => View.cover_of_tiledL ((runC V c t h0 h1 xs).2.1) S1x64x64.size (by sl_kernel_rfl) y,
    fun y => View.cover_of_tiledL ((runC V c t h0 h1 xs).2.2.1) S1x4096x128.size (by sl_kernel_rfl) y,
    fun y => View.cover_of_tiledL ((runC V c t h0 h1 xs).2.2.2.1) S64x1.size (by sl_kernel_rfl) y,
    fun y => View.cover_of_tiledL ((runC V c t h0 h1 xs).2.2.2.2.1) S64x1.size (by sl_kernel_rfl) y,
    fun y => View.cover_of_tiledL ((runC V c t h0 h1 xs).2.2.2.2.2.1) S64x64.size (by sl_kernel_rfl) y,
    fun y => View.cover_of_tiledL ((runC V c t h0 h1 xs).2.2.2.2.2.2.1) S64x1.size (by sl_kernel_rfl) y,
    fun y => View.cover_of_tiledL ((runC V c t h0 h1 xs).2.2.2.2.2.2.2.1) S64x1.size (by sl_kernel_rfl) y,
    fun y => View.cover_of_tiledL ((runC V c t h0 h1 xs).2.2.2.2.2.2.2.2.1) S64x64.size (by sl_kernel_rfl) y⟩

/-! ## What each case leaves: its stores read back -/

/-- A context window where the case stores nothing into it: a placeholder nothing consults (the window is idle there and is
    not written back). -/
def idleOut : Vec F S1x64x64 .f32 := VO0_8.read (Elt F) (VO0_8.writes (Elt F) VO0_8.junk [])

def leftA (c : Dev nD) (t : Fin cfg0.N) (h0 : t.val % 4 = 0) (h1 : ¬t.val % 4 = 3) : Outs F × Carry F :=
  ((idleOut, idleOut, VO0_10.read (Elt F) (VO0_10.writes (Elt F) VO0_10.junk ((runA V c t h0 h1).1))), (VS0_0.read (Elt F) (VS0_0.writes (Elt F) VS0_0.junk ((runA V c t h0 h1).2.1)), VS0_1.read (Elt F) (VS0_1.writes (Elt F) VS0_1.junk ((runA V c t h0 h1).2.2.1)), VS0_2.read (Elt F) (VS0_2.writes (Elt F) VS0_2.junk ((runA V c t h0 h1).2.2.2.1)), VS0_3.read (Elt F) (VS0_3.writes (Elt F) VS0_3.junk ((runA V c t h0 h1).2.2.2.2.1)), VS0_4.read (Elt F) (VS0_4.writes (Elt F) VS0_4.junk ((runA V c t h0 h1).2.2.2.2.2.1)), VS0_5.read (Elt F) (VS0_5.writes (Elt F) VS0_5.junk ((runA V c t h0 h1).2.2.2.2.2.2.1))))
def leftB (c : Dev nD) (t : Fin cfg0.N) (h0 : ¬t.val % 4 = 0) (h1 : ¬t.val % 4 = 3) (xs : Carry F) : Outs F × Carry F :=
  ((idleOut, idleOut, VO0_10.read (Elt F) (VO0_10.writes (Elt F) VO0_10.junk ((runB V c t h0 h1 xs).1))), (VS0_0.read (Elt F) (VS0_0.writes (Elt F) VS0_0.junk ((runB V c t h0 h1 xs).2.1)), VS0_1.read (Elt F) (VS0_1.writes (Elt F) VS0_1.junk ((runB V c t h0 h1 xs).2.2.1)), VS0_2.read (Elt F) (VS0_2.writes (Elt F) VS0_2.junk ((runB V c t h0 h1 xs).2.2.2.1)), VS0_3.read (Elt F) (VS0_3.writes (Elt F) VS0_3.junk ((runB V c t h0 h1 xs).2.2.2.2.1)), VS0_4.read (Elt F) (VS0_4.writes (Elt F) VS0_4.junk ((runB V c t h0 h1 xs).2.2.2.2.2.1)), VS0_5.read (Elt F) (VS0_5.writes (Elt F) VS0_5.junk ((runB V c t h0 h1 xs).2.2.2.2.2.2.1))))
def leftC (c : Dev nD) (t : Fin cfg0.N) (h0 : ¬t.val % 4 = 0) (h1 : t.val % 4 = 3) (xs : Carry F) : Outs F × Carry F :=
  ((VO0_8.read (Elt F) (VO0_8.writes (Elt F) VO0_8.junk ((runC V c t h0 h1 xs).1)), VO0_9.read (Elt F) (VO0_9.writes (Elt F) VO0_9.junk ((runC V c t h0 h1 xs).2.1)), VO0_10.read (Elt F) (VO0_10.writes (Elt F) VO0_10.junk ((runC V c t h0 h1 xs).2.2.1))), (VS0_0.read (Elt F) (VS0_0.writes (Elt F) VS0_0.junk ((runC V c t h0 h1 xs).2.2.2.1)), VS0_1.read (Elt F) (VS0_1.writes (Elt F) VS0_1.junk ((runC V c t h0 h1 xs).2.2.2.2.1)), VS0_2.read (Elt F) (VS0_2.writes (Elt F) VS0_2.junk ((runC V c t h0 h1 xs).2.2.2.2.2.1)), VS0_3.read (Elt F) (VS0_3.writes (Elt F) VS0_3.junk ((runC V c t h0 h1 xs).2.2.2.2.2.2.1)), VS0_4.read (Elt F) (VS0_4.writes (Elt F) VS0_4.junk ((runC V c t h0 h1 xs).2.2.2.2.2.2.2.1)), VS0_5.read (Elt F) (VS0_5.writes (Elt F) VS0_5.junk ((runC V c t h0 h1 xs).2.2.2.2.2.2.2.2.1))))

/-! ## What the buffers hold after each point -/

/-- After the body at position `n`: the output windows' buffers and the carried buffers. Position 4·b + n' is batch b, token
    tile n': at n' = 0 the carried buffers start afresh, otherwise they continue from the position before; the context
    blocks are stored at n' = 3 only. -/
def outsAt0 (c : Dev nD) : (n : ℕ) → n < cfg0.N → Outs F × Carry F
  | 0, hn => leftA V c ⟨0, hn⟩ (Nat.zero_mod _) (by show ¬(0 % 4 = 3); omega)
  | n + 1, hn =>
    if h0 : (n + 1) % 4 = 0 then
      if h1 : (n + 1) % 4 = 3 then False.elim (by omega)
      else leftA V c ⟨n + 1, hn⟩ h0 h1
    else
      if h1 : (n + 1) % 4 = 3 then leftC V c ⟨n + 1, hn⟩ h0 h1 (outsAt0 c n (Nat.lt_of_succ_lt hn)).2
      else leftB V c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 V c t.val t.isLt = leftA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = leftB V c t h0 h1 (outsAt0 V c (t.val - 1) (Nat.lt_of_le_of_lt (Nat.sub_le _ _) t.isLt)).2 := by
  obtain ⟨n, hn⟩ := t
  cases n with
  | zero => exact (by exfalso; exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = leftC V c t h0 h1 (outsAt0 V c (t.val - 1) (Nat.lt_of_le_of_lt (Nat.sub_le _ _) t.isLt)).2 := by
  obtain ⟨n, hn⟩ := t
  cases n with
  | zero => exact (by exfalso; exact absurd (Nat.zero_mod _) h0)
  | succ n => exact (dif_neg h0).trans ((dif_pos h1).trans rfl)

/-! ## The region's invariant -/

/-- The six carried buffers owned at the contents `xs`, beside the scoped buffers the region does not touch. -/
def carried (c : Dev nD) (xs : Carry F) : sProp 𝕄 :=
  iprop(owns (c : Thread nD τ) scM0_0 fullShare xs.1 ∗ owns (c : Thread nD τ) scM0_1 fullShare xs.2.1 ∗ owns (c : Thread nD τ) scM0_2 fullShare xs.2.2.1 ∗ owns (c : Thread nD τ) scM0_3 fullShare xs.2.2.2.1 ∗ owns (c : Thread nD τ) scM0_4 fullShare xs.2.2.2.2.1 ∗ owns (c : Thread nD τ) scM0_5 fullShare xs.2.2.2.2.2 ∗ rest0 (F := F) c)

/-- Before position `n`: at the start the plain invariant (every scoped buffer at anything); afterwards the carried buffers
    at what the position before left, and the generator register at some state. -/
def PhiS (c : Dev nD) : (n : ℕ) → n ≤ cfg0.N → sProp 𝕄
  | 0, _ => Pipeline.ΦA spec0 c
  | n + 1, hn => iprop(carried c (outsAt0 V c n hn).2 ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(carried c (outsAt0 V c n hn).2 ∗ (∃ r, prngReg c r)) := rfl
theorem PhiS_pos (c : Dev nD) (n : ℕ) (h : n ≤ cfg0.N) (hz : n ≠ 0) :
    PhiS V c n h = iprop(carried c (outsAt0 V c (n - 1) (by omega)).2 ∗ (∃ r, prngReg c r)) := by
  cases n with
  | zero => exact absurd rfl hz
  | succ n => rfl

/-- Carried buffers at named contents are carried buffers at some contents. -/
theorem carried_forget (c : Dev nD) (xs : Carry F) :
    iprop(carried c xs ∗ (∃ r, prngReg c r)) ⊢ (Pipeline.ΦA spec0 c : sProp 𝕄) := by
  rw [PhiA0_eq]; unfold carried
  iintro ⟨⟨HS0, HS1, HS2, HS3, HS4, HS5, Hr⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexact Hr
  iexact Hg

/-! ## The proof data -/

/-- Region 0's proof data on core `c`: the arrays as the region finds them; after the body at point `t` each input's
    buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1.1
    | ⟨9, _⟩ => (outsAt0 V c t.val t.isLt).1.2.1
    | ⟨10, _⟩ => (outsAt0 V c t.val t.isLt).1.2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1.1 := by dsimp only [dat0]
theorem after0_9 (c : Dev nD) (t : Fin cfg0.N) : (dat0 V c).after 9 t = (outsAt0 V c t.val t.isLt).1.2.1 := by dsimp only [dat0]
theorem after0_10 (c : Dev nD) (t : Fin cfg0.N) : (dat0 V c).after 10 t = (outsAt0 V c t.val t.isLt).1.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

end Cert.Kernel.Gen2

end
-- ==== Proof.Bits.Region0Body.lean ====
/-
  Region 0's body obligation: at every grid point the point's case applies (the two conditions in closed form decide which),
  the invariant hands the body the carried buffers at what the point before left (at anything when the tile axis starts
  over) and takes them back at this point's contents; each input window holds its block; a context window the case does
  not store into is handed back as found.
-/
import proofs.«174424_j489626271899_2_alg».proof.Proof.Bits.Region0

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

/-- Before a point where the tile axis starts the invariant gives the carried buffers at some contents: it is the plain
    invariant at the very first point, and elsewhere the named contents are forgotten. -/
theorem start_forget (c : Dev nD) (t : Fin cfg0.N) :
    (dat0 V c).Φ t.castSucc ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ rest0 (F := F) c) ∗ (∃ r, prngReg c r)) : sProp 𝕄) := by
  rw [← PhiA0_eq, PhiS_castSucc V c t]
  by_cases hz : t.val = 0
  · rw [PhiS_zero V c _ _ hz]
  · rw [PhiS_pos V c _ _ hz]; exact carried_forget c _

set_option maxHeartbeats 4000000 in
/-- The first token tile of a batch: the carried buffers come in at anything. -/
theorem sound_A (c : Dev nD) (t : Fin cfg0.N) (h0 : t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rewrite [show (dat0 V c).owesAt () t.succ = (dat0 V c).owesAt () t.castSucc from rfl]
  rewrite [show (dat0 V c).Φ t.succ = PhiS V c (t.val + 1) t.isLt from rfl, PhiS_succ]
  rewrite [show (dat0 V c).leavesExact 0 t = owns (c : Thread nD τ) (ms0_0 t) fullShare ((dat0 V c).after 0 t) from by
    unfold Dat.leavesExact; rw [liveAt0 0 (by decide) (by decide) (grid0.coords t)], after0_0]
  rewrite [show (dat0 V c).leavesExact 1 t = owns (c : Thread nD τ) (ms0_1 t) fullShare ((dat0 V c).after 1 t) from by
    unfold Dat.leavesExact; rw [liveAt0 1 (by decide) (by decide) (grid0.coords t)], after0_1]
  rewrite [show (dat0 V c).leavesExact 2 t = owns (c : Thread nD τ) (ms0_2 t) fullShare ((dat0 V c).after 2 t) from by
    unfold Dat.leavesExact; rw [liveAt0 2 (by decide) (by decide) (grid0.coords t)], after0_2]
  rewrite [show (dat0 V c).leavesExact 3 t = owns (c : Thread nD τ) (ms0_3 t) fullShare ((dat0 V c).after 3 t) from by
    unfold Dat.leavesExact; rw [liveAt0 3 (by decide) (by decide) (grid0.coords t)], after0_3]
  rewrite [show (dat0 V c).leavesExact 4 t = owns (c : Thread nD τ) (ms0_4 t) fullShare ((dat0 V c).after 4 t) from by
    unfold Dat.leavesExact; rw [liveAt0 4 (by decide) (by decide) (grid0.coords t)], after0_4]
  rewrite [show (dat0 V c).leavesExact 5 t = owns (c : Thread nD τ) (ms0_5 t) fullShare ((dat0 V c).after 5 t) from by
    unfold Dat.leavesExact; rw [liveAt0 5 (by decide) (by decide) (grid0.coords t)], after0_5]
  rewrite [show (dat0 V c).leavesExact 6 t = owns (c : Thread nD τ) (ms0_6 t) fullShare ((dat0 V c).after 6 t) from by
    unfold Dat.leavesExact; rw [liveAt0 6 (by decide) (by decide) (grid0.coords t)], after0_6]
  rewrite [show (dat0 V c).leavesExact 7 t = owns (c : Thread nD τ) (ms0_7 t) fullShare ((dat0 V c).after 7 t) from by
    unfold Dat.leavesExact; rw [liveAt0 7 (by decide) (by decide) (grid0.coords t)], after0_7]
  rewrite [show (dat0 V c).leavesExact 10 t = owns (c : Thread nD τ) (ms0_10 t) fullShare ((dat0 V c).after 10 t) from by
    unfold Dat.leavesExact; rw [liveAt0 10 (by decide) (by decide) (grid0.coords t)], after0_10]
  rewrite [Dat.leavesExact_idle (dat0 V c) 8 t (idleAt0_8 t (fun h => h1 ((hcond0_1 t).mp h))) (noFlush0_8 t (fun h => h1 ((hcond0_1 t).mp h)))]
  rewrite [Dat.leavesExact_idle (dat0 V c) 9 t (idleAt0_9 t (fun h => h1 ((hcond0_1 t).mp h))) (noFlush0_9 t (fun h => h1 ((hcond0_1 t).mp h)))]
  rewrite [outsAt0_A V c t h0 h1]
  unfold leftA carried; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ' := (start_forget V c t) $$ HΦ
  icases HΦ' with ⟨⟨HS0, HS1, HS2, HS3, HS4, HS5, Hr⟩, Hg⟩
  iapply ((runA V c t h0 h1).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, ⟨%e10, H10⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hr Hg]
  · isplitr [Hg]
    swap; · iexact Hg
    isplitl [HS0]
    · unfold owns; iexists _; isplitr
      swap; · iexact HS0
      ipureintro; exact View.read_writes_of_cover _ _ _ _ _ ((coverA V c t h0 h1).2.1)
    isplitl [HS1]
    · unfold owns; iexists _; isplitr
      swap; · iexact HS1
      ipureintro; exact View.read_writes_of_cover _ _ _ _ _ ((coverA V c t h0 h1).2.2.1)
    isplitl [HS2]
    · unfold owns; iexists _; isplitr
      swap; · iexact HS2
      ipureintro; exact View.read_writes_of_cover _ _ _ _ _ ((coverA V c t h0 h1).2.2.2.1)
    isplitl [HS3]
    · unfold owns; iexists _; isplitr
      swap; · iexact HS3
      ipureintro; exact View.read_writes_of_cover _ _ _ _ _ ((coverA V c t h0 h1).2.2.2.2.1)
    isplitl [HS4]
    · unfold owns; iexists _; isplitr
      swap; · iexact HS4
      ipureintro; exact View.read_writes_of_cover _ _ _ _ _ ((coverA V c t h0 h1).2.2.2.2.2.1)
    isplitl [HS5]
    · unfold owns; iexists _; isplitr
      swap; · iexact HS5
      ipureintro; exact View.read_writes_of_cover _ _ _ _ _ ((coverA V c t h0 h1).2.2.2.2.2.2)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  unfold owns; iexists _; isplitr
  swap; · iexact H10
  ipureintro; exact View.read_writes_of_cover _ _ _ _ _ ((coverA V c t h0 h1).1)

set_option maxHeartbeats 4000000 in
/-- A middle token tile. -/
theorem sound_B (c : Dev nD) (t : Fin cfg0.N) (h0 : ¬t.val % 4 = 0) (h1 : ¬t.val % 4 = 3) :
    bodyPre0 V c t ⊢ wp frame (wpE (defs₀ (F := F)) Variants.none c none) Set.univ (bodyAt0 t) (fun _ => bodyPost0 V c t) := by
  have hz : t.val ≠ 0 := fun e => h0 (by rw [e])
  unfold bodyPre0 bodyPost0 bodyAt0
  simp only [before0_0, before0_1, before0_2, before0_3, before0_4, before0_5, before0_6, before0_7]
  rewrite [show (dat0 V c).owesAt () t.succ = (dat0 V c).owesAt () t.castSucc from rfl]
  rewrite [show (dat0 V c).Φ t.succ = PhiS V c (t.val + 1) t.isLt from rfl, PhiS_succ]
  rewrite [show (dat0 V c).leavesExact 0 t = owns (c : Thread nD τ) (ms0_0 t) fullShare ((dat0 V c).after 0 t) from by
    unfold Dat.leavesExact; rw [liveAt0 0 (by decide) (by decide) (grid0.coords t)], after0_0]
  rewrite [show (dat0 V c).leavesExact 1 t = owns (c : Thread nD τ) (ms0_1 t) fullShare ((dat0 V c).after 1 t) from by
    unfold Dat.leavesExact; rw [liveAt0 1 (by decide) (by decide) (grid0.coords t)], after0_1]
  rewrite [show (dat0 V c).leavesExact 2 t = owns (c : Thread nD τ) (ms0_2 t) fullShare ((dat0 V c).after 2 t) from by
    unfold Dat.leavesExact; rw [liveAt0 2 (by decide) (by decide) (grid0.coords t)], after0_2]
  rewrite [show (dat0 V c).leavesExact 3 t = owns (c : Thread nD τ) (ms0_3 t) fullShare ((dat0 V c).after 3 t) from by
    unfold Dat.leavesExact; rw [liveAt0 3 (by decide) (by decide) (grid0.coords t)], after0_3]
  rewrite [show (dat0 V c).leavesExact 4 t = owns (c : Thread nD τ) (ms0_4 t) fullShare ((dat0 V c).after 4 t) from by
    unfold Dat.leavesExact; rw [liveAt0 4 (by decide) (by decide) (grid0.coords t)], after0_4]
  rewrite [show (dat0 V c).leavesExact 5 t = owns (c : Thread nD τ) (ms0_5 t) fullShare ((dat0 V c).after 5 t) from by
    unfold Dat.leavesExact; rw [liveAt0 5 (by decide) (by decide) (grid0.coords t)], after0_5]
  rewrite [show (dat0 V c).leavesExact 6 t = owns (c : Thread nD τ) (ms0_6 t) fullShare ((dat0 V c).after 6 t) from by
    unfold Dat.leavesExact; rw [liveAt0 6 (by decide) (by decide) (grid0.coords t)], after0_6]
  rewrite [show (dat0 V c).leavesExact 7 t = owns (c : Thread nD τ) (ms0_7 t) fullShare ((dat0 V c).after 7 t) from by
    unfold Dat.leavesExact; rw [liveAt0 7 (by decide) (by decide) (grid0.coords t)], after0_7]
  rewrite [show (dat0 V c).leavesExact 10 t = owns (c : Thread nD τ) (ms0_10 t) fullShare ((dat0 V c).after 10 t) from by
    unfold Dat.leavesExact; rw [liveAt0 10 (by decide) (by decide) (grid0.coords t)], after0_10]
  rewrite [Dat.leavesExact_idle (dat0 V c) 8 t (idleAt0_8 t (fun h => h1 ((hcond0_1 t).mp h))) (noFlush0_8 t (fun h => h1 ((hcond0_1 t).mp h)))]
  rewrite [Dat.leavesExact_idle (dat0 V c) 9 t (idleAt0_9 t (fun h => h1 ((hcond0_1 t).mp h))) (noFlush0_9 t (fun h => h1 ((hcond0_1 t).mp h)))]
  rewrite [outsAt0_B V c t h0 h1]
  unfold leftB carried; (try dsimp only)
  rewrite [PhiS_castSucc V c t, PhiS_pos V c _ _ hz]; unfold carried
  iintro ⟨⟨⟨HS0, HS1, HS2, HS3, HS4, HS5, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB V c t h0 h1 _).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, ⟨%e10, H10⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hr Hg]
  · isplitr [Hg]
    swap; · iexact Hg
    isplitl [HS0]
    · unfold owns; iexists _; isplitr
      swap; · iexact HS0
      ipureintro; exact View.read_writes_of_cover _ _ _ _ _ ((coverB V c t h0 h1 _).2.1)
    isplitl [HS1]
    · unfold owns; iexists _; isplitr
      swap; · iexact HS1
      ipureintro; exact View.read_writes_of_cover _ _ _ _ _ ((coverB V c t h0 h1 _).2.2.1)
    isplitl [HS2]
    · unfold owns; iexists _; isplitr
      swap; · iexact HS2
      ipureintro; exact View.read_writes_of_cover _ _ _ _ _ ((coverB V c t h0 h1 _).2.2.2.1)
    isplitl [HS3]
    · unfold owns; iexists _; isplitr
      swap; · iexact HS3
      ipureintro; exact View.read_writes_of_cover _ _ _ _ _ ((coverB V c t h0 h1 _).2.2.2.2.1)
    isplitl [HS4]
    · unfold owns; iexists _; isplitr
      swap; · iexact HS4
      ipureintro; exact View.read_writes_of_cover _ _ _ _ _ ((coverB V c t h0 h1 _).2.2.2.2.2.1)
    isplitl [HS5]
    · unfold owns; iexists _; isplitr
      swap; · iexact HS5
      ipureintro; exact View.read_writes_of_cover _ _ _ _ _ ((coverB V c t h0 h1 _).2.2.2.2.2.2)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  unfold owns; iexists _; isplitr
  swap; · iexact H10
  ipureintro; exact View.read_writes_of_cover _ _ _ _ _ ((coverB V c t h0 h1 _).1)

/-- Before a point inside a batch's tile axis the invariant holds the carried buffers at what the point before left. -/
theorem mid_carry (c : Dev nD) (t : Fin cfg0.N) (hz : t.val ≠ 0) :
    (dat0 V c).Φ t.castSucc ⊢ (iprop(iprop(owns (c : Thread nD τ) scM0_0 fullShare (outsAt0 V c (t.val - 1) (by omega)).2.1 ∗ owns (c : Thread nD τ) scM0_1 fullShare (outsAt0 V c (t.val - 1) (by omega)).2.2.1 ∗ owns (c : Thread nD τ) scM0_2 fullShare (outsAt0 V c (t.val - 1) (by omega)).2.2.2.1 ∗ owns (c : Thread nD τ) scM0_3 fullShare (outsAt0 V c (t.val - 1) (by omega)).2.2.2.2.1 ∗ owns (c : Thread nD τ) scM0_4 fullShare (outsAt0 V c (t.val - 1) (by omega)).2.2.2.2.2.1 ∗ owns (c : Thread nD τ) scM0_5 fullShare (outsAt0 V c (t.val - 1) (by omega)).2.2.2.2.2.2 ∗ rest0 (F := F) c) ∗ (∃ r, prngReg c r)) : sProp 𝕄) := by
  rw [PhiS_castSucc V c t, PhiS_pos V c _ _ hz]; unfold carried
  exact Idealize.SL.BI.Entails.refl _

set_option maxHeartbeats 4000000 in
/-- The last token tile of a batch: the context blocks are stored. -/
theorem sound_C (c : Dev nD) (t : Fin cfg0.N) (h0 : ¬t.val % 4 = 0) (h1 : t.val % 4 = 3) :
    bodyPre0 V c t ⊢ wp frame (wpE (defs₀ (F := F)) Variants.none c none) Set.univ (bodyAt0 t) (fun _ => bodyPost0 V c t) := by
  have hz : t.val ≠ 0 := fun e => h0 (by rw [e])
  unfold bodyPre0 bodyPost0 bodyAt0
  simp only [before0_0, before0_1, before0_2, before0_3, before0_4, before0_5, before0_6, before0_7]
  rewrite [show (dat0 V c).owesAt () t.succ = (dat0 V c).owesAt () t.castSucc from rfl]
  rewrite [show (dat0 V c).Φ t.succ = PhiS V c (t.val + 1) t.isLt from rfl, PhiS_succ]
  rewrite [show (dat0 V c).leavesExact 0 t = owns (c : Thread nD τ) (ms0_0 t) fullShare ((dat0 V c).after 0 t) from by
    unfold Dat.leavesExact; rw [liveAt0 0 (by decide) (by decide) (grid0.coords t)], after0_0]
  rewrite [show (dat0 V c).leavesExact 1 t = owns (c : Thread nD τ) (ms0_1 t) fullShare ((dat0 V c).after 1 t) from by
    unfold Dat.leavesExact; rw [liveAt0 1 (by decide) (by decide) (grid0.coords t)], after0_1]
  rewrite [show (dat0 V c).leavesExact 2 t = owns (c : Thread nD τ) (ms0_2 t) fullShare ((dat0 V c).after 2 t) from by
    unfold Dat.leavesExact; rw [liveAt0 2 (by decide) (by decide) (grid0.coords t)], after0_2]
  rewrite [show (dat0 V c).leavesExact 3 t = owns (c : Thread nD τ) (ms0_3 t) fullShare ((dat0 V c).after 3 t) from by
    unfold Dat.leavesExact; rw [liveAt0 3 (by decide) (by decide) (grid0.coords t)], after0_3]
  rewrite [show (dat0 V c).leavesExact 4 t = owns (c : Thread nD τ) (ms0_4 t) fullShare ((dat0 V c).after 4 t) from by
    unfold Dat.leavesExact; rw [liveAt0 4 (by decide) (by decide) (grid0.coords t)], after0_4]
  rewrite [show (dat0 V c).leavesExact 5 t = owns (c : Thread nD τ) (ms0_5 t) fullShare ((dat0 V c).after 5 t) from by
    unfold Dat.leavesExact; rw [liveAt0 5 (by decide) (by decide) (grid0.coords t)], after0_5]
  rewrite [show (dat0 V c).leavesExact 6 t = owns (c : Thread nD τ) (ms0_6 t) fullShare ((dat0 V c).after 6 t) from by
    unfold Dat.leavesExact; rw [liveAt0 6 (by decide) (by decide) (grid0.coords t)], after0_6]
  rewrite [show (dat0 V c).leavesExact 7 t = owns (c : Thread nD τ) (ms0_7 t) fullShare ((dat0 V c).after 7 t) from by
    unfold Dat.leavesExact; rw [liveAt0 7 (by decide) (by decide) (grid0.coords t)], after0_7]
  rewrite [show (dat0 V c).leavesExact 10 t = owns (c : Thread nD τ) (ms0_10 t) fullShare ((dat0 V c).after 10 t) from by
    unfold Dat.leavesExact; rw [liveAt0 10 (by decide) (by decide) (grid0.coords t)], after0_10]
  rewrite [show (dat0 V c).leavesExact 8 t = owns (c : Thread nD τ) (ms0_8 t) fullShare ((dat0 V c).after 8 t) from by
    unfold Dat.leavesExact; rw [liveAt0_8 t ((hcond0_1 t).mpr h1)], after0_8]
  rewrite [show (dat0 V c).leavesExact 9 t = owns (c : Thread nD τ) (ms0_9 t) fullShare ((dat0 V c).after 9 t) from by
    unfold Dat.leavesExact; rw [liveAt0_9 t ((hcond0_1 t).mpr h1)], after0_9]
  rewrite [outsAt0_C V c t h0 h1]
  unfold leftC carried; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ' := (mid_carry V c t hz) $$ HΦ
  icases HΦ' with ⟨⟨HS0, HS1, HS2, HS3, HS4, HS5, Hr⟩, Hg⟩
  iapply ((runC V c t h0 h1 _).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%e8, H8⟩, ⟨%e9, H9⟩, ⟨%e10, H10⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hr Hg]
  · isplitr [Hg]
    swap; · iexact Hg
    isplitl [HS0]
    · unfold owns; iexists _; isplitr
      swap; · iexact HS0
      ipureintro; exact View.read_writes_of_cover _ _ _ _ _ ((coverC V c t h0 h1 _).2.2.2.1)
    isplitl [HS1]
    · unfold owns; iexists _; isplitr
      swap; · iexact HS1
      ipureintro; exact View.read_writes_of_cover _ _ _ _ _ ((coverC V c t h0 h1 _).2.2.2.2.1)
    isplitl [HS2]
    · unfold owns; iexists _; isplitr
      swap; · iexact HS2
      ipureintro; exact View.read_writes_of_cover _ _ _ _ _ ((coverC V c t h0 h1 _).2.2.2.2.2.1)
    isplitl [HS3]
    · unfold owns; iexists _; isplitr
      swap; · iexact HS3
      ipureintro; exact View.read_writes_of_cover _ _ _ _ _ ((coverC V c t h0 h1 _).2.2.2.2.2.2.1)
    isplitl [HS4]
    · unfold owns; iexists _; isplitr
      swap; · iexact HS4
      ipureintro; exact View.read_writes_of_cover _ _ _ _ _ ((coverC V c t h0 h1 _).2.2.2.2.2.2.2.1)
    isplitl [HS5]
    · unfold owns; iexists _; isplitr
      swap; · iexact HS5
      ipureintro; exact View.read_writes_of_cover _ _ _ _ _ ((coverC V c t h0 h1 _).2.2.2.2.2.2.2.2)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ ((coverC V c t h0 h1 _).1)
  isplitl [H9]
  · unfold owns; iexists _; isplitr
    swap; · iexact H9
    ipureintro; exact View.read_writes_of_cover _ _ _ _ _ ((coverC V c t h0 h1 _).2.1)
  unfold owns; iexists _; isplitr
  swap; · iexact H10
  ipureintro; exact View.read_writes_of_cover _ _ _ _ _ ((coverC V c t h0 h1 _).2.2.1)

/-- The body at any point: the point's case. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 16 := lt_of_lt_of_eq t.isLt (show cfg0.N = 16 from N_0)
  by_cases h0 : t.val % 4 = 0
  · exact sound_A V c t h0 (by omega)
  · by_cases h1 : t.val % 4 = 3
    · exact sound_C V c t h0 h1
    · exact sound_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the plain one back: the carried buffers' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega)]
  exact carried_forget c _

end Cert.Kernel.Gen2

end
-- ==== Proof.Bits.Region1.lean ====
import proofs.«174424_j489626271899_2_alg».proof.Proof.Gen.Kernel.Launch
import proofs.«174424_j489626271899_2_alg».proof.Proof.Gen.Kernel.Skeleton
import proofs.«174424_j489626271899_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
The second pipeline (the "apply" step): at every grid point the body reads three input blocks whole
(the normalised queries, and the two 64x64 context matrices), and overwrites each of its two output
blocks whole with a product of a half of the query block and one context matrix.  Because every store
covers its whole buffer, what an output buffer holds after the body is a closed function of the input
blocks at that point, whatever the buffer held before.  This file states that closed function, proves
the body's separation-logic triple, and packages both as the pipeline's proof data, for any float
interpretation `F` and any buffer contents `V` at the moment the pipeline starts.
-/

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the arrays as the pipeline finds them -/

/-- The block of window `w`'s array that grid point `t` selects, read from the contents `V`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## An input buffer holds the current point's block

Whether or not a copy into the buffer happens at a point: when none happens, the window's block index is
the one of the previous point, and the body leaves an input buffer as it found it.  Stated for any proof
data over `V` whose body leaves the block in place.  The windows are not clipped and never idle. -/

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-! ## The rectangles the body reads and writes: each is a whole buffer -/

abbrev rq1 : Rect S1x4096x128 := Rect.unit (s := S1x4096x128) ![0, 0, 0] S1x4096x128.size inb_S1x4096x128_S1x4096x128_0_0_0
abbrev rw1 : Rect S1x64x64 := Rect.unit (s := S1x64x64) ![0, 0, 0] S1x64x64.size inb_S1x64x64_S1x64x64_0_0_0
abbrev ro1 : Rect S1x4096x64 := Rect.unit (s := S1x4096x64) ![0, 0, 0] S1x4096x64.size inb_S1x4096x64_S1x4096x64_0_0_0

/-! ## What the body leaves in the output buffers -/

/-- The first output buffer after the body: the single whole-buffer store of the product of the first
    half of the query block `q` with the context matrix `wB` (the block of window 2). -/
def out1_3 (q : Vec F S1x4096x128 .bf16) (wB : Vec F S1x64x64 .f32) : Vec F S1x4096x64 .f32 :=
  View.canon [⟨ro1, k1_pay2 (View.ld q rq1) (View.ld wB rw1)⟩]

/-- The second output buffer after the body: the single whole-buffer store of the product of the second
    half of the query block `q` with the context matrix `wA` (the block of window 1). -/
def out1_4 (q : Vec F S1x4096x128 .bf16) (wA : Vec F S1x64x64 .f32) : Vec F S1x4096x64 .f32 :=
  View.canon [⟨ro1, k1_pay3 (View.ld q rq1) (View.ld wA rw1)⟩]

/-- A single store through the whole-buffer rectangle covers the buffer. -/
theorem cover1_out (p0 : Vec F S1x4096x64 .f32) (y : S1x4096x64.Idx) :
    ∃ pc ∈ ([⟨ro1, p0⟩] : List (View.Piece (Elt F) S1x4096x64 .f32)), y ∈ pc.1.set :=
  View.cover_of_tiled [⟨ro1, p0⟩] S1x4096x64.size (by rfl) y

/-! ## The body's triple -/

set_option maxHeartbeats 1000000 in
/-- The body run on whole buffers: the three inputs at read contents `x0`, `x1`, `x2`, the two outputs at
    any contents.  It ends with the inputs as they were and the outputs at `out1_3`, `out1_4` of them. -/
theorem sound_kernel1 (c : Dev nD) (E : Set ℕ) (i : grid1.Coords)
    (arg2 : Memref sig .tc .vmem S1x4096x128 .bf16) (harg2 : arg2.IsWhole)
    (arg3 : Memref sig .tc .vmem S1x64x64 .f32) (harg3 : arg3.IsWhole)
    (arg4 : Memref sig .tc .vmem S1x64x64 .f32) (harg4 : arg4.IsWhole)
    (arg5 : Memref sig .tc .vmem S1x4096x64 .f32) (harg5 : arg5.IsWhole)
    (arg6 : Memref sig .tc .vmem S1x4096x64 .f32) (harg6 : arg6.IsWhole)
    (x0 : Vec F S1x4096x128 .bf16) (x1 : Vec F S1x64x64 .f32) (x2 : Vec F S1x64x64 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out1_3 x0 x2)
            ∗ owns (c : Thread nD τ) arg6 fullShare (out1_4 x0 x1)) -∗ K ⟨⟩))
      ⊢ wp frame (wpE (defs₀ (F := F)) Variants.none c none) E
          (cc1__apply_kernel i arg2 harg2 arg3 harg3 arg4 harg4 arg5 harg5 arg6 harg6) K := by
  simp only [cc1__apply_kernel_eq_skeleton]; unfold cc1__apply_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_out _)
  iexists _; isplitr
  swap; · iexact H4
  ipureintro
  exact View.read_writes_eq_canon _ _ _ (cover1_out _)

/-! ## The pipeline's proof data -/

/-- Proof data of the pipeline on core `c`: the arrays as found (`V`); after the body at point `t` every
    input buffer still holds its block, and the two output buffers hold the products computed from the
    input blocks; the invariant is the untouched rest of the core's state; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 2 t)
    | ⟨4, _⟩ => out1_4 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [show (dat1 V c).Φ (Fin.last cfg1.N) = Pipeline.ΦA spec1 c from rfl]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 2 t) := by dsimp only [dat1]
theorem after1_4 (c : Dev nD) (t : Fin cfg1.N) :
    (dat1 V c).after 4 t = out1_4 (iblk1 V c 0 t) (iblk1 V c 1 t) := by dsimp only [dat1]

/-- Each input buffer holds the current block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

/-- What the body is entered with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body ends with at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the invariant
    and the owed resources pass through untouched. -/
theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline, at every point. -/
theorem body_obligation1 (c : Dev nD) :
    BodyObligation (dat1 (F := F) V c) (defs₀ (F := F)) Variants.none () Set.univ := fun t => by
  rw [bigSep_W1, bigSep_W1]
  exact sound_body1 V c t

end Cert.Kernel.Gen2

end
-- ==== Proof.Bits.Frames.lean ====
/-
  The whole program's run from the two regions' proof data: every weakly fair execution of @main terminates without a
  fault with each unscoped buffer at the last contents of the fold through the two regions, and in particular each of the
  eight argument arrays as launched.
-/
import proofs.«174424_j489626271899_2_alg».proof.Proof.Bits.MainRun
import proofs.«174424_j489626271899_2_alg».proof.Proof.Bits.Region0Body
import proofs.«174424_j489626271899_2_alg».proof.Proof.Bits.Region1

noncomputable section

namespace Cert.Kernel.Gen2

open Cert.Kernel Cert.Kernel.Gen
open Idealize.ShloMosaic Idealize.ShloMosaic.TcCoe Idealize.SL.Sem

variable {F : FTy → Type} [FloatOps F]

/-- The run: each unscoped buffer of each core ends at `Wend`, the fold of the launch memory through region 0's and
    region 1's write-backs. -/
theorem run_program (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Wend (dat0 (F := F)) (dat1 (F := F)) m c b) :=
  run_all dat0 dat1 m A_eq0 q_eq0 owed_eq0 (fun _ _ _ => rfl) body_obligation0 hin0 hout0
    A_eq1 q_eq1 owed_eq1 (fun _ _ _ => rfl) body_obligation1 hin1 hout1 ρ

/-- The frame: the program terminates on every core, faults nowhere, and leaves its eight argument arrays as launched. -/
theorem frame_program (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_all dat0 dat1 m A_eq0 q_eq0 owed_eq0 (fun _ _ _ => rfl) body_obligation0 hin0 hout0
    A_eq1 q_eq1 owed_eq1 (fun _ _ _ => rfl) body_obligation1 hin1 hout1 ρ

end Cert.Kernel.Gen2

end
-- ==== Proof.Ideal.MainRun.lean ====
import proofs.«174424_j489626271899_2_alg».proof.Proof.Gen.KernelIdeal.Launch
import proofs.«174424_j489626271899_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Tactic

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The run of @main over its two kernel regions

@main is two kernel calls and nothing else. For any float instance `F` and any proof data `dat0`, `dat1` of the two
pipelines — given at every entry contents `V`, with the arrays read off `V`, full shares, nothing owed, the body
obligation, and an invariant that the scoped rest and the generator register enter at the first point and leave at
the last — this file folds the buffer contents through the two regions (`Wlaunch`, `Wmid`, `Wend`), shows that
every execution terminates with each unscoped buffer at `Wend` (`run_all`), reads the fold at the arguments and at
the results, and concludes that the arguments end as launched (`frame_all`). -/

variable {F : FTy → Type} [FloatOps F]

local notation "𝕄" => MT nD τ sig Unit (Elt F) ℕ (UR sig nD τ) ℕ

/-- The contents of a core's buffers, read at the TensorCore's references. -/
abbrev TcVal (F : FTy → Type) [FloatOps F] : Type :=
  (c : Dev nD) → (b : Ref sig .tc) → Buf (Elt F) ((c : Thread nD τ).loc b)

/-! # The buffer contents at each boundary of the run: the launch, between the two regions, the return -/

section Fold

variable (dat0 : TcVal F → (c : Dev nD) → Dat τ (Elt F) Unit ℕ (UR sig nD τ) ℕ cfg0 c)
variable (dat1 : TcVal F → (c : Dev nD) → Dat τ (Elt F) Unit ℕ (UR sig nD τ) ℕ cfg1 c)
variable (m : (ℓ : Loc nD τ sig) → Buf (Elt F) ℓ)

/-- Core `c`'s buffers at launch. -/
abbrev Wlaunch : Dev nD → Valuation τ sig (Elt F) := fun c b => m (((c : Thread nD τ)).1, b)
/-- The launch contents read at the TensorCore's references: what region 0 is entered at. -/
abbrev Vin : TcVal F := fun c b => Wlaunch m c b

/-- When region 0 is left: each of its arrays at what its write-backs leave (an input as entered), every other
    buffer as at launch. -/
def Wmid (c : Dev nD) : Valuation τ sig (Elt F) :=
  Pipeline.withArrays spec0 c (Wlaunch m c) fun w => (dat0 (Vin m) c).arrAt w cfg0.N
/-- The same read at the TensorCore's references: what region 1 is entered at. -/
abbrev Vmid : TcVal F := fun c b => Wmid dat0 m c b
/-- When region 1 is left: each of its arrays at what its write-backs leave, every other buffer as region 0 left it. -/
def Wend (c : Dev nD) : Valuation τ sig (Elt F) :=
  Pipeline.withArrays spec1 c (Wmid dat0 m c) fun w => (dat1 (Vmid dat0 m) c).arrAt w cfg1.N
/-- The same read at the TensorCore's references. -/
abbrev Vend : TcVal F := fun c b => Wend dat0 dat1 m c b

theorem Wmid_arr (c : Dev nD) (w : Fin cfg0.W) :
    Wmid dat0 m c (Proc.devRef .tc (Pipeline.arrRef spec0 w)) = (dat0 (Vin m) c).arrAt w cfg0.N := by
  unfold Wmid; exact Pipeline.withArrays_arr spec0 launch0.win.arr_inj c _ _ w
theorem Wmid_of_ne (c : Dev nD) (b : Ref sig .tc) (hb : ∀ w, Pipeline.arrRef spec0 w ≠ b) :
    Wmid dat0 m c (Proc.devRef .tc b) = Wlaunch m c (Proc.devRef .tc b) := by
  unfold Wmid; exact Pipeline.withArrays_of_ne spec0 c _ _ b hb
theorem Wend_arr (c : Dev nD) (w : Fin cfg1.W) :
    Wend dat0 dat1 m c (Proc.devRef .tc (Pipeline.arrRef spec1 w)) = (dat1 (Vmid dat0 m) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend dat0 dat1 m c (Proc.devRef .tc b) = Wmid dat0 m c (Proc.devRef .tc b) := by
  unfold Wend; exact Pipeline.withArrays_of_ne spec1 c _ _ b hb

/-- Region 0's exit contents have each of its arrays at what the pipeline leaves, -/
theorem mid_arr (c : Dev nD) (w : Fin cfg0.W) : (dat0 (Vin m) c).arrAt w cfg0.N = Vmid dat0 m c (Pipeline.arrRef spec0 w) :=
  (Wmid_arr dat0 m c w).symm
/-- and every buffer that is none of its arrays as it was entered. -/
theorem mid_rest (c : Dev nD) : ∀ b, b ∉ Finset.univ.image (Pipeline.arrRef spec0) → Vmid dat0 m c b = Vin m c b :=
  fun b hb => Wmid_of_ne dat0 m c b fun w e => hb (Finset.mem_image.mpr ⟨w, Finset.mem_univ _, e⟩)
/-- The same of region 1. -/
theorem end_arr (c : Dev nD) (w : Fin cfg1.W) : (dat1 (Vmid dat0 m) c).arrAt w cfg1.N = Vend dat0 dat1 m c (Pipeline.arrRef spec1 w) :=
  (Wend_arr dat0 dat1 m c w).symm
theorem end_rest (c : Dev nD) : ∀ b, b ∉ Finset.univ.image (Pipeline.arrRef spec1) → Vend dat0 dat1 m c b = Vmid dat0 m c b :=
  fun b hb => Wend_of_ne dat0 dat1 m c b fun w e => hb (Finset.mem_image.mpr ⟨w, Finset.mem_univ _, e⟩)

/-! ## Reading the fold: the results -/

/-- Between the regions, region 0's three results hold what its write-backs leave. -/
theorem Vmid_main_v0_0 (c : Dev nD) : Vmid dat0 m c main_v0_0 = (dat0 (Vin m) c).arrAt 8 cfg0.N := Wmid_arr dat0 m c 8
theorem Vmid_main_v0_1 (c : Dev nD) : Vmid dat0 m c main_v0_1 = (dat0 (Vin m) c).arrAt 9 cfg0.N := Wmid_arr dat0 m c 9
theorem Vmid_main_v0_2 (c : Dev nD) : Vmid dat0 m c main_v0_2 = (dat0 (Vin m) c).arrAt 10 cfg0.N := Wmid_arr dat0 m c 10

/-- At the return, the program's two results hold what region 1's write-backs leave. -/
theorem Wend_main_v1_0 (c : Dev nD) :
    Wend dat0 dat1 m c (Proc.devRef .tc main_v1_0) = (dat1 (Vmid dat0 m) c).arrAt 3 cfg1.N := Wend_arr dat0 dat1 m c 3
theorem Wend_main_v1_1 (c : Dev nD) :
    Wend dat0 dat1 m c (Proc.devRef .tc main_v1_1) = (dat1 (Vmid dat0 m) c).arrAt 4 cfg1.N := Wend_arr dat0 dat1 m c 4

end Fold

/-! ## Reading the fold: the arguments

Region 0 reads each argument through an input window, which is never written back; region 1 has no window on an
argument. So at either boundary an argument's buffer holds its launch contents. -/

section Args

variable (dat0 : TcVal F → (c : Dev nD) → Dat τ (Elt F) Unit ℕ (UR sig nD τ) ℕ cfg0 c)
variable (dat1 : TcVal F → (c : Dev nD) → Dat τ (Elt F) Unit ℕ (UR sig nD τ) ℕ cfg1 c)
variable (hA0 : ∀ V c w, (dat0 V c).A w = V c (Pipeline.arrRef spec0 w))
variable (m : (ℓ : Loc nD τ sig) → Buf (Elt F) ℓ)
include hA0

theorem Vmid_main_arg0 (c : Dev nD) : Vmid dat0 m c main_arg0 = m ((c : Thread nD τ).loc main_arg0) :=
  calc Wmid dat0 m c (Proc.devRef .tc main_arg0)
    _ = (dat0 (Vin m) c).arrAt 0 cfg0.N := Wmid_arr dat0 m c 0
    _ = (dat0 (Vin m) c).A 0 := (dat0 (Vin m) c).arrAt_in 0 rfl _
    _ = Vin m c (Pipeline.arrRef spec0 0) := hA0 (Vin m) c 0
    _ = m ((c : Thread nD τ).loc main_arg0) := rfl
theorem Wend_main_arg0 (c : Dev nD) :
    Wend dat0 dat1 m c (Proc.devRef .tc main_arg0) = m ((c : Thread nD τ).loc main_arg0) :=
  (Wend_of_ne dat0 dat1 m c main_arg0 (by decide)).trans (Vmid_main_arg0 dat0 hA0 m c)

theorem Vmid_main_arg1 (c : Dev nD) : Vmid dat0 m c main_arg1 = m ((c : Thread nD τ).loc main_arg1) :=
  calc Wmid dat0 m c (Proc.devRef .tc main_arg1)
    _ = (dat0 (Vin m) c).arrAt 1 cfg0.N := Wmid_arr dat0 m c 1
    _ = (dat0 (Vin m) c).A 1 := (dat0 (Vin m) c).arrAt_in 1 rfl _
    _ = Vin m c (Pipeline.arrRef spec0 1) := hA0 (Vin m) c 1
    _ = m ((c : Thread nD τ).loc main_arg1) := rfl
theorem Wend_main_arg1 (c : Dev nD) :
    Wend dat0 dat1 m c (Proc.devRef .tc main_arg1) = m ((c : Thread nD τ).loc main_arg1) :=
  (Wend_of_ne dat0 dat1 m c main_arg1 (by decide)).trans (Vmid_main_arg1 dat0 hA0 m c)

theorem Vmid_main_arg2 (c : Dev nD) : Vmid dat0 m c main_arg2 = m ((c : Thread nD τ).loc main_arg2) :=
  calc Wmid dat0 m c (Proc.devRef .tc main_arg2)
    _ = (dat0 (Vin m) c).arrAt 2 cfg0.N := Wmid_arr dat0 m c 2
    _ = (dat0 (Vin m) c).A 2 := (dat0 (Vin m) c).arrAt_in 2 rfl _
    _ = Vin m c (Pipeline.arrRef spec0 2) := hA0 (Vin m) c 2
    _ = m ((c : Thread nD τ).loc main_arg2) := rfl
theorem Wend_main_arg2 (c : Dev nD) :
    Wend dat0 dat1 m c (Proc.devRef .tc main_arg2) = m ((c : Thread nD τ).loc main_arg2) :=
  (Wend_of_ne dat0 dat1 m c main_arg2 (by decide)).trans (Vmid_main_arg2 dat0 hA0 m c)

theorem Vmid_main_arg3 (c : Dev nD) : Vmid dat0 m c main_arg3 = m ((c : Thread nD τ).loc main_arg3) :=
  calc Wmid dat0 m c (Proc.devRef .tc main_arg3)
    _ = (dat0 (Vin m) c).arrAt 3 cfg0.N := Wmid_arr dat0 m c 3
    _ = (dat0 (Vin m) c).A 3 := (dat0 (Vin m) c).arrAt_in 3 rfl _
    _ = Vin m c (Pipeline.arrRef spec0 3) := hA0 (Vin m) c 3
    _ = m ((c : Thread nD τ).loc main_arg3) := rfl
theorem Wend_main_arg3 (c : Dev nD) :
    Wend dat0 dat1 m c (Proc.devRef .tc main_arg3) = m ((c : Thread nD τ).loc main_arg3) :=
  (Wend_of_ne dat0 dat1 m c main_arg3 (by decide)).trans (Vmid_main_arg3 dat0 hA0 m c)

theorem Vmid_main_arg4 (c : Dev nD) : Vmid dat0 m c main_arg4 = m ((c : Thread nD τ).loc main_arg4) :=
  calc Wmid dat0 m c (Proc.devRef .tc main_arg4)
    _ = (dat0 (Vin m) c).arrAt 4 cfg0.N := Wmid_arr dat0 m c 4
    _ = (dat0 (Vin m) c).A 4 := (dat0 (Vin m) c).arrAt_in 4 rfl _
    _ = Vin m c (Pipeline.arrRef spec0 4) := hA0 (Vin m) c 4
    _ = m ((c : Thread nD τ).loc main_arg4) := rfl
theorem Wend_main_arg4 (c : Dev nD) :
    Wend dat0 dat1 m c (Proc.devRef .tc main_arg4) = m ((c : Thread nD τ).loc main_arg4) :=
  (Wend_of_ne dat0 dat1 m c main_arg4 (by decide)).trans (Vmid_main_arg4 dat0 hA0 m c)

theorem Vmid_main_arg5 (c : Dev nD) : Vmid dat0 m c main_arg5 = m ((c : Thread nD τ).loc main_arg5) :=
  calc Wmid dat0 m c (Proc.devRef .tc main_arg5)
    _ = (dat0 (Vin m) c).arrAt 5 cfg0.N := Wmid_arr dat0 m c 5
    _ = (dat0 (Vin m) c).A 5 := (dat0 (Vin m) c).arrAt_in 5 rfl _
    _ = Vin m c (Pipeline.arrRef spec0 5) := hA0 (Vin m) c 5
    _ = m ((c : Thread nD τ).loc main_arg5) := rfl
theorem Wend_main_arg5 (c : Dev nD) :
    Wend dat0 dat1 m c (Proc.devRef .tc main_arg5) = m ((c : Thread nD τ).loc main_arg5) :=
  (Wend_of_ne dat0 dat1 m c main_arg5 (by decide)).trans (Vmid_main_arg5 dat0 hA0 m c)

theorem Vmid_main_arg6 (c : Dev nD) : Vmid dat0 m c main_arg6 = m ((c : Thread nD τ).loc main_arg6) :=
  calc Wmid dat0 m c (Proc.devRef .tc main_arg6)
    _ = (dat0 (Vin m) c).arrAt 6 cfg0.N := Wmid_arr dat0 m c 6
    _ = (dat0 (Vin m) c).A 6 := (dat0 (Vin m) c).arrAt_in 6 rfl _
    _ = Vin m c (Pipeline.arrRef spec0 6) := hA0 (Vin m) c 6
    _ = m ((c : Thread nD τ).loc main_arg6) := rfl
theorem Wend_main_arg6 (c : Dev nD) :
    Wend dat0 dat1 m c (Proc.devRef .tc main_arg6) = m ((c : Thread nD τ).loc main_arg6) :=
  (Wend_of_ne dat0 dat1 m c main_arg6 (by decide)).trans (Vmid_main_arg6 dat0 hA0 m c)

theorem Vmid_main_arg7 (c : Dev nD) : Vmid dat0 m c main_arg7 = m ((c : Thread nD τ).loc main_arg7) :=
  calc Wmid dat0 m c (Proc.devRef .tc main_arg7)
    _ = (dat0 (Vin m) c).arrAt 7 cfg0.N := Wmid_arr dat0 m c 7
    _ = (dat0 (Vin m) c).A 7 := (dat0 (Vin m) c).arrAt_in 7 rfl _
    _ = Vin m c (Pipeline.arrRef spec0 7) := hA0 (Vin m) c 7
    _ = m ((c : Thread nD τ).loc main_arg7) := rfl
theorem Wend_main_arg7 (c : Dev nD) :
    Wend dat0 dat1 m c (Proc.devRef .tc main_arg7) = m ((c : Thread nD τ).loc main_arg7) :=
  (Wend_of_ne dat0 dat1 m c main_arg7 (by decide)).trans (Vmid_main_arg7 dat0 hA0 m c)

end Args

/-! # The run: @main as its two regions, from the launch to the return -/

/-- Owing nothing, whatever pairs the core's waits have recorded, is owing proof data's first tallies within their
    first bound, when those tallies are zero and the bound is everything. -/
theorem owesAt_first {cfg : Cfg sig Λ₀} {c : Dev nD} (dat : Dat τ (Elt F) Unit ℕ (UR sig nD τ) ℕ cfg c)
    (h0 : dat.owed 0 = 0) (hr : dat.recorded 0 = Set.univ) :
    iprop(∃ W, owes (c : Thread nD τ) (0 : CellTallies nD τ sig Unit) W) ⊢ (dat.owesAt () 0 : sProp 𝕄) := by
  unfold Pipeline.Dat.owesAt Pipeline.owesWithin Pipeline.Dat.bound
  rw [h0, hr]
  iintro ⟨%W, HO⟩; iexists W; isplitr; · ipureintro; exact fun _ _ => Or.inl trivial
  iexact HO

/-- Owing proof data's last tallies, zero, is owing nothing. -/
theorem owesAt_last {cfg : Cfg sig Λ₀} {c : Dev nD} (dat : Dat τ (Elt F) Unit ℕ (UR sig nD τ) ℕ cfg c)
    (hN : dat.owed (Fin.last cfg.N) = 0) :
    (dat.owesAt () (Fin.last cfg.N) : sProp 𝕄) ⊢ iprop(∃ W, owes (c : Thread nD τ) (0 : CellTallies nD τ sig Unit) W) := by
  unfold Pipeline.Dat.owesAt Pipeline.owesWithin
  rw [hN]
  iintro ⟨%W, -, HO⟩; iexists W; iexact HO

section Run

variable (dat0 : TcVal F → (c : Dev nD) → Dat τ (Elt F) Unit ℕ (UR sig nD τ) ℕ cfg0 c)
variable (dat1 : TcVal F → (c : Dev nD) → Dat τ (Elt F) Unit ℕ (UR sig nD τ) ℕ cfg1 c)
variable (m : (ℓ : Loc nD τ sig) → Buf (Elt F) ℓ)

/-- The prefetched tables' admissible contents: no pipeline has a table. -/
abbrev adm : (p : Fin 2) → (pcfgs (F := F) p).Adm := fun p => (cfgs p).toPCfg_adm

/-- Each pipeline's proof data at the contents its region is entered at: region 0 at the launch contents, region 1
    at what region 0 leaves. -/
def pdats : (p : Fin 2) → (c : Dev nD) → Dat τ (Elt F) Unit ℕ (UR sig nD τ) ℕ (Pipeline.pin (pcfgs (F := F)) adm p) c
  | ⟨0, _⟩ => fun c => dat0 (Vin m) c
  | ⟨1, _⟩ => fun c => dat1 (Vmid dat0 m) c

abbrev 𝒱₀ : Variants := Variants.none
/-- No core owes another anything: no level is assigned. -/
abbrev L : GSem nD τ sig → Finset Unit := fun _ => ∅
abbrev lv : GSem nD τ sig → Unit → ℕ := fun _ _ => 0

/-- What a core holds beside its buffers at every boundary: its generator register at some state, and that it owes
    nothing. -/
abbrev Side (c : Dev nD) : sProp 𝕄 :=
  iprop((∃ r, prngReg c r) ∗ ∃ W, owes (c : Thread nD τ) (0 : CellTallies nD τ sig Unit) W)
/-- A core's state at a boundary: every unscoped buffer at the boundary's contents, and the side. -/
abbrev At (W : Dev nD → Valuation τ sig (Elt F)) (c : Dev nD) : sProp 𝕄 :=
  iprop(StableHlo.held (c : Thread nD τ) (Pipeline.ucRefs τ sig) (W c) ∗ Side (F := F) c)
/-- The state at the return without the owing part: every unscoped buffer at the last contents, the generator
    register at some state. -/
abbrev Last (c : Dev nD) : sProp 𝕄 :=
  iprop(StableHlo.held (c : Thread nD τ) (Pipeline.ucRefs τ sig) (Wend dat0 dat1 m c) ∗ ∃ r, prngReg c r)

/-- An unscoped TensorCore reference is among those a core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (hA0 : ∀ V c w, (dat0 V c).A w = V c (Pipeline.arrRef spec0 w))
variable (hq0 : ∀ V c w, (dat0 V c).q w = fullShare)
variable (howed0 : ∀ V c t, (dat0 V c).owed t = 0)
variable (hrec0 : ∀ V c t, (dat0 V c).recorded t = Set.univ)
variable (hbody0 : ∀ V c, BodyObligation (dat0 V c) (defs₀ (F := F)) Variants.none () Set.univ)
variable (hin0 : ∀ V c, Pipeline.ΦA spec0 c ⊢ (dat0 V c).Φ 0)
variable (hout0 : ∀ V c, (dat0 V c).Φ (Fin.last cfg0.N) ⊢ Pipeline.ΦA spec0 c)
variable (hA1 : ∀ V c w, (dat1 V c).A w = V c (Pipeline.arrRef spec1 w))
variable (hq1 : ∀ V c w, (dat1 V c).q w = fullShare)
variable (howed1 : ∀ V c t, (dat1 V c).owed t = 0)
variable (hrec1 : ∀ V c t, (dat1 V c).recorded t = Set.univ)
variable (hbody1 : ∀ V c, BodyObligation (dat1 V c) (defs₀ (F := F)) Variants.none () Set.univ)
variable (hin1 : ∀ V c, Pipeline.ΦA spec1 c ⊢ (dat1 V c).Φ 0)
variable (hout1 : ∀ V c, (dat1 V c).Φ (Fin.last cfg1.N) ⊢ Pipeline.ΦA spec1 c)

set_option backward.isDefEq.respectTransparency.types false in
/-- Region 0 over the cores' states: entered from every unscoped buffer at the launch contents, left with them at
    `Wmid`. At entry its arrays are split out of the unscoped buffers, at exit put back at what the write-backs
    leave; the generator register and the scoped buffers no window stages go into the body's invariant at the first
    point and come back from it at the last; nothing is owed; the kernel has no semaphore of its own. -/
def reg0 : Pipeline.RegionSeg (pcfgs (F := F)) adm (pdats dat0 dat1 m) () defs₀ 𝒱₀ L lv 0 where
  win := launch0.win.to₀
  block_pos := launch0.block_pos
  stage_whole := launch0.stage_whole
  K := PEmpty
  osem k := k.elim
  ho := Pipeline.OwnSemFacts.none _
  hbody c := (hbody0 (Vin m) c).loose
  hwaits := Pipeline.hwaits_of_owed_zero _ _ _ _ L lv 0 fun c t => howed0 (Vin m) c t
  pre := At (Wlaunch m)
  post := At (Wmid dat0 m)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats dat0 dat1 m) launch0.win launch0.arr_whole c
      ((pdats dat0 dat1 m 0 c).share_full fun w => hq0 (Vin m) c w) (Vin m c) fun w => hA0 (Vin m) c w
    rw [Pipeline.unscopedBufs_held] at hsplit
    have howes := owesAt_first (dat0 (Vin m) c) (howed0 (Vin m) c 0) (hrec0 (Vin m) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    refine BIBase.Entails.trans ?_ (hin0 (Vin m) c)
    unfold Pipeline.ΦA
    iintro ⟨Hp, -, Hr⟩
    isplitl [Hr]; · iexact Hr
    iexact Hp
  hout c := by
    rw [Pipeline.ownSems0_none]
    refine BIBase.Entails.trans (hout0 (Vin m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 m) ((pdats dat0 dat1 m 0 c).share_full fun w => hq0 (Vin m) c w)
      (Vin m c) (Vmid dat0 m c) ((pdats dat0 dat1 m 0 c).arrAt · cfg0.N) (mid_arr dat0 m c) (mid_rest dat0 m c)
    rw [Pipeline.unscopedBufs_held] at hjoin
    have howes := owesAt_last (dat0 (Vin m) c) (howed0 (Vin m) c _)
    iintro ⟨Ha, HO, HY, Hrest⟩
    imodintro
    isplitl [Ha Hrest]
    · iapply hjoin; isplitl [Ha] <;> iassumption
    isplitl [HY]; · iexact HY
    iapply howes; iexact HO

set_option backward.isDefEq.respectTransparency.types false in
/-- Region 1 over the cores' states: entered from every unscoped buffer at `Wmid`, left with them at `Wend`, the
    contents the launch reads at the return. The same four steps as region 0's. -/
def reg1 : Pipeline.RegionSeg (pcfgs (F := F)) adm (pdats dat0 dat1 m) () defs₀ 𝒱₀ L lv 1 where
  win := launch1.win.to₀
  block_pos := launch1.block_pos
  stage_whole := launch1.stage_whole
  K := PEmpty
  osem k := k.elim
  ho := Pipeline.OwnSemFacts.none _
  hbody c := (hbody1 (Vmid dat0 m) c).loose
  hwaits := Pipeline.hwaits_of_owed_zero _ _ _ _ L lv 1 fun c t => howed1 (Vmid dat0 m) c t
  pre := At (Wmid dat0 m)
  post c := iprop(Last dat0 dat1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid dat0 m c)
  hentry c := by
    rw [Pipeline.ownSems0_none]
    have hsplit := Pipeline.arrays_of_unscopedBufs (p := 1) (pcfgs (F := F)) adm (pdats dat0 dat1 m) launch1.win launch1.arr_whole c
      ((pdats dat0 dat1 m 1 c).share_full fun w => hq1 (Vmid dat0 m) c w) (Vmid dat0 m c) fun w => hA1 (Vmid dat0 m) c w
    rw [Pipeline.unscopedBufs_held] at hsplit
    have howes := owesAt_first (dat1 (Vmid dat0 m) c) (howed1 (Vmid dat0 m) c 0) (hrec1 (Vmid dat0 m) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := by
    refine BIBase.Entails.trans ?_ (hin1 (Vmid dat0 m) c)
    unfold Pipeline.ΦA
    iintro ⟨Hp, -, Hr⟩
    isplitl [Hr]; · iexact Hr
    iexact Hp
  hout c := by
    rw [Pipeline.ownSems0_none]
    refine BIBase.Entails.trans (hout1 (Vmid dat0 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 m) ((pdats dat0 dat1 m 1 c).share_full fun w => hq1 (Vmid dat0 m) c w)
      (Vmid dat0 m c) (Vend dat0 dat1 m c) ((pdats dat0 dat1 m 1 c).arrAt · cfg1.N) (end_arr dat0 dat1 m c) (end_rest dat0 dat1 m c)
    rw [Pipeline.unscopedBufs_held] at hjoin
    have howes := owesAt_last (dat1 (Vmid dat0 m) c) (howed1 (Vmid dat0 m) c _)
    iintro ⟨Ha, HO, HY, Hrest⟩
    imodintro
    isplitl [Ha Hrest HY]
    · isplitl [Ha Hrest]
      · iapply hjoin; isplitl [Ha] <;> iassumption
      iexact HY
    iapply howes; iexact HO

/-! ## @main as the two regions, and the launch -/

/-- @main's two segments in order: a region per kernel call, no host operation between or around them. -/
abbrev segs : List (Pipeline.Seg (pcfgs (F := F)) adm (pdats dat0 dat1 m) () defs₀ 𝒱₀ L lv) :=
  [ .region (reg0 dat0 dat1 m hA0 hq0 howed0 hrec0 hbody0 hin0 hout0),
    .region (reg1 dat0 dat1 m hA1 hq1 howed1 hrec1 hbody1 hin1 hout1) ]

/-- @main is the run of those segments. -/
theorem main_run (c : Dev nD) :
    main (F := F) c = Pipeline.Seg.run (segs dat0 dat1 m hA0 hq0 howed0 hrec0 hbody0 hin0 hout0 hA1 hq1 howed1 hrec1 hbody1 hin1 hout1) :=
  main_segs adm (pdats dat0 dat1 m) () 𝒱₀ L lv _ _ c

include hA0 hq0 howed0 hrec0 hbody0 hin0 hout0 hA1 hq1 howed1 hrec1 hbody1 hin1 hout1

set_option backward.isDefEq.respectTransparency.types false in
/-- The run of @main. At the compiled mesh, from any memory `m` with zero semaphore counters, every weakly fair execution of
    @main on the TensorCores terminates, nothing faulting, and in every final state each unscoped buffer of each core
    holds the last contents of the fold, `Wend`: the launch over the two segments, the last state read against the
    final memory buffer by buffer. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Wend dat0 dat1 m c b) :=
  Pipeline.θ_run_regions_kit (pcfgs (F := F)) adm (pdats dat0 dat1 m) () cellOf_inj emb₁ defs₀ 𝒱₀ L lv m ρ main
    (segs dat0 dat1 m hA0 hq0 howed0 hrec0 hbody0 hin0 hout0 hA1 hq1 howed1 hrec1 hbody1 hin1 hout1)
    (fun c Q => by rw [main_run dat0 dat1 m hA0 hq0 howed0 hrec0 hbody0 hin0 hout0 hA1 hq1 howed1 hrec1 hbody1 hin1 hout1 c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (Wlaunch m)) (Tₙ := Last dat0 dat1 m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wlaunch m c)
        from Pipeline.unscopedBufs_held c (Wlaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend dat0 dat1 m c b)
    (hfin := fun c s' => by
      iintro ⟨⟨Hh, -⟩, HSI⟩
      unfold StableHlo.held
      imodintro
      iapply (pointsTo_read_all (Pipeline.ucRefs τ sig) (fun b => (((c : Thread nD τ)).1, b)) (Wend dat0 dat1 m c) s')
      isplitl [Hh] <;> iassumption)
    (hQ := fun s h c => h c)

/-- The arguments end as launched: the program terminates on every core, faults nowhere, and leaves each of its eight argument arrays as
    launched. From the run: an argument's buffer is unscoped, and the fold at it walks back to the launch memory. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (Q := fun r => ∀ c : Dev nD,
      ∀ b ∈ Pipeline.ucRefs τ sig, r.2.mem (((c : Thread nD τ)).1, b) = Wend dat0 dat1 m c b) (fun r h c =>
    ⟨(h c _ (mem_uc main_arg0 (by decide))).trans (Wend_main_arg0 dat0 dat1 hA0 m c),
     (h c _ (mem_uc main_arg1 (by decide))).trans (Wend_main_arg1 dat0 dat1 hA0 m c),
     (h c _ (mem_uc main_arg2 (by decide))).trans (Wend_main_arg2 dat0 dat1 hA0 m c),
     (h c _ (mem_uc main_arg3 (by decide))).trans (Wend_main_arg3 dat0 dat1 hA0 m c),
     (h c _ (mem_uc main_arg4 (by decide))).trans (Wend_main_arg4 dat0 dat1 hA0 m c),
     (h c _ (mem_uc main_arg5 (by decide))).trans (Wend_main_arg5 dat0 dat1 hA0 m c),
     (h c _ (mem_uc main_arg6 (by decide))).trans (Wend_main_arg6 dat0 dat1 hA0 m c),
     (h c _ (mem_uc main_arg7 (by decide))).trans (Wend_main_arg7 dat0 dat1 hA0 m c)⟩)
    (run_all dat0 dat1 m hA0 hq0 howed0 hrec0 hbody0 hin0 hout0 hA1 hq1 howed1 hrec1 hbody1 hin1 hout1 ρ)

end Run

end Cert.KernelIdeal.Gen2

end
-- ==== Proof.Ideal.Region0Runs.lean ====
/-
  Region 0 (the reduction kernel, 16 grid points (b, n) in row-major order, n the token tile): what its three control
  cases share. The body initialises the six carried buffers (running maxima m0, m1, denominators l0, l1, accumulators
  acc0, acc1) when n = 0, updates them and stores the query block at every point, and stores the two context blocks
  acc / l when n = 3. Here: the two conditions in closed form over the grid, where the context windows are idle,
  the staging and carried memrefs by name, each window's block read off the entry contents, and the region's
  invariant with the carried buffers spelled out.
-/
import proofs.«174424_j489626271899_2_alg».proof.Proof.Gen.KernelIdeal.Launch
import proofs.«174424_j489626271899_2_alg».proof.Proof.Gen.KernelIdeal.Skeleton
import proofs.«174424_j489626271899_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer contents of a core when the region is entered, read at a TensorCore reference. -/
abbrev Entry (F : FTy → Type) [FloatOps F] : Type := (c : Dev nD) → (b : Ref sig .tc) → Buf (Elt F) ((c : Thread nD τ).loc b)

variable (V : Entry F)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not (an unfetched input's
    block index has not moved since the point before), for any proof data whose array is the entry contents and whose body
    leaves the block in place. One statement per input window: a window's block type reduces only at a literal window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The first conditional (the carried buffers are initialised): the token-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (the context blocks are stored): the token-tile coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the context windows 8 and 9 are idle -/

theorem idleAt0_8 : ∀ t : Fin cfg0.N, ¬cond0_1 (grid0.coords t) → cfg0.idle 8 (grid0.coords t) = true := by decide +kernel
theorem idleAt0_9 : ∀ t : Fin cfg0.N, ¬cond0_1 (grid0.coords t) → cfg0.idle 9 (grid0.coords t) = true := by decide +kernel
theorem noFlush0_8 : ∀ t : Fin cfg0.N, ¬cond0_1 (grid0.coords t) → (cfg0.win 8).flush t = false := by decide +kernel
theorem noFlush0_9 : ∀ t : Fin cfg0.N, ¬cond0_1 (grid0.coords t) → (cfg0.win 9).flush t = false := by decide +kernel
theorem liveAt0_8 : ∀ t : Fin cfg0.N, cond0_1 (grid0.coords t) → cfg0.idle 8 (grid0.coords t) = false := by decide +kernel
theorem liveAt0_9 : ∀ t : Fin cfg0.N, cond0_1 (grid0.coords t) → cfg0.idle 9 (grid0.coords t) = false := by decide +kernel
/-- Every other window is live at every point. -/
theorem liveAt0 : ∀ w : Fin cfg0.W, w ≠ 8 → w ≠ 9 → ∀ i : grid0.Coords, cfg0.idle w i = false := by decide +kernel

/-! ## The memrefs the body is called with -/

abbrev ms0_0 (t : Fin cfg0.N) : Memref sig .tc .vmem S1x4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4096x128 .bf16 := win0_10.stage (cfg0.slots t 10)
abbrev hs0_10 (t : Fin cfg0.N) : (ms0_10 t).IsWhole := hstage0_10 ((cfg0.slots t 10).cast nbuf0_10)
/-- The six carried buffers: whole scoped buffers of the kernel's own. -/
abbrev scM0_0 : Memref sig .tc .vmem S64x1 .f32 := Memref.whole cc0_scratch0
abbrev scM0_1 : Memref sig .tc .vmem S64x1 .f32 := Memref.whole cc0_scratch1
abbrev scM0_2 : Memref sig .tc .vmem S64x64 .f32 := Memref.whole cc0_scratch2
abbrev scM0_3 : Memref sig .tc .vmem S64x1 .f32 := Memref.whole cc0_scratch3
abbrev scM0_4 : Memref sig .tc .vmem S64x1 .f32 := Memref.whole cc0_scratch4
abbrev scM0_5 : Memref sig .tc .vmem S64x64 .f32 := Memref.whole cc0_scratch5
/-- Views through which the contents of the outputs' buffers and of the carried buffers are stated. -/
abbrev VO0_8 : View sig .tc .vmem S1x64x64 .f32 := (Memref.whole cc0_stg8_0 : Memref sig .tc .vmem S1x64x64 .f32).view
abbrev VO0_9 : View sig .tc .vmem S1x64x64 .f32 := (Memref.whole cc0_stg9_0 : Memref sig .tc .vmem S1x64x64 .f32).view
abbrev VO0_10 : View sig .tc .vmem S1x4096x128 .bf16 := (Memref.whole cc0_stg10_0 : Memref sig .tc .vmem S1x4096x128 .bf16).view
abbrev VS0_0 : View sig .tc .vmem S64x1 .f32 := scM0_0.view
abbrev VS0_1 : View sig .tc .vmem S64x1 .f32 := scM0_1.view
abbrev VS0_2 : View sig .tc .vmem S64x64 .f32 := scM0_2.view
abbrev VS0_3 : View sig .tc .vmem S64x1 .f32 := scM0_3.view
abbrev VS0_4 : View sig .tc .vmem S64x1 .f32 := scM0_4.view
abbrev VS0_5 : View sig .tc .vmem S64x64 .f32 := scM0_5.view

/-- The scoped buffers of the core that region 0 neither stages nor carries (the other region's staging buffers), each whole
    at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region's plain invariant (every scoped buffer it does not stage at some contents, the generator register at some
    state) with the six carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ rest0 (F := F) c) ∗ (∃ r, prngReg c r)) := by
  unfold Pipeline.ΦA rest0; rw [scopedRest0_eq]; simp only [scM0_0, scM0_1, scM0_2, scM0_3, scM0_4, scM0_5, owns_whole]; try rfl

end Cert.KernelIdeal.Gen2

end
-- ==== Proof.Ideal.Region0RunA.lean ====
/-
  Region 0's body at the first token tile (n = 0): the first conditional taken, the second not. The six carried buffers come in at anything, are initialised (running maxima at the finite sentinel, denominators and accumulators at zero), then updated with the tile; the query block is stored; the two context windows are handed back untouched.
-/
import proofs.«174424_j489626271899_2_alg».proof.Proof.Ideal.Region0Runs

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the query window's buffer and in each carried buffer (last store first), with
    the proof that from the inputs at their contents, the context windows at any contents (handed back untouched) and the
    query window and the carried buffers at anything, the body runs to the continuation holding the inputs as they were
    and each stored buffer with its pieces written. The pieces are found by the run itself. -/
noncomputable def kernelRun0_A (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x4096x128 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x64 .f32) (harg18 : arg18.IsWhole) (hc0 : cond0_0 i) (hc1 : ¬cond0_1 i)
    (x0 x1 : Vec F S1x4096x256 .f32) (x2 x3 x4 x5 x6 x7 : Vec F S64x256 .f32) :
    Σ' (L10 : List (View.Piece (Elt F) S1x4096x128 .bf16)) (LS0 : List (View.Piece (Elt F) S64x1 .f32)) (LS1 : List (View.Piece (Elt F) S64x1 .f32)) (LS2 : List (View.Piece (Elt F) S64x64 .f32)) (LS3 : List (View.Piece (Elt F) S64x1 .f32)) (LS4 : List (View.Piece (Elt F) S64x1 .f32)), { LS5 : List (View.Piece (Elt F) S64x64 .f32) //
      ∀ (xi8 xi9 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4) ∗ (∃ f, arg18.view.loc (c : Thread nD τ) ↦[arg18.view.set]{fullShare} arg18.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun xi8 xi9 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Gen2

end
-- ==== Proof.Ideal.Region0RunB.lean ====
/-
  Region 0's body at the middle token tiles (n = 1, 2): neither conditional taken. The carried buffers come in at what the tile before left, are updated, and the query block is stored; the two context windows are handed back untouched.
-/
import proofs.«174424_j489626271899_2_alg».proof.Proof.Ideal.Region0RunA

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the query window's buffer and in each carried buffer (last store first), with
    the proof that from the inputs at their contents, the context windows at any contents (handed back untouched), the
    query window at anything and the carried buffers at `xs·`, the body runs to the continuation holding the inputs as
    they were and each stored buffer with its pieces written. The pieces are found by the run itself. -/
noncomputable def kernelRun0_B (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x4096x128 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x64 .f32) (harg18 : arg18.IsWhole) (hc0 : ¬cond0_0 i) (hc1 : ¬cond0_1 i)
    (x0 x1 : Vec F S1x4096x256 .f32) (x2 x3 x4 x5 x6 x7 : Vec F S64x256 .f32) (xs0 xs1 : Vec F S64x1 .f32) (xs2 : Vec F S64x64 .f32) (xs3 xs4 : Vec F S64x1 .f32) (xs5 : Vec F S64x64 .f32) :
    Σ' (L10 : List (View.Piece (Elt F) S1x4096x128 .bf16)) (LS0 : List (View.Piece (Elt F) S64x1 .f32)) (LS1 : List (View.Piece (Elt F) S64x1 .f32)) (LS2 : List (View.Piece (Elt F) S64x64 .f32)) (LS3 : List (View.Piece (Elt F) S64x1 .f32)) (LS4 : List (View.Piece (Elt F) S64x1 .f32)), { LS5 : List (View.Piece (Elt F) S64x64 .f32) //
      ∀ (xi8 xi9 : Vec F S1x64x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4) ∗ (∃ f, arg18.view.loc (c : Thread nD τ) ↦[arg18.view.set]{fullShare} arg18.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun xi8 xi9 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hf9
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Gen2

end
-- ==== Proof.Ideal.Region0RunC.lean ====
/-
  Region 0's body at the last token tile (n = 3): the first conditional not taken, the second taken. The carried buffers come in at what the tile before left and are updated, the query block is stored, and the two context blocks acc / l are stored into windows 8 and 9.
-/
import proofs.«174424_j489626271899_2_alg».proof.Proof.Ideal.Region0RunB

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three output windows' buffers and in each carried buffer (last store first),
    with the proof that from the inputs at their contents, the output windows at anything and the carried buffers at
    `xs·`, the body runs to the continuation holding the inputs as they were and each stored buffer with its pieces
    written. The pieces are found by the run itself. -/
noncomputable def kernelRun0_C (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x4096x128 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x64 .f32) (harg18 : arg18.IsWhole) (hc0 : ¬cond0_0 i) (hc1 : cond0_1 i)
    (x0 x1 : Vec F S1x4096x256 .f32) (x2 x3 x4 x5 x6 x7 : Vec F S64x256 .f32) (xs0 xs1 : Vec F S64x1 .f32) (xs2 : Vec F S64x64 .f32) (xs3 xs4 : Vec F S64x1 .f32) (xs5 : Vec F S64x64 .f32) :
    Σ' (L8 : List (View.Piece (Elt F) S1x64x64 .f32)) (L9 : List (View.Piece (Elt F) S1x64x64 .f32)) (L10 : List (View.Piece (Elt F) S1x4096x128 .bf16)) (LS0 : List (View.Piece (Elt F) S64x1 .f32)) (LS1 : List (View.Piece (Elt F) S64x1 .f32)) (LS2 : List (View.Piece (Elt F) S64x64 .f32)) (LS3 : List (View.Piece (Elt F) S64x1 .f32)) (LS4 : List (View.Piece (Elt F) S64x1 .f32)), { LS5 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ f, arg16.view.loc (c : Thread nD τ) ↦[arg16.view.set]{fullShare} arg16.view.writes (Elt F) f LS3) ∗ (∃ f, arg17.view.loc (c : Thread nD τ) ↦[arg17.view.set]{fullShare} arg17.view.writes (Elt F) f LS4) ∗ (∃ f, arg18.view.loc (c : Thread nD τ) ↦[arg18.view.set]{fullShare} arg18.view.writes (Elt F) f LS5)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Gen2

end
-- ==== Proof.Ideal.Region0.lean ====
/-
  Region 0, from its three runs to its proof data: what each case leaves in the output windows and in the six carried
  buffers (its stores read back; they cover each buffer), what the buffers hold after each grid point by recursion on the
  point (the carried buffers of point (b, n) feed point (b, n + 1); at n = 0 they are initialised afresh), the region's
  invariant with the carried buffers named after every point, the proof data, and the body obligation.
-/
import proofs.«174424_j489626271899_2_alg».proof.Proof.Ideal.Region0RunC

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- The carried buffers' contents: running maximum, denominator and accumulator of stream 0, then of stream 1. -/
abbrev Carry (F : FTy → Type) [FloatOps F] : Type :=
  Vec F S64x1 .f32 × Vec F S64x1 .f32 × Vec F S64x64 .f32 × Vec F S64x1 .f32 × Vec F S64x1 .f32 × Vec F S64x64 .f32
/-- The three output windows' buffers: the two context blocks and the query block. -/
abbrev Outs (F : FTy → Type) [FloatOps F] : Type := Vec F S1x64x64 .f32 × Vec F S1x64x64 .f32 × Vec F S1x4096x128 .bf16

/-! ## The runs at a grid point: the point's memrefs, the carried buffers' memrefs, the input windows' blocks -/

abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)
abbrev runB (c : Dev nD) (t : Fin cfg0.N) (h0 : ¬t.val % 4 = 0) (h1 : ¬t.val % 4 = 3) (xs : Carry F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) xs.1 xs.2.1 xs.2.2.1 xs.2.2.2.1 xs.2.2.2.2.1 xs.2.2.2.2.2
abbrev runC (c : Dev nD) (t : Fin cfg0.N) (h0 : ¬t.val % 4 = 0) (h1 : t.val % 4 = 3) (xs : Carry F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) xs.1 xs.2.1 xs.2.2.1 xs.2.2.2.1 xs.2.2.2.2.1 xs.2.2.2.2.2

/-! ## Each case's stores cover the buffers they are made into -/

theorem coverA (c : Dev nD) (t : Fin cfg0.N) (h0 : t.val % 4 = 0) (h1 : ¬t.val % 4 = 3) :
    (∀ y : S1x4096x128.Idx, ∃ pc ∈ (runA V c t h0 h1).1, y ∈ pc.1.set)
      ∧ (∀ y : S64x1.Idx, ∃ pc ∈ (runA V c t h0 h1).2.1, y ∈ pc.1.set)
      ∧ (∀ y : S64x1.Idx, ∃ pc ∈ (runA V c t h0 h1).2.2.1, y ∈ pc.1.set)
      ∧ (∀ y : S64x64.Idx, ∃ pc ∈ (runA V c t h0 h1).2.2.2.1, y ∈ pc.1.set)
      ∧ (∀ y : S64x1.Idx, ∃ pc ∈ (runA V c t h0 h1).2.2.2.2.1, y ∈ pc.1.set)
      ∧ (∀ y : S64x1.Idx, ∃ pc ∈ (runA V c t h0 h1).2.2.2.2.2.1, y ∈ pc.1.set)
      ∧ (∀ y : S64x64.Idx, ∃ pc ∈ (runA V c t h0 h1).2.2.2.2.2.2.1, y ∈ pc.1.set) :=
  ⟨fun y => View.cover_of_tiledL ((runA V c t h0 h1).1) S1x4096x128.size (by sl_kernel_rfl) y,
    fun y => View.cover_of_tiledL ((runA V c t h0 h1).2.1) S64x1.size (by sl_kernel_rfl) y,
    fun y => View.cover_of_tiledL ((runA V c t h0 h1).2.2.1) S64x1.size (by sl_kernel_rfl) y,
    fun y => View.cover_of_tiledL ((runA V c t h0 h1).2.2.2.1) S64x64.size (by sl_kernel_rfl) y,
    fun y => View.cover_of_tiledL ((runA V c t h0 h1).2.2.2.2.1) S64x1.size (by sl_kernel_rfl) y,
    fun y => View.cover_of_tiledL ((runA V c t h0 h1).2.2.2.2.2.1) S64x1.size (by sl_kernel_rfl) y,
    fun y => View.cover_of_tiledL ((runA V c t h0 h1).2.2.2.2.2.2.1) S64x64.size (by sl_kernel_rfl) y⟩
theorem coverB (c : Dev nD) (t : Fin cfg0.N) (h0 : ¬t.val % 4 = 0) (h1 : ¬t.val % 4 = 3) (xs : Carry F) :
    (∀ y : S1x4096x128.Idx, ∃ pc ∈ (runB V c t h0 h1 xs).1, y ∈ pc.1.set)
      ∧ (∀ y : S64x1.Idx, ∃ pc ∈ (runB V c t h0 h1 xs).2.1, y ∈ pc.1.set)
      ∧ (∀ y : S64x1.Idx, ∃ pc ∈ (runB V c t h0 h1 xs).2.2.1, y ∈ pc.1.set)
      ∧ (∀ y : S64x64.Idx, ∃ pc ∈ (runB V c t h0 h1 xs).2.2.2.1, y ∈ pc.1.set)
      ∧ (∀ y : S64x1.Idx, ∃ pc ∈ (runB V c t h0 h1 xs).2.2.2.2.1, y ∈ pc.1.set)
      ∧ (∀ y : S64x1.Idx, ∃ pc ∈ (runB V c t h0 h1 xs).2.2.2.2.2.1, y ∈ pc.1.set)
      ∧ (∀ y : S64x64.Idx, ∃ pc ∈ (runB V c t h0 h1 xs).2.2.2.2.2.2.1, y ∈ pc.1.set) :=
  ⟨fun y => View.cover_of_tiledL ((runB V c t h0 h1 xs).1) S1x4096x128.size (by sl_kernel_rfl) y,
    fun y => View.cover_of_tiledL ((runB V c t h0 h1 xs).2.1) S64x1.size (by sl_kernel_rfl) y,
    fun y => View.cover_of_tiledL ((runB V c t h0 h1 xs).2.2.1) S64x1.size (by sl_kernel_rfl) y,
    fun y => View.cover_of_tiledL ((runB V c t h0 h1 xs).2.2.2.1) S64x64.size (by sl_kernel_rfl) y,
    fun y => View.cover_of_tiledL ((runB V c t h0 h1 xs).2.2.2.2.1) S64x1.size (by sl_kernel_rfl) y,
    fun y => View.cover_of_tiledL ((runB V c t h0 h1 xs).2.2.2.2.2.1) S64x1.size (by sl_kernel_rfl) y,
    fun y => View.cover_of_tiledL ((runB V c t h0 h1 xs).2.2.2.2.2.2.1) S64x64.size (by sl_kernel_rfl) y⟩
theorem coverC (c : Dev nD) (t : Fin cfg0.N) (h0 : ¬t.val % 4 = 0) (h1 : t.val % 4 = 3) (xs : Carry F) :
    (∀ y : S1x64x64.Idx, ∃ pc ∈ (runC V c t h0 h1 xs).1, y ∈ pc.1.set)
      ∧ (∀ y : S1x64x64.Idx, ∃ pc ∈ (runC V c t h0 h1 xs).2.1, y ∈ pc.1.set)
      ∧ (∀ y : S1x4096x128.Idx, ∃ pc ∈ (runC V c t h0 h1 xs).2.2.1, y ∈ pc.1.set)
      ∧ (∀ y : S64x1.Idx, ∃ pc ∈ (runC V c t h0 h1 xs).2.2.2.1, y ∈ pc.1.set)
      ∧ (∀ y : S64x1.Idx, ∃ pc ∈ (runC V c t h0 h1 xs).2.2.2.2.1, y ∈ pc.1.set)
      ∧ (∀ y : S64x64.Idx, ∃ pc ∈ (runC V c t h0 h1 xs).2.2.2.2.2.1, y ∈ pc.1.set)
      ∧ (∀ y : S64x1.Idx, ∃ pc ∈ (runC V c t h0 h1 xs).2.2.2.2.2.2.1, y ∈ pc.1.set)
      ∧ (∀ y : S64x1.Idx, ∃ pc ∈ (runC V c t h0 h1 xs).2.2.2.2.2.2.2.1, y ∈ pc.1.set)
      ∧ (∀ y : S64x64.Idx, ∃ pc ∈ (runC V c t h0 h1 xs).2.2.2.2.2.2.2.2.1, y ∈ pc.1.set) :=
  ⟨fun y => View.cover_of_tiledL ((runC V c t h0 h1 xs).1) S1x64x64.size (by sl_kernel_rfl) y,
    fun y => View.cover_of_tiledL ((runC V c t h0 h1 xs).2.1) S1x64x64.size (by sl_kernel_rfl) y,
    fun y => View.cover_of_tiledL ((runC V c t h0 h1 xs).2.2.1) S1x4096x128.size (by sl_kernel_rfl) y,
    fun y => View.cover_of_tiledL ((runC V c t h0 h1 xs).2.2.2.1) S64x1.size (by sl_kernel_rfl) y,
    fun y => View.cover_of_tiledL ((runC V c t h0 h1 xs).2.2.2.2.1) S64x1.size (by sl_kernel_rfl) y,
    fun y => View.cover_of_tiledL ((runC V c t h0 h1 xs).2.2.2.2.2.1) S64x64.size (by sl_kernel_rfl) y,
    fun y => View.cover_of_tiledL ((runC V c t h0 h1 xs).2.2.2.2.2.2.1) S64x1.size (by sl_kernel_rfl) y,
    fun y => View.cover_of_tiledL ((runC V c t h0 h1 xs).2.2.2.2.2.2.2.1) S64x1.size (by sl_kernel_rfl) y,
    fun y => View.cover_of_tiledL ((runC V c t h0 h1 xs).2.2.2.2.2.2.2.2.1) S64x64.size (by sl_kernel_rfl) y⟩

/-! ## What each case leaves: its stores read back -/

/-- A context window where the case stores nothing into it: a placeholder nothing consults (the window is idle there and is
    not written back). -/
def idleOut : Vec F S1x64x64 .f32 := VO0_8.read (Elt F) (VO0_8.writes (Elt F) VO0_8.junk [])

def leftA (c : Dev nD) (t : Fin cfg0.N) (h0 : t.val % 4 = 0) (h1 : ¬t.val % 4 = 3) : Outs F × Carry F :=
  ((idleOut, idleOut, VO0_10.read (Elt F) (VO0_10.writes (Elt F) VO0_10.junk ((runA V c t h0 h1).1))), (VS0_0.read (Elt F) (VS0_0.writes (Elt F) VS0_0.junk ((runA V c t h0 h1).2.1)), VS0_1.read (Elt F) (VS0_1.writes (Elt F) VS0_1.junk ((runA V c t h0 h1).2.2.1)), VS0_2.read (Elt F) (VS0_2.writes (Elt F) VS0_2.junk ((runA V c t h0 h1).2.2.2.1)), VS0_3.read (Elt F) (VS0_3.writes (Elt F) VS0_3.junk ((runA V c t h0 h1).2.2.2.2.1)), VS0_4.read (Elt F) (VS0_4.writes (Elt F) VS0_4.junk ((runA V c t h0 h1).2.2.2.2.2.1)), VS0_5.read (Elt F) (VS0_5.writes (Elt F) VS0_5.junk ((runA V c t h0 h1).2.2.2.2.2.2.1))))
def leftB (c : Dev nD) (t : Fin cfg0.N) (h0 : ¬t.val % 4 = 0) (h1 : ¬t.val % 4 = 3) (xs : Carry F) : Outs F × Carry F :=
  ((idleOut, idleOut, VO0_10.read (Elt F) (VO0_10.writes (Elt F) VO0_10.junk ((runB V c t h0 h1 xs).1))), (VS0_0.read (Elt F) (VS0_0.writes (Elt F) VS0_0.junk ((runB V c t h0 h1 xs).2.1)), VS0_1.read (Elt F) (VS0_1.writes (Elt F) VS0_1.junk ((runB V c t h0 h1 xs).2.2.1)), VS0_2.read (Elt F) (VS0_2.writes (Elt F) VS0_2.junk ((runB V c t h0 h1 xs).2.2.2.1)), VS0_3.read (Elt F) (VS0_3.writes (Elt F) VS0_3.junk ((runB V c t h0 h1 xs).2.2.2.2.1)), VS0_4.read (Elt F) (VS0_4.writes (Elt F) VS0_4.junk ((runB V c t h0 h1 xs).2.2.2.2.2.1)), VS0_5.read (Elt F) (VS0_5.writes (Elt F) VS0_5.junk ((runB V c t h0 h1 xs).2.2.2.2.2.2.1))))
def leftC (c : Dev nD) (t : Fin cfg0.N) (h0 : ¬t.val % 4 = 0) (h1 : t.val % 4 = 3) (xs : Carry F) : Outs F × Carry F :=
  ((VO0_8.read (Elt F) (VO0_8.writes (Elt F) VO0_8.junk ((runC V c t h0 h1 xs).1)), VO0_9.read (Elt F) (VO0_9.writes (Elt F) VO0_9.junk ((runC V c t h0 h1 xs).2.1)), VO0_10.read (Elt F) (VO0_10.writes (Elt F) VO0_10.junk ((runC V c t h0 h1 xs).2.2.1))), (VS0_0.read (Elt F) (VS0_0.writes (Elt F) VS0_0.junk ((runC V c t h0 h1 xs).2.2.2.1)), VS0_1.read (Elt F) (VS0_1.writes (Elt F) VS0_1.junk ((runC V c t h0 h1 xs).2.2.2.2.1)), VS0_2.read (Elt F) (VS0_2.writes (Elt F) VS0_2.junk ((runC V c t h0 h1 xs).2.2.2.2.2.1)), VS0_3.read (Elt F) (VS0_3.writes (Elt F) VS0_3.junk ((runC V c t h0 h1 xs).2.2.2.2.2.2.1)), VS0_4.read (Elt F) (VS0_4.writes (Elt F) VS0_4.junk ((runC V c t h0 h1 xs).2.2.2.2.2.2.2.1)), VS0_5.read (Elt F) (VS0_5.writes (Elt F) VS0_5.junk ((runC V c t h0 h1 xs).2.2.2.2.2.2.2.2.1))))

/-! ## What the buffers hold after each point -/

/-- After the body at position `n`: the output windows' buffers and the carried buffers. Position 4·b + n' is batch b, token
    tile n': at n' = 0 the carried buffers start afresh, otherwise they continue from the position before; the context
    blocks are stored at n' = 3 only. -/
def outsAt0 (c : Dev nD) : (n : ℕ) → n < cfg0.N → Outs F × Carry F
  | 0, hn => leftA V c ⟨0, hn⟩ (Nat.zero_mod _) (by show ¬(0 % 4 = 3); omega)
  | n + 1, hn =>
    if h0 : (n + 1) % 4 = 0 then
      if h1 : (n + 1) % 4 = 3 then False.elim (by omega)
      else leftA V c ⟨n + 1, hn⟩ h0 h1
    else
      if h1 : (n + 1) % 4 = 3 then leftC V c ⟨n + 1, hn⟩ h0 h1 (outsAt0 c n (Nat.lt_of_succ_lt hn)).2
      else leftB V c ⟨n + 1, hn⟩ h0 h1 (outsAt0 c n (Nat.lt_of_succ_lt hn)).2

theorem outsAt0_A (c : Dev nD) (t : Fin cfg0.N) (h0 : t.val % 4 = 0) (h1 : ¬t.val % 4 = 3) :
    outsAt0 V c t.val t.isLt = leftA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = leftB V c t h0 h1 (outsAt0 V c (t.val - 1) (Nat.lt_of_le_of_lt (Nat.sub_le _ _) t.isLt)).2 := by
  obtain ⟨n, hn⟩ := t
  cases n with
  | zero => exact (by exfalso; exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = leftC V c t h0 h1 (outsAt0 V c (t.val - 1) (Nat.lt_of_le_of_lt (Nat.sub_le _ _) t.isLt)).2 := by
  obtain ⟨n, hn⟩ := t
  cases n with
  | zero => exact (by exfalso; exact absurd (Nat.zero_mod _) h0)
  | succ n => exact (dif_neg h0).trans ((dif_pos h1).trans rfl)

/-! ## The region's invariant -/

/-- The six carried buffers owned at the contents `xs`, beside the scoped buffers the region does not touch. -/
def carried (c : Dev nD) (xs : Carry F) : sProp 𝕄 :=
  iprop(owns (c : Thread nD τ) scM0_0 fullShare xs.1 ∗ owns (c : Thread nD τ) scM0_1 fullShare xs.2.1 ∗ owns (c : Thread nD τ) scM0_2 fullShare xs.2.2.1 ∗ owns (c : Thread nD τ) scM0_3 fullShare xs.2.2.2.1 ∗ owns (c : Thread nD τ) scM0_4 fullShare xs.2.2.2.2.1 ∗ owns (c : Thread nD τ) scM0_5 fullShare xs.2.2.2.2.2 ∗ rest0 (F := F) c)

/-- Before position `n`: at the start the plain invariant (every scoped buffer at anything); afterwards the carried buffers
    at what the position before left, and the generator register at some state. -/
def PhiS (c : Dev nD) : (n : ℕ) → n ≤ cfg0.N → sProp 𝕄
  | 0, _ => Pipeline.ΦA spec0 c
  | n + 1, hn => iprop(carried c (outsAt0 V c n hn).2 ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(carried c (outsAt0 V c n hn).2 ∗ (∃ r, prngReg c r)) := rfl
theorem PhiS_pos (c : Dev nD) (n : ℕ) (h : n ≤ cfg0.N) (hz : n ≠ 0) :
    PhiS V c n h = iprop(carried c (outsAt0 V c (n - 1) (by omega)).2 ∗ (∃ r, prngReg c r)) := by
  cases n with
  | zero => exact absurd rfl hz
  | succ n => rfl

/-- Carried buffers at named contents are carried buffers at some contents. -/
theorem carried_forget (c : Dev nD) (xs : Carry F) :
    iprop(carried c xs ∗ (∃ r, prngReg c r)) ⊢ (Pipeline.ΦA spec0 c : sProp 𝕄) := by
  rw [PhiA0_eq]; unfold carried
  iintro ⟨⟨HS0, HS1, HS2, HS3, HS4, HS5, Hr⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexact Hr
  iexact Hg

/-! ## The proof data -/

/-- Region 0's proof data on core `c`: the arrays as the region finds them; after the body at point `t` each input's
    buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1.1
    | ⟨9, _⟩ => (outsAt0 V c t.val t.isLt).1.2.1
    | ⟨10, _⟩ => (outsAt0 V c t.val t.isLt).1.2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1.1 := by dsimp only [dat0]
theorem after0_9 (c : Dev nD) (t : Fin cfg0.N) : (dat0 V c).after 9 t = (outsAt0 V c t.val t.isLt).1.2.1 := by dsimp only [dat0]
theorem after0_10 (c : Dev nD) (t : Fin cfg0.N) : (dat0 V c).after 10 t = (outsAt0 V c t.val t.isLt).1.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

end Cert.KernelIdeal.Gen2

end
-- ==== Proof.Ideal.Region0Body.lean ====
/-
  Region 0's body obligation: at every grid point the point's case applies (the two conditions in closed form decide which),
  the invariant hands the body the carried buffers at what the point before left (at anything when the tile axis starts
  over) and takes them back at this point's contents; each input window holds its block; a context window the case does
  not store into is handed back as found.
-/
import proofs.«174424_j489626271899_2_alg».proof.Proof.Ideal.Region0

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

/-- Before a point where the tile axis starts the invariant gives the carried buffers at some contents: it is the plain
    invariant at the very first point, and elsewhere the named contents are forgotten. -/
theorem start_forget (c : Dev nD) (t : Fin cfg0.N) :
    (dat0 V c).Φ t.castSucc ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ rest0 (F := F) c) ∗ (∃ r, prngReg c r)) : sProp 𝕄) := by
  rw [← PhiA0_eq, PhiS_castSucc V c t]
  by_cases hz : t.val = 0
  · rw [PhiS_zero V c _ _ hz]
  · rw [PhiS_pos V c _ _ hz]; exact carried_forget c _

set_option maxHeartbeats 4000000 in
/-- The first token tile of a batch: the carried buffers come in at anything. -/
theorem sound_A (c : Dev nD) (t : Fin cfg0.N) (h0 : t.val % 4 = 0) (h1 : ¬t.val % 4 = 3) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rewrite [show (dat0 V c).owesAt () t.succ = (dat0 V c).owesAt () t.castSucc from rfl]
  rewrite [show (dat0 V c).Φ t.succ = PhiS V c (t.val + 1) t.isLt from rfl, PhiS_succ]
  rewrite [show (dat0 V c).leavesExact 0 t = owns (c : Thread nD τ) (ms0_0 t) fullShare ((dat0 V c).after 0 t) from by
    unfold Dat.leavesExact; rw [liveAt0 0 (by decide) (by decide) (grid0.coords t)], after0_0]
  rewrite [show (dat0 V c).leavesExact 1 t = owns (c : Thread nD τ) (ms0_1 t) fullShare ((dat0 V c).after 1 t) from by
    unfold Dat.leavesExact; rw [liveAt0 1 (by decide) (by decide) (grid0.coords t)], after0_1]
  rewrite [show (dat0 V c).leavesExact 2 t = owns (c : Thread nD τ) (ms0_2 t) fullShare ((dat0 V c).after 2 t) from by
    unfold Dat.leavesExact; rw [liveAt0 2 (by decide) (by decide) (grid0.coords t)], after0_2]
  rewrite [show (dat0 V c).leavesExact 3 t = owns (c : Thread nD τ) (ms0_3 t) fullShare ((dat0 V c).after 3 t) from by
    unfold Dat.leavesExact; rw [liveAt0 3 (by decide) (by decide) (grid0.coords t)], after0_3]
  rewrite [show (dat0 V c).leavesExact 4 t = owns (c : Thread nD τ) (ms0_4 t) fullShare ((dat0 V c).after 4 t) from by
    unfold Dat.leavesExact; rw [liveAt0 4 (by decide) (by decide) (grid0.coords t)], after0_4]
  rewrite [show (dat0 V c).leavesExact 5 t = owns (c : Thread nD τ) (ms0_5 t) fullShare ((dat0 V c).after 5 t) from by
    unfold Dat.leavesExact; rw [liveAt0 5 (by decide) (by decide) (grid0.coords t)], after0_5]
  rewrite [show (dat0 V c).leavesExact 6 t = owns (c : Thread nD τ) (ms0_6 t) fullShare ((dat0 V c).after 6 t) from by
    unfold Dat.leavesExact; rw [liveAt0 6 (by decide) (by decide) (grid0.coords t)], after0_6]
  rewrite [show (dat0 V c).leavesExact 7 t = owns (c : Thread nD τ) (ms0_7 t) fullShare ((dat0 V c).after 7 t) from by
    unfold Dat.leavesExact; rw [liveAt0 7 (by decide) (by decide) (grid0.coords t)], after0_7]
  rewrite [show (dat0 V c).leavesExact 10 t = owns (c : Thread nD τ) (ms0_10 t) fullShare ((dat0 V c).after 10 t) from by
    unfold Dat.leavesExact; rw [liveAt0 10 (by decide) (by decide) (grid0.coords t)], after0_10]
  rewrite [Dat.leavesExact_idle (dat0 V c) 8 t (idleAt0_8 t (fun h => h1 ((hcond0_1 t).mp h))) (noFlush0_8 t (fun h => h1 ((hcond0_1 t).mp h)))]
  rewrite [Dat.leavesExact_idle (dat0 V c) 9 t (idleAt0_9 t (fun h => h1 ((hcond0_1 t).mp h))) (noFlush0_9 t (fun h => h1 ((hcond0_1 t).mp h)))]
  rewrite [outsAt0_A V c t h0 h1]
  unfold leftA carried; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ' := (start_forget V c t) $$ HΦ
  icases HΦ' with ⟨⟨HS0, HS1, HS2, HS3, HS4, HS5, Hr⟩, Hg⟩
  iapply ((runA V c t h0 h1).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, ⟨%e10, H10⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hr Hg]
  · isplitr [Hg]
    swap; · iexact Hg
    isplitl [HS0]
    · unfold owns; iexists _; isplitr
      swap; · iexact HS0
      ipureintro; exact View.read_writes_of_cover _ _ _ _ _ ((coverA V c t h0 h1).2.1)
    isplitl [HS1]
    · unfold owns; iexists _; isplitr
      swap; · iexact HS1
      ipureintro; exact View.read_writes_of_cover _ _ _ _ _ ((coverA V c t h0 h1).2.2.1)
    isplitl [HS2]
    · unfold owns; iexists _; isplitr
      swap; · iexact HS2
      ipureintro; exact View.read_writes_of_cover _ _ _ _ _ ((coverA V c t h0 h1).2.2.2.1)
    isplitl [HS3]
    · unfold owns; iexists _; isplitr
      swap; · iexact HS3
      ipureintro; exact View.read_writes_of_cover _ _ _ _ _ ((coverA V c t h0 h1).2.2.2.2.1)
    isplitl [HS4]
    · unfold owns; iexists _; isplitr
      swap; · iexact HS4
      ipureintro; exact View.read_writes_of_cover _ _ _ _ _ ((coverA V c t h0 h1).2.2.2.2.2.1)
    isplitl [HS5]
    · unfold owns; iexists _; isplitr
      swap; · iexact HS5
      ipureintro; exact View.read_writes_of_cover _ _ _ _ _ ((coverA V c t h0 h1).2.2.2.2.2.2)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  unfold owns; iexists _; isplitr
  swap; · iexact H10
  ipureintro; exact View.read_writes_of_cover _ _ _ _ _ ((coverA V c t h0 h1).1)

set_option maxHeartbeats 4000000 in
/-- A middle token tile. -/
theorem sound_B (c : Dev nD) (t : Fin cfg0.N) (h0 : ¬t.val % 4 = 0) (h1 : ¬t.val % 4 = 3) :
    bodyPre0 V c t ⊢ wp frame (wpE (defs₀ (F := F)) Variants.none c none) Set.univ (bodyAt0 t) (fun _ => bodyPost0 V c t) := by
  have hz : t.val ≠ 0 := fun e => h0 (by rw [e])
  unfold bodyPre0 bodyPost0 bodyAt0
  simp only [before0_0, before0_1, before0_2, before0_3, before0_4, before0_5, before0_6, before0_7]
  rewrite [show (dat0 V c).owesAt () t.succ = (dat0 V c).owesAt () t.castSucc from rfl]
  rewrite [show (dat0 V c).Φ t.succ = PhiS V c (t.val + 1) t.isLt from rfl, PhiS_succ]
  rewrite [show (dat0 V c).leavesExact 0 t = owns (c : Thread nD τ) (ms0_0 t) fullShare ((dat0 V c).after 0 t) from by
    unfold Dat.leavesExact; rw [liveAt0 0 (by decide) (by decide) (grid0.coords t)], after0_0]
  rewrite [show (dat0 V c).leavesExact 1 t = owns (c : Thread nD τ) (ms0_1 t) fullShare ((dat0 V c).after 1 t) from by
    unfold Dat.leavesExact; rw [liveAt0 1 (by decide) (by decide) (grid0.coords t)], after0_1]
  rewrite [show (dat0 V c).leavesExact 2 t = owns (c : Thread nD τ) (ms0_2 t) fullShare ((dat0 V c).after 2 t) from by
    unfold Dat.leavesExact; rw [liveAt0 2 (by decide) (by decide) (grid0.coords t)], after0_2]
  rewrite [show (dat0 V c).leavesExact 3 t = owns (c : Thread nD τ) (ms0_3 t) fullShare ((dat0 V c).after 3 t) from by
    unfold Dat.leavesExact; rw [liveAt0 3 (by decide) (by decide) (grid0.coords t)], after0_3]
  rewrite [show (dat0 V c).leavesExact 4 t = owns (c : Thread nD τ) (ms0_4 t) fullShare ((dat0 V c).after 4 t) from by
    unfold Dat.leavesExact; rw [liveAt0 4 (by decide) (by decide) (grid0.coords t)], after0_4]
  rewrite [show (dat0 V c).leavesExact 5 t = owns (c : Thread nD τ) (ms0_5 t) fullShare ((dat0 V c).after 5 t) from by
    unfold Dat.leavesExact; rw [liveAt0 5 (by decide) (by decide) (grid0.coords t)], after0_5]
  rewrite [show (dat0 V c).leavesExact 6 t = owns (c : Thread nD τ) (ms0_6 t) fullShare ((dat0 V c).after 6 t) from by
    unfold Dat.leavesExact; rw [liveAt0 6 (by decide) (by decide) (grid0.coords t)], after0_6]
  rewrite [show (dat0 V c).leavesExact 7 t = owns (c : Thread nD τ) (ms0_7 t) fullShare ((dat0 V c).after 7 t) from by
    unfold Dat.leavesExact; rw [liveAt0 7 (by decide) (by decide) (grid0.coords t)], after0_7]
  rewrite [show (dat0 V c).leavesExact 10 t = owns (c : Thread nD τ) (ms0_10 t) fullShare ((dat0 V c).after 10 t) from by
    unfold Dat.leavesExact; rw [liveAt0 10 (by decide) (by decide) (grid0.coords t)], after0_10]
  rewrite [Dat.leavesExact_idle (dat0 V c) 8 t (idleAt0_8 t (fun h => h1 ((hcond0_1 t).mp h))) (noFlush0_8 t (fun h => h1 ((hcond0_1 t).mp h)))]
  rewrite [Dat.leavesExact_idle (dat0 V c) 9 t (idleAt0_9 t (fun h => h1 ((hcond0_1 t).mp h))) (noFlush0_9 t (fun h => h1 ((hcond0_1 t).mp h)))]
  rewrite [outsAt0_B V c t h0 h1]
  unfold leftB carried; (try dsimp only)
  rewrite [PhiS_castSucc V c t, PhiS_pos V c _ _ hz]; unfold carried
  iintro ⟨⟨⟨HS0, HS1, HS2, HS3, HS4, HS5, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB V c t h0 h1 _).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, ⟨%e10, H10⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hr Hg]
  · isplitr [Hg]
    swap; · iexact Hg
    isplitl [HS0]
    · unfold owns; iexists _; isplitr
      swap; · iexact HS0
      ipureintro; exact View.read_writes_of_cover _ _ _ _ _ ((coverB V c t h0 h1 _).2.1)
    isplitl [HS1]
    · unfold owns; iexists _; isplitr
      swap; · iexact HS1
      ipureintro; exact View.read_writes_of_cover _ _ _ _ _ ((coverB V c t h0 h1 _).2.2.1)
    isplitl [HS2]
    · unfold owns; iexists _; isplitr
      swap; · iexact HS2
      ipureintro; exact View.read_writes_of_cover _ _ _ _ _ ((coverB V c t h0 h1 _).2.2.2.1)
    isplitl [HS3]
    · unfold owns; iexists _; isplitr
      swap; · iexact HS3
      ipureintro; exact View.read_writes_of_cover _ _ _ _ _ ((coverB V c t h0 h1 _).2.2.2.2.1)
    isplitl [HS4]
    · unfold owns; iexists _; isplitr
      swap; · iexact HS4
      ipureintro; exact View.read_writes_of_cover _ _ _ _ _ ((coverB V c t h0 h1 _).2.2.2.2.2.1)
    isplitl [HS5]
    · unfold owns; iexists _; isplitr
      swap; · iexact HS5
      ipureintro; exact View.read_writes_of_cover _ _ _ _ _ ((coverB V c t h0 h1 _).2.2.2.2.2.2)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  unfold owns; iexists _; isplitr
  swap; · iexact H10
  ipureintro; exact View.read_writes_of_cover _ _ _ _ _ ((coverB V c t h0 h1 _).1)

/-- Before a point inside a batch's tile axis the invariant holds the carried buffers at what the point before left. -/
theorem mid_carry (c : Dev nD) (t : Fin cfg0.N) (hz : t.val ≠ 0) :
    (dat0 V c).Φ t.castSucc ⊢ (iprop(iprop(owns (c : Thread nD τ) scM0_0 fullShare (outsAt0 V c (t.val - 1) (by omega)).2.1 ∗ owns (c : Thread nD τ) scM0_1 fullShare (outsAt0 V c (t.val - 1) (by omega)).2.2.1 ∗ owns (c : Thread nD τ) scM0_2 fullShare (outsAt0 V c (t.val - 1) (by omega)).2.2.2.1 ∗ owns (c : Thread nD τ) scM0_3 fullShare (outsAt0 V c (t.val - 1) (by omega)).2.2.2.2.1 ∗ owns (c : Thread nD τ) scM0_4 fullShare (outsAt0 V c (t.val - 1) (by omega)).2.2.2.2.2.1 ∗ owns (c : Thread nD τ) scM0_5 fullShare (outsAt0 V c (t.val - 1) (by omega)).2.2.2.2.2.2 ∗ rest0 (F := F) c) ∗ (∃ r, prngReg c r)) : sProp 𝕄) := by
  rw [PhiS_castSucc V c t, PhiS_pos V c _ _ hz]; unfold carried
  exact Idealize.SL.BI.Entails.refl _

set_option maxHeartbeats 4000000 in
/-- The last token tile of a batch: the context blocks are stored. -/
theorem sound_C (c : Dev nD) (t : Fin cfg0.N) (h0 : ¬t.val % 4 = 0) (h1 : t.val % 4 = 3) :
    bodyPre0 V c t ⊢ wp frame (wpE (defs₀ (F := F)) Variants.none c none) Set.univ (bodyAt0 t) (fun _ => bodyPost0 V c t) := by
  have hz : t.val ≠ 0 := fun e => h0 (by rw [e])
  unfold bodyPre0 bodyPost0 bodyAt0
  simp only [before0_0, before0_1, before0_2, before0_3, before0_4, before0_5, before0_6, before0_7]
  rewrite [show (dat0 V c).owesAt () t.succ = (dat0 V c).owesAt () t.castSucc from rfl]
  rewrite [show (dat0 V c).Φ t.succ = PhiS V c (t.val + 1) t.isLt from rfl, PhiS_succ]
  rewrite [show (dat0 V c).leavesExact 0 t = owns (c : Thread nD τ) (ms0_0 t) fullShare ((dat0 V c).after 0 t) from by
    unfold Dat.leavesExact; rw [liveAt0 0 (by decide) (by decide) (grid0.coords t)], after0_0]
  rewrite [show (dat0 V c).leavesExact 1 t = owns (c : Thread nD τ) (ms0_1 t) fullShare ((dat0 V c).after 1 t) from by
    unfold Dat.leavesExact; rw [liveAt0 1 (by decide) (by decide) (grid0.coords t)], after0_1]
  rewrite [show (dat0 V c).leavesExact 2 t = owns (c : Thread nD τ) (ms0_2 t) fullShare ((dat0 V c).after 2 t) from by
    unfold Dat.leavesExact; rw [liveAt0 2 (by decide) (by decide) (grid0.coords t)], after0_2]
  rewrite [show (dat0 V c).leavesExact 3 t = owns (c : Thread nD τ) (ms0_3 t) fullShare ((dat0 V c).after 3 t) from by
    unfold Dat.leavesExact; rw [liveAt0 3 (by decide) (by decide) (grid0.coords t)], after0_3]
  rewrite [show (dat0 V c).leavesExact 4 t = owns (c : Thread nD τ) (ms0_4 t) fullShare ((dat0 V c).after 4 t) from by
    unfold Dat.leavesExact; rw [liveAt0 4 (by decide) (by decide) (grid0.coords t)], after0_4]
  rewrite [show (dat0 V c).leavesExact 5 t = owns (c : Thread nD τ) (ms0_5 t) fullShare ((dat0 V c).after 5 t) from by
    unfold Dat.leavesExact; rw [liveAt0 5 (by decide) (by decide) (grid0.coords t)], after0_5]
  rewrite [show (dat0 V c).leavesExact 6 t = owns (c : Thread nD τ) (ms0_6 t) fullShare ((dat0 V c).after 6 t) from by
    unfold Dat.leavesExact; rw [liveAt0 6 (by decide) (by decide) (grid0.coords t)], after0_6]
  rewrite [show (dat0 V c).leavesExact 7 t = owns (c : Thread nD τ) (ms0_7 t) fullShare ((dat0 V c).after 7 t) from by
    unfold Dat.leavesExact; rw [liveAt0 7 (by decide) (by decide) (grid0.coords t)], after0_7]
  rewrite [show (dat0 V c).leavesExact 10 t = owns (c : Thread nD τ) (ms0_10 t) fullShare ((dat0 V c).after 10 t) from by
    unfold Dat.leavesExact; rw [liveAt0 10 (by decide) (by decide) (grid0.coords t)], after0_10]
  rewrite [show (dat0 V c).leavesExact 8 t = owns (c : Thread nD τ) (ms0_8 t) fullShare ((dat0 V c).after 8 t) from by
    unfold Dat.leavesExact; rw [liveAt0_8 t ((hcond0_1 t).mpr h1)], after0_8]
  rewrite [show (dat0 V c).leavesExact 9 t = owns (c : Thread nD τ) (ms0_9 t) fullShare ((dat0 V c).after 9 t) from by
    unfold Dat.leavesExact; rw [liveAt0_9 t ((hcond0_1 t).mpr h1)], after0_9]
  rewrite [outsAt0_C V c t h0 h1]
  unfold leftC carried; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ' := (mid_carry V c t hz) $$ HΦ
  icases HΦ' with ⟨⟨HS0, HS1, HS2, HS3, HS4, HS5, Hr⟩, Hg⟩
  iapply ((runC V c t h0 h1 _).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%e8, H8⟩, ⟨%e9, H9⟩, ⟨%e10, H10⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hr Hg]
  · isplitr [Hg]
    swap; · iexact Hg
    isplitl [HS0]
    · unfold owns; iexists _; isplitr
      swap; · iexact HS0
      ipureintro; exact View.read_writes_of_cover _ _ _ _ _ ((coverC V c t h0 h1 _).2.2.2.1)
    isplitl [HS1]
    · unfold owns; iexists _; isplitr
      swap; · iexact HS1
      ipureintro; exact View.read_writes_of_cover _ _ _ _ _ ((coverC V c t h0 h1 _).2.2.2.2.1)
    isplitl [HS2]
    · unfold owns; iexists _; isplitr
      swap; · iexact HS2
      ipureintro; exact View.read_writes_of_cover _ _ _ _ _ ((coverC V c t h0 h1 _).2.2.2.2.2.1)
    isplitl [HS3]
    · unfold owns; iexists _; isplitr
      swap; · iexact HS3
      ipureintro; exact View.read_writes_of_cover _ _ _ _ _ ((coverC V c t h0 h1 _).2.2.2.2.2.2.1)
    isplitl [HS4]
    · unfold owns; iexists _; isplitr
      swap; · iexact HS4
      ipureintro; exact View.read_writes_of_cover _ _ _ _ _ ((coverC V c t h0 h1 _).2.2.2.2.2.2.2.1)
    isplitl [HS5]
    · unfold owns; iexists _; isplitr
      swap; · iexact HS5
      ipureintro; exact View.read_writes_of_cover _ _ _ _ _ ((coverC V c t h0 h1 _).2.2.2.2.2.2.2.2)
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ ((coverC V c t h0 h1 _).1)
  isplitl [H9]
  · unfold owns; iexists _; isplitr
    swap; · iexact H9
    ipureintro; exact View.read_writes_of_cover _ _ _ _ _ ((coverC V c t h0 h1 _).2.1)
  unfold owns; iexists _; isplitr
  swap; · iexact H10
  ipureintro; exact View.read_writes_of_cover _ _ _ _ _ ((coverC V c t h0 h1 _).2.2.1)

/-- The body at any point: the point's case. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 16 := lt_of_lt_of_eq t.isLt (show cfg0.N = 16 from N_0)
  by_cases h0 : t.val % 4 = 0
  · exact sound_A V c t h0 (by omega)
  · by_cases h1 : t.val % 4 = 3
    · exact sound_C V c t h0 h1
    · exact sound_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the plain one back: the carried buffers' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega)]
  exact carried_forget c _

end Cert.KernelIdeal.Gen2

end
-- ==== Proof.Ideal.Region1.lean ====
import proofs.«174424_j489626271899_2_alg».proof.Proof.Gen.KernelIdeal.Launch
import proofs.«174424_j489626271899_2_alg».proof.Proof.Gen.KernelIdeal.Skeleton
import proofs.«174424_j489626271899_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
The second pipeline (the "apply" step): at every grid point the body reads three input blocks whole
(the normalised queries, and the two 64x64 context matrices), and overwrites each of its two output
blocks whole with a product of a half of the query block and one context matrix.  Because every store
covers its whole buffer, what an output buffer holds after the body is a closed function of the input
blocks at that point, whatever the buffer held before.  This file states that closed function, proves
the body's separation-logic triple, and packages both as the pipeline's proof data, for any float
interpretation `F` and any buffer contents `V` at the moment the pipeline starts.
-/

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the arrays as the pipeline finds them -/

/-- The block of window `w`'s array that grid point `t` selects, read from the contents `V`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## An input buffer holds the current point's block

Whether or not a copy into the buffer happens at a point: when none happens, the window's block index is
the one of the previous point, and the body leaves an input buffer as it found it.  Stated for any proof
data over `V` whose body leaves the block in place.  The windows are not clipped and never idle. -/

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-! ## The rectangles the body reads and writes: each is a whole buffer -/

abbrev rq1 : Rect S1x4096x128 := Rect.unit (s := S1x4096x128) ![0, 0, 0] S1x4096x128.size inb_S1x4096x128_S1x4096x128_0_0_0
abbrev rw1 : Rect S1x64x64 := Rect.unit (s := S1x64x64) ![0, 0, 0] S1x64x64.size inb_S1x64x64_S1x64x64_0_0_0
abbrev ro1 : Rect S1x4096x64 := Rect.unit (s := S1x4096x64) ![0, 0, 0] S1x4096x64.size inb_S1x4096x64_S1x4096x64_0_0_0

/-! ## What the body leaves in the output buffers -/

/-- The first output buffer after the body: the single whole-buffer store of the product of the first
    half of the query block `q` with the context matrix `wB` (the block of window 2). -/
def out1_3 (q : Vec F S1x4096x128 .bf16) (wB : Vec F S1x64x64 .f32) : Vec F S1x4096x64 .f32 :=
  View.canon [⟨ro1, k1_pay2 (View.ld q rq1) (View.ld wB rw1)⟩]

/-- The second output buffer after the body: the single whole-buffer store of the product of the second
    half of the query block `q` with the context matrix `wA` (the block of window 1). -/
def out1_4 (q : Vec F S1x4096x128 .bf16) (wA : Vec F S1x64x64 .f32) : Vec F S1x4096x64 .f32 :=
  View.canon [⟨ro1, k1_pay3 (View.ld q rq1) (View.ld wA rw1)⟩]

/-- A single store through the whole-buffer rectangle covers the buffer. -/
theorem cover1_out (p0 : Vec F S1x4096x64 .f32) (y : S1x4096x64.Idx) :
    ∃ pc ∈ ([⟨ro1, p0⟩] : List (View.Piece (Elt F) S1x4096x64 .f32)), y ∈ pc.1.set :=
  View.cover_of_tiled [⟨ro1, p0⟩] S1x4096x64.size (by rfl) y

/-! ## The body's triple -/

set_option maxHeartbeats 1000000 in
/-- The body run on whole buffers: the three inputs at read contents `x0`, `x1`, `x2`, the two outputs at
    any contents.  It ends with the inputs as they were and the outputs at `out1_3`, `out1_4` of them. -/
theorem sound_kernel1 (c : Dev nD) (E : Set ℕ) (i : grid1.Coords)
    (arg2 : Memref sig .tc .vmem S1x4096x128 .bf16) (harg2 : arg2.IsWhole)
    (arg3 : Memref sig .tc .vmem S1x64x64 .f32) (harg3 : arg3.IsWhole)
    (arg4 : Memref sig .tc .vmem S1x64x64 .f32) (harg4 : arg4.IsWhole)
    (arg5 : Memref sig .tc .vmem S1x4096x64 .f32) (harg5 : arg5.IsWhole)
    (arg6 : Memref sig .tc .vmem S1x4096x64 .f32) (harg6 : arg6.IsWhole)
    (x0 : Vec F S1x4096x128 .bf16) (x1 : Vec F S1x64x64 .f32) (x2 : Vec F S1x64x64 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out1_3 x0 x2)
            ∗ owns (c : Thread nD τ) arg6 fullShare (out1_4 x0 x1)) -∗ K ⟨⟩))
      ⊢ wp frame (wpE (defs₀ (F := F)) Variants.none c none) E
          (cc1__apply_kernel i arg2 harg2 arg3 harg3 arg4 harg4 arg5 harg5 arg6 harg6) K := by
  simp only [cc1__apply_kernel_eq_skeleton]; unfold cc1__apply_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_out _)
  iexists _; isplitr
  swap; · iexact H4
  ipureintro
  exact View.read_writes_eq_canon _ _ _ (cover1_out _)

/-! ## The pipeline's proof data -/

/-- Proof data of the pipeline on core `c`: the arrays as found (`V`); after the body at point `t` every
    input buffer still holds its block, and the two output buffers hold the products computed from the
    input blocks; the invariant is the untouched rest of the core's state; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 2 t)
    | ⟨4, _⟩ => out1_4 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem hin1 (c : Dev nD) : Pipeline.ΦA spec1 c ⊢ (dat1 V c).Φ 0 := by
  rw [show (dat1 V c).Φ 0 = Pipeline.ΦA spec1 c from rfl]

theorem hout1 (c : Dev nD) : (dat1 V c).Φ (Fin.last cfg1.N) ⊢ Pipeline.ΦA spec1 c := by
  rw [show (dat1 V c).Φ (Fin.last cfg1.N) = Pipeline.ΦA spec1 c from rfl]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 2 t) := by dsimp only [dat1]
theorem after1_4 (c : Dev nD) (t : Fin cfg1.N) :
    (dat1 V c).after 4 t = out1_4 (iblk1 V c 0 t) (iblk1 V c 1 t) := by dsimp only [dat1]

/-- Each input buffer holds the current block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

/-- What the body is entered with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body ends with at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the invariant
    and the owed resources pass through untouched. -/
theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Gen2

end
-- ==== Proof.Ideal.Frames.lean ====
/-
  The whole program's run from the two regions' proof data: every weakly fair execution of @main terminates without a
  fault with each unscoped buffer at the last contents of the fold through the two regions, and in particular each of the
  eight argument arrays as launched.
-/
import proofs.«174424_j489626271899_2_alg».proof.Proof.Ideal.MainRun
import proofs.«174424_j489626271899_2_alg».proof.Proof.Ideal.Region0Body
import proofs.«174424_j489626271899_2_alg».proof.Proof.Ideal.Region1

noncomputable section

namespace Cert.KernelIdeal.Gen2

open Cert.KernelIdeal Cert.KernelIdeal.Gen
open Idealize.ShloMosaic Idealize.ShloMosaic.TcCoe Idealize.SL.Sem

variable {F : FTy → Type} [FloatOps F]

/-- The run: each unscoped buffer of each core ends at `Wend`, the fold of the launch memory through region 0's and
    region 1's write-backs. -/
theorem run_program (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Wend (dat0 (F := F)) (dat1 (F := F)) m c b) :=
  run_all dat0 dat1 m A_eq0 q_eq0 owed_eq0 (fun _ _ _ => rfl) body_obligation0 hin0 hout0
    A_eq1 q_eq1 owed_eq1 (fun _ _ _ => rfl) body_obligation1 hin1 hout1 ρ

/-- The frame: the program terminates on every core, faults nowhere, and leaves its eight argument arrays as launched. -/
theorem frame_program (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_all dat0 dat1 m A_eq0 q_eq0 owed_eq0 (fun _ _ _ => rfl) body_obligation0 hin0 hout0
    A_eq1 q_eq1 owed_eq1 (fun _ _ _ => rfl) body_obligation1 hin1 hout1 ρ

end Cert.KernelIdeal.Gen2

end
-- ==== Proof.Value.RefSpecDefs.lean ====
/-
  The reference computation of the cross-attention head, as index-by-index functions on extended reals.

  For two token streams x0, x1 : [4, 16384, 256] and six weight matrices [64, 256]:
    proj x W      the projection x · Wᵀ : [4, 16384, 64];
    tokSoft k     the softmax of k over the token axis (axis 1), each (batch, head) column separately;
    headSoft q    the softmax of q over the head axis (axis 2), each (batch, token) row separately;
    ctx ks v      the context matrix  Σ_n ks[b, n, h] · v[b, n, d] : [4, 64, 64];
    out qs w      the read-out        Σ_h qs[b, n, h] · w[b, h, d] : [4, 16384, 64].
  Each softmax subtracts the column's (row's) maximum, taken as a fold of max from −∞, before the exponential.
-/
import Idealize.ShloMosaic.PureOps.Ideal
import Idealize.ShloMosaic.Lib.ValueIdx

noncomputable section

open scoped BigOperators

namespace Cert.RefSpec

open Idealize.ShloMosaic Idealize.ShloMosaic.ValueIdx

/-- A token stream: [batch 4, tokens 16384, channels 256]. -/
abbrev SX : Shape := ⟨3, ![4, 16384, 256]⟩
/-- A weight matrix: [heads 64, channels 256]. -/
abbrev SW : Shape := ⟨2, ![64, 256]⟩
/-- A projected stream: [batch 4, tokens 16384, heads 64]. -/
abbrev SP : Shape := ⟨3, ![4, 16384, 64]⟩
/-- A context matrix: [batch 4, heads 64, heads 64]. -/
abbrev SC : Shape := ⟨3, ![4, 64, 64]⟩

/-- x · Wᵀ: the sum over the 256 channels. -/
def proj (x : SX.Idx → EReal) (W : SW.Idx → EReal) : SP.Idx → EReal :=
  fun i => ∑ c : Fin 256, x (ix3 (i 0) (i 1) c) * W (ix2 (i 2) c)

/-- The maximum of column (b, h) over the 16384 tokens, folded from −∞. -/
def tokMax (k : SP.Idx → EReal) (b : Fin 4) (h : Fin 64) : EReal :=
  (Finset.univ : Finset (Fin 16384)).fold max ⊥ (fun n => k (ix3 b n h))

/-- The softmax denominator of column (b, h): the sum over the tokens of the shifted exponentials. -/
def tokDen (k : SP.Idx → EReal) (b : Fin 4) (h : Fin 64) : EReal :=
  ∑ n : Fin 16384, Ideal.exp (k (ix3 b n h) - tokMax k b h)

/-- Softmax over the token axis. -/
def tokSoft (k : SP.Idx → EReal) : SP.Idx → EReal :=
  fun i => Ideal.div (Ideal.exp (k i - tokMax k (i 0) (i 2))) (tokDen k (i 0) (i 2))

/-- The maximum of row (b, n) over the 64 heads, folded from −∞. -/
def headMax (q : SP.Idx → EReal) (b : Fin 4) (n : Fin 16384) : EReal :=
  (Finset.univ : Finset (Fin 64)).fold max ⊥ (fun h => q (ix3 b n h))

/-- The softmax denominator of row (b, n): the sum over the heads of the shifted exponentials. -/
def headDen (q : SP.Idx → EReal) (b : Fin 4) (n : Fin 16384) : EReal :=
  ∑ h : Fin 64, Ideal.exp (q (ix3 b n h) - headMax q b n)

/-- Softmax over the head axis. -/
def headSoft (q : SP.Idx → EReal) : SP.Idx → EReal :=
  fun i => Ideal.div (Ideal.exp (q i - headMax q (i 0) (i 1))) (headDen q (i 0) (i 1))

/-- The context matrix: ks and v contracted over the tokens. -/
def ctx (ks v : SP.Idx → EReal) : SC.Idx → EReal :=
  fun i => ∑ n : Fin 16384, ks (ix3 (i 0) n (i 1)) * v (ix3 (i 0) n (i 2))

/-- The read-out: qs and a context matrix contracted over the heads. -/
def out (qs : SP.Idx → EReal) (w : SC.Idx → EReal) : SP.Idx → EReal :=
  fun i => ∑ h : Fin 64, qs (ix3 (i 0) (i 1) h) * w (ix3 (i 0) h (i 2))

/-! The same functions read at an index given by its coordinates. -/

theorem proj_ix3 (x : SX.Idx → EReal) (W : SW.Idx → EReal) (b : Fin 4) (n : Fin 16384) (h : Fin 64) :
    proj x W (ix3 b n h) = ∑ c : Fin 256, x (ix3 b n c) * W (ix2 h c) := rfl

theorem tokSoft_ix3 (k : SP.Idx → EReal) (b : Fin 4) (n : Fin 16384) (h : Fin 64) :
    tokSoft k (ix3 b n h) = Ideal.div (Ideal.exp (k (ix3 b n h) - tokMax k b h)) (tokDen k b h) := rfl

theorem headSoft_ix3 (q : SP.Idx → EReal) (b : Fin 4) (n : Fin 16384) (h : Fin 64) :
    headSoft q (ix3 b n h) = Ideal.div (Ideal.exp (q (ix3 b n h) - headMax q b n)) (headDen q b n) := rfl

theorem ctx_ix3 (ks v : SP.Idx → EReal) (b : Fin 4) (h d : Fin 64) :
    ctx ks v (ix3 b h d) = ∑ n : Fin 16384, ks (ix3 b n h) * v (ix3 b n d) := rfl

theorem out_ix3 (qs : SP.Idx → EReal) (w : SC.Idx → EReal) (b : Fin 4) (n : Fin 16384) (d : Fin 64) :
    out qs w (ix3 b n d) = ∑ h : Fin 64, qs (ix3 b n h) * w (ix3 b h d) := rfl

/-- The first result: stream 0's queries read out stream 1's context. -/
def refOut0 (x0 x1 : SX.Idx → EReal) (Wk0 Wk1 Wq0 Wq1 Wv0 Wv1 : SW.Idx → EReal) : SP.Idx → EReal :=
  out (headSoft (proj x0 Wq0)) (ctx (tokSoft (proj x1 Wk1)) (proj x1 Wv1))

/-- The second result: stream 1's queries read out stream 0's context. -/
def refOut1 (x0 x1 : SX.Idx → EReal) (Wk0 Wk1 Wq0 Wq1 Wv0 Wv1 : SW.Idx → EReal) : SP.Idx → EReal :=
  out (headSoft (proj x1 Wq1)) (ctx (tokSoft (proj x0 Wk0)) (proj x0 Wv0))

end Cert.RefSpec

end
-- ==== Proof.Value.OutSpec.lean ====
import proofs.«174424_j489626271899_2_alg».proof.Proof.Value.RefSpecDefs
import Idealize.ShloMosaic.PureOps.Ideal
import Idealize.ShloMosaic.Lib.ValueIdx

/-!
The array of normalised queries carries both streams' queries side by side along its last axis: of its
128 columns, columns 0..63 are stream 0's, columns 64..127 stream 1's.  This file names the two halves as
arrays of 64 columns, so that each result of the head is the read-out of one half against one context matrix.
-/

noncomputable section

open scoped BigOperators

namespace Cert.Spec

open Idealize.ShloMosaic Idealize.ShloMosaic.ValueIdx Cert.RefSpec

/-- Both streams' queries side by side: [batch 4, tokens 16384, 2 × 64 heads]. -/
abbrev SQ : Shape := ⟨3, ![4, 16384, 128]⟩

/-- Columns 0..63 of the query array. -/
def qLeft (q : SQ.Idx → EReal) : SP.Idx → EReal :=
  fun i => q (ix3 (i 0) (i 1) (⟨(i 2).val, Nat.lt_of_lt_of_le (i 2).isLt (by decide)⟩ : Fin 128))

/-- Columns 64..127 of the query array. -/
def qRight (q : SQ.Idx → EReal) : SP.Idx → EReal :=
  fun i => q (ix3 (i 0) (i 1) (⟨64 + (i 2).val, Nat.add_lt_add_left (i 2).isLt 64⟩ : Fin 128))

theorem qLeft_ix3 (q : SQ.Idx → EReal) (b : Fin 4) (n : Fin 16384) (h : Fin 64) :
    qLeft q (ix3 b n h) = q (ix3 b n (⟨h.val, Nat.lt_of_lt_of_le h.isLt (by decide)⟩ : Fin 128)) := rfl

theorem qRight_ix3 (q : SQ.Idx → EReal) (b : Fin 4) (n : Fin 16384) (h : Fin 64) :
    qRight q (ix3 b n h) = q (ix3 b n (⟨64 + h.val, Nat.add_lt_add_left h.isLt 64⟩ : Fin 128)) := rfl

end Cert.Spec

end
-- ==== Proof.LibFiniteReal.lean ====
/-
  Extended reals that are real numbers, and the operations that keep them so.

  At the ideal instance a float is an extended real. A law of real arithmetic (cancelling, moving a term across a
  difference) may fail at an infinity, so a value proof that needs one first shows that the numbers it speaks of are
  real. This file has the predicate (`IsReal`, and `AllReal` for an array), its closure under sums, products, maxima,
  finite sums and finite maxima, and the array operations that preserve it: every re-indexing (a gather, a broadcast,
  a transpose, a reshape, a slice: each result element IS an operand element), the pointwise product and sum, the
  host's accumulating scatter (an operand element plus a finite sum of update elements), and both matrix products
  (a finite sum of products).
-/
import Idealize.ShloMosaic.PureOps.Ideal
import Idealize.ShloMosaic.PureOps.Ideal.Laws

noncomputable section

open scoped BigOperators

namespace Cert.Lib.FiniteReal

open Idealize.ShloMosaic

/-- An extended real that is a real number: neither infinity. -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ ha hb => ha.add hb) IsReal.zero h

/-- The coercion commutes with a finite sum. -/
theorem coe_sum {ι : Type*} (s : Finset ι) (g : ι → ℝ) : ∑ i ∈ s, ((g i : ℝ) : EReal) = ((∑ i ∈ s, g i : ℝ) : EReal) := by
  classical
  refine Finset.induction_on s (by simp) ?_
  intro a s ha ih
  rw [Finset.sum_insert ha, Finset.sum_insert ha, ih, EReal.coe_add]

/-- The maximum, started from −∞, of finitely many reals — at least one — is a real. -/
theorem IsReal.fold_max {ι : Type*} (s : Finset ι) (hs : s.Nonempty) (f : ι → EReal) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    refine Finset.induction_on t (fun _ => Or.inl ⟨rfl, Finset.fold_empty⟩) ?_
    intro a u ha ih hu
    right
    rw [Finset.fold_insert ha]
    rcases ih (fun i hi => hu i (Finset.mem_insert_of_mem hi)) with ⟨_, hb⟩ | hr
    · rw [hb, max_eq_left bot_le]; exact hu a (Finset.mem_insert_self a u)
    · exact (hu a (Finset.mem_insert_self a u)).max hr
  rcases key s h with ⟨he, _⟩ | hr
  · exact absurd he hs.ne_empty
  · exact hr

/-! ## Arrays -/

/-- Every entry of the array is a real. -/
def AllReal {α : Type*} (v : α → EReal) : Prop := ∀ a, IsReal (v a)

/-- An array of reals is the coercion of a real-valued array. -/
theorem AllReal.exists_real {α : Type*} {v : α → EReal} (h : AllReal v) : ∃ g : α → ℝ, v = fun a => ((g a : ℝ) : EReal) :=
  ⟨fun a => (h a).choose, funext fun a => (h a).choose_spec⟩

/-- A re-indexing of an array of reals is an array of reals. -/
theorem AllReal.comp {α β : Type*} {v : α → EReal} (h : AllReal v) (e : β → α) : AllReal (fun b => v (e b)) := fun b => h (e b)

variable {s t : Shape}

theorem allReal_gather {si : Shape} {w : Nat} (d : GatherDims s si t) (x : s.Idx → EReal) (idx : IVec si w) (h : AllReal x) :
    AllReal (Host.gather d x idx) := fun j => h _

theorem allReal_broadcastInDim (dims : Fin s.rank → Fin t.rank) (hb : s.BroadcastsInDim t dims) (x : s.Idx → EReal)
    (h : AllReal x) : AllReal (broadcastInDim t dims hb x) := fun j => h _

theorem allReal_broadcastTo (hb : s.Broadcasts t) (x : s.Idx → EReal) (h : AllReal x) : AllReal (broadcastTo t x hb) :=
  fun j => h _

theorem allReal_shapeCast (hc : s.ShapeCasts t) (x : s.Idx → EReal) (h : AllReal x) : AllReal (shapeCast t x hc) :=
  fun j => h _

theorem allReal_transpose (perm : List (Fin s.rank)) (ht : s.Transposes perm t) (x : s.Idx → EReal) (h : AllReal x) :
    AllReal (transpose t perm x ht) := by
  intro j; unfold transpose; exact h _

theorem allReal_constant_zero {φ : FTy} : AllReal (constant (F := Ideal) s .f32 0x00000000#32) := fun _ => by
  show IsReal (Ideal.ofBits .f32 0x00000000#32)
  rw [Ideal.ofBits_zero_f32]; exact IsReal.zero

theorem allReal_mulf {φ : FTy} (x y : FVec Ideal s φ) (hx : AllReal x) (hy : AllReal y) : AllReal (mulf x y) :=
  fun i => (hx i).mul (hy i)

theorem allReal_addf {φ : FTy} (x y : FVec Ideal s φ) (hx : AllReal x) (hy : AllReal y) : AllReal (addf x y) :=
  fun i => (hx i).add (hy i)

theorem allReal_maximumf {φ : FTy} (x y : FVec Ideal s φ) (hx : AllReal x) (hy : AllReal y) : AllReal (maximumf x y) :=
  fun i => (hx i).max (hy i)

/-- The host's accumulating scatter of real updates into a real operand: each element is the operand's plus a finite
    sum of updates. -/
theorem allReal_scatterAdd {si u : Shape} {w : Nat} {φ : FTy} (d : ScatterDims s si u) (x : FVec Ideal s φ) (idx : IVec si w)
    (upd : FVec Ideal u φ) (hx : AllReal x) (hu : AllReal upd) : AllReal (Host.scatterAdd d x idx upd) := by
  intro i
  unfold Host.scatterAdd
  rw [Ideal.hostScatterAdd_def]
  unfold Ideal.hostScatterAdd
  exact (hx i).add (IsReal.sum _ _ fun j _ => hu j)

/-- The host's matrix product of real operands. -/
theorem allReal_dotGeneral {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (Host.dotGeneral d prec lhs rhs) := by
  intro j
  unfold Host.dotGeneral
  rw [Ideal.dotGeneral_apply]
  exact IsReal.sum _ _ fun k _ => (hl _).mul (hr _)

end Cert.Lib.FiniteReal

end
-- ==== Proof.Value.FiniteInputs.lean ====
/-
  From the precondition to real entries.

  The precondition says that all(|x| < +inf) holds of each of the eight argument arrays, the eight answers joined
  by and. A conjunction of one-bit words is 1 only if each is; an and-reduction over all axes is 1 only if every
  element is; and an extended real x with max x (-x) < +inf is neither infinity, hence a real.
-/
import proofs.«174424_j489626271899_2_alg».proof.Defs
import proofs.«174424_j489626271899_2_alg».proof.Proof.Gen.Pre_finite_inputs
import Idealize.ShloMosaic.Lib.ReduceAll
import Idealize.ShloMosaic.Lib.ValueIdx
import proofs.«174424_j489626271899_2_alg».proof.Proof.LibFiniteReal

noncomputable section

namespace Cert.FiniteInputs

open Idealize.ShloMosaic Idealize.SL.Sem
open Cert.Lib.FiniteReal

/-- The pattern 0x7F800000 is +inf. -/
theorem ofBits_inf : Ideal.ofBits .f32 0x7F800000#32 = ⊤ := by simp [Ideal.ofBits, Ideal.ieee]

/-- An extended real whose absolute value is below +inf is a real. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  have h' : Ideal.cmp .olt (max x (-x)) (Ideal.ofBits .f32 0x7F800000#32) = 1#1 := h
  rw [ofBits_inf] at h'
  have hlt : max x (-x) < ⊤ := by
    by_contra hn
    have h0 : Ideal.cmp .olt (max x (-x)) ⊤ = 0#1 := by simp [Ideal.cmp, hn]
    rw [h0] at h'
    exact absurd h' (by decide)
  induction x using EReal.rec with
  | bot => simp at hlt
  | coe r => exact ⟨r, rfl⟩
  | top => simp at hlt

instance : Subsingleton Cert.Pre_finite_inputs.S_.Idx := ⟨fun a b => funext fun d => d.elim0⟩

/-- One array: if all(|x| < +inf) is 1 then every entry of x is a real. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf x)
          (broadcastInDim s ![] hb (constant (F := Ideal) Cert.Pre_finite_inputs.S_ .f32 0x7F800000#32)))
        init hr hu j = 1#1) :
    AllReal x :=
  fun i => isReal_of_abs_lt_inf (x i) (Host.reduce_andi_all _ init hr hu j e i)

/-- Under the precondition every entry of every argument array is a real. -/
theorem allReal_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7)) := by
  have h0 := congrFun (h c) ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨e0, e1⟩, e2⟩, e3⟩, e4⟩, e5⟩, e6⟩, e7⟩ := h0
  exact ⟨allReal_of_all _ _ _ _ _ _ e0, allReal_of_all _ _ _ _ _ _ e1, allReal_of_all _ _ _ _ _ _ e2,
    allReal_of_all _ _ _ _ _ _ e3, allReal_of_all _ _ _ _ _ _ e4, allReal_of_all _ _ _ _ _ _ e5,
    allReal_of_all _ _ _ _ _ _ e6, allReal_of_all _ _ _ _ _ _ e7⟩

/-- The same, entry by entry. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) :=
  allReal_of_pre m h c

end Cert.FiniteInputs

end
-- ==== Proof.Value.Region1Value.lean ====
import proofs.«174424_j489626271899_2_alg».proof.Proof.Ideal.Region1
import proofs.«174424_j489626271899_2_alg».proof.Proof.Value.OutSpec
import Idealize.ShloMosaic.Lib.Pipeline.Value
import Idealize.ShloMosaic.Lib.ValueIdx
import Idealize.ShloMosaic.Lib.ValueLayout
import Idealize.ShloMosaic.PureOps.Ideal.Laws

/-!
What the second pipeline leaves in its two result arrays, over the extended reals, as whole-array functions
of the three arrays it reads: the normalised queries `q` : [4, 16384, 128] and the context matrices
`w0`, `w1` : [4, 64, 64].  Grid point `(b, j)` handles rows `4096 j .. 4096 j + 4095` of batch `b`: it
multiplies the left (right) 64 columns of its 4096 × 128 query block with the 64 × 64 block of `w1` (`w0`) of
batch `b`.  Reading the matrix product at an entry gives a sum over the 64 head coordinates; reading each block
entry back in its array gives the read-out of the whole arrays at the entry's position; and the 16 blocks tile
each result array.
-/

set_option maxRecDepth 16384

noncomputable section

open scoped BigOperators

namespace Cert.KernelIdeal.Val

open Cert.KernelIdeal Cert.KernelIdeal.Gen Cert.KernelIdeal.Gen2
open Idealize.ShloMosaic Idealize.ShloMosaic.TcCoe Idealize.SL.Sem Idealize.ShloMosaic.ValueIdx
open Idealize.ShloMosaic.Pipeline (Dat)

/-! ## The matrix product at an entry -/

theorem lhsIdx_row (j : S4096x64.Idx) (k : dot_S4096x64_S64x64_S4096x64_1_0_0_1_n_n.contr.Idx) : (dot_S4096x64_S64x64_S4096x64_1_0_0_1_n_n.lhsIdx j k 0).val = (j 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl

theorem lhsIdx_inner (j : S4096x64.Idx) (k : dot_S4096x64_S64x64_S4096x64_1_0_0_1_n_n.contr.Idx) : (dot_S4096x64_S64x64_S4096x64_1_0_0_1_n_n.lhsIdx j k 1).val = (k ⟨0, by decide⟩).val :=
  dot_S4096x64_S64x64_S4096x64_1_0_0_1_n_n.lhsIdx_val_of_single rfl j k

theorem rhsIdx_inner (j : S4096x64.Idx) (k : dot_S4096x64_S64x64_S4096x64_1_0_0_1_n_n.contr.Idx) : (dot_S4096x64_S64x64_S4096x64_1_0_0_1_n_n.rhsIdx j k 0).val = (k ⟨0, by decide⟩).val :=
  dot_S4096x64_S64x64_S4096x64_1_0_0_1_n_n.rhsIdx_val_of_single rfl j k

theorem rhsIdx_col (j : S4096x64.Idx) (k : dot_S4096x64_S64x64_S4096x64_1_0_0_1_n_n.contr.Idx) : (dot_S4096x64_S64x64_S4096x64_1_0_0_1_n_n.rhsIdx j k 1).val = (j 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- The product of a 4096 × 64 matrix with a 64 × 64 matrix, accumulated onto zero, at entry `(r, d)`:
    the sum over the 64 inner coordinates. -/
theorem matmul_entry (a : FVec Ideal S4096x64 .bf16) (b : FVec Ideal S64x64 .bf16) (r : Fin 4096) (d : Fin 64) :
    matmul (F := Ideal) dot_S4096x64_S64x64_S4096x64_1_0_0_1_n_n none a b (constant (F := Ideal) S4096x64 .f32 0x00000000#32) (ix2 r d)
      = ∑ h : Fin 64, a (ix2 r h) * b (ix2 h d) := by
  show FloatOps.matmul dot_S4096x64_S64x64_S4096x64_1_0_0_1_n_n none a b (constant (F := Ideal) S4096x64 .f32 0x00000000#32) (ix2 r d) = _
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r d) ((contrEquiv1 dot_S4096x64_S64x64_S4096x64_1_0_0_1_n_n 64 rfl rfl).symm k) = ix2 r k :=
    funext fun x => Fin.ext (by
      match x with
      | ⟨0, _⟩ => exact lhsIdx_row _ _
      | ⟨1, _⟩ => exact (lhsIdx_inner _ _).trans hk)
  have er : dot_S4096x64_S64x64_S4096x64_1_0_0_1_n_n.rhsIdx (ix2 r d) ((contrEquiv1 dot_S4096x64_S64x64_S4096x64_1_0_0_1_n_n 64 rfl rfl).symm k) = ix2 k d :=
    funext fun x => Fin.ext (by
      match x with
      | ⟨0, _⟩ => exact (rhsIdx_inner _ _).trans hk
      | ⟨1, _⟩ => exact rhsIdx_col _ _)
  rw [el, er]

/-! ## Dropping the leading axis of extent one -/

/-- A [1, 4096, 128] block viewed as a 4096 × 128 matrix: entry `(r, k)` is the block's entry `(0, r, k)`. -/
theorem dropUnit_q (x : S1x4096x128.Idx → EReal) (z : Fin 1) (r : Fin 4096) (k : Fin 128) :
    shapeCast S4096x128 x shapeCasts_S1x4096x128_S4096x128 (ix2 r k) = x (ix3 z r k) := by
  refine (shapeCast_dropUnit_apply ![4096, 128] x shapeCasts_S1x4096x128_S4096x128 (ix2 r k)).trans (congrArg x ?_)
  funext i
  match i with
  | ⟨0, _⟩ => exact Fin.ext (by have := z.isLt; show 0 = z.val; omega)
  | ⟨1, _⟩ => rfl
  | ⟨2, _⟩ => rfl

/-- A [1, 64, 64] block viewed as a 64 × 64 matrix: entry `(h, d)` is the block's entry `(0, h, d)`. -/
theorem dropUnit_w (x : S1x64x64.Idx → EReal) (z : Fin 1) (h : Fin 64) (d : Fin 64) :
    shapeCast S64x64 x shapeCasts_S1x64x64_S64x64 (ix2 h d) = x (ix3 z h d) := by
  refine (shapeCast_dropUnit_apply ![64, 64] x shapeCasts_S1x64x64_S64x64 (ix2 h d)).trans (congrArg x ?_)
  funext i
  match i with
  | ⟨0, _⟩ => exact Fin.ext (by have := z.isLt; show 0 = z.val; omega)
  | ⟨1, _⟩ => rfl
  | ⟨2, _⟩ => rfl

/-! ## The two stored values at an entry -/

/-- The value stored to the first result block, at entry `(z, r, d)`: the left 64 columns of row `r` of the
    query block against column `d` of the context block. -/
theorem pay2_entry (q : Vec Ideal S1x4096x128 .bf16) (w : Vec Ideal S1x64x64 .f32) (z : Fin 1) (r : Fin 4096) (d : Fin 64) :
    k1_pay2 (F := Ideal) q w (ix3 z r d)
      = ∑ h : Fin 64, q (ix3 z r (⟨h.val, Nat.lt_of_lt_of_le h.isLt (by decide)⟩ : Fin 128)) * w (ix3 z h d) := by
  have ej : (fun a : Fin 2 => (ix3 z r d : S1x4096x64.Idx) a.succ) = (ix2 r d : S4096x64.Idx) :=
    funext fun a => match a with | ⟨0, _⟩ => rfl | ⟨1, _⟩ => rfl
  have e1 : ∀ h : Fin 64, extractStridedSlice S4096x64 ![0, 0] (shapeCast S4096x128 q shapeCasts_S1x4096x128_S4096x128)
      slices_S4096x128_o0_0_S4096x64 (ix2 r h) = q (ix3 z r (⟨h.val, Nat.lt_of_lt_of_le h.isLt (by decide)⟩ : Fin 128)) := fun h =>
    (extractStridedSlice_apply ![0, 0] (shapeCast S4096x128 q shapeCasts_S1x4096x128_S4096x128) slices_S4096x128_o0_0_S4096x64 (ix2 r h)
      (ix2 r (⟨h.val, Nat.lt_of_lt_of_le h.isLt (by decide)⟩ : Fin 128))
      (fun a => match a with
        | ⟨0, _⟩ => (Nat.zero_add _).symm
        | ⟨1, _⟩ => (Nat.zero_add _).symm)).trans (dropUnit_q q z r _)
  have e2 : ∀ h : Fin 64, (truncf .bf16 (shapeCast S64x64 w shapeCasts_S1x64x64_S64x64) bitsLt_bf16_f32 : FVec Ideal S64x64 .bf16) (ix2 h d)
      = w (ix3 z h d) := fun h => dropUnit_w w z h d
  have hm := matmul_entry (extractStridedSlice S4096x64 ![0, 0] (shapeCast S4096x128 q shapeCasts_S1x4096x128_S4096x128) slices_S4096x128_o0_0_S4096x64)
    (truncf .bf16 (shapeCast S64x64 w shapeCasts_S1x64x64_S64x64) bitsLt_bf16_f32) r d
  have hs : (∑ h : Fin 64, extractStridedSlice S4096x64 ![0, 0] (shapeCast S4096x128 q shapeCasts_S1x4096x128_S4096x128) slices_S4096x128_o0_0_S4096x64 (ix2 r h)
        * (truncf .bf16 (shapeCast S64x64 w shapeCasts_S1x64x64_S64x64) bitsLt_bf16_f32 : FVec Ideal S64x64 .bf16) (ix2 h d))
      = ∑ h : Fin 64, q (ix3 z r (⟨h.val, Nat.lt_of_lt_of_le h.isLt (by decide)⟩ : Fin 128)) * w (ix3 z h d) :=
    Finset.sum_congr rfl fun h _ => by rw [e1 h, e2 h]
  unfold k1_pay2 k1_pay1
  refine (shapeCast_addUnit_apply ![4096, 64] _ shapeCasts_S4096x64_S1x4096x64 (ix3 z r d)).trans ?_
  rw [ej]
  exact Eq.trans hm hs

/-- The value stored to the second result block, at entry `(z, r, d)`: the right 64 columns of row `r` of the
    query block against column `d` of the context block. -/
theorem pay3_entry (q : Vec Ideal S1x4096x128 .bf16) (w : Vec Ideal S1x64x64 .f32) (z : Fin 1) (r : Fin 4096) (d : Fin 64) :
    k1_pay3 (F := Ideal) q w (ix3 z r d)
      = ∑ h : Fin 64, q (ix3 z r (⟨64 + h.val, Nat.add_lt_add_left h.isLt 64⟩ : Fin 128)) * w (ix3 z h d) := by
  have ej : (fun a : Fin 2 => (ix3 z r d : S1x4096x64.Idx) a.succ) = (ix2 r d : S4096x64.Idx) :=
    funext fun a => match a with | ⟨0, _⟩ => rfl | ⟨1, _⟩ => rfl
  have e1 : ∀ h : Fin 64, extractStridedSlice S4096x64 ![0, 64] (shapeCast S4096x128 q shapeCasts_S1x4096x128_S4096x128)
      slices_S4096x128_o0_64_S4096x64 (ix2 r h) = q (ix3 z r (⟨64 + h.val, Nat.add_lt_add_left h.isLt 64⟩ : Fin 128)) := fun h =>
    (extractStridedSlice_apply ![0, 64] (shapeCast S4096x128 q shapeCasts_S1x4096x128_S4096x128) slices_S4096x128_o0_64_S4096x64 (ix2 r h)
      (ix2 r (⟨64 + h.val, Nat.add_lt_add_left h.isLt 64⟩ : Fin 128))
      (fun a => match a with
        | ⟨0, _⟩ => (Nat.zero_add _).symm
        | ⟨1, _⟩ => rfl)).trans (dropUnit_q q z r _)
  have e2 : ∀ h : Fin 64, (truncf .bf16 (shapeCast S64x64 w shapeCasts_S1x64x64_S64x64) bitsLt_bf16_f32 : FVec Ideal S64x64 .bf16) (ix2 h d)
      = w (ix3 z h d) := fun h => dropUnit_w w z h d
  have hm := matmul_entry (extractStridedSlice S4096x64 ![0, 64] (shapeCast S4096x128 q shapeCasts_S1x4096x128_S4096x128) slices_S4096x128_o0_64_S4096x64)
    (truncf .bf16 (shapeCast S64x64 w shapeCasts_S1x64x64_S64x64) bitsLt_bf16_f32) r d
  have hs : (∑ h : Fin 64, extractStridedSlice S4096x64 ![0, 64] (shapeCast S4096x128 q shapeCasts_S1x4096x128_S4096x128) slices_S4096x128_o0_64_S4096x64 (ix2 r h)
        * (truncf .bf16 (shapeCast S64x64 w shapeCasts_S1x64x64_S64x64) bitsLt_bf16_f32 : FVec Ideal S64x64 .bf16) (ix2 h d))
      = ∑ h : Fin 64, q (ix3 z r (⟨64 + h.val, Nat.add_lt_add_left h.isLt 64⟩ : Fin 128)) * w (ix3 z h d) :=
    Finset.sum_congr rfl fun h _ => by rw [e1 h, e2 h]
  unfold k1_pay3 k1_pay1
  refine (shapeCast_addUnit_apply ![4096, 64] _ shapeCasts_S4096x64_S1x4096x64 (ix3 z r d)).trans ?_
  rw [ej]
  exact Eq.trans hm hs

/-! ## Where the blocks sit in their arrays

Grid point `t` is the pair (batch `t / 4`, row tile `t % 4`).  The query block and both result blocks of
point `t` are rows `4096 (t % 4) ..` of batch `t / 4`; the context blocks are the whole 64 × 64 matrix of
batch `t / 4`. -/

theorem hz3 : (![0, 0, 0] : Fin 3 → Nat) = fun _ => 0 := funext fun a => by fin_cases a <;> rfl

theorem index_facts : ∀ t : Fin cfg1.N,
    (win1_0.index t (0 : Fin 3) = t.val / 4 ∧ win1_0.index t (1 : Fin 3) = t.val % 4 ∧ win1_0.index t (2 : Fin 3) = 0)
    ∧ (win1_1.index t (0 : Fin 3) = t.val / 4 ∧ win1_1.index t (1 : Fin 3) = 0 ∧ win1_1.index t (2 : Fin 3) = 0)
    ∧ (win1_2.index t (0 : Fin 3) = t.val / 4 ∧ win1_2.index t (1 : Fin 3) = 0 ∧ win1_2.index t (2 : Fin 3) = 0)
    ∧ (win1_3.index t (0 : Fin 3) = t.val / 4 ∧ win1_3.index t (1 : Fin 3) = t.val % 4 ∧ win1_3.index t (2 : Fin 3) = 0)
    ∧ (win1_4.index t (0 : Fin 3) = t.val / 4 ∧ win1_4.index t (1 : Fin 3) = t.val % 4 ∧ win1_4.index t (2 : Fin 3) = 0) :=
  (by decide +kernel : ∀ t : Fin grid1.N, _)

variable (V : (c : Dev nD) → (b : Ref sig .tc) → Buf (Elt Ideal) ((c : Thread nD τ).loc b))

/-- An entry of point `t`'s query block is the query array's entry in batch `t / 4`, row `4096 (t % 4) + r`. -/
theorem qblock_entry (c : Dev nD) (t : Fin cfg1.N) (z : Fin 1) (r : Fin 4096) (k : Fin 128) (i : S4x16384x128.Idx)
    (h0 : (i 0).val = t.val / 4) (h1 : (i 1).val = 4096 * (t.val % 4) + r.val) (h2 : (i 2).val = k.val) :
    (iblk1 (F := Ideal) V c 0 t : Vec Ideal S1x4096x128 .bf16) (ix3 z r k) = (V c main_v0_2 : S4x16384x128.Idx → EReal) i := by
  obtain ⟨⟨b0, b1, b2⟩, -⟩ := index_facts t
  unfold iblk1
  rw [View.read_apply]
  show V c main_v0_2 _ = V c main_v0_2 _
  congr 1
  funext a
  apply Fin.ext
  match a with
  | ⟨0, _⟩ => show win1_0.index t 0 * 1 + 1 * z.val = (i 0).val; rw [b0, h0]; have := z.isLt; omega
  | ⟨1, _⟩ => show win1_0.index t 1 * 4096 + 1 * r.val = (i 1).val; rw [b1, h1]; omega
  | ⟨2, _⟩ => show win1_0.index t 2 * 128 + 1 * k.val = (i 2).val; rw [b2, h2]; omega

/-- An entry of point `t`'s block of the first context matrix is that array's entry in batch `t / 4`. -/
theorem w0block_entry (c : Dev nD) (t : Fin cfg1.N) (z : Fin 1) (h : Fin 64) (d : Fin 64) (i : S4x64x64.Idx)
    (h0 : (i 0).val = t.val / 4) (h1 : (i 1).val = h.val) (h2 : (i 2).val = d.val) :
    (iblk1 (F := Ideal) V c 1 t : Vec Ideal S1x64x64 .f32) (ix3 z h d) = (V c main_v0_0 : S4x64x64.Idx → EReal) i := by
  obtain ⟨-, ⟨b0, b1, b2⟩, -⟩ := index_facts t
  unfold iblk1
  rw [View.read_apply]
  show V c main_v0_0 _ = V c main_v0_0 _
  congr 1
  funext a
  apply Fin.ext
  match a with
  | ⟨0, _⟩ => show win1_1.index t 0 * 1 + 1 * z.val = (i 0).val; rw [b0, h0]; have := z.isLt; omega
  | ⟨1, _⟩ => show win1_1.index t 1 * 64 + 1 * h.val = (i 1).val; rw [b1, h1]; omega
  | ⟨2, _⟩ => show win1_1.index t 2 * 64 + 1 * d.val = (i 2).val; rw [b2, h2]; omega

/-- An entry of point `t`'s block of the second context matrix is that array's entry in batch `t / 4`. -/
theorem w1block_entry (c : Dev nD) (t : Fin cfg1.N) (z : Fin 1) (h : Fin 64) (d : Fin 64) (i : S4x64x64.Idx)
    (h0 : (i 0).val = t.val / 4) (h1 : (i 1).val = h.val) (h2 : (i 2).val = d.val) :
    (iblk1 (F := Ideal) V c 2 t : Vec Ideal S1x64x64 .f32) (ix3 z h d) = (V c main_v0_1 : S4x64x64.Idx → EReal) i := by
  obtain ⟨-, -, ⟨b0, b1, b2⟩, -⟩ := index_facts t
  unfold iblk1
  rw [View.read_apply]
  show V c main_v0_1 _ = V c main_v0_1 _
  congr 1
  funext a
  apply Fin.ext
  match a with
  | ⟨0, _⟩ => show win1_2.index t 0 * 1 + 1 * z.val = (i 0).val; rw [b0, h0]; have := z.isLt; omega
  | ⟨1, _⟩ => show win1_2.index t 1 * 64 + 1 * h.val = (i 1).val; rw [b1, h1]; omega
  | ⟨2, _⟩ => show win1_2.index t 2 * 64 + 1 * d.val = (i 2).val; rw [b2, h2]; omega

/-- Where entry `(z, r, d)` of point `t`'s first result block sits in the first result array. -/
theorem out3_pos (t : Fin cfg1.N) (z : Fin 1) (r : Fin 4096) (d : Fin 64) :
    ((((cfg1.win 3).blk t).view.emb (ix3 z r d) : S4x16384x64.Idx) 0).val = t.val / 4
    ∧ ((((cfg1.win 3).blk t).view.emb (ix3 z r d) : S4x16384x64.Idx) 1).val = 4096 * (t.val % 4) + r.val
    ∧ ((((cfg1.win 3).blk t).view.emb (ix3 z r d) : S4x16384x64.Idx) 2).val = d.val := by
  obtain ⟨-, -, -, ⟨b0, b1, b2⟩, -⟩ := index_facts t
  refine ⟨?_, ?_, ?_⟩
  · show win1_3.index t 0 * 1 + 1 * z.val = _; rw [b0]; have := z.isLt; omega
  · show win1_3.index t 1 * 4096 + 1 * r.val = _; rw [b1]; omega
  · show win1_3.index t 2 * 64 + 1 * d.val = _; rw [b2]; omega

/-- Where entry `(z, r, d)` of point `t`'s second result block sits in the second result array. -/
theorem out4_pos (t : Fin cfg1.N) (z : Fin 1) (r : Fin 4096) (d : Fin 64) :
    ((((cfg1.win 4).blk t).view.emb (ix3 z r d) : S4x16384x64.Idx) 0).val = t.val / 4
    ∧ ((((cfg1.win 4).blk t).view.emb (ix3 z r d) : S4x16384x64.Idx) 1).val = 4096 * (t.val % 4) + r.val
    ∧ ((((cfg1.win 4).blk t).view.emb (ix3 z r d) : S4x16384x64.Idx) 2).val = d.val := by
  obtain ⟨-, -, -, -, ⟨b0, b1, b2⟩⟩ := index_facts t
  refine ⟨?_, ?_, ?_⟩
  · show win1_4.index t 0 * 1 + 1 * z.val = _; rw [b0]; have := z.isLt; omega
  · show win1_4.index t 1 * 4096 + 1 * r.val = _; rw [b1]; omega
  · show win1_4.index t 2 * 64 + 1 * d.val = _; rw [b2]; omega

/-! ## Result array 0 -/

/-- What point `t` writes back to result array 0 is block `t` of the read-out of the whole arrays. -/
theorem flushed3_eq (c : Dev nD) (t : Fin cfg1.N) :
    (dat1 (F := Ideal) V c).flushed 3 t = ((cfg1.win 3).blk t).view.read (Elt Ideal)
      (Cert.RefSpec.out (Cert.Spec.qLeft (V c main_v0_2)) (V c main_v0_1)) := by
  show (cfg1.win 3).cut (grid1.coords t) ((dat1 V c).after 3 t) = _
  rw [after1_3]
  unfold out1_3
  rw [View.canon_unit_zero hz3]
  simp only [View.ld_unit_zero (S := S1x4096x128) hz3, View.ld_unit_zero (S := S1x64x64) hz3]
  funext y
  obtain ⟨z, r, d, rfl⟩ : ∃ (z : Fin 1) (r : Fin 4096) (d : Fin 64), y = ix3 z r d := ⟨y 0, y 1, y 2, eq_ix3 y⟩
  obtain ⟨p0, p1, p2⟩ := out3_pos t z r d
  refine (pay2_entry (iblk1 V c 0 t) (iblk1 V c 2 t) z r d).trans ?_
  rw [View.read_apply]
  unfold Cert.RefSpec.out
  refine Finset.sum_congr rfl fun h _ => ?_
  refine congrArg₂ (· * ·) ?_ ?_
  · exact qblock_entry V c t z r (⟨h.val, Nat.lt_of_lt_of_le h.isLt (by decide)⟩ : Fin 128) _ p0 p1 rfl
  · exact w1block_entry V c t z h d _ p0 rfl p2

/-- An index lies in point `t`'s block of result array 0 iff every coordinate lies in the block's range. -/
theorem mem_blk3 (t : Fin cfg1.N) (i : S4x16384x64.Idx) :
    i ∈ ((cfg1.win 3).blk t).view.set ↔ ∀ a : Fin 3, win1_3.index t a * S1x4096x64.size a ≤ (i a).val
      ∧ (i a).val < win1_3.index t a * S1x4096x64.size a + S1x4096x64.size a := by
  show i ∈ ((View.whole main_v1_0).slice (win1_3.rect t)).set ↔ _
  rw [View.set_slice_whole, Rect.mem_set_unit]
  exact Iff.rfl

/-- Every index of result array 0 lies in the block of the point (batch, row / 4096). -/
theorem cover3 (i : S4x16384x64.Idx) :
    ∃ t : Fin cfg1.N, (cfg1.win 3).flush t = true ∧ i ∈ ((cfg1.win 3).blk t).view.set := by
  have hi0 : (i 0).val < 4 := (i 0).isLt
  have hi1 : (i 1).val < 16384 := (i 1).isLt
  have hi2 : (i 2).val < 64 := (i 2).isLt
  have hN : cfg1.N = 16 := N_1
  obtain ⟨t, ht⟩ : ∃ t : Fin cfg1.N, t.val = 4 * (i 0).val + (i 1).val / 4096 :=
    ⟨⟨4 * (i 0).val + (i 1).val / 4096, by rw [hN]; omega⟩, rfl⟩
  refine ⟨t, flush1_3 t, ?_⟩
  rw [mem_blk3]
  obtain ⟨b0, b1, b2⟩ := (index_facts t).2.2.2.1
  intro a
  match a with
  | ⟨0, _⟩ =>
    show win1_3.index t 0 * 1 ≤ (i 0).val ∧ (i 0).val < win1_3.index t 0 * 1 + 1
    rw [b0, ht]; omega
  | ⟨1, _⟩ =>
    show win1_3.index t 1 * 4096 ≤ (i 1).val ∧ (i 1).val < win1_3.index t 1 * 4096 + 4096
    rw [b1, ht]; omega
  | ⟨2, _⟩ =>
    show win1_3.index t 2 * 64 ≤ (i 2).val ∧ (i 2).val < win1_3.index t 2 * 64 + 64
    rw [b2]; omega

/-- Result array 0 after the pipeline: the read-out of the left half of the queries against the
    second context matrix. -/
theorem final1_3 (c : Dev nD) :
    (dat1 (F := Ideal) V c).arrAt 3 cfg1.N
      = Cert.RefSpec.out (Cert.Spec.qLeft (V c main_v0_2)) (V c main_v0_1) :=
  (dat1 (F := Ideal) V c).arrAt_eq_of_cover 3 _ (fun t _ => flushed3_eq V c t) cover3

/-! ## Result array 1 -/

/-- What point `t` writes back to result array 1 is block `t` of the read-out of the whole arrays. -/
theorem flushed4_eq (c : Dev nD) (t : Fin cfg1.N) :
    (dat1 (F := Ideal) V c).flushed 4 t = ((cfg1.win 4).blk t).view.read (Elt Ideal)
      (Cert.RefSpec.out (Cert.Spec.qRight (V c main_v0_2)) (V c main_v0_0)) := by
  show (cfg1.win 4).cut (grid1.coords t) ((dat1 V c).after 4 t) = _
  rw [after1_4]
  unfold out1_4
  rw [View.canon_unit_zero hz3]
  simp only [View.ld_unit_zero (S := S1x4096x128) hz3, View.ld_unit_zero (S := S1x64x64) hz3]
  funext y
  obtain ⟨z, r, d, rfl⟩ : ∃ (z : Fin 1) (r : Fin 4096) (d : Fin 64), y = ix3 z r d := ⟨y 0, y 1, y 2, eq_ix3 y⟩
  obtain ⟨p0, p1, p2⟩ := out4_pos t z r d
  refine (pay3_entry (iblk1 V c 0 t) (iblk1 V c 1 t) z r d).trans ?_
  rw [View.read_apply]
  unfold Cert.RefSpec.out
  refine Finset.sum_congr rfl fun h _ => ?_
  refine congrArg₂ (· * ·) ?_ ?_
  · exact qblock_entry V c t z r (⟨64 + h.val, Nat.add_lt_add_left h.isLt 64⟩ : Fin 128) _ p0 p1 rfl
  · exact w0block_entry V c t z h d _ p0 rfl p2

/-- An index lies in point `t`'s block of result array 1 iff every coordinate lies in the block's range. -/
theorem mem_blk4 (t : Fin cfg1.N) (i : S4x16384x64.Idx) :
    i ∈ ((cfg1.win 4).blk t).view.set ↔ ∀ a : Fin 3, win1_4.index t a * S1x4096x64.size a ≤ (i a).val
      ∧ (i a).val < win1_4.index t a * S1x4096x64.size a + S1x4096x64.size a := by
  show i ∈ ((View.whole main_v1_1).slice (win1_4.rect t)).set ↔ _
  rw [View.set_slice_whole, Rect.mem_set_unit]
  exact Iff.rfl

/-- Every index of result array 1 lies in the block of the point (batch, row / 4096). -/
theorem cover4 (i : S4x16384x64.Idx) :
    ∃ t : Fin cfg1.N, (cfg1.win 4).flush t = true ∧ i ∈ ((cfg1.win 4).blk t).view.set := by
  have hi0 : (i 0).val < 4 := (i 0).isLt
  have hi1 : (i 1).val < 16384 := (i 1).isLt
  have hi2 : (i 2).val < 64 := (i 2).isLt
  have hN : cfg1.N = 16 := N_1
  obtain ⟨t, ht⟩ : ∃ t : Fin cfg1.N, t.val = 4 * (i 0).val + (i 1).val / 4096 :=
    ⟨⟨4 * (i 0).val + (i 1).val / 4096, by rw [hN]; omega⟩, rfl⟩
  refine ⟨t, flush1_4 t, ?_⟩
  rw [mem_blk4]
  obtain ⟨b0, b1, b2⟩ := (index_facts t).2.2.2.2
  intro a
  match a with
  | ⟨0, _⟩ =>
    show win1_4.index t 0 * 1 ≤ (i 0).val ∧ (i 0).val < win1_4.index t 0 * 1 + 1
    rw [b0, ht]; omega
  | ⟨1, _⟩ =>
    show win1_4.index t 1 * 4096 ≤ (i 1).val ∧ (i 1).val < win1_4.index t 1 * 4096 + 4096
    rw [b1, ht]; omega
  | ⟨2, _⟩ =>
    show win1_4.index t 2 * 64 ≤ (i 2).val ∧ (i 2).val < win1_4.index t 2 * 64 + 64
    rw [b2]; omega

/-- Result array 1 after the pipeline: the read-out of the right half of the queries against the
    first context matrix. -/
theorem final1_4 (c : Dev nD) :
    (dat1 (F := Ideal) V c).arrAt 4 cfg1.N
      = Cert.RefSpec.out (Cert.Spec.qRight (V c main_v0_2)) (V c main_v0_0) :=
  (dat1 (F := Ideal) V c).arrAt_eq_of_cover 4 _ (fun t _ => flushed4_eq V c t) cover4

end Cert.KernelIdeal.Val

end
-- ==== Proof.Ideal.Region0Step.lean ====
/-
  Region 0's arithmetic at one grid point, as pure functions of the point's input blocks and of the carried buffers: the
  carried buffers after the point (for each stream: the new running maximum, the rescaled denominator plus the tile's sum
  of exponentials, the rescaled accumulator plus the tile's weighted sum), their start values, the query block, and the two
  context blocks accumulator / denominator. Written over the body's named payloads; nothing is proved here.
-/
import proofs.«174424_j489626271899_2_alg».proof.Proof.Gen.KernelIdeal.Skeleton

noncomputable section

namespace Cert.KernelIdeal.Gen2

open Cert.KernelIdeal Cert.KernelIdeal.Gen
open Idealize.ShloMosaic

variable {F : FTy → Type} [FloatOps F]

/-- Running maximum, denominator, accumulator of stream 0, then of stream 1. -/
abbrev CarryT (F : FTy → Type) [FloatOps F] : Type :=
  Vec F S64x1 .f32 × Vec F S64x1 .f32 × Vec F S64x64 .f32 × Vec F S64x1 .f32 × Vec F S64x1 .f32 × Vec F S64x64 .f32

/-- The carried buffers when the token-tile axis starts: maxima at the finite sentinel, denominators and accumulators zero. -/
def initCarry : CarryT F := (k0_pay4, k0_pay5, k0_pay6, k0_pay7, k0_pay8, k0_pay9)

/-- The carried buffers after a point whose blocks are `x0 x1` (the two streams' token tiles) and `wk0 wk1 wv0 wv1` (key and
    value weights), from the carried buffers `xs` before it. -/
def stepCarry (x0 x1 : Vec F S1x4096x256 .f32) (wk0 wk1 wv0 wv1 : Vec F S64x256 .f32) (xs : CarryT F) : CarryT F :=
  (k0_pay23 (k0_pay18 x0 wk0 xs.1),
   k0_pay21 (k0_pay14 x0 wk0) (k0_pay18 x0 wk0 xs.1) xs.1 xs.2.1,
   k0_pay22 (k0_pay14 x0 wk0) (k0_pay15 x0 wv0) (k0_pay18 x0 wk0 xs.1) xs.1 xs.2.2.1,
   k0_pay29 (k0_pay24 (k0_pay16 x1 wk1) xs.2.2.2.1),
   k0_pay27 (k0_pay25 (k0_pay16 x1 wk1) xs.2.2.2.1 xs.2.2.2.1) (k0_pay26 (k0_pay16 x1 wk1) xs.2.2.2.1) xs.2.2.2.2.1,
   k0_pay28 (k0_pay17 x1 wv1) (k0_pay25 (k0_pay16 x1 wk1) xs.2.2.2.1 xs.2.2.2.1) (k0_pay26 (k0_pay16 x1 wk1) xs.2.2.2.1) xs.2.2.2.2.2)

/-- The query block stored at a point: the two streams' head softmaxes side by side. -/
def qBlock (x0 x1 : Vec F S1x4096x256 .f32) (wq0 wq1 : Vec F S64x256 .f32) : FVec F S1x4096x128 .bf16 :=
  k0_pay1 (k0_pay30 (k0_pay11 x1) (k0_pay13 wq1)) (k0_pay31 (k0_pay10 x0) (k0_pay12 wq0)) (k0_pay32 (k0_pay11 x1) (k0_pay13 wq1))

/-- The two context blocks stored at the last tile, from the carried buffers after it. -/
def ctxBlock0 (xs : CarryT F) : FVec F S1x64x64 .f32 := k0_pay2 xs.2.2.1 xs.2.1
def ctxBlock1 (xs : CarryT F) : FVec F S1x64x64 .f32 := k0_pay3 xs.2.2.2.2.2 xs.2.2.2.2.1

end Cert.KernelIdeal.Gen2

end
-- ==== Proof.Ideal.Region0Pieces.lean ====
/-
  Region 0, the three control cases read as values. Each case's stores into the output windows and into the six carried
  buffers (running maximum, denominator, accumulator of each stream) are single covering stores, so what a buffer holds
  afterwards is its last store's payload. At the middle token tiles the payloads are functions of the point's input blocks
  and of the carried buffers on entry; at the first tile every carried buffer is first stored its start value and the
  update reads that store back, so the same functions are applied to the start values; at the last tile the two context
  blocks, accumulator over denominator, are computed from the carried buffers after their update.
-/
import proofs.«174424_j489626271899_2_alg».proof.Proof.Ideal.Region0
import proofs.«174424_j489626271899_2_alg».proof.Proof.Ideal.Region0Step
import Idealize.ShloMosaic.Lib.Pipeline.Value

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (V : Entry F)

/-- Zero offsets, of a rank-2 and of a rank-3 buffer. -/
theorem pieces_hz2 : (![0, 0] : Fin 2 → Nat) = fun _ => 0 := funext fun a => by fin_cases a <;> rfl
theorem pieces_hz3 : (![0, 0, 0] : Fin 3 → Nat) = fun _ => 0 := funext fun a => by fin_cases a <;> rfl

/-- First tile, over any buffers: the query block, and each carried buffer one step on from its start value. -/
theorem canonA (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x4096x128 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x64 .f32) (harg18 : arg18.IsWhole) (hc0 : cond0_0 i) (hc1 : ¬cond0_1 i)
    (x0 x1 : Vec F S1x4096x256 .f32) (x2 x3 x4 x5 x6 x7 : Vec F S64x256 .f32) :
    View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).1 = qBlock x0 x1 x4 x5
      ∧ View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.1 = (stepCarry x0 x1 x2 x3 x6 x7 initCarry).1
      ∧ View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.1 = (stepCarry x0 x1 x2 x3 x6 x7 initCarry).2.1
      ∧ View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.1 = (stepCarry x0 x1 x2 x3 x6 x7 initCarry).2.2.1
      ∧ View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.2.1 = (stepCarry x0 x1 x2 x3 x6 x7 initCarry).2.2.2.1
      ∧ View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.2.2.1 = (stepCarry x0 x1 x2 x3 x6 x7 initCarry).2.2.2.2.1
      ∧ View.canon (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7).2.2.2.2.2.2.1 = (stepCarry x0 x1 x2 x3 x6 x7 initCarry).2.2.2.2.2 := by
  unfold kernelRun0_A stepCarry qBlock initCarry
  dsimp only
  sl_unfold_words
  rw [View.canon_unit_zero pieces_hz3, View.canon_cons_unit_zero pieces_hz2, View.canon_cons_unit_zero pieces_hz2, View.canon_cons_unit_zero pieces_hz2, View.canon_cons_unit_zero pieces_hz2, View.canon_cons_unit_zero pieces_hz2, View.canon_cons_unit_zero pieces_hz2]
  simp only [View.readAt_eq_ld, Memref.IsWhole.read_unread, View.ld_unit_zero (S := S1x4096x256) pieces_hz3, View.ld_unit_zero (S := S64x256) pieces_hz2, View.ld_unit_zero (S := S64x1) pieces_hz2, View.ld_unit_zero (S := S64x64) pieces_hz2, View.readCov_unit_zero (S := S64x1) _ pieces_hz2, View.readCov_unit_zero (S := S64x64) _ pieces_hz2]
  exact ⟨trivial, trivial, trivial, trivial, trivial, trivial, trivial⟩

/-- Middle tiles, over any buffers: the query block, and each carried buffer one step on from its contents on entry. -/
theorem canonB (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x4096x128 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x64 .f32) (harg18 : arg18.IsWhole) (hc0 : ¬cond0_0 i) (hc1 : ¬cond0_1 i)
    (x0 x1 : Vec F S1x4096x256 .f32) (x2 x3 x4 x5 x6 x7 : Vec F S64x256 .f32) (xs0 xs1 : Vec F S64x1 .f32) (xs2 : Vec F S64x64 .f32) (xs3 xs4 : Vec F S64x1 .f32) (xs5 : Vec F S64x64 .f32) :
    View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).1 = qBlock x0 x1 x4 x5
      ∧ View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.1 = (stepCarry x0 x1 x2 x3 x6 x7 (xs0, xs1, xs2, xs3, xs4, xs5)).1
      ∧ View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.1 = (stepCarry x0 x1 x2 x3 x6 x7 (xs0, xs1, xs2, xs3, xs4, xs5)).2.1
      ∧ View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.1 = (stepCarry x0 x1 x2 x3 x6 x7 (xs0, xs1, xs2, xs3, xs4, xs5)).2.2.1
      ∧ View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.2.1 = (stepCarry x0 x1 x2 x3 x6 x7 (xs0, xs1, xs2, xs3, xs4, xs5)).2.2.2.1
      ∧ View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.2.2.1 = (stepCarry x0 x1 x2 x3 x6 x7 (xs0, xs1, xs2, xs3, xs4, xs5)).2.2.2.2.1
      ∧ View.canon (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.2.2.2.1 = (stepCarry x0 x1 x2 x3 x6 x7 (xs0, xs1, xs2, xs3, xs4, xs5)).2.2.2.2.2 := by
  unfold kernelRun0_B stepCarry qBlock
  dsimp only
  sl_unfold_words
  rw [View.canon_unit_zero pieces_hz3, View.canon_unit_zero pieces_hz2, View.canon_unit_zero pieces_hz2, View.canon_unit_zero pieces_hz2, View.canon_unit_zero pieces_hz2, View.canon_unit_zero pieces_hz2, View.canon_unit_zero pieces_hz2]
  simp only [View.readAt_eq_ld, Memref.IsWhole.read_unread, View.ld_unit_zero (S := S1x4096x256) pieces_hz3, View.ld_unit_zero (S := S64x256) pieces_hz2, View.ld_unit_zero (S := S64x1) pieces_hz2, View.ld_unit_zero (S := S64x64) pieces_hz2]
  exact ⟨trivial, trivial, trivial, trivial, trivial, trivial, trivial⟩

/-- Last tile, over any buffers: the two context blocks from the carried buffers after their update, the query block, and
    each carried buffer one step on from its contents on entry. -/
theorem canonC (c : Dev nD) (i : grid0.Coords) (arg2 : Memref sig .tc .vmem S1x4096x256 .f32) (harg2 : arg2.IsWhole) (arg3 : Memref sig .tc .vmem S1x4096x256 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S64x256 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x4096x128 .bf16) (harg12 : arg12.IsWhole) (arg13 : Memref sig .tc .vmem S64x1 .f32) (harg13 : arg13.IsWhole) (arg14 : Memref sig .tc .vmem S64x1 .f32) (harg14 : arg14.IsWhole) (arg15 : Memref sig .tc .vmem S64x64 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x64 .f32) (harg18 : arg18.IsWhole) (hc0 : ¬cond0_0 i) (hc1 : cond0_1 i)
    (x0 x1 : Vec F S1x4096x256 .f32) (x2 x3 x4 x5 x6 x7 : Vec F S64x256 .f32) (xs0 xs1 : Vec F S64x1 .f32) (xs2 : Vec F S64x64 .f32) (xs3 xs4 : Vec F S64x1 .f32) (xs5 : Vec F S64x64 .f32) :
    View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).1 = ctxBlock0 (stepCarry x0 x1 x2 x3 x6 x7 (xs0, xs1, xs2, xs3, xs4, xs5))
      ∧ View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.1 = ctxBlock1 (stepCarry x0 x1 x2 x3 x6 x7 (xs0, xs1, xs2, xs3, xs4, xs5))
      ∧ View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.1 = qBlock x0 x1 x4 x5
      ∧ View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.1 = (stepCarry x0 x1 x2 x3 x6 x7 (xs0, xs1, xs2, xs3, xs4, xs5)).1
      ∧ View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.2.1 = (stepCarry x0 x1 x2 x3 x6 x7 (xs0, xs1, xs2, xs3, xs4, xs5)).2.1
      ∧ View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.2.2.1 = (stepCarry x0 x1 x2 x3 x6 x7 (xs0, xs1, xs2, xs3, xs4, xs5)).2.2.1
      ∧ View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.2.2.2.1 = (stepCarry x0 x1 x2 x3 x6 x7 (xs0, xs1, xs2, xs3, xs4, xs5)).2.2.2.1
      ∧ View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.2.2.2.2.1 = (stepCarry x0 x1 x2 x3 x6 x7 (xs0, xs1, xs2, xs3, xs4, xs5)).2.2.2.2.1
      ∧ View.canon (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 xs0 xs1 xs2 xs3 xs4 xs5).2.2.2.2.2.2.2.2.1 = (stepCarry x0 x1 x2 x3 x6 x7 (xs0, xs1, xs2, xs3, xs4, xs5)).2.2.2.2.2 := by
  unfold kernelRun0_C ctxBlock0 ctxBlock1 stepCarry qBlock
  dsimp only
  sl_unfold_words
  rw [View.canon_unit_zero pieces_hz3, View.canon_unit_zero pieces_hz3, View.canon_unit_zero pieces_hz3, View.canon_unit_zero pieces_hz2, View.canon_unit_zero pieces_hz2, View.canon_unit_zero pieces_hz2, View.canon_unit_zero pieces_hz2, View.canon_unit_zero pieces_hz2, View.canon_unit_zero pieces_hz2]
  simp only [View.readAt_eq_ld, Memref.IsWhole.read_unread, View.ld_unit_zero (S := S1x4096x256) pieces_hz3, View.ld_unit_zero (S := S64x256) pieces_hz2, View.ld_unit_zero (S := S64x1) pieces_hz2, View.ld_unit_zero (S := S64x64) pieces_hz2, View.readCov_unit_zero (S := S64x1) _ pieces_hz2, View.readCov_unit_zero (S := S64x64) _ pieces_hz2]
  exact ⟨trivial, trivial, trivial, trivial, trivial, trivial, trivial, trivial, trivial⟩

/-- Case A at a grid point's own buffers and blocks. -/
theorem canonA_at (c : Dev nD) (t : Fin cfg0.N) (h0 : t.val % 4 = 0) (h1 : ¬t.val % 4 = 3) :
    View.canon (runA V c t h0 h1).1 = (qBlock (iblk0 V c 0 t) (iblk0 V c 1 t) (iblk0 V c 4 t) (iblk0 V c 5 t))
      ∧ View.canon (runA V c t h0 h1).2.1 = (stepCarry (iblk0 V c 0 t) (iblk0 V c 1 t) (iblk0 V c 2 t) (iblk0 V c 3 t) (iblk0 V c 6 t) (iblk0 V c 7 t) initCarry).1
      ∧ View.canon (runA V c t h0 h1).2.2.1 = (stepCarry (iblk0 V c 0 t) (iblk0 V c 1 t) (iblk0 V c 2 t) (iblk0 V c 3 t) (iblk0 V c 6 t) (iblk0 V c 7 t) initCarry).2.1
      ∧ View.canon (runA V c t h0 h1).2.2.2.1 = (stepCarry (iblk0 V c 0 t) (iblk0 V c 1 t) (iblk0 V c 2 t) (iblk0 V c 3 t) (iblk0 V c 6 t) (iblk0 V c 7 t) initCarry).2.2.1
      ∧ View.canon (runA V c t h0 h1).2.2.2.2.1 = (stepCarry (iblk0 V c 0 t) (iblk0 V c 1 t) (iblk0 V c 2 t) (iblk0 V c 3 t) (iblk0 V c 6 t) (iblk0 V c 7 t) initCarry).2.2.2.1
      ∧ View.canon (runA V c t h0 h1).2.2.2.2.2.1 = (stepCarry (iblk0 V c 0 t) (iblk0 V c 1 t) (iblk0 V c 2 t) (iblk0 V c 3 t) (iblk0 V c 6 t) (iblk0 V c 7 t) initCarry).2.2.2.2.1
      ∧ View.canon (runA V c t h0 h1).2.2.2.2.2.2.1 = (stepCarry (iblk0 V c 0 t) (iblk0 V c 1 t) (iblk0 V c 2 t) (iblk0 V c 3 t) (iblk0 V c 6 t) (iblk0 V c 7 t) initCarry).2.2.2.2.2 :=
  canonA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)

theorem leftA_q (c : Dev nD) (t : Fin cfg0.N) (h0 : t.val % 4 = 0) (h1 : ¬t.val % 4 = 3) :
    VO0_10.read (Elt F) (VO0_10.writes (Elt F) VO0_10.junk (runA V c t h0 h1).1) = (qBlock (iblk0 V c 0 t) (iblk0 V c 1 t) (iblk0 V c 4 t) (iblk0 V c 5 t)) :=
  (View.read_writes_junk_eq_canon VO0_10 _).trans (canonA_at V c t h0 h1).1

theorem leftA_s0 (c : Dev nD) (t : Fin cfg0.N) (h0 : t.val % 4 = 0) (h1 : ¬t.val % 4 = 3) :
    VS0_0.read (Elt F) (VS0_0.writes (Elt F) VS0_0.junk (runA V c t h0 h1).2.1) = (stepCarry (iblk0 V c 0 t) (iblk0 V c 1 t) (iblk0 V c 2 t) (iblk0 V c 3 t) (iblk0 V c 6 t) (iblk0 V c 7 t) initCarry).1 :=
  (View.read_writes_junk_eq_canon VS0_0 _).trans (canonA_at V c t h0 h1).2.1

theorem leftA_s1 (c : Dev nD) (t : Fin cfg0.N) (h0 : t.val % 4 = 0) (h1 : ¬t.val % 4 = 3) :
    VS0_1.read (Elt F) (VS0_1.writes (Elt F) VS0_1.junk (runA V c t h0 h1).2.2.1) = (stepCarry (iblk0 V c 0 t) (iblk0 V c 1 t) (iblk0 V c 2 t) (iblk0 V c 3 t) (iblk0 V c 6 t) (iblk0 V c 7 t) initCarry).2.1 :=
  (View.read_writes_junk_eq_canon VS0_1 _).trans (canonA_at V c t h0 h1).2.2.1

theorem leftA_s2 (c : Dev nD) (t : Fin cfg0.N) (h0 : t.val % 4 = 0) (h1 : ¬t.val % 4 = 3) :
    VS0_2.read (Elt F) (VS0_2.writes (Elt F) VS0_2.junk (runA V c t h0 h1).2.2.2.1) = (stepCarry (iblk0 V c 0 t) (iblk0 V c 1 t) (iblk0 V c 2 t) (iblk0 V c 3 t) (iblk0 V c 6 t) (iblk0 V c 7 t) initCarry).2.2.1 :=
  (View.read_writes_junk_eq_canon VS0_2 _).trans (canonA_at V c t h0 h1).2.2.2.1

theorem leftA_s3 (c : Dev nD) (t : Fin cfg0.N) (h0 : t.val % 4 = 0) (h1 : ¬t.val % 4 = 3) :
    VS0_3.read (Elt F) (VS0_3.writes (Elt F) VS0_3.junk (runA V c t h0 h1).2.2.2.2.1) = (stepCarry (iblk0 V c 0 t) (iblk0 V c 1 t) (iblk0 V c 2 t) (iblk0 V c 3 t) (iblk0 V c 6 t) (iblk0 V c 7 t) initCarry).2.2.2.1 :=
  (View.read_writes_junk_eq_canon VS0_3 _).trans (canonA_at V c t h0 h1).2.2.2.2.1

theorem leftA_s4 (c : Dev nD) (t : Fin cfg0.N) (h0 : t.val % 4 = 0) (h1 : ¬t.val % 4 = 3) :
    VS0_4.read (Elt F) (VS0_4.writes (Elt F) VS0_4.junk (runA V c t h0 h1).2.2.2.2.2.1) = (stepCarry (iblk0 V c 0 t) (iblk0 V c 1 t) (iblk0 V c 2 t) (iblk0 V c 3 t) (iblk0 V c 6 t) (iblk0 V c 7 t) initCarry).2.2.2.2.1 :=
  (View.read_writes_junk_eq_canon VS0_4 _).trans (canonA_at V c t h0 h1).2.2.2.2.2.1

theorem leftA_s5 (c : Dev nD) (t : Fin cfg0.N) (h0 : t.val % 4 = 0) (h1 : ¬t.val % 4 = 3) :
    VS0_5.read (Elt F) (VS0_5.writes (Elt F) VS0_5.junk (runA V c t h0 h1).2.2.2.2.2.2.1) = (stepCarry (iblk0 V c 0 t) (iblk0 V c 1 t) (iblk0 V c 2 t) (iblk0 V c 3 t) (iblk0 V c 6 t) (iblk0 V c 7 t) initCarry).2.2.2.2.2 :=
  (View.read_writes_junk_eq_canon VS0_5 _).trans (canonA_at V c t h0 h1).2.2.2.2.2.2

/-- Case B at a grid point's own buffers and blocks. -/
theorem canonB_at (c : Dev nD) (t : Fin cfg0.N) (h0 : ¬t.val % 4 = 0) (h1 : ¬t.val % 4 = 3) (xs : Carry F) :
    View.canon (runB V c t h0 h1 xs).1 = (qBlock (iblk0 V c 0 t) (iblk0 V c 1 t) (iblk0 V c 4 t) (iblk0 V c 5 t))
      ∧ View.canon (runB V c t h0 h1 xs).2.1 = (stepCarry (iblk0 V c 0 t) (iblk0 V c 1 t) (iblk0 V c 2 t) (iblk0 V c 3 t) (iblk0 V c 6 t) (iblk0 V c 7 t) xs).1
      ∧ View.canon (runB V c t h0 h1 xs).2.2.1 = (stepCarry (iblk0 V c 0 t) (iblk0 V c 1 t) (iblk0 V c 2 t) (iblk0 V c 3 t) (iblk0 V c 6 t) (iblk0 V c 7 t) xs).2.1
      ∧ View.canon (runB V c t h0 h1 xs).2.2.2.1 = (stepCarry (iblk0 V c 0 t) (iblk0 V c 1 t) (iblk0 V c 2 t) (iblk0 V c 3 t) (iblk0 V c 6 t) (iblk0 V c 7 t) xs).2.2.1
      ∧ View.canon (runB V c t h0 h1 xs).2.2.2.2.1 = (stepCarry (iblk0 V c 0 t) (iblk0 V c 1 t) (iblk0 V c 2 t) (iblk0 V c 3 t) (iblk0 V c 6 t) (iblk0 V c 7 t) xs).2.2.2.1
      ∧ View.canon (runB V c t h0 h1 xs).2.2.2.2.2.1 = (stepCarry (iblk0 V c 0 t) (iblk0 V c 1 t) (iblk0 V c 2 t) (iblk0 V c 3 t) (iblk0 V c 6 t) (iblk0 V c 7 t) xs).2.2.2.2.1
      ∧ View.canon (runB V c t h0 h1 xs).2.2.2.2.2.2.1 = (stepCarry (iblk0 V c 0 t) (iblk0 V c 1 t) (iblk0 V c 2 t) (iblk0 V c 3 t) (iblk0 V c 6 t) (iblk0 V c 7 t) xs).2.2.2.2.2 :=
  canonB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) xs.1 xs.2.1 xs.2.2.1 xs.2.2.2.1 xs.2.2.2.2.1 xs.2.2.2.2.2

theorem leftB_q (c : Dev nD) (t : Fin cfg0.N) (h0 : ¬t.val % 4 = 0) (h1 : ¬t.val % 4 = 3) (xs : Carry F) :
    VO0_10.read (Elt F) (VO0_10.writes (Elt F) VO0_10.junk (runB V c t h0 h1 xs).1) = (qBlock (iblk0 V c 0 t) (iblk0 V c 1 t) (iblk0 V c 4 t) (iblk0 V c 5 t)) :=
  (View.read_writes_junk_eq_canon VO0_10 _).trans (canonB_at V c t h0 h1 xs).1

theorem leftB_s0 (c : Dev nD) (t : Fin cfg0.N) (h0 : ¬t.val % 4 = 0) (h1 : ¬t.val % 4 = 3) (xs : Carry F) :
    VS0_0.read (Elt F) (VS0_0.writes (Elt F) VS0_0.junk (runB V c t h0 h1 xs).2.1) = (stepCarry (iblk0 V c 0 t) (iblk0 V c 1 t) (iblk0 V c 2 t) (iblk0 V c 3 t) (iblk0 V c 6 t) (iblk0 V c 7 t) xs).1 :=
  (View.read_writes_junk_eq_canon VS0_0 _).trans (canonB_at V c t h0 h1 xs).2.1

theorem leftB_s1 (c : Dev nD) (t : Fin cfg0.N) (h0 : ¬t.val % 4 = 0) (h1 : ¬t.val % 4 = 3) (xs : Carry F) :
    VS0_1.read (Elt F) (VS0_1.writes (Elt F) VS0_1.junk (runB V c t h0 h1 xs).2.2.1) = (stepCarry (iblk0 V c 0 t) (iblk0 V c 1 t) (iblk0 V c 2 t) (iblk0 V c 3 t) (iblk0 V c 6 t) (iblk0 V c 7 t) xs).2.1 :=
  (View.read_writes_junk_eq_canon VS0_1 _).trans (canonB_at V c t h0 h1 xs).2.2.1

theorem leftB_s2 (c : Dev nD) (t : Fin cfg0.N) (h0 : ¬t.val % 4 = 0) (h1 : ¬t.val % 4 = 3) (xs : Carry F) :
    VS0_2.read (Elt F) (VS0_2.writes (Elt F) VS0_2.junk (runB V c t h0 h1 xs).2.2.2.1) = (stepCarry (iblk0 V c 0 t) (iblk0 V c 1 t) (iblk0 V c 2 t) (iblk0 V c 3 t) (iblk0 V c 6 t) (iblk0 V c 7 t) xs).2.2.1 :=
  (View.read_writes_junk_eq_canon VS0_2 _).trans (canonB_at V c t h0 h1 xs).2.2.2.1

theorem leftB_s3 (c : Dev nD) (t : Fin cfg0.N) (h0 : ¬t.val % 4 = 0) (h1 : ¬t.val % 4 = 3) (xs : Carry F) :
    VS0_3.read (Elt F) (VS0_3.writes (Elt F) VS0_3.junk (runB V c t h0 h1 xs).2.2.2.2.1) = (stepCarry (iblk0 V c 0 t) (iblk0 V c 1 t) (iblk0 V c 2 t) (iblk0 V c 3 t) (iblk0 V c 6 t) (iblk0 V c 7 t) xs).2.2.2.1 :=
  (View.read_writes_junk_eq_canon VS0_3 _).trans (canonB_at V c t h0 h1 xs).2.2.2.2.1

theorem leftB_s4 (c : Dev nD) (t : Fin cfg0.N) (h0 : ¬t.val % 4 = 0) (h1 : ¬t.val % 4 = 3) (xs : Carry F) :
    VS0_4.read (Elt F) (VS0_4.writes (Elt F) VS0_4.junk (runB V c t h0 h1 xs).2.2.2.2.2.1) = (stepCarry (iblk0 V c 0 t) (iblk0 V c 1 t) (iblk0 V c 2 t) (iblk0 V c 3 t) (iblk0 V c 6 t) (iblk0 V c 7 t) xs).2.2.2.2.1 :=
  (View.read_writes_junk_eq_canon VS0_4 _).trans (canonB_at V c t h0 h1 xs).2.2.2.2.2.1

theorem leftB_s5 (c : Dev nD) (t : Fin cfg0.N) (h0 : ¬t.val % 4 = 0) (h1 : ¬t.val % 4 = 3) (xs : Carry F) :
    VS0_5.read (Elt F) (VS0_5.writes (Elt F) VS0_5.junk (runB V c t h0 h1 xs).2.2.2.2.2.2.1) = (stepCarry (iblk0 V c 0 t) (iblk0 V c 1 t) (iblk0 V c 2 t) (iblk0 V c 3 t) (iblk0 V c 6 t) (iblk0 V c 7 t) xs).2.2.2.2.2 :=
  (View.read_writes_junk_eq_canon VS0_5 _).trans (canonB_at V c t h0 h1 xs).2.2.2.2.2.2

/-- Case C at a grid point's own buffers and blocks. -/
theorem canonC_at (c : Dev nD) (t : Fin cfg0.N) (h0 : ¬t.val % 4 = 0) (h1 : t.val % 4 = 3) (xs : Carry F) :
    View.canon (runC V c t h0 h1 xs).1 = ctxBlock0 (stepCarry (iblk0 V c 0 t) (iblk0 V c 1 t) (iblk0 V c 2 t) (iblk0 V c 3 t) (iblk0 V c 6 t) (iblk0 V c 7 t) xs)
      ∧ View.canon (runC V c t h0 h1 xs).2.1 = ctxBlock1 (stepCarry (iblk0 V c 0 t) (iblk0 V c 1 t) (iblk0 V c 2 t) (iblk0 V c 3 t) (iblk0 V c 6 t) (iblk0 V c 7 t) xs)
      ∧ View.canon (runC V c t h0 h1 xs).2.2.1 = (qBlock (iblk0 V c 0 t) (iblk0 V c 1 t) (iblk0 V c 4 t) (iblk0 V c 5 t))
      ∧ View.canon (runC V c t h0 h1 xs).2.2.2.1 = (stepCarry (iblk0 V c 0 t) (iblk0 V c 1 t) (iblk0 V c 2 t) (iblk0 V c 3 t) (iblk0 V c 6 t) (iblk0 V c 7 t) xs).1
      ∧ View.canon (runC V c t h0 h1 xs).2.2.2.2.1 = (stepCarry (iblk0 V c 0 t) (iblk0 V c 1 t) (iblk0 V c 2 t) (iblk0 V c 3 t) (iblk0 V c 6 t) (iblk0 V c 7 t) xs).2.1
      ∧ View.canon (runC V c t h0 h1 xs).2.2.2.2.2.1 = (stepCarry (iblk0 V c 0 t) (iblk0 V c 1 t) (iblk0 V c 2 t) (iblk0 V c 3 t) (iblk0 V c 6 t) (iblk0 V c 7 t) xs).2.2.1
      ∧ View.canon (runC V c t h0 h1 xs).2.2.2.2.2.2.1 = (stepCarry (iblk0 V c 0 t) (iblk0 V c 1 t) (iblk0 V c 2 t) (iblk0 V c 3 t) (iblk0 V c 6 t) (iblk0 V c 7 t) xs).2.2.2.1
      ∧ View.canon (runC V c t h0 h1 xs).2.2.2.2.2.2.2.1 = (stepCarry (iblk0 V c 0 t) (iblk0 V c 1 t) (iblk0 V c 2 t) (iblk0 V c 3 t) (iblk0 V c 6 t) (iblk0 V c 7 t) xs).2.2.2.2.1
      ∧ View.canon (runC V c t h0 h1 xs).2.2.2.2.2.2.2.2.1 = (stepCarry (iblk0 V c 0 t) (iblk0 V c 1 t) (iblk0 V c 2 t) (iblk0 V c 3 t) (iblk0 V c 6 t) (iblk0 V c 7 t) xs).2.2.2.2.2 :=
  canonC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) xs.1 xs.2.1 xs.2.2.1 xs.2.2.2.1 xs.2.2.2.2.1 xs.2.2.2.2.2

theorem leftC_ctx0 (c : Dev nD) (t : Fin cfg0.N) (h0 : ¬t.val % 4 = 0) (h1 : t.val % 4 = 3) (xs : Carry F) :
    VO0_8.read (Elt F) (VO0_8.writes (Elt F) VO0_8.junk (runC V c t h0 h1 xs).1) = ctxBlock0 (stepCarry (iblk0 V c 0 t) (iblk0 V c 1 t) (iblk0 V c 2 t) (iblk0 V c 3 t) (iblk0 V c 6 t) (iblk0 V c 7 t) xs) :=
  (View.read_writes_junk_eq_canon VO0_8 _).trans (canonC_at V c t h0 h1 xs).1

theorem leftC_ctx1 (c : Dev nD) (t : Fin cfg0.N) (h0 : ¬t.val % 4 = 0) (h1 : t.val % 4 = 3) (xs : Carry F) :
    VO0_9.read (Elt F) (VO0_9.writes (Elt F) VO0_9.junk (runC V c t h0 h1 xs).2.1) = ctxBlock1 (stepCarry (iblk0 V c 0 t) (iblk0 V c 1 t) (iblk0 V c 2 t) (iblk0 V c 3 t) (iblk0 V c 6 t) (iblk0 V c 7 t) xs) :=
  (View.read_writes_junk_eq_canon VO0_9 _).trans (canonC_at V c t h0 h1 xs).2.1

theorem leftC_q (c : Dev nD) (t : Fin cfg0.N) (h0 : ¬t.val % 4 = 0) (h1 : t.val % 4 = 3) (xs : Carry F) :
    VO0_10.read (Elt F) (VO0_10.writes (Elt F) VO0_10.junk (runC V c t h0 h1 xs).2.2.1) = (qBlock (iblk0 V c 0 t) (iblk0 V c 1 t) (iblk0 V c 4 t) (iblk0 V c 5 t)) :=
  (View.read_writes_junk_eq_canon VO0_10 _).trans (canonC_at V c t h0 h1 xs).2.2.1

theorem leftC_s0 (c : Dev nD) (t : Fin cfg0.N) (h0 : ¬t.val % 4 = 0) (h1 : t.val % 4 = 3) (xs : Carry F) :
    VS0_0.read (Elt F) (VS0_0.writes (Elt F) VS0_0.junk (runC V c t h0 h1 xs).2.2.2.1) = (stepCarry (iblk0 V c 0 t) (iblk0 V c 1 t) (iblk0 V c 2 t) (iblk0 V c 3 t) (iblk0 V c 6 t) (iblk0 V c 7 t) xs).1 :=
  (View.read_writes_junk_eq_canon VS0_0 _).trans (canonC_at V c t h0 h1 xs).2.2.2.1

theorem leftC_s1 (c : Dev nD) (t : Fin cfg0.N) (h0 : ¬t.val % 4 = 0) (h1 : t.val % 4 = 3) (xs : Carry F) :
    VS0_1.read (Elt F) (VS0_1.writes (Elt F) VS0_1.junk (runC V c t h0 h1 xs).2.2.2.2.1) = (stepCarry (iblk0 V c 0 t) (iblk0 V c 1 t) (iblk0 V c 2 t) (iblk0 V c 3 t) (iblk0 V c 6 t) (iblk0 V c 7 t) xs).2.1 :=
  (View.read_writes_junk_eq_canon VS0_1 _).trans (canonC_at V c t h0 h1 xs).2.2.2.2.1

theorem leftC_s2 (c : Dev nD) (t : Fin cfg0.N) (h0 : ¬t.val % 4 = 0) (h1 : t.val % 4 = 3) (xs : Carry F) :
    VS0_2.read (Elt F) (VS0_2.writes (Elt F) VS0_2.junk (runC V c t h0 h1 xs).2.2.2.2.2.1) = (stepCarry (iblk0 V c 0 t) (iblk0 V c 1 t) (iblk0 V c 2 t) (iblk0 V c 3 t) (iblk0 V c 6 t) (iblk0 V c 7 t) xs).2.2.1 :=
  (View.read_writes_junk_eq_canon VS0_2 _).trans (canonC_at V c t h0 h1 xs).2.2.2.2.2.1

theorem leftC_s3 (c : Dev nD) (t : Fin cfg0.N) (h0 : ¬t.val % 4 = 0) (h1 : t.val % 4 = 3) (xs : Carry F) :
    VS0_3.read (Elt F) (VS0_3.writes (Elt F) VS0_3.junk (runC V c t h0 h1 xs).2.2.2.2.2.2.1) = (stepCarry (iblk0 V c 0 t) (iblk0 V c 1 t) (iblk0 V c 2 t) (iblk0 V c 3 t) (iblk0 V c 6 t) (iblk0 V c 7 t) xs).2.2.2.1 :=
  (View.read_writes_junk_eq_canon VS0_3 _).trans (canonC_at V c t h0 h1 xs).2.2.2.2.2.2.1

theorem leftC_s4 (c : Dev nD) (t : Fin cfg0.N) (h0 : ¬t.val % 4 = 0) (h1 : t.val % 4 = 3) (xs : Carry F) :
    VS0_4.read (Elt F) (VS0_4.writes (Elt F) VS0_4.junk (runC V c t h0 h1 xs).2.2.2.2.2.2.2.1) = (stepCarry (iblk0 V c 0 t) (iblk0 V c 1 t) (iblk0 V c 2 t) (iblk0 V c 3 t) (iblk0 V c 6 t) (iblk0 V c 7 t) xs).2.2.2.2.1 :=
  (View.read_writes_junk_eq_canon VS0_4 _).trans (canonC_at V c t h0 h1 xs).2.2.2.2.2.2.2.1

theorem leftC_s5 (c : Dev nD) (t : Fin cfg0.N) (h0 : ¬t.val % 4 = 0) (h1 : t.val % 4 = 3) (xs : Carry F) :
    VS0_5.read (Elt F) (VS0_5.writes (Elt F) VS0_5.junk (runC V c t h0 h1 xs).2.2.2.2.2.2.2.2.1) = (stepCarry (iblk0 V c 0 t) (iblk0 V c 1 t) (iblk0 V c 2 t) (iblk0 V c 3 t) (iblk0 V c 6 t) (iblk0 V c 7 t) xs).2.2.2.2.2 :=
  (View.read_writes_junk_eq_canon VS0_5 _).trans (canonC_at V c t h0 h1 xs).2.2.2.2.2.2.2.2

/-- What the first tile leaves: the context windows untouched, the query block, the carried buffers one step on from their
    start values. -/
theorem leftA_eq (c : Dev nD) (t : Fin cfg0.N) (h0 : t.val % 4 = 0) (h1 : ¬t.val % 4 = 3) :
    leftA V c t h0 h1 = ((idleOut, idleOut, (qBlock (iblk0 V c 0 t) (iblk0 V c 1 t) (iblk0 V c 4 t) (iblk0 V c 5 t))), (stepCarry (iblk0 V c 0 t) (iblk0 V c 1 t) (iblk0 V c 2 t) (iblk0 V c 3 t) (iblk0 V c 6 t) (iblk0 V c 7 t) initCarry)) := by
  unfold leftA
  simp only [leftA_q V c t h0 h1, leftA_s0 V c t h0 h1, leftA_s1 V c t h0 h1, leftA_s2 V c t h0 h1, leftA_s3 V c t h0 h1, leftA_s4 V c t h0 h1, leftA_s5 V c t h0 h1]

/-- What a middle tile leaves: the context windows untouched, the query block, the carried buffers one step on. -/
theorem leftB_eq (c : Dev nD) (t : Fin cfg0.N) (h0 : ¬t.val % 4 = 0) (h1 : ¬t.val % 4 = 3) (xs : Carry F) :
    leftB V c t h0 h1 xs = ((idleOut, idleOut, (qBlock (iblk0 V c 0 t) (iblk0 V c 1 t) (iblk0 V c 4 t) (iblk0 V c 5 t))), (stepCarry (iblk0 V c 0 t) (iblk0 V c 1 t) (iblk0 V c 2 t) (iblk0 V c 3 t) (iblk0 V c 6 t) (iblk0 V c 7 t) xs)) := by
  unfold leftB
  simp only [leftB_q V c t h0 h1 xs, leftB_s0 V c t h0 h1 xs, leftB_s1 V c t h0 h1 xs, leftB_s2 V c t h0 h1 xs, leftB_s3 V c t h0 h1 xs, leftB_s4 V c t h0 h1 xs, leftB_s5 V c t h0 h1 xs]

/-- What the last tile leaves: the two context blocks of the carried buffers after their update, the query block, the
    carried buffers one step on. -/
theorem leftC_eq (c : Dev nD) (t : Fin cfg0.N) (h0 : ¬t.val % 4 = 0) (h1 : t.val % 4 = 3) (xs : Carry F) :
    leftC V c t h0 h1 xs = ((ctxBlock0 (stepCarry (iblk0 V c 0 t) (iblk0 V c 1 t) (iblk0 V c 2 t) (iblk0 V c 3 t) (iblk0 V c 6 t) (iblk0 V c 7 t) xs), ctxBlock1 (stepCarry (iblk0 V c 0 t) (iblk0 V c 1 t) (iblk0 V c 2 t) (iblk0 V c 3 t) (iblk0 V c 6 t) (iblk0 V c 7 t) xs), (qBlock (iblk0 V c 0 t) (iblk0 V c 1 t) (iblk0 V c 4 t) (iblk0 V c 5 t))), (stepCarry (iblk0 V c 0 t) (iblk0 V c 1 t) (iblk0 V c 2 t) (iblk0 V c 3 t) (iblk0 V c 6 t) (iblk0 V c 7 t) xs)) := by
  unfold leftC
  simp only [leftC_ctx0 V c t h0 h1 xs, leftC_ctx1 V c t h0 h1 xs, leftC_q V c t h0 h1 xs, leftC_s0 V c t h0 h1 xs, leftC_s1 V c t h0 h1 xs, leftC_s2 V c t h0 h1 xs, leftC_s3 V c t h0 h1 xs, leftC_s4 V c t h0 h1 xs, leftC_s5 V c t h0 h1 xs]

end Cert.KernelIdeal.Gen2

end
-- ==== Proof.Value.BlockValue.lean ====
/-
  What the first region stores into its output blocks, read entry by entry at the ideal values.

  The two context blocks are the carried accumulator divided, row by row, by the carried denominator.
  The query block holds, side by side, the two streams' softmaxes over the 64 heads of the tile's raw
  queries  Σ_c x[n, c] · Wq[h, c]:  columns 0..63 stream 0's, columns 64..127 stream 1's.
-/
import proofs.«174424_j489626271899_2_alg».proof.Proof.Ideal.Region0Step
import proofs.«174424_j489626271899_2_alg».proof.Proof.Value.RefSpecDefs
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Gen2
open Idealize.ShloMosaic Idealize.ShloMosaic.ValueIdx

/-! ## Column casts and column broadcasts read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The context blocks -/

/-- Entry (h, d) of stream 0's context block: the accumulator's entry over the denominator of row h. -/
theorem ctxBlock0_apply (xs : CarryT Ideal) (h d : Fin 64) :
    ctxBlock0 xs (ix3 (0 : Fin 1) h d) = Ideal.div (xs.2.2.1 (ix2 h d)) (xs.2.1 (ix2 h (0 : Fin 1))) := by
  unfold ctxBlock0 Gen.k0_pay2
  refine (shapeCast_ab_1ab_apply _ _ 0 h d).trans ?_
  refine (divf_apply _ _ _).trans ?_
  exact congrArg (Ideal.div _) (broadcastTo_a1_ab_apply _ _ h d)

/-- Entry (h, d) of stream 1's context block. -/
theorem ctxBlock1_apply (xs : CarryT Ideal) (h d : Fin 64) :
    ctxBlock1 xs (ix3 (0 : Fin 1) h d) = Ideal.div (xs.2.2.2.2.2 (ix2 h d)) (xs.2.2.2.2.1 (ix2 h (0 : Fin 1))) := by
  unfold ctxBlock1 Gen.k0_pay3
  refine (shapeCast_ab_1ab_apply _ _ 0 h d).trans ?_
  refine (divf_apply _ _ _).trans ?_
  exact congrArg (Ideal.div _) (broadcastTo_a1_ab_apply _ _ h d)

/-! ## A row's maximum and sum, read at an index -/

/-- The source index over row `n` with column `k` put back is (n, k). -/
theorem blk_lift_row (hred : S4096x64.Reduces [1] S4096) (n : Fin 4096) (k : Fin (S4096x64.size 1)) :
    hred.lift (ix1 n) k = ix2 n (⟨k.val, k.isLt⟩ : Fin 64) := by
  funext c; apply Fin.ext
  fin_cases c <;> rfl

/-- From −∞ the maximum over the 64 columns, at row `n`, is the fold of `max` from `⊥` over that row. -/
theorem blk_rowMax_apply (v : FVec Ideal S4096x64 .f32) (hred : S4096x64.Reduces [1] S4096) (hφ : FKind.Formats .f32)
    (hacc : (0xFF800000#32 : BitVec 32) = FKind.maximumf.neutral .f32 hφ) (n : Fin 4096) :
    multiReduction .maximumf [1] S4096 v 0xFF800000#32 hred hφ hacc (ix1 n)
      = (Finset.univ : Finset (Fin 64)).fold max ⊥ (fun h' => v (ix2 n h')) := by
  refine (Ideal.multiReduction_maximumf_single v 0xFF800000#32 hred hφ hacc (ix1 n)).trans ?_
  have hb : (FloatOps.ofBits (F := Ideal) .f32 0xFF800000#32 : EReal) = ⊥ := by
    show Ideal.ofBits .f32 0xFF800000#32 = ⊥; simp [Ideal.ofBits, Ideal.ieee]
  have hf : (v ∘ hred.lift (ix1 n)) = fun h' : Fin 64 => v (ix2 n h') :=
    funext fun k => congrArg v (blk_lift_row hred n k)
  rw [hb]
  exact congrArg (fun f => Finset.fold max ⊥ f (Finset.univ : Finset (Fin 64))) hf

/-- From zero the sum over the 64 columns, at row `n`, is the sum of that row. -/
theorem blk_rowSum_apply (v : FVec Ideal S4096x64 .f32) (hred : S4096x64.Reduces [1] S4096) (hφ : FKind.Formats .f32)
    (hacc : (0x00000000#32 : BitVec 32) = FKind.add.neutral .f32 hφ) (n : Fin 4096) :
    multiReduction .add [1] S4096 v 0x00000000#32 hred hφ hacc (ix1 n) = ∑ h' : Fin 64, v (ix2 n h') := by
  refine (Ideal.multiReduction_add_single v 0x00000000#32 hred hφ hacc (ix1 n)).trans ?_
  exact Finset.sum_congr rfl fun k _ => congrArg v (blk_lift_row hred n k)

/-! ## The product of a token tile with a weight matrix, read at an index -/

theorem dotq_lhs0 (i : S4096x64.Idx) (q : dot_S4096x256_S64x256_S4096x64_1_1_0_0_n_n.contr.Idx) :
    (dot_S4096x256_S64x256_S4096x64_1_1_0_0_n_n.lhsIdx i q 0).val = (i 0).val := by
  unfold DotDims.lhsIdx
  rw [dif_neg (show ¬(0 : Fin S4096x256.rank) ∈ dot_S4096x256_S64x256_S4096x64_1_1_0_0_n_n.lhsBatch by decide),
    dif_pos (show (0 : Fin S4096x256.rank) ∈ dot_S4096x256_S64x256_S4096x64_1_1_0_0_n_n.lhsNonContracting by decide)]
  rfl

theorem dotq_rhs0 (i : S4096x64.Idx) (q : dot_S4096x256_S64x256_S4096x64_1_1_0_0_n_n.contr.Idx) :
    (dot_S4096x256_S64x256_S4096x64_1_1_0_0_n_n.rhsIdx i q 0).val = (i 1).val := by
  unfold DotDims.rhsIdx
  rw [dif_neg (show ¬(0 : Fin S64x256.rank) ∈ dot_S4096x256_S64x256_S4096x64_1_1_0_0_n_n.rhsBatch by decide),
    dif_pos (show (0 : Fin S64x256.rank) ∈ dot_S4096x256_S64x256_S4096x64_1_1_0_0_n_n.rhsNonContracting by decide)]
  rfl

/-- Into a zero accumulator the product at (n, h) is the sum over the 256 channels of a(n, c) · b(h, c). -/
theorem matmul_tile_apply (a : FVec Ideal S4096x256 .bf16) (b : FVec Ideal S64x256 .bf16) (n : Fin 4096) (h : Fin 64) :
    matmul dot_S4096x256_S64x256_S4096x64_1_1_0_0_n_n none a b (constant (F := Ideal) S4096x64 .f32 0x00000000#32) (ix2 n h)
      = ∑ c : Fin 256, a (ix2 n c) * b (ix2 h c) := by
  refine (Ideal.matmul_constant_zero_apply dot_S4096x256_S64x256_S4096x64_1_1_0_0_n_n none a b (ix2 n h)).trans ?_
  rw [← Equiv.sum_comp (contrEquiv1 dot_S4096x256_S64x256_S4096x64_1_1_0_0_n_n 256 rfl rfl).symm]
  refine Finset.sum_congr rfl fun k _ => ?_
  have hk := contrEquiv1_symm_val dot_S4096x256_S64x256_S4096x64_1_1_0_0_n_n 256 rfl rfl k
  have el : dot_S4096x256_S64x256_S4096x64_1_1_0_0_n_n.lhsIdx (ix2 n h) ((contrEquiv1 dot_S4096x256_S64x256_S4096x64_1_1_0_0_n_n 256 rfl rfl).symm k) = ix2 n k :=
    funext fun ax => Fin.ext (by
      match ax with
      | ⟨0, _⟩ => exact dotq_lhs0 _ _
      | ⟨1, _⟩ => exact (dot_S4096x256_S64x256_S4096x64_1_1_0_0_n_n.lhsIdx_val_of_single rfl _ _).trans hk)
  have er : dot_S4096x256_S64x256_S4096x64_1_1_0_0_n_n.rhsIdx (ix2 n h) ((contrEquiv1 dot_S4096x256_S64x256_S4096x64_1_1_0_0_n_n 256 rfl rfl).symm k) = ix2 h k :=
    funext fun ax => Fin.ext (by
      match ax with
      | ⟨0, _⟩ => exact dotq_rhs0 _ _
      | ⟨1, _⟩ => exact (dot_S4096x256_S64x256_S4096x64_1_1_0_0_n_n.rhsIdx_val_of_single rfl _ _).trans hk)
  rw [el, er]

/-! ## The raw queries of a tile and the softmax of a row -/

/-- The raw query of token `n`, head `h`: the token's 256 channels against the head's weights. -/
def tileQ (x : Vec Ideal S1x4096x256 .f32) (w : Vec Ideal S64x256 .f32) (n : Fin 4096) (h : Fin 64) : EReal :=
  ∑ c : Fin 256, x (ix3 (0 : Fin 1) n c) * w (ix2 h c)

/-- The softmax of a row of 64 entries: the maximum, folded from −∞, is subtracted before the exponential. -/
def rowSoft (a : Fin 64 → EReal) (h : Fin 64) : EReal :=
  Ideal.div (Ideal.exp (a h - (Finset.univ : Finset (Fin 64)).fold max ⊥ a))
    (∑ h', Ideal.exp (a h' - (Finset.univ : Finset (Fin 64)).fold max ⊥ a))

/-- The row maxima of a [4096, 64] array spread back over the columns, as the body computes them. -/
def rowMaxVec (v : FVec Ideal S4096x64 .f32) : FVec Ideal S4096x64 .f32 :=
  broadcastTo S4096x64
    (shapeCast S4096x1
      (maximumf (broadcast S4096 (Scalar.ofBits (F := Ideal) .f32 0xFF800000#32))
        (multiReduction (F := Ideal) .maximumf [1] S4096 v 0xFF800000#32 reduces_S4096x64_S4096 (.inl rfl) rfl))
      shapeCasts_S4096_S4096x1)
    broadcasts_S4096x1_S4096x64

/-- The exponentials of `v − m` over their row sums, as the body computes them. -/
def softVec (v m : FVec Ideal S4096x64 .f32) : FVec Ideal S4096x64 .f32 :=
  divf (exp (subf v m))
    (broadcastTo S4096x64
      (shapeCast S4096x1
        (multiReduction (F := Ideal) .add [1] S4096 (exp (subf v m)) 0x00000000#32 reduces_S4096x64_S4096 (.inl rfl) rfl)
        shapeCasts_S4096_S4096x1)
      broadcasts_S4096x1_S4096x64)

theorem rowMaxVec_apply (v : FVec Ideal S4096x64 .f32) (n : Fin 4096) (h : Fin 64) :
    rowMaxVec v (ix2 n h) = (Finset.univ : Finset (Fin 64)).fold max ⊥ (fun h' => v (ix2 n h')) := by
  unfold rowMaxVec
  refine (broadcastTo_a1_ab_apply _ _ n h).trans ?_
  refine (shapeCast_a_a1_apply _ _ n 0).trans ?_
  refine (maximumf_apply _ _ _).trans ?_
  refine (congrArg (max _) (blk_rowMax_apply v _ _ _ n)).trans ?_
  show max (Ideal.ofBits .f32 0xFF800000#32) _ = _
  have hb : Ideal.ofBits .f32 0xFF800000#32 = ⊥ := by simp [Ideal.ofBits, Ideal.ieee]
  rw [hb]
  exact max_eq_right bot_le

theorem softVec_apply (v m : FVec Ideal S4096x64 .f32) (n : Fin 4096) (h : Fin 64) :
    softVec v m (ix2 n h)
      = Ideal.div (Ideal.exp (v (ix2 n h) - m (ix2 n h))) (∑ h' : Fin 64, Ideal.exp (v (ix2 n h') - m (ix2 n h'))) := by
  unfold softVec
  refine (divf_apply _ _ _).trans ?_
  refine congrArg (Ideal.div _) ?_
  refine (broadcastTo_a1_ab_apply _ _ n h).trans ?_
  refine (shapeCast_a_a1_apply _ _ n 0).trans ?_
  exact blk_rowSum_apply _ _ _ _ n

/-- The body's softmax of a [4096, 64] array, at (n, h), is the softmax of row `n` at `h`. -/
theorem softRow_apply (v : FVec Ideal S4096x64 .f32) (n : Fin 4096) (h : Fin 64) :
    softVec v (rowMaxVec v) (ix2 n h) = rowSoft (fun h' => v (ix2 n h')) h := by
  refine (softVec_apply v _ n h).trans ?_
  unfold rowSoft
  simp only [rowMaxVec_apply]

/-! ## The query block -/

/-- A token block read as a [4096, 256] matrix: row `n` is token `n` of the block. -/
theorem blk_pay10_apply (x : Vec Ideal S1x4096x256 .f32) (n : Fin 4096) (c : Fin 256) :
    k0_pay10 x (ix2 n c) = x (ix3 (0 : Fin 1) n c) := by
  unfold Gen.k0_pay10
  exact shapeCast_1ab_ab_apply _ _ n c

theorem blk_pay11_apply (x : Vec Ideal S1x4096x256 .f32) (n : Fin 4096) (c : Fin 256) :
    k0_pay11 x (ix2 n c) = x (ix3 (0 : Fin 1) n c) := by
  unfold Gen.k0_pay11
  exact shapeCast_1ab_ab_apply _ _ n c

/-- Stream 0's raw queries: the product the body forms, at (n, h). -/
theorem rawQ0_apply (x : Vec Ideal S1x4096x256 .f32) (w : Vec Ideal S64x256 .f32) (n : Fin 4096) (h : Fin 64) :
    matmul dot_S4096x256_S64x256_S4096x64_1_1_0_0_n_n none (k0_pay10 x) (k0_pay12 w) (constant (F := Ideal) S4096x64 .f32 0x00000000#32) (ix2 n h)
      = tileQ x w n h := by
  refine (matmul_tile_apply _ _ n h).trans ?_
  unfold tileQ
  exact Finset.sum_congr rfl fun c _ => congrArg (· * w (ix2 h c)) (blk_pay10_apply x n c)

/-- Stream 1's raw queries, at (n, h). -/
theorem rawQ1_apply (x : Vec Ideal S1x4096x256 .f32) (w : Vec Ideal S64x256 .f32) (n : Fin 4096) (h : Fin 64) :
    k0_pay30 (k0_pay11 x) (k0_pay13 w) (ix2 n h) = tileQ x w n h := by
  unfold Gen.k0_pay30
  refine (matmul_tile_apply _ _ n h).trans ?_
  unfold tileQ
  exact Finset.sum_congr rfl fun c _ => congrArg (· * w (ix2 h c)) (blk_pay11_apply x n c)

/-- Stream 0's normalised queries, at (n, h): the softmax of the token's 64 raw queries. -/
theorem softQ0_apply (x : Vec Ideal S1x4096x256 .f32) (w : Vec Ideal S64x256 .f32) (n : Fin 4096) (h : Fin 64) :
    k0_pay31 (k0_pay10 x) (k0_pay12 w) (ix2 n h) = rowSoft (tileQ x w n) h := by
  show softVec (matmul dot_S4096x256_S64x256_S4096x64_1_1_0_0_n_n none (k0_pay10 x) (k0_pay12 w) (constant (F := Ideal) S4096x64 .f32 0x00000000#32))
      (rowMaxVec (matmul dot_S4096x256_S64x256_S4096x64_1_1_0_0_n_n none (k0_pay10 x) (k0_pay12 w) (constant (F := Ideal) S4096x64 .f32 0x00000000#32))) (ix2 n h) = _
  refine (softRow_apply _ n h).trans ?_
  exact congrArg (fun a => rowSoft a h) (funext fun h' => rawQ0_apply x w n h')

/-- Stream 1's normalised queries, at (n, h). -/
theorem softQ1_apply (x : Vec Ideal S1x4096x256 .f32) (w : Vec Ideal S64x256 .f32) (n : Fin 4096) (h : Fin 64) :
    softVec (k0_pay30 (k0_pay11 x) (k0_pay13 w)) (k0_pay32 (k0_pay11 x) (k0_pay13 w)) (ix2 n h) = rowSoft (tileQ x w n) h := by
  show softVec (k0_pay30 (k0_pay11 x) (k0_pay13 w)) (rowMaxVec (k0_pay30 (k0_pay11 x) (k0_pay13 w))) (ix2 n h) = _
  refine (softRow_apply _ n h).trans ?_
  exact congrArg (fun a => rowSoft a h) (funext fun h' => rawQ1_apply x w n h')

/-- Columns 0..63 of the stored query block: stream 0's softmax over the heads. -/
theorem qBlock_left (x0 x1 : Vec Ideal S1x4096x256 .f32) (wq0 wq1 : Vec Ideal S64x256 .f32) (n : Fin 4096) (h : Fin 64) :
    qBlock x0 x1 wq0 wq1 (ix3 (0 : Fin 1) n (⟨h.val, Nat.lt_of_lt_of_le h.isLt (by decide)⟩ : Fin 128))
      = rowSoft (tileQ x0 wq0 n) h := by
  unfold qBlock Gen.k0_pay1
  refine Eq.trans (shapeCast_ab_1ab_apply _ _ 0 n _) ?_
  refine Eq.trans (concatenate_pair_apply_left (t := S4096x128) (s₁ := S4096x64) (s₂ := S4096x64) 1 _ _ _
    (ix2 n (⟨h.val, Nat.lt_of_lt_of_le h.isLt (by decide)⟩ : Fin 128)) rfl (ix2 n h) (fun b => ?_)) ?_
  · match b with
    | ⟨0, _⟩ => rfl
    | ⟨1, _⟩ => rfl
  · exact softQ0_apply x0 wq0 n h

/-- Columns 64..127 of the stored query block: stream 1's softmax over the heads. -/
theorem qBlock_right (x0 x1 : Vec Ideal S1x4096x256 .f32) (wq0 wq1 : Vec Ideal S64x256 .f32) (n : Fin 4096) (h : Fin 64) :
    qBlock x0 x1 wq0 wq1 (ix3 (0 : Fin 1) n (⟨64 + h.val, Nat.add_lt_add_left h.isLt 64⟩ : Fin 128))
      = rowSoft (tileQ x1 wq1 n) h := by
  unfold qBlock Gen.k0_pay1
  refine Eq.trans (shapeCast_ab_1ab_apply _ _ 0 n _) ?_
  refine Eq.trans (concatenate_pair_apply_right (t := S4096x128) (s₁ := S4096x64) (s₂ := S4096x64) 1 _ _ _
    (ix2 n (⟨64 + h.val, Nat.add_lt_add_left h.isLt 64⟩ : Fin 128)) rfl rfl (ix2 n h) (fun b hb => ?_) ?_) ?_
  · match b with
    | ⟨0, _⟩ => rfl
    | ⟨1, _⟩ => exact absurd rfl hb
  · show h.val + 64 = 64 + h.val
    omega
  · exact softQ1_apply x1 wq1 n h

end Cert.KernelIdeal.Val

end
-- ==== Proof.Value.QArraySpec.lean ====
/-
  The array of normalised queries as one function of the two token streams and the two query weight matrices, and where
  the first region's blocks sit in the arrays.

  Row (b, n) of the query array [4, 16384, 128] holds, in columns 0..63, the softmax over the 64 heads of stream 0's raw
  queries  Σ_c x0[b, n, c] · Wq0[h, c],  and in columns 64..127 the same for stream 1. Grid position t = 4·b + n' handles
  batch b and token tile n' (tokens 4096·n' .. 4096·n' + 4095): the stream blocks and the query block sit at block index
  (b, n', 0), the weight blocks are their whole matrices, and the 16 query blocks tile the query array.
-/
import proofs.«174424_j489626271899_2_alg».proof.Proof.Ideal.Region0Runs
import proofs.«174424_j489626271899_2_alg».proof.Proof.Value.RefSpecDefs
import proofs.«174424_j489626271899_2_alg».proof.Proof.Value.OutSpec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Gen2
open Idealize.ShloMosaic Idealize.ShloMosaic.TcCoe Idealize.ShloMosaic.ValueIdx Idealize.SL.Sem
open Idealize.ShloMosaic.Pipeline (Dat)
open Cert.RefSpec Cert.Spec

/-! ## The query array as one function of the two streams and the two query weights -/

/-- A column of the query array, within its stream's 64 heads. -/
def col64 (k : Fin 128) : Fin 64 := ⟨k.val % 64, Nat.mod_lt _ (by decide)⟩

theorem col64_left (h : Fin 64) (p : h.val < 128) : col64 ⟨h.val, p⟩ = h :=
  Fin.ext (Nat.mod_eq_of_lt h.isLt)
theorem col64_right (h : Fin 64) (p : 64 + h.val < 128) : col64 ⟨64 + h.val, p⟩ = h :=
  Fin.ext (by show (64 + h.val) % 64 = h.val; have := h.isLt; omega)

/-- Row (b, n) of the query array: the head softmax of stream 0's projected queries in columns 0..63, of stream 1's in
    columns 64..127. -/
def Qspec (x0 x1 : SX.Idx → EReal) (wq0 wq1 : SW.Idx → EReal) : SQ.Idx → EReal :=
  fun i => if (i 2).val < 64 then headSoft (proj x0 wq0) (ix3 (i 0) (i 1) (col64 (i 2)))
    else headSoft (proj x1 wq1) (ix3 (i 0) (i 1) (col64 (i 2)))

theorem Qspec_ix3 (x0 x1 : SX.Idx → EReal) (wq0 wq1 : SW.Idx → EReal) (b : Fin 4) (n : Fin 16384) (k : Fin 128) :
    Qspec x0 x1 wq0 wq1 (ix3 b n k) = if k.val < 64 then headSoft (proj x0 wq0) (ix3 b n (col64 k))
      else headSoft (proj x1 wq1) (ix3 b n (col64 k)) := rfl

/-- Its left half is stream 0's head softmax. -/
theorem qLeft_Qspec (x0 x1 : SX.Idx → EReal) (wq0 wq1 : SW.Idx → EReal) :
    qLeft (Qspec x0 x1 wq0 wq1) = headSoft (proj x0 wq0) := by
  funext i
  obtain ⟨b, n, h, rfl⟩ : ∃ (b : Fin 4) (n : Fin 16384) (h : Fin 64), i = ix3 b n h := ⟨i 0, i 1, i 2, eq_ix3 i⟩
  rw [qLeft_ix3, Qspec_ix3, if_pos (show h.val < 64 from h.isLt), col64_left]

/-- Its right half is stream 1's head softmax. -/
theorem qRight_Qspec (x0 x1 : SX.Idx → EReal) (wq0 wq1 : SW.Idx → EReal) :
    qRight (Qspec x0 x1 wq0 wq1) = headSoft (proj x1 wq1) := by
  funext i
  obtain ⟨b, n, h, rfl⟩ : ∃ (b : Fin 4) (n : Fin 16384) (h : Fin 64), i = ix3 b n h := ⟨i 0, i 1, i 2, eq_ix3 i⟩
  rw [qRight_ix3, Qspec_ix3, if_neg (show ¬64 + h.val < 64 from by omega), col64_right]

variable (V : Entry Ideal)

/-! ## Where the blocks sit -/

/-- Decided over the 16 grid positions: position t is batch t / 4, token tile t % 4; the stream windows and the query
    window move with it, the query weights' windows stay on their whole matrices. -/
theorem idxQ : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_10.index t (0 : Fin 3) = t.val / 4 ∧ win0_10.index t (1 : Fin 3) = t.val % 4 ∧ win0_10.index t (2 : Fin 3) = 0 :=
  (by decide +kernel : ∀ t : Fin grid0.N, _)

/-- Stream 0's tile at position t holds tokens 4096·(t % 4) + n of batch t / 4. -/
theorem blk0_read (c : Dev nD) (t : Fin cfg0.N) (n : Fin 4096) (k : Fin 256) (b : Fin 4) (N : Fin 16384)
    (hb : b.val = t.val / 4) (hN : N.val = 4096 * (t.val % 4) + n.val) :
    iblk0 V c 0 t (ix3 0 n k) = (V c main_arg0 : SX.Idx → EReal) (ix3 b N k) := by
  obtain ⟨e0, e1, e2, -⟩ := idxQ t
  unfold iblk0
  rw [View.read_apply]
  show (V c main_arg0 : S4x16384x256.Idx → EReal) (((cfg0.win 0).blk t).view.emb (ix3 0 n k)) = _
  congr 1
  funext a
  apply Fin.ext
  match a with
  | ⟨0, _⟩ => show win0_0.index t (0 : Fin 3) * 1 + 1 * 0 = b.val; omega
  | ⟨1, _⟩ => show win0_0.index t (1 : Fin 3) * 4096 + 1 * n.val = N.val; omega
  | ⟨2, _⟩ => show win0_0.index t (2 : Fin 3) * 256 + 1 * k.val = k.val; omega

/-- Stream 1's tile likewise. -/
theorem blk1_read (c : Dev nD) (t : Fin cfg0.N) (n : Fin 4096) (k : Fin 256) (b : Fin 4) (N : Fin 16384)
    (hb : b.val = t.val / 4) (hN : N.val = 4096 * (t.val % 4) + n.val) :
    iblk0 V c 1 t (ix3 0 n k) = (V c main_arg1 : SX.Idx → EReal) (ix3 b N k) := by
  obtain ⟨-, -, -, e0, e1, e2, -⟩ := idxQ t
  unfold iblk0
  rw [View.read_apply]
  show (V c main_arg1 : S4x16384x256.Idx → EReal) (((cfg0.win 1).blk t).view.emb (ix3 0 n k)) = _
  congr 1
  funext a
  apply Fin.ext
  match a with
  | ⟨0, _⟩ => show win0_1.index t (0 : Fin 3) * 1 + 1 * 0 = b.val; omega
  | ⟨1, _⟩ => show win0_1.index t (1 : Fin 3) * 4096 + 1 * n.val = N.val; omega
  | ⟨2, _⟩ => show win0_1.index t (2 : Fin 3) * 256 + 1 * k.val = k.val; omega

/-- Stream 0's query weights' window holds the whole matrix at every position. -/
theorem blk4_read (c : Dev nD) (t : Fin cfg0.N) (h : Fin 64) (k : Fin 256) :
    iblk0 V c 4 t (ix2 h k) = (V c main_arg4 : SW.Idx → EReal) (ix2 h k) := by
  obtain ⟨-, -, -, -, -, -, e0, e1, -⟩ := idxQ t
  unfold iblk0
  rw [View.read_apply]
  show (V c main_arg4 : S64x256.Idx → EReal) (((cfg0.win 4).blk t).view.emb (ix2 h k)) = _
  congr 1
  funext a
  apply Fin.ext
  match a with
  | ⟨0, _⟩ => show win0_4.index t (0 : Fin 2) * 64 + 1 * h.val = h.val; omega
  | ⟨1, _⟩ => show win0_4.index t (1 : Fin 2) * 256 + 1 * k.val = k.val; omega

/-- Stream 1's query weights' window likewise. -/
theorem blk5_read (c : Dev nD) (t : Fin cfg0.N) (h : Fin 64) (k : Fin 256) :
    iblk0 V c 5 t (ix2 h k) = (V c main_arg5 : SW.Idx → EReal) (ix2 h k) := by
  obtain ⟨-, -, -, -, -, -, -, -, e0, e1, -⟩ := idxQ t
  unfold iblk0
  rw [View.read_apply]
  show (V c main_arg5 : S64x256.Idx → EReal) (((cfg0.win 5).blk t).view.emb (ix2 h k)) = _
  congr 1
  funext a
  apply Fin.ext
  match a with
  | ⟨0, _⟩ => show win0_5.index t (0 : Fin 2) * 64 + 1 * h.val = h.val; omega
  | ⟨1, _⟩ => show win0_5.index t (1 : Fin 2) * 256 + 1 * k.val = k.val; omega

/-- Where an element of the query block at position t sits in the query array. -/
theorem embQ (t : Fin cfg0.N) (n : Fin 4096) (k : Fin 128) (b : Fin 4) (N : Fin 16384)
    (hb : b.val = t.val / 4) (hN : N.val = 4096 * (t.val % 4) + n.val) :
    ((cfg0.win 10).blk t).view.emb (ix3 0 n k) = (ix3 b N k : S4x16384x128.Idx) := by
  obtain ⟨-, -, -, -, -, -, -, -, -, -, e0, e1, e2⟩ := idxQ t
  funext a
  apply Fin.ext
  match a with
  | ⟨0, _⟩ => show win0_10.index t (0 : Fin 3) * 1 + 1 * 0 = b.val; omega
  | ⟨1, _⟩ => show win0_10.index t (1 : Fin 3) * 4096 + 1 * n.val = N.val; omega
  | ⟨2, _⟩ => show win0_10.index t (2 : Fin 3) * 128 + 1 * k.val = k.val; omega

/-! ## The query blocks tile the query array -/

/-- An index of the query array is in position t's block iff each coordinate is in the block's range. -/
theorem mem_blkQ (t : Fin cfg0.N) (i : S4x16384x128.Idx) :
    i ∈ ((cfg0.win 10).blk t).view.set ↔ ∀ a : Fin 3, win0_10.index t a * S1x4096x128.size a ≤ (i a).val ∧ (i a).val < win0_10.index t a * S1x4096x128.size a + S1x4096x128.size a := by
  show i ∈ ((View.whole main_v0_2).slice (win0_10.rect t)).set ↔ _
  rw [View.set_slice_whole, Rect.mem_set_unit]
  exact Iff.rfl

/-- Row (b, n) is in the block of position 4·b + n / 4096, and every position writes its block back. -/
theorem coverQ (i : S4x16384x128.Idx) :
    ∃ t : Fin cfg0.N, (cfg0.win 10).flush t = true ∧ i ∈ ((cfg0.win 10).blk t).view.set := by
  have hi0 : (i 0).val < 4 := (i 0).isLt
  have hi1 : (i 1).val < 16384 := (i 1).isLt
  have hi2 : (i 2).val < 128 := (i 2).isLt
  have hN : cfg0.N = 16 := N_0
  refine ⟨⟨4 * (i 0).val + (i 1).val / 4096, by omega⟩, flush0_10 _, ?_⟩
  rw [mem_blkQ]
  obtain ⟨-, -, -, -, -, -, -, -, -, -, e0, e1, e2⟩ := idxQ ⟨4 * (i 0).val + (i 1).val / 4096, by omega⟩
  dsimp only at e0 e1 e2
  intro a
  match a with
  | ⟨0, _⟩ => show win0_10.index _ (0 : Fin 3) * 1 ≤ (i 0).val ∧ (i 0).val < win0_10.index _ (0 : Fin 3) * 1 + 1; omega
  | ⟨1, _⟩ => show win0_10.index _ (1 : Fin 3) * 4096 ≤ (i 1).val ∧ (i 1).val < win0_10.index _ (1 : Fin 3) * 4096 + 4096; omega
  | ⟨2, _⟩ => show win0_10.index _ (2 : Fin 3) * 128 ≤ (i 2).val ∧ (i 2).val < win0_10.index _ (2 : Fin 3) * 128 + 128; omega

end Cert.KernelIdeal.Val

end
-- ==== Proof.Value.QArray.lean ====
/-
  The array of normalised queries after the first region, as a whole-array function of the arguments.

  At every grid position the body leaves, in the query window's buffer, the query block of the position's two stream
  tiles and the two query weight matrices: in its left half each token's softmax over the 64 heads of the raw queries
  Σ_c x0[n, c] · Wq0[h, c], in its right half the same for stream 1. A tile's token n at position t = 4·b + n' is the
  array's token (b, 4096·n' + n), so that row softmax is the head softmax of the projected stream at (b, 4096·n' + n):
  what position t writes back is block t of one function of the arguments. The 16 blocks tile the query array, every
  position writes its block back, so the array ends holding that function; its two halves are the reference's
  normalised queries of the two streams. Both sides are the same expression over the extended reals: nothing here asks
  the inputs to be finite.
-/
import proofs.«174424_j489626271899_2_alg».proof.Proof.Ideal.Region0
import proofs.«174424_j489626271899_2_alg».proof.Proof.Ideal.Region0Pieces
import proofs.«174424_j489626271899_2_alg».proof.Proof.Value.BlockValue
import proofs.«174424_j489626271899_2_alg».proof.Proof.Value.QArraySpec

set_option maxRecDepth 16384

noncomputable section

open scoped BigOperators

namespace Cert.KernelIdeal.Val

open Cert.KernelIdeal Cert.KernelIdeal.Gen Cert.KernelIdeal.Gen2
open Idealize.ShloMosaic Idealize.ShloMosaic.TcCoe Idealize.ShloMosaic.ValueIdx Idealize.SL.Sem
open Idealize.ShloMosaic.Pipeline (Dat)
open Cert.RefSpec Cert.Spec

/-! ## A tile's row softmax is the array's -/

/-- A tile's raw queries of token n are the array's projected row (b, N), when the tile's token n is the array's token
    (b, N) and the weights agree. -/
theorem tileQ_eq (x : Vec Ideal S1x4096x256 .f32) (w : Vec Ideal S64x256 .f32) (X : SX.Idx → EReal) (W : SW.Idx → EReal)
    (n : Fin 4096) (b : Fin 4) (N : Fin 16384) (hx : ∀ k : Fin 256, x (ix3 0 n k) = X (ix3 b N k))
    (hw : ∀ (h : Fin 64) (k : Fin 256), w (ix2 h k) = W (ix2 h k)) :
    tileQ x w n = fun h => proj X W (ix3 b N h) := by
  funext h
  unfold tileQ
  rw [proj_ix3]
  exact Finset.sum_congr rfl fun k _ => by rw [hx, hw]

/-- The softmax of a row of 64 numbers that are row (b, N) of q is the head softmax of q there. -/
theorem rowSoft_eq_headSoft (a : Fin 64 → EReal) (q : SP.Idx → EReal) (b : Fin 4) (N : Fin 16384) (h : Fin 64)
    (ha : a = fun h' => q (ix3 b N h')) : rowSoft a h = headSoft q (ix3 b N h) := by
  subst ha; rfl

variable (V : Entry Ideal)

/-! ## From the blocks to the array -/

/-- What position t writes back into the query array is block t of Qspec, for any proof data whose query block at t has
    the two streams' row softmaxes in its two halves. -/
theorem flushedQ_of {c : Dev nD} (dat : Dat τ (Elt Ideal) Unit ℕ (UR sig nD τ) ℕ cfg0 c)
    (blkQ : Fin cfg0.N → Vec Ideal S1x4096x128 .bf16)
    (hafter : ∀ t, dat.after 10 t = blkQ t)
    (hL : ∀ (t : Fin cfg0.N) (n : Fin 4096) (h : Fin 64),
      blkQ t (ix3 0 n (⟨h.val, Nat.lt_of_lt_of_le h.isLt (by decide)⟩ : Fin 128)) = rowSoft (tileQ (iblk0 V c 0 t) (iblk0 V c 4 t) n) h)
    (hR : ∀ (t : Fin cfg0.N) (n : Fin 4096) (h : Fin 64),
      blkQ t (ix3 0 n (⟨64 + h.val, Nat.add_lt_add_left h.isLt 64⟩ : Fin 128)) = rowSoft (tileQ (iblk0 V c 1 t) (iblk0 V c 5 t) n) h)
    (t : Fin cfg0.N) :
    dat.flushed 10 t = ((cfg0.win 10).blk t).view.read (Elt Ideal)
      (Qspec (V c main_arg0) (V c main_arg1) (V c main_arg4) (V c main_arg5)) := by
  show (cfg0.win 10).cut (grid0.coords t) (dat.after 10 t) = _
  rw [hafter]
  have hN16 : cfg0.N = 16 := N_0
  have ht : t.val < 16 := hN16 ▸ t.isLt
  funext j
  obtain ⟨z, n, k, rfl⟩ : ∃ (z : Fin 1) (n : Fin 4096) (k : Fin 128), j = ix3 z n k := ⟨j 0, j 1, j 2, eq_ix3 j⟩
  obtain rfl : z = 0 := Subsingleton.elim _ _
  rw [View.read_apply]
  show blkQ t (ix3 0 n k) = Qspec (V c main_arg0) (V c main_arg1) (V c main_arg4) (V c main_arg5) (((cfg0.win 10).blk t).view.emb (ix3 0 n k))
  rw [embQ t n k ⟨t.val / 4, by omega⟩ ⟨4096 * (t.val % 4) + n.val, by have := n.isLt; omega⟩ rfl rfl, Qspec_ix3]
  by_cases hk : k.val < 64
  · obtain ⟨h, rfl⟩ : ∃ h : Fin 64, k = ⟨h.val, Nat.lt_of_lt_of_le h.isLt (by decide)⟩ := ⟨⟨k.val, hk⟩, rfl⟩
    rw [if_pos hk, col64_left]
    refine (hL t n h).trans ?_
    exact rowSoft_eq_headSoft (tileQ (iblk0 V c 0 t) (iblk0 V c 4 t) n) (proj (V c main_arg0) (V c main_arg4))
      ⟨t.val / 4, by omega⟩ ⟨4096 * (t.val % 4) + n.val, by have := n.isLt; omega⟩ h
      (tileQ_eq (iblk0 V c 0 t) (iblk0 V c 4 t) (V c main_arg0) (V c main_arg4) n
        ⟨t.val / 4, by omega⟩ ⟨4096 * (t.val % 4) + n.val, by have := n.isLt; omega⟩
        (fun k' => blk0_read V c t n k' _ _ rfl rfl) (fun h' k' => blk4_read V c t h' k'))
  · obtain ⟨h, rfl⟩ : ∃ h : Fin 64, k = ⟨64 + h.val, Nat.add_lt_add_left h.isLt 64⟩ :=
      ⟨⟨k.val - 64, by have := k.isLt; omega⟩, Fin.ext (by show k.val = 64 + (k.val - 64); omega)⟩
    rw [if_neg hk, col64_right]
    refine (hR t n h).trans ?_
    exact rowSoft_eq_headSoft (tileQ (iblk0 V c 1 t) (iblk0 V c 5 t) n) (proj (V c main_arg1) (V c main_arg5))
      ⟨t.val / 4, by omega⟩ ⟨4096 * (t.val % 4) + n.val, by have := n.isLt; omega⟩ h
      (tileQ_eq (iblk0 V c 1 t) (iblk0 V c 5 t) (V c main_arg1) (V c main_arg5) n
        ⟨t.val / 4, by omega⟩ ⟨4096 * (t.val % 4) + n.val, by have := n.isLt; omega⟩
        (fun k' => blk1_read V c t n k' _ _ rfl rfl) (fun h' k' => blk5_read V c t h' k'))

/-- So, the 16 blocks tiling it, the query array ends holding Qspec of the two streams and the two query weights. -/
theorem arrQ_of {c : Dev nD} (dat : Dat τ (Elt Ideal) Unit ℕ (UR sig nD τ) ℕ cfg0 c)
    (blkQ : Fin cfg0.N → Vec Ideal S1x4096x128 .bf16)
    (hafter : ∀ t, dat.after 10 t = blkQ t)
    (hL : ∀ (t : Fin cfg0.N) (n : Fin 4096) (h : Fin 64),
      blkQ t (ix3 0 n (⟨h.val, Nat.lt_of_lt_of_le h.isLt (by decide)⟩ : Fin 128)) = rowSoft (tileQ (iblk0 V c 0 t) (iblk0 V c 4 t) n) h)
    (hR : ∀ (t : Fin cfg0.N) (n : Fin 4096) (h : Fin 64),
      blkQ t (ix3 0 n (⟨64 + h.val, Nat.add_lt_add_left h.isLt 64⟩ : Fin 128)) = rowSoft (tileQ (iblk0 V c 1 t) (iblk0 V c 5 t) n) h) :
    dat.arrAt 10 cfg0.N = Qspec (V c main_arg0) (V c main_arg1) (V c main_arg4) (V c main_arg5) :=
  dat.arrAt_eq_of_cover 10 (Qspec (V c main_arg0) (V c main_arg1) (V c main_arg4) (V c main_arg5))
    (fun t _ => flushedQ_of V dat blkQ hafter hL hR t) coverQ

/-! ## The first region's query array -/

/-- At every grid position, whichever of the three control cases it falls under, the query block the body leaves is the
    query block of the position's stream tiles and the two query weight matrices. -/
theorem stored10 (c : Dev nD) (t : Fin cfg0.N) :
    (dat0 V c).after 10 t = qBlock (iblk0 V c 0 t) (iblk0 V c 1 t) (iblk0 V c 4 t) (iblk0 V c 5 t) := by
  refine (after0_10 V c t).trans ?_
  by_cases h0 : t.val % 4 = 0
  · have h1 : ¬t.val % 4 = 3 := by omega
    exact congrArg (fun p : Outs Ideal × Carry Ideal => p.1.2.2) ((outsAt0_A V c t h0 h1).trans (leftA_eq V c t h0 h1))
  · by_cases h1 : t.val % 4 = 3
    · exact congrArg (fun p : Outs Ideal × Carry Ideal => p.1.2.2) ((outsAt0_C V c t h0 h1).trans (leftC_eq V c t h0 h1 _))
    · exact congrArg (fun p : Outs Ideal × Carry Ideal => p.1.2.2) ((outsAt0_B V c t h0 h1).trans (leftB_eq V c t h0 h1 _))

/-- The query array after the first region, as a whole. -/
theorem arrQ (c : Dev nD) :
    (dat0 V c).arrAt 10 cfg0.N = Qspec (V c main_arg0) (V c main_arg1) (V c main_arg4) (V c main_arg5) :=
  arrQ_of V (dat0 V c) (fun t => qBlock (iblk0 V c 0 t) (iblk0 V c 1 t) (iblk0 V c 4 t) (iblk0 V c 5 t)) (stored10 V c)
    (fun t n h => qBlock_left (iblk0 V c 0 t) (iblk0 V c 1 t) (iblk0 V c 4 t) (iblk0 V c 5 t) n h)
    (fun t n h => qBlock_right (iblk0 V c 0 t) (iblk0 V c 1 t) (iblk0 V c 4 t) (iblk0 V c 5 t) n h)

/-- Its two halves are the two streams' head softmaxes of the projected queries: the reference's normalised queries. -/
theorem final0_10 (c : Dev nD) :
    Cert.Spec.qLeft ((dat0 (F := Ideal) V c).arrAt 10 cfg0.N) = Cert.RefSpec.headSoft (Cert.RefSpec.proj (V c main_arg0) (V c main_arg4))
      ∧ Cert.Spec.qRight ((dat0 (F := Ideal) V c).arrAt 10 cfg0.N) = Cert.RefSpec.headSoft (Cert.RefSpec.proj (V c main_arg1) (V c main_arg5)) := by
  have h : ((dat0 (F := Ideal) V c).arrAt 10 cfg0.N : SQ.Idx → EReal) = Qspec (V c main_arg0) (V c main_arg1) (V c main_arg4) (V c main_arg5) := arrQ V c
  exact ⟨(congrArg qLeft h).trans (qLeft_Qspec _ _ _ _), (congrArg qRight h).trans (qRight_Qspec _ _ _ _)⟩

end Cert.KernelIdeal.Val

end
-- ==== Proof.Value.OnlineLaw.lean ====
/-
  The online softmax-weighted sum equals the direct one.

  For scores k and values v over finitely many tokens, split into tiles, the direct computation is
      sum_j (exp (k j - M) / sum_j' exp (k j' - M)) * v j
  for a shift M. The online computation visits the tiles in turn and carries a shift m, a denominator l and an
  accumulator acc: at a tile with scores k and values v and new shift m' it replaces
      l   by exp (m - m') * l   + sum_y exp (k y - m'),
      acc by exp (m - m') * acc + sum_y exp (k y - m') * v y,
  and at the end returns acc / l.

  The invariant: after the tiles in a set I, l = sum_{t in I} sum_y exp (k t y - m) and likewise acc, whatever the
  shifts were, because exp (m - m') * exp (x - m) = exp (x - m'). The quotient of the two sums does not depend on
  the shift, since a change of shift multiplies both by the same positive factor.

  This file is over the real numbers.
-/
import Idealize.ShloMosaic.PureOps.Ideal

noncomputable section

open scoped BigOperators

namespace Cert.OnlineLaw

open Idealize.ShloMosaic

section Real

variable {γ : Type*} [Fintype γ]

/-- One tile of the online computation, the new shift m' given. A state is (shift, denominator, accumulator). -/
def stepTo (k v : γ → ℝ) (m' : ℝ) (s : ℝ × ℝ × ℝ) : ℝ × ℝ × ℝ :=
  (m', Real.exp (s.1 - m') * s.2.1 + ∑ y, Real.exp (k y - m'),
       Real.exp (s.1 - m') * s.2.2 + ∑ y, Real.exp (k y - m') * v y)

/-- One tile of the online computation: the new shift is the larger of the old shift and the number tmr. -/
def step (k v : γ → ℝ) (tmr : ℝ) (s : ℝ × ℝ × ℝ) : ℝ × ℝ × ℝ := stepTo k v (max s.1 tmr) s

theorem step_fst (k v : γ → ℝ) (tmr : ℝ) (s : ℝ × ℝ × ℝ) : (step k v tmr s).1 = max s.1 tmr := rfl

theorem step_l (k v : γ → ℝ) (tmr : ℝ) (s : ℝ × ℝ × ℝ) :
    (step k v tmr s).2.1 = Real.exp (s.1 - max s.1 tmr) * s.2.1 + ∑ y, Real.exp (k y - max s.1 tmr) := rfl

theorem step_acc (k v : γ → ℝ) (tmr : ℝ) (s : ℝ × ℝ × ℝ) :
    (step k v tmr s).2.2 = Real.exp (s.1 - max s.1 tmr) * s.2.2 + ∑ y, Real.exp (k y - max s.1 tmr) * v y := rfl

/-- Changing the shift of a weighted sum of exponentials: multiply by the exponential of the difference. -/
theorem exp_mul_sum {ι : Type*} (I : Finset ι) (x w : ι → ℝ) (a b : ℝ) :
    Real.exp (a - b) * ∑ i ∈ I, Real.exp (x i - a) * w i = ∑ i ∈ I, Real.exp (x i - b) * w i := by
  rw [Finset.mul_sum]
  refine Finset.sum_congr rfl fun i _ => ?_
  rw [← mul_assoc, ← Real.exp_add]
  congr 2
  ring

variable {τ : Type*}

/-- The invariant of the online computation after the tiles in I: denominator and accumulator are the sums over
    those tiles at the current shift. -/
def Inv (k v : τ → γ → ℝ) (I : Finset τ) (s : ℝ × ℝ × ℝ) : Prop :=
  s.2.1 = ∑ t ∈ I, ∑ y, Real.exp (k t y - s.1) ∧
  s.2.2 = ∑ t ∈ I, ∑ y, Real.exp (k t y - s.1) * v t y

theorem inv_init (k v : τ → γ → ℝ) (m0 : ℝ) : Inv k v ∅ (m0, 0, 0) := by
  constructor <;> simp

theorem inv_stepTo [DecidableEq τ] (k v : τ → γ → ℝ) {I : Finset τ} {t0 : τ} (h0 : t0 ∉ I) {s : ℝ × ℝ × ℝ}
    (hs : Inv k v I s) (m' : ℝ) : Inv k v (insert t0 I) (stepTo (k t0) (v t0) m' s) := by
  obtain ⟨hl, ha⟩ := hs
  constructor
  · show Real.exp (s.1 - m') * s.2.1 + ∑ y, Real.exp (k t0 y - m') = ∑ t ∈ insert t0 I, ∑ y, Real.exp (k t y - m')
    rw [Finset.sum_insert h0, hl, add_comm]
    congr 1
    rw [Finset.mul_sum]
    refine Finset.sum_congr rfl fun t _ => ?_
    have := exp_mul_sum Finset.univ (fun y => k t y) (fun _ => (1 : ℝ)) s.1 m'
    simpa only [mul_one] using this
  · show Real.exp (s.1 - m') * s.2.2 + ∑ y, Real.exp (k t0 y - m') * v t0 y
      = ∑ t ∈ insert t0 I, ∑ y, Real.exp (k t y - m') * v t y
    rw [Finset.sum_insert h0, ha, add_comm]
    congr 1
    rw [Finset.mul_sum]
    refine Finset.sum_congr rfl fun t _ => ?_
    exact exp_mul_sum Finset.univ (fun y => k t y) (fun y => v t y) s.1 m'

theorem inv_step [DecidableEq τ] (k v : τ → γ → ℝ) {I : Finset τ} {t0 : τ} (h0 : t0 ∉ I) {s : ℝ × ℝ × ℝ}
    (hs : Inv k v I s) (tmr : ℝ) : Inv k v (insert t0 I) (step (k t0) (v t0) tmr s) :=
  inv_stepTo k v h0 hs _

/-- A nonempty sum of exponentials is positive. -/
theorem sum_exp_pos {κ : Type*} [Fintype κ] [Nonempty κ] (k : κ → ℝ) (a : ℝ) : 0 < ∑ j, Real.exp (k j - a) :=
  Finset.sum_pos (fun _ _ => Real.exp_pos _) Finset.univ_nonempty

/-- The softmax-weighted sum does not depend on the shift. -/
theorem shift_invariance {κ : Type*} [Fintype κ] [Nonempty κ] (k v : κ → ℝ) (a M : ℝ) :
    (∑ j, Real.exp (k j - a) * v j) / (∑ j, Real.exp (k j - a))
      = ∑ j, Real.exp (k j - M) / (∑ j', Real.exp (k j' - M)) * v j := by
  have hc : ∀ j, Real.exp (k j - a) = Real.exp (M - a) * Real.exp (k j - M) := by
    intro j
    rw [← Real.exp_add]
    congr 1
    ring
  simp only [hc, mul_assoc, ← Finset.mul_sum]
  rw [mul_div_mul_left _ _ (Real.exp_pos _).ne', Finset.sum_div]
  refine Finset.sum_congr rfl fun j _ => ?_
  rw [div_mul_eq_mul_div]

variable [Fintype τ]

/-- After all tiles the denominator is positive. -/
theorem inv_univ_pos [Nonempty τ] [Nonempty γ] (k v : τ → γ → ℝ) {s : ℝ × ℝ × ℝ} (hs : Inv k v Finset.univ s) :
    0 < s.2.1 := by
  rw [hs.1]
  exact Finset.sum_pos (fun t _ => sum_exp_pos (fun y => k t y) s.1) Finset.univ_nonempty

/-- After all tiles, accumulator over denominator is the direct softmax-weighted sum over all (tile, token) pairs,
    at any shift M. -/
theorem inv_univ_eq_direct [Nonempty τ] [Nonempty γ] (k v : τ → γ → ℝ) {s : ℝ × ℝ × ℝ}
    (hs : Inv k v Finset.univ s) (M : ℝ) :
    s.2.2 / s.2.1
      = ∑ p : τ × γ, Real.exp (k p.1 p.2 - M) / (∑ q : τ × γ, Real.exp (k q.1 q.2 - M)) * v p.1 p.2 := by
  rw [hs.1, hs.2, ← shift_invariance (fun p : τ × γ => k p.1 p.2) (fun p : τ × γ => v p.1 p.2) s.1 M,
    Fintype.sum_prod_type, Fintype.sum_prod_type]

/-- Four tiles, visited in order, cover Fin 4. -/
theorem insert_four : insert (3 : Fin 4) (insert (2 : Fin 4) (insert (1 : Fin 4) (insert (0 : Fin 4) ∅)))
    = (Finset.univ : Finset (Fin 4)) := by decide

/-- The online computation over four tiles, from the state (m0, 0, 0). -/
def run4 (k v : Fin 4 → γ → ℝ) (tmr : Fin 4 → ℝ) (m0 : ℝ) : ℝ × ℝ × ℝ :=
  step (k 3) (v 3) (tmr 3) (step (k 2) (v 2) (tmr 2) (step (k 1) (v 1) (tmr 1) (step (k 0) (v 0) (tmr 0) (m0, 0, 0))))

theorem inv_run4 (k v : Fin 4 → γ → ℝ) (tmr : Fin 4 → ℝ) (m0 : ℝ) : Inv k v Finset.univ (run4 k v tmr m0) := by
  rw [← insert_four]
  unfold run4
  refine inv_step k v (by decide) (inv_step k v (by decide) (inv_step k v (by decide)
    (inv_step k v (by decide) (inv_init k v m0) _) _) _) _

/-- Over the reals: the online computation over four tiles returns the direct softmax-weighted sum. -/
theorem online_eq_direct [Nonempty γ] (k v : Fin 4 → γ → ℝ) (tmr : Fin 4 → ℝ) (m0 M : ℝ) :
    (run4 k v tmr m0).2.2 / (run4 k v tmr m0).2.1
      = ∑ p : Fin 4 × γ, Real.exp (k p.1 p.2 - M) / (∑ q : Fin 4 × γ, Real.exp (k q.1 q.2 - M)) * v p.1 p.2 :=
  inv_univ_eq_direct k v (inv_run4 k v tmr m0) M

theorem run4_l_pos [Nonempty γ] (k v : Fin 4 → γ → ℝ) (tmr : Fin 4 → ℝ) (m0 : ℝ) : 0 < (run4 k v tmr m0).2.1 :=
  inv_univ_pos k v (inv_run4 k v tmr m0)

end Real

end Cert.OnlineLaw

end
-- ==== Proof.Value.OnlineLawExt.lean ====
/-
  The online softmax-weighted sum equals the direct one, on extended reals.

  On real data every operation involved (maximum, difference, exponential, product, finite sum, quotient by a nonzero
  real) is the coercion of the real operation. So one tile of the online computation is the coercion of the real
  step, the final quotient is the coercion of the real quotient (the denominator is a nonempty sum of exponentials,
  hence nonzero), and the direct sum is the coercion of the real direct sum. The equality over the reals then gives
  the equality on extended reals.
-/
import Idealize.ShloMosaic.PureOps.Ideal
import proofs.«174424_j489626271899_2_alg».proof.Proof.Value.OnlineLaw

noncomputable section

open scoped BigOperators

namespace Cert.OnlineLaw

open Idealize.ShloMosaic

section Ext

variable {γ : Type*} [Fintype γ]

/-- The coercion commutes with a finite sum. -/
theorem coe_sum {ι : Type*} (s : Finset ι) (g : ι → ℝ) :
    ∑ i ∈ s, ((g i : ℝ) : EReal) = ((∑ i ∈ s, g i : ℝ) : EReal) := by
  classical
  refine Finset.induction_on s (by simp) ?_
  intro a s ha ih
  rw [Finset.sum_insert ha, Finset.sum_insert ha, ih, EReal.coe_add]

theorem coe_max (a b : ℝ) : max (a : EReal) (b : EReal) = ((max a b : ℝ) : EReal) :=
  (EReal.coe_strictMono.monotone.map_max).symm

/-- The exponential of a difference of reals. -/
theorem exp_sub_coe (a b : ℝ) : Ideal.exp ((a : EReal) - (b : EReal)) = ((Real.exp (a - b) : ℝ) : EReal) := by
  rw [← EReal.coe_sub, Ideal.exp_coe]

/-- The new shift of a step. -/
theorem stepE_m (m tmr : ℝ) (tm : EReal) (htm : tm = (tmr : EReal)) :
    max (m : EReal) tm = ((max m tmr : ℝ) : EReal) := by
  subst htm; exact coe_max m tmr

/-- The rescaling factor of a step. -/
theorem stepE_alpha (m tmr : ℝ) (tm : EReal) (htm : tm = (tmr : EReal)) :
    Ideal.exp ((m : EReal) - max (m : EReal) tm) = ((Real.exp (m - max m tmr) : ℝ) : EReal) := by
  subst htm; rw [coe_max, exp_sub_coe]

/-- The weights of a step. -/
theorem stepE_p (x m tmr : ℝ) (tm : EReal) (htm : tm = (tmr : EReal)) :
    Ideal.exp ((x : EReal) - max (m : EReal) tm) = ((Real.exp (x - max m tmr) : ℝ) : EReal) := by
  subst htm; rw [coe_max, exp_sub_coe]

/-- The denominator after a step. -/
theorem stepE_l (k : γ → ℝ) (m l tmr : ℝ) (tm : EReal) (htm : tm = (tmr : EReal)) :
    Ideal.exp ((m : EReal) - max (m : EReal) tm) * (l : EReal)
        + ∑ y, Ideal.exp ((k y : EReal) - max (m : EReal) tm)
      = ((Real.exp (m - max m tmr) * l + ∑ y, Real.exp (k y - max m tmr) : ℝ) : EReal) := by
  subst htm
  simp only [coe_max, exp_sub_coe, coe_sum, ← EReal.coe_mul, ← EReal.coe_add]

/-- The accumulator after a step. -/
theorem stepE_acc (k v : γ → ℝ) (m acc tmr : ℝ) (tm : EReal) (htm : tm = (tmr : EReal)) :
    Ideal.exp ((m : EReal) - max (m : EReal) tm) * (acc : EReal)
        + ∑ y, Ideal.exp ((k y : EReal) - max (m : EReal) tm) * (v y : EReal)
      = ((Real.exp (m - max m tmr) * acc + ∑ y, Real.exp (k y - max m tmr) * v y : ℝ) : EReal) := by
  subst htm
  simp only [coe_max, exp_sub_coe, ← EReal.coe_mul, coe_sum, ← EReal.coe_add]

/-- The final quotient. -/
theorem div_coe_coe (acc l : ℝ) (hl : l ≠ 0) : Ideal.div (acc : EReal) (l : EReal) = ((acc / l : ℝ) : EReal) := by
  rw [Ideal.div_coe hl, ← EReal.coe_mul, mul_one_div]

/-- The direct softmax-weighted sum on real data is the coercion of the real one. -/
theorem direct_coe {κ : Type*} [Fintype κ] [Nonempty κ] (k v : κ → ℝ) (Mr : ℝ) (Mx : EReal)
    (hM : Mx = (Mr : EReal)) :
    ∑ j, Ideal.div (Ideal.exp ((k j : EReal) - Mx)) (∑ j', Ideal.exp ((k j' : EReal) - Mx)) * (v j : EReal)
      = ((∑ j, Real.exp (k j - Mr) / (∑ j', Real.exp (k j' - Mr)) * v j : ℝ) : EReal) := by
  subst hM
  simp only [exp_sub_coe, coe_sum]
  rw [← coe_sum Finset.univ (fun j => Real.exp (k j - Mr) / (∑ j', Real.exp (k j' - Mr)) * v j)]
  refine Finset.sum_congr rfl fun j _ => ?_
  rw [div_coe_coe _ _ (sum_exp_pos k Mr).ne', ← EReal.coe_mul]

/-- The same with the sum of the denominator started from 0. -/
theorem direct_coe_zero_add {κ : Type*} [Fintype κ] [Nonempty κ] (k v : κ → ℝ) (Mr : ℝ) (Mx : EReal)
    (hM : Mx = (Mr : EReal)) :
    ∑ j, Ideal.div (Ideal.exp ((k j : EReal) - Mx)) (0 + ∑ j', Ideal.exp ((k j' : EReal) - Mx)) * (v j : EReal)
      = ((∑ j, Real.exp (k j - Mr) / (∑ j', Real.exp (k j' - Mr)) * v j : ℝ) : EReal) := by
  simp only [zero_add]
  exact direct_coe k v Mr Mx hM

/-- One tile of the online computation in the operations of the ideal instance. -/
def stepE (k v : γ → EReal) (tm : EReal) (s : EReal × EReal × EReal) : EReal × EReal × EReal :=
  (max s.1 tm,
   Ideal.exp (s.1 - max s.1 tm) * s.2.1 + ∑ y, Ideal.exp (k y - max s.1 tm),
   Ideal.exp (s.1 - max s.1 tm) * s.2.2 + ∑ y, Ideal.exp (k y - max s.1 tm) * v y)

/-- A real state as a state of extended reals. -/
def coe3 (s : ℝ × ℝ × ℝ) : EReal × EReal × EReal := ((s.1 : EReal), (s.2.1 : EReal), (s.2.2 : EReal))

/-- A step on real data is the coercion of the real step. -/
theorem stepE_coe (k v : γ → ℝ) (tmr : ℝ) (tm : EReal) (htm : tm = (tmr : EReal)) (s : ℝ × ℝ × ℝ) :
    stepE (fun y => (k y : EReal)) (fun y => (v y : EReal)) tm (coe3 s) = coe3 (step k v tmr s) := by
  unfold stepE coe3
  refine Prod.ext ?_ (Prod.ext ?_ ?_)
  · exact stepE_m s.1 tmr tm htm
  · exact stepE_l k s.1 s.2.1 tmr tm htm
  · exact stepE_acc k v s.1 s.2.2 tmr tm htm

/-- The online computation over four tiles in the operations of the ideal instance. -/
def run4E (k v : Fin 4 → γ → EReal) (tm : Fin 4 → EReal) (m0 : EReal) : EReal × EReal × EReal :=
  stepE (k 3) (v 3) (tm 3) (stepE (k 2) (v 2) (tm 2) (stepE (k 1) (v 1) (tm 1) (stepE (k 0) (v 0) (tm 0) (m0, 0, 0))))

theorem run4E_coe (k v : Fin 4 → γ → ℝ) (tmr : Fin 4 → ℝ) (tm : Fin 4 → EReal) (htm : ∀ t, tm t = (tmr t : EReal))
    (m0 : ℝ) :
    run4E (fun t y => (k t y : EReal)) (fun t y => (v t y : EReal)) tm (m0 : EReal) = coe3 (run4 k v tmr m0) := by
  unfold run4E run4
  have h0 : (((m0 : ℝ) : EReal), (0 : EReal), (0 : EReal)) = coe3 (m0, 0, 0) := by
    unfold coe3; simp only [EReal.coe_zero]
  rw [h0, stepE_coe (k 0) (v 0) (tmr 0) (tm 0) (htm 0), stepE_coe (k 1) (v 1) (tmr 1) (tm 1) (htm 1),
    stepE_coe (k 2) (v 2) (tmr 2) (tm 2) (htm 2), stepE_coe (k 3) (v 3) (tmr 3) (tm 3) (htm 3)]

/-- On extended reals: for real scores k and values v over the tokens κ, cut into four tiles of γ by e, the online
    computation (tile maxima and overall maximum any reals, initial shift any real) returns the direct
    softmax-weighted sum. -/
theorem online_eq_direct_ext [Nonempty γ] {κ : Type*} [Fintype κ] (e : Fin 4 × γ ≃ κ) (k v : κ → ℝ)
    (tmr : Fin 4 → ℝ) (tm : Fin 4 → EReal) (htm : ∀ t, tm t = (tmr t : EReal)) (m0 : ℝ)
    (Mr : ℝ) (Mx : EReal) (hM : Mx = (Mr : EReal)) :
    Ideal.div
        (run4E (fun t y => (k (e (t, y)) : EReal)) (fun t y => (v (e (t, y)) : EReal)) tm (m0 : EReal)).2.2
        (run4E (fun t y => (k (e (t, y)) : EReal)) (fun t y => (v (e (t, y)) : EReal)) tm (m0 : EReal)).2.1
      = ∑ j, Ideal.div (Ideal.exp ((k j : EReal) - Mx)) (0 + ∑ j', Ideal.exp ((k j' : EReal) - Mx)) * (v j : EReal) := by
  haveI : Nonempty κ := ⟨e (0, Classical.arbitrary γ)⟩
  rw [direct_coe_zero_add k v Mr Mx hM,
    run4E_coe (fun t y => k (e (t, y))) (fun t y => v (e (t, y))) tmr tm htm m0]
  show Ideal.div ((run4 _ _ tmr m0).2.2 : EReal) ((run4 _ _ tmr m0).2.1 : EReal) = _
  rw [div_coe_coe _ _ (run4_l_pos _ _ tmr m0).ne', online_eq_direct _ _ tmr m0 Mr]
  congr 1
  rw [← Fintype.sum_equiv e (fun p : Fin 4 × γ => Real.exp (k (e p) - Mr) / (∑ j', Real.exp (k j' - Mr)) * v (e p))
    (fun j => Real.exp (k j - Mr) / (∑ j', Real.exp (k j' - Mr)) * v j) (fun _ => rfl)]
  refine Finset.sum_congr rfl fun p _ => ?_
  rw [← Fintype.sum_equiv e (fun q : Fin 4 × γ => Real.exp (k (e q) - Mr)) (fun j => Real.exp (k j - Mr)) (fun _ => rfl)]

end Ext

end Cert.OnlineLaw

end
-- ==== Proof.Value.StepValueA.lean ====
/-
  Region 0's payloads read entry by entry on extended reals: the four projections of a token tile on a head are sums
  of products over the channels; a row maximum is a fold of max from ⊥ over the row, a row sum the sum over the row;
  a column [64,1] broadcast along a row reads its one entry.
-/
import proofs.«174424_j489626271899_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-! ## Layout: columns, rows -/

/-- A vector [64] viewed as a column [64,1] reads, at (h, 0), the vector at h. -/
theorem col_apply {α : Type} (v : S64.Idx → α) (h : Fin 64) (u : Fin 1) :
    shapeCast S64x1 v shapeCasts_S64_S64x1 (ix2 h u) = v (ix1 h) :=
  shapeCast_apply v shapeCasts_S64_S64x1 _ _ (by
    have hu : u.val = 0 := by omega
    rw [Shape.rowMajor_val_one, Shape.rowMajor_val_two]
    show h.val = h.val * 1 + u.val
    rw [hu, Nat.mul_one, Nat.add_zero])

/-- A column [64,1] broadcast along rows of 4096 reads, at (h, n), the column at (h, 0). -/
theorem bcastRow_apply {α : Type} (v : S64x1.Idx → α) (h : Fin 64) (n : Fin 4096) :
    broadcastTo S64x4096 v broadcasts_S64x1_S64x4096 (ix2 h n) = v (ix2 h (0 : Fin 1)) := by
  refine broadcastTo_apply v broadcasts_S64x1_S64x4096 (ix2 h n) (ix2 h (0 : Fin 1)) fun ax => ?_
  match ax with
  | ⟨0, _⟩ => rfl
  | ⟨1, _⟩ => rfl

/-- A column [64,1] broadcast along rows of 64 reads, at (h, d), the column at (h, 0). -/
theorem bcastSq_apply {α : Type} (v : S64x1.Idx → α) (h : Fin 64) (d : Fin 64) :
    broadcastTo S64x64 v broadcasts_S64x1_S64x64 (ix2 h d) = v (ix2 h (0 : Fin 1)) := by
  refine broadcastTo_apply v broadcasts_S64x1_S64x64 (ix2 h d) (ix2 h (0 : Fin 1)) fun ax => ?_
  match ax with
  | ⟨0, _⟩ => rfl
  | ⟨1, _⟩ => rfl

/-! ## Row reductions -/

/-- The maximum of a family over the 4096 tokens of a tile, from ⊥. -/
def tileMax (k : Fin 4096 → EReal) : EReal := (Finset.univ : Finset (Fin 4096)).fold max ⊥ k

/-- The f32 word of minus infinity is ⊥. -/
theorem ofBits_neg_inf_f32 : Ideal.ofBits .f32 0xFF800000#32 = ⊥ := by simp [Ideal.ofBits, Ideal.ieee]

/-- The source index over the row h with token n inserted is (h, n). -/
theorem lift_row (h : Fin 64) (n : Fin 4096) : reduces_S64x4096_S64.lift (ix1 h) n = ix2 h n :=
  funext fun a => Fin.ext (by match a with | ⟨0, _⟩ => rfl | ⟨1, _⟩ => rfl)

/-- A row maximum stored as a column: at (h, 0) the fold of max from ⊥ over row h. -/
theorem rowMax_apply (src : FVec Ideal S64x4096 .f32) (h : Fin 64) :
    shapeCast S64x1 (multiReduction .maximumf [1] S64 src 0xFF800000#32 reduces_S64x4096_S64 (.inl rfl) rfl)
        shapeCasts_S64_S64x1 (ix2 h (0 : Fin 1))
      = tileMax fun n => src (ix2 h n) := by
  refine (col_apply _ h 0).trans ?_
  refine (Ideal.multiReduction_maximumf_single src 0xFF800000#32 reduces_S64x4096_S64 (.inl rfl) rfl (ix1 h)).trans ?_
  unfold tileMax
  rw [Ideal.ofBits_def, ofBits_neg_inf_f32]
  exact congrArg (fun f => Finset.fold max ⊥ f (Finset.univ : Finset (Fin 4096))) (funext fun n => congrArg src (lift_row h n))

/-- A row sum stored as a column: at (h, 0) the sum over row h. -/
theorem rowSum_apply (src : FVec Ideal S64x4096 .f32) (h : Fin 64) :
    shapeCast S64x1 (multiReduction .add [1] S64 src 0x00000000#32 reduces_S64x4096_S64 (.inl rfl) rfl)
        shapeCasts_S64_S64x1 (ix2 h (0 : Fin 1))
      = ∑ n : Fin 4096, src (ix2 h n) := by
  refine (col_apply _ h 0).trans ?_
  refine (Ideal.multiReduction_add_single src 0x00000000#32 reduces_S64x4096_S64 (.inl rfl) rfl (ix1 h)).trans ?_
  exact Finset.sum_congr rfl fun n _ => congrArg src (lift_row h n)

/-! ## The two matmuls at an index -/

/-- The dimension numbers of the projection of a token tile [4096,256] by a weight block [64,256] over the channels. -/
abbrev dProj := dot_S64x256_S4096x256_S64x4096_1_1_0_0_n_n
/-- The dimension numbers of the product of two [64,4096] blocks over the tokens. -/
abbrev dTok := dot_S64x4096_S64x4096_S64x64_1_1_0_0_n_n

theorem dProj_lhs0 (i : S64x4096.Idx) (q : dProj.contr.Idx) : (dProj.lhsIdx i q 0).val = (i 0).val := by
  unfold DotDims.lhsIdx
  rw [dif_neg (show ¬(0 : Fin S64x256.rank) ∈ dProj.lhsBatch by decide), dif_pos (show (0 : Fin S64x256.rank) ∈ dProj.lhsNonContracting by decide)]
  rfl
theorem dProj_lhs1 (i : S64x4096.Idx) (q : dProj.contr.Idx) : (dProj.lhsIdx i q 1).val = (q ⟨0, by decide⟩).val :=
  dProj.lhsIdx_val_of_single rfl i q
theorem dProj_rhs0 (i : S64x4096.Idx) (q : dProj.contr.Idx) : (dProj.rhsIdx i q 0).val = (i 1).val := by
  unfold DotDims.rhsIdx
  rw [dif_neg (show ¬(0 : Fin S4096x256.rank) ∈ dProj.rhsBatch by decide), dif_pos (show (0 : Fin S4096x256.rank) ∈ dProj.rhsNonContracting by decide)]
  rfl
theorem dProj_rhs1 (i : S64x4096.Idx) (q : dProj.contr.Idx) : (dProj.rhsIdx i q 1).val = (q ⟨0, by decide⟩).val :=
  dProj.rhsIdx_val_of_single rfl i q

/-- The projection matmul into a zero accumulator: at (h, n) the sum over the channels of weight (h, c) times token entry (n, c). -/
theorem mmProj_apply {φ₁ φ₂ : FTy} (w : FVec Ideal S64x256 φ₁) (t : FVec Ideal S4096x256 φ₂) (h : Fin 64) (n : Fin 4096) :
    matmul dProj none w t (constant S64x4096 .f32 0x00000000#32) (ix2 h n) = ∑ c : Fin 256, w (ix2 h c) * t (ix2 n c) := by
  refine (Ideal.matmul_constant_zero_apply dProj none w t (ix2 h n)).trans ?_
  rw [← Equiv.sum_comp (contrEquiv1 dProj 256 rfl rfl).symm]
  refine Finset.sum_congr rfl fun c _ => ?_
  have hc := contrEquiv1_symm_val dProj 256 rfl rfl c
  have el : dProj.lhsIdx (ix2 h n) ((contrEquiv1 dProj 256 rfl rfl).symm c) = ix2 h c := funext fun a => Fin.ext (by
    match a with
    | ⟨0, _⟩ => exact dProj_lhs0 _ _
    | ⟨1, _⟩ => exact (dProj_lhs1 _ _).trans hc)
  have er : dProj.rhsIdx (ix2 h n) ((contrEquiv1 dProj 256 rfl rfl).symm c) = ix2 n c := funext fun a => Fin.ext (by
    match a with
    | ⟨0, _⟩ => exact dProj_rhs0 _ _
    | ⟨1, _⟩ => exact (dProj_rhs1 _ _).trans hc)
  rw [el, er]

theorem dTok_lhs0 (i : S64x64.Idx) (q : dTok.contr.Idx) : (dTok.lhsIdx i q 0).val = (i 0).val := by
  unfold DotDims.lhsIdx
  rw [dif_neg (show ¬(0 : Fin S64x4096.rank) ∈ dTok.lhsBatch by decide), dif_pos (show (0 : Fin S64x4096.rank) ∈ dTok.lhsNonContracting by decide)]
  rfl
theorem dTok_lhs1 (i : S64x64.Idx) (q : dTok.contr.Idx) : (dTok.lhsIdx i q 1).val = (q ⟨0, by decide⟩).val :=
  dTok.lhsIdx_val_of_single rfl i q
theorem dTok_rhs0 (i : S64x64.Idx) (q : dTok.contr.Idx) : (dTok.rhsIdx i q 0).val = (i 1).val := by
  unfold DotDims.rhsIdx
  rw [dif_neg (show ¬(0 : Fin S64x4096.rank) ∈ dTok.rhsBatch by decide), dif_pos (show (0 : Fin S64x4096.rank) ∈ dTok.rhsNonContracting by decide)]
  rfl
theorem dTok_rhs1 (i : S64x64.Idx) (q : dTok.contr.Idx) : (dTok.rhsIdx i q 1).val = (q ⟨0, by decide⟩).val :=
  dTok.rhsIdx_val_of_single rfl i q

/-- The token matmul into a zero accumulator: at (h, d) the sum over the tokens of left (h, n) times right (d, n). -/
theorem mmTok_apply {φ₁ φ₂ : FTy} (a : FVec Ideal S64x4096 φ₁) (b : FVec Ideal S64x4096 φ₂) (h d : Fin 64) :
    matmul dTok none a b (constant S64x64 .f32 0x00000000#32) (ix2 h d) = ∑ n : Fin 4096, a (ix2 h n) * b (ix2 d n) := by
  refine (Ideal.matmul_constant_zero_apply dTok none a b (ix2 h d)).trans ?_
  rw [← Equiv.sum_comp (contrEquiv1 dTok 4096 rfl rfl).symm]
  refine Finset.sum_congr rfl fun n _ => ?_
  have hn := contrEquiv1_symm_val dTok 4096 rfl rfl n
  have el : dTok.lhsIdx (ix2 h d) ((contrEquiv1 dTok 4096 rfl rfl).symm n) = ix2 h n := funext fun a => Fin.ext (by
    match a with
    | ⟨0, _⟩ => exact dTok_lhs0 _ _
    | ⟨1, _⟩ => exact (dTok_lhs1 _ _).trans hn)
  have er : dTok.rhsIdx (ix2 h d) ((contrEquiv1 dTok 4096 rfl rfl).symm n) = ix2 d n := funext fun a => Fin.ext (by
    match a with
    | ⟨0, _⟩ => exact dTok_rhs0 _ _
    | ⟨1, _⟩ => exact (dTok_rhs1 _ _).trans hn)
  rw [el, er]

/-! ## The projections -/

/-- The token tile projected on head h at token n: the sum over the channels of the token entry times the weight entry. -/
def tileProj (x : Vec Ideal S1x4096x256 .f32) (w : Vec Ideal S64x256 .f32) (h : Fin 64) (n : Fin 4096) : EReal :=
  ∑ c : Fin 256, x (ix3 (0 : Fin 1) n c) * w (ix2 h c)

/-- The token tile without its unit axis: at (n, c) the tile at (0, n, c). -/
theorem pay10_apply (x : Vec Ideal S1x4096x256 .f32) (n : Fin 4096) (c : Fin 256) :
    k0_pay10 (F := Ideal) x (ix2 n c) = x (ix3 (0 : Fin 1) n c) := by
  unfold k0_pay10
  exact shapeCast_1ab_ab_apply x shapeCasts_S1x4096x256_S4096x256 n c

theorem pay11_apply (x : Vec Ideal S1x4096x256 .f32) (n : Fin 4096) (c : Fin 256) :
    k0_pay11 (F := Ideal) x (ix2 n c) = x (ix3 (0 : Fin 1) n c) := by
  unfold k0_pay11
  exact shapeCast_1ab_ab_apply x shapeCasts_S1x4096x256_S4096x256 n c

theorem pay14_apply (x : Vec Ideal S1x4096x256 .f32) (w : Vec Ideal S64x256 .f32) (h : Fin 64) (n : Fin 4096) :
    k0_pay14 (F := Ideal) x w (ix2 h n) = tileProj x w h n := by
  unfold k0_pay14 tileProj
  refine (mmProj_apply _ _ h n).trans ?_
  refine Finset.sum_congr rfl fun c _ => ?_
  show w (ix2 h c) * k0_pay10 (F := Ideal) x (ix2 n c) = _
  rw [pay10_apply, mul_comm]

theorem pay15_apply (x : Vec Ideal S1x4096x256 .f32) (w : Vec Ideal S64x256 .f32) (h : Fin 64) (n : Fin 4096) :
    k0_pay15 (F := Ideal) x w (ix2 h n) = tileProj x w h n := by
  unfold k0_pay15 tileProj
  refine (mmProj_apply _ _ h n).trans ?_
  refine Finset.sum_congr rfl fun c _ => ?_
  show w (ix2 h c) * k0_pay10 (F := Ideal) x (ix2 n c) = _
  rw [pay10_apply, mul_comm]

theorem pay16_apply (x : Vec Ideal S1x4096x256 .f32) (w : Vec Ideal S64x256 .f32) (h : Fin 64) (n : Fin 4096) :
    k0_pay16 (F := Ideal) x w (ix2 h n) = tileProj x w h n := by
  unfold k0_pay16 tileProj
  refine (mmProj_apply _ _ h n).trans ?_
  refine Finset.sum_congr rfl fun c _ => ?_
  show w (ix2 h c) * k0_pay11 (F := Ideal) x (ix2 n c) = _
  rw [pay11_apply, mul_comm]

theorem pay17_apply (x : Vec Ideal S1x4096x256 .f32) (w : Vec Ideal S64x256 .f32) (h : Fin 64) (n : Fin 4096) :
    k0_pay17 (F := Ideal) x w (ix2 h n) = tileProj x w h n := by
  unfold k0_pay17 tileProj
  refine (mmProj_apply _ _ h n).trans ?_
  refine Finset.sum_congr rfl fun c _ => ?_
  show w (ix2 h c) * k0_pay11 (F := Ideal) x (ix2 n c) = _
  rw [pay11_apply, mul_comm]

/-! ## Stream 0's update at an entry -/

/-- The new running maximum: the old one against the tile's row maximum. -/
theorem pay18_apply (x : Vec Ideal S1x4096x256 .f32) (wk : Vec Ideal S64x256 .f32) (m : Vec Ideal S64x1 .f32) (h : Fin 64) :
    k0_pay18 (F := Ideal) x wk m (ix2 h (0 : Fin 1)) = max (m (ix2 h (0 : Fin 1))) (tileMax (tileProj x wk h)) := by
  unfold k0_pay18
  exact congrArg (max (m (ix2 h (0 : Fin 1))))
    ((rowMax_apply (k0_pay14 x wk) h).trans (congrArg tileMax (funext fun n => pay14_apply x wk h n)))

/-- The rescaling factor: the exponential of old maximum minus new. -/
theorem pay19_apply (v28 : FVec Ideal S64x1 .f32) (v29 : Vec Ideal S64x1 .f32) (h : Fin 64) :
    k0_pay19 (F := Ideal) v28 v29 (ix2 h (0 : Fin 1)) = Ideal.exp (v29 (ix2 h (0 : Fin 1)) - v28 (ix2 h (0 : Fin 1))) := rfl

/-- The weights: the exponential of score minus new maximum. -/
theorem pay20_apply (v21 : FVec Ideal S64x4096 .f32) (v28 : FVec Ideal S64x1 .f32) (h : Fin 64) (n : Fin 4096) :
    k0_pay20 (F := Ideal) v21 v28 (ix2 h n) = Ideal.exp (v21 (ix2 h n) - v28 (ix2 h (0 : Fin 1))) := by
  unfold k0_pay20
  exact congrArg (fun t => Ideal.exp (v21 (ix2 h n) - t)) (bcastRow_apply v28 h n)

/-- The new denominator. -/
theorem pay21_apply (v21 : FVec Ideal S64x4096 .f32) (v28 : FVec Ideal S64x1 .f32) (v29 v35 : Vec Ideal S64x1 .f32) (h : Fin 64) :
    k0_pay21 (F := Ideal) v21 v28 v29 v35 (ix2 h (0 : Fin 1))
      = Ideal.exp (v29 (ix2 h (0 : Fin 1)) - v28 (ix2 h (0 : Fin 1))) * v35 (ix2 h (0 : Fin 1))
        + ∑ n : Fin 4096, Ideal.exp (v21 (ix2 h n) - v28 (ix2 h (0 : Fin 1))) := by
  unfold k0_pay21
  refine (congrFun (shapeCast_self _ shapeCasts_S64x1_S64x1) (ix2 h (0 : Fin 1))).trans ?_
  exact congrArg₂ (· + ·) (congrArg (· * v35 (ix2 h (0 : Fin 1))) (pay19_apply v28 v29 h))
    ((rowSum_apply (k0_pay20 v21 v28) h).trans (Finset.sum_congr rfl fun n _ => pay20_apply v21 v28 h n))

/-- The new accumulator. -/
theorem pay22_apply (v21 v22 : FVec Ideal S64x4096 .f32) (v28 : FVec Ideal S64x1 .f32) (v29 : Vec Ideal S64x1 .f32)
    (v46 : Vec Ideal S64x64 .f32) (h d : Fin 64) :
    k0_pay22 (F := Ideal) v21 v22 v28 v29 v46 (ix2 h d)
      = Ideal.exp (v29 (ix2 h (0 : Fin 1)) - v28 (ix2 h (0 : Fin 1))) * v46 (ix2 h d)
        + ∑ n : Fin 4096, Ideal.exp (v21 (ix2 h n) - v28 (ix2 h (0 : Fin 1))) * v22 (ix2 d n) := by
  unfold k0_pay22
  refine (congrFun (shapeCast_self _ shapeCasts_S64x64_S64x64) (ix2 h d)).trans ?_
  exact congrArg₂ (· + ·)
    (congrArg (· * v46 (ix2 h d)) ((bcastSq_apply (k0_pay19 v28 v29) h d).trans (pay19_apply v28 v29 h)))
    ((mmTok_apply _ _ h d).trans (Finset.sum_congr rfl fun n _ => congrArg (· * v22 (ix2 d n)) (pay20_apply v21 v28 h n)))

/-- The stored maximum is the new maximum. -/
theorem pay23_apply (v28 : FVec Ideal S64x1 .f32) (i : S64x1.Idx) : k0_pay23 (F := Ideal) v28 i = v28 i :=
  congrFun (shapeCast_self v28 shapeCasts_S64x1_S64x1) i

/-! ## Stream 1's update at an entry -/

theorem pay24_apply (v23 : FVec Ideal S64x4096 .f32) (m : Vec Ideal S64x1 .f32) (h : Fin 64) :
    k0_pay24 (F := Ideal) v23 m (ix2 h (0 : Fin 1)) = max (m (ix2 h (0 : Fin 1))) (tileMax fun n => v23 (ix2 h n)) := by
  unfold k0_pay24
  exact congrArg (max (m (ix2 h (0 : Fin 1)))) (rowMax_apply v23 h)

theorem pay25_apply (v23 : FVec Ideal S64x4096 .f32) (v58 v60 : Vec Ideal S64x1 .f32) (h : Fin 64) :
    k0_pay25 (F := Ideal) v23 v58 v60 (ix2 h (0 : Fin 1))
      = Ideal.exp (v60 (ix2 h (0 : Fin 1)) - k0_pay24 (F := Ideal) v23 v58 (ix2 h (0 : Fin 1))) := rfl

theorem pay26_apply (v23 : FVec Ideal S64x4096 .f32) (v58 : Vec Ideal S64x1 .f32) (h : Fin 64) (n : Fin 4096) :
    k0_pay26 (F := Ideal) v23 v58 (ix2 h n) = Ideal.exp (v23 (ix2 h n) - k0_pay24 (F := Ideal) v23 v58 (ix2 h (0 : Fin 1))) := by
  unfold k0_pay26
  exact congrArg (fun t => Ideal.exp (v23 (ix2 h n) - t)) (bcastRow_apply (k0_pay24 (F := Ideal) v23 v58) h n)

theorem pay27_apply (v62 : FVec Ideal S64x1 .f32) (v65 : FVec Ideal S64x4096 .f32) (v66 : Vec Ideal S64x1 .f32) (h : Fin 64) :
    k0_pay27 (F := Ideal) v62 v65 v66 (ix2 h (0 : Fin 1))
      = v62 (ix2 h (0 : Fin 1)) * v66 (ix2 h (0 : Fin 1)) + ∑ n : Fin 4096, v65 (ix2 h n) := by
  unfold k0_pay27
  refine (congrFun (shapeCast_self _ shapeCasts_S64x1_S64x1) (ix2 h (0 : Fin 1))).trans ?_
  exact congrArg (v62 (ix2 h (0 : Fin 1)) * v66 (ix2 h (0 : Fin 1)) + ·) (rowSum_apply v65 h)

theorem pay28_apply (v24 : FVec Ideal S64x4096 .f32) (v62 : FVec Ideal S64x1 .f32) (v65 : FVec Ideal S64x4096 .f32)
    (v77 : Vec Ideal S64x64 .f32) (h d : Fin 64) :
    k0_pay28 (F := Ideal) v24 v62 v65 v77 (ix2 h d)
      = v62 (ix2 h (0 : Fin 1)) * v77 (ix2 h d) + ∑ n : Fin 4096, v65 (ix2 h n) * v24 (ix2 d n) := by
  unfold k0_pay28
  refine (congrFun (shapeCast_self _ shapeCasts_S64x64_S64x64) (ix2 h d)).trans ?_
  exact congrArg₂ (· + ·) (congrArg (· * v77 (ix2 h d)) (bcastSq_apply v62 h d)) (mmTok_apply _ _ h d)

theorem pay29_apply (v59 : FVec Ideal S64x1 .f32) (i : S64x1.Idx) : k0_pay29 (F := Ideal) v59 i = v59 i :=
  congrFun (shapeCast_self v59 shapeCasts_S64x1_S64x1) i

end Cert.KernelIdeal.Val

end
-- ==== Proof.Value.StepValue.lean ====
/-
  The carried buffers of region 0 after a grid point, read entry by entry on extended reals: for each stream, the entries
  of head h (running maximum, denominator) and of (h, d) (accumulator) after the point are one step of the online
  softmax-weighted sum on the entries before it, over the tile's scores (the token tile projected by the key weights on
  head h), its values (projected by the value weights on column d) and the scores' maximum over the tile. The start
  values are a finite number for the maxima and zero for denominators and accumulators.
-/
import proofs.«174424_j489626271899_2_alg».proof.Proof.Ideal.Region0Step
import proofs.«174424_j489626271899_2_alg».proof.Proof.Value.OnlineLawExt
import proofs.«174424_j489626271899_2_alg».proof.Proof.Value.StepValueA

noncomputable section

open scoped BigOperators

namespace Cert.KernelIdeal.Val

open Cert.KernelIdeal Cert.KernelIdeal.Gen Cert.KernelIdeal.Gen2
open Idealize.ShloMosaic Idealize.ShloMosaic.ValueIdx

/-! ## The carried buffers after a point, entry by entry -/

section Step

variable (x0 x1 : Vec Ideal S1x4096x256 .f32) (wk0 wk1 wv0 wv1 : Vec Ideal S64x256 .f32) (xs : CarryT Ideal)

theorem step0_max (h : Fin 64) :
    (stepCarry x0 x1 wk0 wk1 wv0 wv1 xs).1 (ix2 h (0 : Fin 1))
      = max (xs.1 (ix2 h (0 : Fin 1))) (tileMax (tileProj x0 wk0 h)) := by
  unfold stepCarry
  exact (pay23_apply _ _).trans (pay18_apply x0 wk0 xs.1 h)

theorem step0_den (h : Fin 64) :
    (stepCarry x0 x1 wk0 wk1 wv0 wv1 xs).2.1 (ix2 h (0 : Fin 1))
      = Ideal.exp (xs.1 (ix2 h (0 : Fin 1)) - max (xs.1 (ix2 h (0 : Fin 1))) (tileMax (tileProj x0 wk0 h))) * xs.2.1 (ix2 h (0 : Fin 1))
        + ∑ n : Fin 4096, Ideal.exp (tileProj x0 wk0 h n - max (xs.1 (ix2 h (0 : Fin 1))) (tileMax (tileProj x0 wk0 h))) := by
  unfold stepCarry
  refine (pay21_apply _ _ _ _ h).trans ?_
  rw [pay18_apply]
  simp only [pay14_apply]

theorem step0_acc (h d : Fin 64) :
    (stepCarry x0 x1 wk0 wk1 wv0 wv1 xs).2.2.1 (ix2 h d)
      = Ideal.exp (xs.1 (ix2 h (0 : Fin 1)) - max (xs.1 (ix2 h (0 : Fin 1))) (tileMax (tileProj x0 wk0 h))) * xs.2.2.1 (ix2 h d)
        + ∑ n : Fin 4096, Ideal.exp (tileProj x0 wk0 h n - max (xs.1 (ix2 h (0 : Fin 1))) (tileMax (tileProj x0 wk0 h)))
            * tileProj x0 wv0 d n := by
  unfold stepCarry
  refine (pay22_apply _ _ _ _ _ h d).trans ?_
  rw [pay18_apply]
  simp only [pay14_apply, pay15_apply]

theorem step1_max (h : Fin 64) :
    (stepCarry x0 x1 wk0 wk1 wv0 wv1 xs).2.2.2.1 (ix2 h (0 : Fin 1))
      = max (xs.2.2.2.1 (ix2 h (0 : Fin 1))) (tileMax (tileProj x1 wk1 h)) := by
  unfold stepCarry
  refine (pay29_apply _ _).trans ((pay24_apply _ _ h).trans ?_)
  simp only [pay16_apply]

theorem step1_den (h : Fin 64) :
    (stepCarry x0 x1 wk0 wk1 wv0 wv1 xs).2.2.2.2.1 (ix2 h (0 : Fin 1))
      = Ideal.exp (xs.2.2.2.1 (ix2 h (0 : Fin 1)) - max (xs.2.2.2.1 (ix2 h (0 : Fin 1))) (tileMax (tileProj x1 wk1 h)))
          * xs.2.2.2.2.1 (ix2 h (0 : Fin 1))
        + ∑ n : Fin 4096, Ideal.exp (tileProj x1 wk1 h n - max (xs.2.2.2.1 (ix2 h (0 : Fin 1))) (tileMax (tileProj x1 wk1 h))) := by
  unfold stepCarry
  refine (pay27_apply _ _ _ h).trans ?_
  rw [pay25_apply]
  simp only [pay26_apply]
  rw [pay24_apply]
  simp only [pay16_apply]

theorem step1_acc (h d : Fin 64) :
    (stepCarry x0 x1 wk0 wk1 wv0 wv1 xs).2.2.2.2.2 (ix2 h d)
      = Ideal.exp (xs.2.2.2.1 (ix2 h (0 : Fin 1)) - max (xs.2.2.2.1 (ix2 h (0 : Fin 1))) (tileMax (tileProj x1 wk1 h)))
          * xs.2.2.2.2.2 (ix2 h d)
        + ∑ n : Fin 4096, Ideal.exp (tileProj x1 wk1 h n - max (xs.2.2.2.1 (ix2 h (0 : Fin 1))) (tileMax (tileProj x1 wk1 h)))
            * tileProj x1 wv1 d n := by
  unfold stepCarry
  refine (pay28_apply _ _ _ _ h d).trans ?_
  rw [pay25_apply]
  simp only [pay26_apply]
  rw [pay24_apply]
  simp only [pay16_apply, pay17_apply]

/-- Stream 0: the three carried entries of head h (and value column d) after a point are one step of the online law on the
    entries before it, over the tile's scores, values and row maximum. -/
theorem step0_eq (h d : Fin 64) :
    ((stepCarry x0 x1 wk0 wk1 wv0 wv1 xs).1 (ix2 h (0 : Fin 1)), (stepCarry x0 x1 wk0 wk1 wv0 wv1 xs).2.1 (ix2 h (0 : Fin 1)),
        (stepCarry x0 x1 wk0 wk1 wv0 wv1 xs).2.2.1 (ix2 h d))
      = Cert.OnlineLaw.stepE (fun n => tileProj x0 wk0 h n) (fun n => tileProj x0 wv0 d n) (tileMax (tileProj x0 wk0 h))
          (xs.1 (ix2 h (0 : Fin 1)), xs.2.1 (ix2 h (0 : Fin 1)), xs.2.2.1 (ix2 h d)) := by
  unfold Cert.OnlineLaw.stepE
  exact Prod.ext (step0_max x0 x1 wk0 wk1 wv0 wv1 xs h)
    (Prod.ext (step0_den x0 x1 wk0 wk1 wv0 wv1 xs h) (step0_acc x0 x1 wk0 wk1 wv0 wv1 xs h d))

/-- Stream 1 likewise. -/
theorem step1_eq (h d : Fin 64) :
    ((stepCarry x0 x1 wk0 wk1 wv0 wv1 xs).2.2.2.1 (ix2 h (0 : Fin 1)), (stepCarry x0 x1 wk0 wk1 wv0 wv1 xs).2.2.2.2.1 (ix2 h (0 : Fin 1)),
        (stepCarry x0 x1 wk0 wk1 wv0 wv1 xs).2.2.2.2.2 (ix2 h d))
      = Cert.OnlineLaw.stepE (fun n => tileProj x1 wk1 h n) (fun n => tileProj x1 wv1 d n) (tileMax (tileProj x1 wk1 h))
          (xs.2.2.2.1 (ix2 h (0 : Fin 1)), xs.2.2.2.2.1 (ix2 h (0 : Fin 1)), xs.2.2.2.2.2 (ix2 h d)) := by
  unfold Cert.OnlineLaw.stepE
  exact Prod.ext (step1_max x0 x1 wk0 wk1 wv0 wv1 xs h)
    (Prod.ext (step1_den x0 x1 wk0 wk1 wv0 wv1 xs h) (step1_acc x0 x1 wk0 wk1 wv0 wv1 xs h d))

end Step

/-! ## The start values -/

/-- The start value of a running maximum is a finite number. -/
theorem sentinel_real : ∃ r : ℝ, Ideal.ofBits .f32 0xFF333332#32 = (r : EReal) :=
  ⟨_, by simp [Ideal.ofBits, Ideal.ieee, -EReal.coe_mul]; rfl⟩

theorem init_max0 (h : Fin 64) : (initCarry (F := Ideal)).1 (ix2 h (0 : Fin 1)) = Ideal.ofBits .f32 0xFF333332#32 :=
  congrFun (shapeCast_self (broadcast S64x1 (Ideal.ofBits .f32 0xFF333332#32)) shapeCasts_S64x1_S64x1) (ix2 h (0 : Fin 1))

theorem init_den0 (h : Fin 64) : (initCarry (F := Ideal)).2.1 (ix2 h (0 : Fin 1)) = 0 :=
  (congrFun (shapeCast_self (broadcast S64x1 (Ideal.ofBits .f32 0x00000000#32)) shapeCasts_S64x1_S64x1) (ix2 h (0 : Fin 1))).trans
    Ideal.ofBits_zero_f32

theorem init_acc0 (h d : Fin 64) : (initCarry (F := Ideal)).2.2.1 (ix2 h d) = 0 :=
  (congrFun (shapeCast_self (broadcast S64x64 (Ideal.ofBits .f32 0x00000000#32)) shapeCasts_S64x64_S64x64) (ix2 h d)).trans
    Ideal.ofBits_zero_f32

theorem init_max1 (h : Fin 64) : (initCarry (F := Ideal)).2.2.2.1 (ix2 h (0 : Fin 1)) = Ideal.ofBits .f32 0xFF333332#32 :=
  congrFun (shapeCast_self (broadcast S64x1 (Ideal.ofBits .f32 0xFF333332#32)) shapeCasts_S64x1_S64x1) (ix2 h (0 : Fin 1))

theorem init_den1 (h : Fin 64) : (initCarry (F := Ideal)).2.2.2.2.1 (ix2 h (0 : Fin 1)) = 0 :=
  (congrFun (shapeCast_self (broadcast S64x1 (Ideal.ofBits .f32 0x00000000#32)) shapeCasts_S64x1_S64x1) (ix2 h (0 : Fin 1))).trans
    Ideal.ofBits_zero_f32

theorem init_acc1 (h d : Fin 64) : (initCarry (F := Ideal)).2.2.2.2.2 (ix2 h d) = 0 :=
  (congrFun (shapeCast_self (broadcast S64x64 (Ideal.ofBits .f32 0x00000000#32)) shapeCasts_S64x64_S64x64) (ix2 h d)).trans
    Ideal.ofBits_zero_f32

end Cert.KernelIdeal.Val

end
-- ==== Proof.Value.CtxFold.lean ====
/-
  The carried buffers of region 0 across a batch's four token tiles.

  Grid position 4·b + n' is batch b, token tile n'. At n' = 0 the carried buffers (for each stream: running maximum,
  denominator, accumulator) start from their initial values; at every tile they are updated from the tile's blocks; at
  n' = 3 the two context blocks accumulator / denominator are stored. Entry by entry, one update is one step of the
  online softmax-weighted sum over the tile's scores and values. Hence, at row h and column d, the carried state after
  the fourth tile is the online computation over the four tiles, started at the finite start value of the maximum, and
  the stored context block's entry (h, d) is its accumulator over its denominator.
-/
import proofs.«174424_j489626271899_2_alg».proof.Proof.Ideal.Region0
import proofs.«174424_j489626271899_2_alg».proof.Proof.Ideal.Region0Step
import proofs.«174424_j489626271899_2_alg».proof.Proof.Ideal.Region0Pieces
import proofs.«174424_j489626271899_2_alg».proof.Proof.Value.StepValue
import proofs.«174424_j489626271899_2_alg».proof.Proof.Value.BlockValue
import proofs.«174424_j489626271899_2_alg».proof.Proof.Value.OnlineLawExt
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Gen2
open Idealize.ShloMosaic Idealize.ShloMosaic.TcCoe Idealize.ShloMosaic.ValueIdx

variable (V : Entry Ideal)

/-- The grid position of batch b, token tile n': positions run through the batches, four tiles each. -/
def pos (b n' : Fin 4) : Fin cfg0.N :=
  ⟨4 * b.val + n'.val, by rw [show cfg0.N = 16 from N_0]; have h1 := b.isLt; have h2 := n'.isLt; omega⟩

theorem pos_val (b n' : Fin 4) : (pos b n').val = 4 * b.val + n'.val := rfl

/-- The carried buffers after a position. -/
def carryAt (c : Dev nD) (t : Fin cfg0.N) : CarryT Ideal := (outsAt0 V c t.val t.isLt).2

/-- One position's update of the carried buffers, from the position's blocks. -/
def stepAt (c : Dev nD) (t : Fin cfg0.N) (xs : CarryT Ideal) : CarryT Ideal :=
  stepCarry (iblk0 V c 0 t) (iblk0 V c 1 t) (iblk0 V c 2 t) (iblk0 V c 3 t) (iblk0 V c 6 t) (iblk0 V c 7 t) xs

theorem outsAt0_congr (c : Dev nD) (n m : ℕ) (hn : n < cfg0.N) (hm : m < cfg0.N) (e : n = m) :
    outsAt0 V c n hn = outsAt0 V c m hm := by
  subst e; rfl

/-- At a batch's first tile the carried buffers start from their initial values. -/
theorem carryAt_first (c : Dev nD) (t : Fin cfg0.N) (h0 : t.val % 4 = 0) : carryAt V c t = stepAt V c t initCarry := by
  have h1 : ¬t.val % 4 = 3 := by omega
  unfold carryAt stepAt
  rw [outsAt0_A V c t h0 h1, leftA_eq V c t h0 h1]

/-- At a later tile they continue from the position before. -/
theorem carryAt_next (c : Dev nD) (t s : Fin cfg0.N) (hs : s.val + 1 = t.val) (h0 : ¬t.val % 4 = 0) :
    carryAt V c t = stepAt V c t (carryAt V c s) := by
  have e : t.val - 1 = s.val := by omega
  unfold carryAt stepAt
  by_cases h1 : t.val % 4 = 3
  · rw [outsAt0_C V c t h0 h1, leftC_eq V c t h0 h1, outsAt0_congr V c (t.val - 1) s.val _ s.isLt e]
  · rw [outsAt0_B V c t h0 h1, leftB_eq V c t h0 h1, outsAt0_congr V c (t.val - 1) s.val _ s.isLt e]

/-- At a batch's last tile the two context windows hold the context blocks of the carried buffers. -/
theorem after8_last (c : Dev nD) (t : Fin cfg0.N) (h1 : t.val % 4 = 3) :
    (dat0 V c).after 8 t = ctxBlock0 (carryAt V c t) := by
  have h0 : ¬t.val % 4 = 0 := by omega
  rw [after0_8]
  unfold carryAt
  rw [outsAt0_C V c t h0 h1, leftC_eq V c t h0 h1]

theorem after9_last (c : Dev nD) (t : Fin cfg0.N) (h1 : t.val % 4 = 3) :
    (dat0 V c).after 9 t = ctxBlock1 (carryAt V c t) := by
  have h0 : ¬t.val % 4 = 0 := by omega
  rw [after0_9]
  unfold carryAt
  rw [outsAt0_C V c t h0 h1, leftC_eq V c t h0 h1]

/-- Stream 0's carried state at row h, column d: running maximum, denominator, accumulator. -/
def tri0 (xs : CarryT Ideal) (h d : Fin 64) : EReal × EReal × EReal :=
  (xs.1 (ix2 h (0 : Fin 1)), xs.2.1 (ix2 h (0 : Fin 1)), xs.2.2.1 (ix2 h d))
/-- Stream 1's. -/
def tri1 (xs : CarryT Ideal) (h d : Fin 64) : EReal × EReal × EReal :=
  (xs.2.2.2.1 (ix2 h (0 : Fin 1)), xs.2.2.2.2.1 (ix2 h (0 : Fin 1)), xs.2.2.2.2.2 (ix2 h d))

/-- The carried state starts at the finite start value of the maximum, zero denominator, zero accumulator. -/
theorem tri0_init (h d : Fin 64) : tri0 initCarry h d = (Ideal.ofBits .f32 0xFF333332#32, 0, 0) :=
  Prod.ext (init_max0 h) (Prod.ext (init_den0 h) (init_acc0 h d))
theorem tri1_init (h d : Fin 64) : tri1 initCarry h d = (Ideal.ofBits .f32 0xFF333332#32, 0, 0) :=
  Prod.ext (init_max1 h) (Prod.ext (init_den1 h) (init_acc1 h d))

/-- Stream 0's scores of row h, values of column d, and score maximum at a position. -/
def kAt0 (c : Dev nD) (h : Fin 64) (t : Fin cfg0.N) : Fin 4096 → EReal := fun n => tileProj (iblk0 V c 0 t) (iblk0 V c 2 t) h n
def vAt0 (c : Dev nD) (d : Fin 64) (t : Fin cfg0.N) : Fin 4096 → EReal := fun n => tileProj (iblk0 V c 0 t) (iblk0 V c 6 t) d n
def kAt1 (c : Dev nD) (h : Fin 64) (t : Fin cfg0.N) : Fin 4096 → EReal := fun n => tileProj (iblk0 V c 1 t) (iblk0 V c 3 t) h n
def vAt1 (c : Dev nD) (d : Fin 64) (t : Fin cfg0.N) : Fin 4096 → EReal := fun n => tileProj (iblk0 V c 1 t) (iblk0 V c 7 t) d n

theorem tri0_stepAt (c : Dev nD) (t : Fin cfg0.N) (xs : CarryT Ideal) (h d : Fin 64) :
    tri0 (stepAt V c t xs) h d = Cert.OnlineLaw.stepE (kAt0 V c h t) (vAt0 V c d t) (tileMax (kAt0 V c h t)) (tri0 xs h d) :=
  step0_eq (iblk0 V c 0 t) (iblk0 V c 1 t) (iblk0 V c 2 t) (iblk0 V c 3 t) (iblk0 V c 6 t) (iblk0 V c 7 t) xs h d

theorem tri1_stepAt (c : Dev nD) (t : Fin cfg0.N) (xs : CarryT Ideal) (h d : Fin 64) :
    tri1 (stepAt V c t xs) h d = Cert.OnlineLaw.stepE (kAt1 V c h t) (vAt1 V c d t) (tileMax (kAt1 V c h t)) (tri1 xs h d) :=
  step1_eq (iblk0 V c 0 t) (iblk0 V c 1 t) (iblk0 V c 2 t) (iblk0 V c 3 t) (iblk0 V c 6 t) (iblk0 V c 7 t) xs h d

/-- After a batch's four tiles, stream 0's carried state is the online computation over the four tiles' scores and values. -/
theorem tri0_last (c : Dev nD) (b : Fin 4) (h d : Fin 64) :
    tri0 (carryAt V c (pos b 3)) h d
      = Cert.OnlineLaw.run4E (fun n' => kAt0 V c h (pos b n')) (fun n' => vAt0 V c d (pos b n'))
          (fun n' => tileMax (kAt0 V c h (pos b n'))) (Ideal.ofBits .f32 0xFF333332#32) := by
  have hb := b.isLt
  rw [carryAt_next V c (pos b 3) (pos b 2) rfl (by rw [pos_val]; show ¬(4 * b.val + 3) % 4 = 0; omega),
    carryAt_next V c (pos b 2) (pos b 1) rfl (by rw [pos_val]; show ¬(4 * b.val + 2) % 4 = 0; omega),
    carryAt_next V c (pos b 1) (pos b 0) rfl (by rw [pos_val]; show ¬(4 * b.val + 1) % 4 = 0; omega),
    carryAt_first V c (pos b 0) (by rw [pos_val]; show (4 * b.val + 0) % 4 = 0; omega)]
  rw [tri0_stepAt, tri0_stepAt, tri0_stepAt, tri0_stepAt]
  unfold Cert.OnlineLaw.run4E
  exact congrArg _ (congrArg _ (congrArg _ (congrArg _ (tri0_init h d))))

theorem tri1_last (c : Dev nD) (b : Fin 4) (h d : Fin 64) :
    tri1 (carryAt V c (pos b 3)) h d
      = Cert.OnlineLaw.run4E (fun n' => kAt1 V c h (pos b n')) (fun n' => vAt1 V c d (pos b n'))
          (fun n' => tileMax (kAt1 V c h (pos b n'))) (Ideal.ofBits .f32 0xFF333332#32) := by
  have hb := b.isLt
  rw [carryAt_next V c (pos b 3) (pos b 2) rfl (by rw [pos_val]; show ¬(4 * b.val + 3) % 4 = 0; omega),
    carryAt_next V c (pos b 2) (pos b 1) rfl (by rw [pos_val]; show ¬(4 * b.val + 2) % 4 = 0; omega),
    carryAt_next V c (pos b 1) (pos b 0) rfl (by rw [pos_val]; show ¬(4 * b.val + 1) % 4 = 0; omega),
    carryAt_first V c (pos b 0) (by rw [pos_val]; show (4 * b.val + 0) % 4 = 0; omega)]
  rw [tri1_stepAt, tri1_stepAt, tri1_stepAt, tri1_stepAt]
  unfold Cert.OnlineLaw.run4E
  exact congrArg _ (congrArg _ (congrArg _ (congrArg _ (tri1_init h d))))

/-- The context block stored at a batch's last tile, entry (h, d): the online computation's accumulator over its denominator. -/
theorem stored8 (c : Dev nD) (b : Fin 4) (h d : Fin 64) :
    ((dat0 V c).after 8 (pos b 3) : Vec Ideal S1x64x64 .f32) (ix3 (0 : Fin 1) h d)
      = Ideal.div
          (Cert.OnlineLaw.run4E (fun n' => kAt0 V c h (pos b n')) (fun n' => vAt0 V c d (pos b n'))
            (fun n' => tileMax (kAt0 V c h (pos b n'))) (Ideal.ofBits .f32 0xFF333332#32)).2.2
          (Cert.OnlineLaw.run4E (fun n' => kAt0 V c h (pos b n')) (fun n' => vAt0 V c d (pos b n'))
            (fun n' => tileMax (kAt0 V c h (pos b n'))) (Ideal.ofBits .f32 0xFF333332#32)).2.1 := by
  have hb := b.isLt
  have e := tri0_last V c b h d
  rw [after8_last V c (pos b 3) (by rw [pos_val]; show (4 * b.val + 3) % 4 = 3; omega)]
  refine (ctxBlock0_apply (carryAt V c (pos b 3)) h d).trans ?_
  rw [← e]
  rfl

theorem stored9 (c : Dev nD) (b : Fin 4) (h d : Fin 64) :
    ((dat0 V c).after 9 (pos b 3) : Vec Ideal S1x64x64 .f32) (ix3 (0 : Fin 1) h d)
      = Ideal.div
          (Cert.OnlineLaw.run4E (fun n' => kAt1 V c h (pos b n')) (fun n' => vAt1 V c d (pos b n'))
            (fun n' => tileMax (kAt1 V c h (pos b n'))) (Ideal.ofBits .f32 0xFF333332#32)).2.2
          (Cert.OnlineLaw.run4E (fun n' => kAt1 V c h (pos b n')) (fun n' => vAt1 V c d (pos b n'))
            (fun n' => tileMax (kAt1 V c h (pos b n'))) (Ideal.ofBits .f32 0xFF333332#32)).2.1 := by
  have hb := b.isLt
  have e := tri1_last V c b h d
  rw [after9_last V c (pos b 3) (by rw [pos_val]; show (4 * b.val + 3) % 4 = 3; omega)]
  refine (ctxBlock1_apply (carryAt V c (pos b 3)) h d).trans ?_
  rw [← e]
  rfl

end Cert.KernelIdeal.Val

end
-- ==== Proof.Value.CtxLaw.lean ====
/-
  The online softmax-weighted sum over four token tiles is the reference's context entry.

  The 16384 tokens of a batch are cut into four tiles of 4096: token n of tile n' is token 4096·n' + n. For a score
  array K and a value array W over [batch, token, head] whose entries are all real numbers, the online computation
  over the four tiles of column (b, h) of K against column (b, d) of W — running maximum started at any real number,
  each tile's maximum taken as a fold of max from −∞, rescaled denominator and accumulator — ends with
  accumulator / denominator equal to the direct sum  Σ_n softmax_n(K[b, ·, h])[n] · W[b, n, d], the (b, h, d) entry of the
  reference's context matrix. With K and W two projections of a real token stream by real weights, every entry is real.
-/
import Idealize.ShloMosaic.PureOps.Ideal
import Idealize.ShloMosaic.Lib.ValueIdx
import proofs.«174424_j489626271899_2_alg».proof.Proof.Value.RefSpecDefs
import proofs.«174424_j489626271899_2_alg».proof.Proof.Value.OnlineLawExt
import proofs.«174424_j489626271899_2_alg».proof.Proof.LibFiniteReal

noncomputable section

open scoped BigOperators

namespace Cert.KernelIdeal.Val

open Idealize.ShloMosaic Idealize.ShloMosaic.ValueIdx
open Cert.RefSpec Cert.Lib.FiniteReal

/-- Token n of tile n'. -/
def tok (n' : Fin 4) (n : Fin 4096) : Fin 16384 :=
  ⟨4096 * n'.val + n.val, by have h1 := n'.isLt; have h2 := n.isLt; omega⟩

theorem tok_val (n' : Fin 4) (n : Fin 4096) : (tok n' n).val = 4096 * n'.val + n.val := rfl

/-- The tokens as (tile, token in the tile). -/
def tokEquiv : Fin 4 × Fin 4096 ≃ Fin 16384 where
  toFun p := tok p.1 p.2
  invFun j := (⟨j.val / 4096, by have h := j.isLt; omega⟩, ⟨j.val % 4096, Nat.mod_lt _ (by decide)⟩)
  left_inv p := by
    obtain ⟨a, b⟩ := p
    have hb := b.isLt
    refine Prod.ext (Fin.ext ?_) (Fin.ext ?_)
    · show (4096 * a.val + b.val) / 4096 = a.val
      omega
    · show (4096 * a.val + b.val) % 4096 = b.val
      omega
  right_inv j := Fin.ext (by
    show 4096 * (j.val / 4096) + j.val % 4096 = j.val
    omega)

theorem tokEquiv_apply (n' : Fin 4) (n : Fin 4096) : tokEquiv (n', n) = tok n' n := rfl

/-- A projection of a real stream by real weights is real: a finite sum of products. -/
theorem allReal_proj (x : SX.Idx → EReal) (W : SW.Idx → EReal) (hx : AllReal x) (hW : AllReal W) : AllReal (proj x W) := by
  intro i
  unfold proj
  exact IsReal.sum _ _ fun c _ => (hx _).mul (hW _)

/-- The tile maximum of a column: the fold of max from −∞ over the tile's 4096 tokens. -/
def colTileMax (K : SP.Idx → EReal) (b : Fin 4) (h : Fin 64) (n' : Fin 4) : EReal :=
  (Finset.univ : Finset (Fin 4096)).fold max ⊥ (fun n => K (ix3 b (tok n' n) h))

/-- The online computation of column (b, h) of K against column (b, d) of W over the four tiles, started at m0. -/
def onlineCol (K W : SP.Idx → EReal) (m0 : EReal) (b : Fin 4) (h d : Fin 64) : EReal × EReal × EReal :=
  Cert.OnlineLaw.run4E (fun n' n => K (ix3 b (tok n' n) h)) (fun n' n => W (ix3 b (tok n' n) d)) (colTileMax K b h) m0

/-- On real arrays the online computation's quotient is the context entry. -/
theorem onlineCol_div (K W : SP.Idx → EReal) (hK : AllReal K) (hW : AllReal W) (m0 : EReal) (hm0 : IsReal m0)
    (b : Fin 4) (h d : Fin 64) :
    Ideal.div (onlineCol K W m0 b h d).2.2 (onlineCol K W m0 b h d).2.1 = ctx (tokSoft K) W (ix3 b h d) := by
  have htm : ∀ n' : Fin 4, IsReal (colTileMax K b h n') := fun n' =>
    IsReal.fold_max _ Finset.univ_nonempty _ (fun n _ => hK _)
  have hMx : IsReal (tokMax K b h) := IsReal.fold_max _ Finset.univ_nonempty _ (fun n _ => hK _)
  choose tmr htmr using htm
  obtain ⟨Mr, hMr⟩ := hMx
  obtain ⟨m0r, rfl⟩ := hm0
  obtain ⟨kr, rfl⟩ := hK.exists_real
  obtain ⟨vr, rfl⟩ := hW.exists_real
  have key := Cert.OnlineLaw.online_eq_direct_ext tokEquiv (fun j => kr (ix3 b j h)) (fun j => vr (ix3 b j d)) tmr
    (colTileMax (fun a => ((kr a : ℝ) : EReal)) b h) htmr m0r Mr (tokMax (fun a => ((kr a : ℝ) : EReal)) b h) hMr
  refine Eq.trans ?_ (key.trans ?_)
  · rfl
  · simp only [zero_add]
    rfl

/-- For two projections of a real stream by real weights. -/
theorem onlineCol_proj (x : SX.Idx → EReal) (Wk Wv : SW.Idx → EReal) (hx : AllReal x) (hk : AllReal Wk) (hv : AllReal Wv)
    (m0 : EReal) (hm0 : IsReal m0) (b : Fin 4) (h d : Fin 64) :
    Ideal.div (onlineCol (proj x Wk) (proj x Wv) m0 b h d).2.2 (onlineCol (proj x Wk) (proj x Wv) m0 b h d).2.1
      = ctx (tokSoft (proj x Wk)) (proj x Wv) (ix3 b h d) :=
  onlineCol_div _ _ (allReal_proj x Wk hx hk) (allReal_proj x Wv hx hv) m0 hm0 b h d

end Cert.KernelIdeal.Val

end
-- ==== Proof.Value.CtxArray.lean ====
/-
  The two context arrays after region 0, as whole-array functions of the arguments.

  Position 4·b + n' reads, of each token stream, the block (batch b, tile n'): its token n is token 4096·n' + n of batch
  b; the weight windows read the whole matrices. So a tile's scores and values are the reference's projections at the
  tile's tokens, the online computation over a batch's four positions is the online computation over the reference's
  projections, and — the one place where the inputs must be real numbers — its accumulator over its denominator is the
  reference's context entry (the softmax of the keys over all 16384 tokens contracted with the values). The context
  windows are written back at each batch's last tile only, with block (b, 0, 0); these four blocks cover the arrays.
-/
import proofs.«174424_j489626271899_2_alg».proof.Proof.Value.CtxFold
import proofs.«174424_j489626271899_2_alg».proof.Proof.Value.CtxLaw
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Gen2
open Idealize.ShloMosaic Idealize.ShloMosaic.TcCoe Idealize.ShloMosaic.ValueIdx
open Cert.RefSpec Cert.Lib.FiniteReal
open Idealize.ShloMosaic.Pipeline (Dat)

variable (V : Entry Ideal)

/-! ## Where the windows' blocks sit -/

/-- The block indices over the grid: position t is batch t / 4, token tile t % 4. The stream windows' blocks are
    (batch, tile, 0), the weight windows' blocks are the whole matrices, the context windows' blocks are (batch, 0, 0). -/
theorem blockIdx : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val / 4 ∧ win0_8.index t (1 : Fin 3) = 0 ∧ win0_8.index t (2 : Fin 3) = 0
    ∧ win0_9.index t (0 : Fin 3) = t.val / 4 ∧ win0_9.index t (1 : Fin 3) = 0 ∧ win0_9.index t (2 : Fin 3) = 0 :=
  (by decide +kernel : ∀ t : Fin grid0.N, _)

/-! ## The input blocks read off the arrays -/

/-- Token n, channel c' of stream 0's block at (batch b, tile n') is token 4096·n' + n of batch b. -/
theorem iblk0_x0 (c : Dev nD) (b n' : Fin 4) (n : Fin 4096) (c' : Fin 256) :
    (iblk0 V c 0 (pos b n') : Vec Ideal S1x4096x256 .f32) (ix3 0 n c')
      = (V c main_arg0 : S4x16384x256.Idx → EReal) (ix3 b (tok n' n) c') := by
  obtain ⟨e0, e1, e2, -⟩ := blockIdx (pos b n')
  have hb := b.isLt; have hn' := n'.isLt; have hn := n.isLt
  rw [pos_val] at e0 e1
  unfold iblk0
  show (V c main_arg0 : S4x16384x256.Idx → EReal) (((cfg0.win 0).blk (pos b n')).view.emb (ix3 0 n c')) = _
  congr 1
  funext a
  apply Fin.ext
  match a with
  | ⟨0, _⟩ => show win0_0.index (pos b n') (0 : Fin 3) * 1 + 1 * 0 = b.val; rw [e0]; omega
  | ⟨1, _⟩ => show win0_0.index (pos b n') (1 : Fin 3) * 4096 + 1 * n.val = 4096 * n'.val + n.val; rw [e1]; omega
  | ⟨2, _⟩ => show win0_0.index (pos b n') (2 : Fin 3) * 256 + 1 * c'.val = c'.val; rw [e2]; omega

theorem iblk0_x1 (c : Dev nD) (b n' : Fin 4) (n : Fin 4096) (c' : Fin 256) :
    (iblk0 V c 1 (pos b n') : Vec Ideal S1x4096x256 .f32) (ix3 0 n c')
      = (V c main_arg1 : S4x16384x256.Idx → EReal) (ix3 b (tok n' n) c') := by
  obtain ⟨-, -, -, e0, e1, e2, -⟩ := blockIdx (pos b n')
  have hb := b.isLt; have hn' := n'.isLt; have hn := n.isLt
  rw [pos_val] at e0 e1
  unfold iblk0
  show (V c main_arg1 : S4x16384x256.Idx → EReal) (((cfg0.win 1).blk (pos b n')).view.emb (ix3 0 n c')) = _
  congr 1
  funext a
  apply Fin.ext
  match a with
  | ⟨0, _⟩ => show win0_1.index (pos b n') (0 : Fin 3) * 1 + 1 * 0 = b.val; rw [e0]; omega
  | ⟨1, _⟩ => show win0_1.index (pos b n') (1 : Fin 3) * 4096 + 1 * n.val = 4096 * n'.val + n.val; rw [e1]; omega
  | ⟨2, _⟩ => show win0_1.index (pos b n') (2 : Fin 3) * 256 + 1 * c'.val = c'.val; rw [e2]; omega

/-- A weight window's block is the whole matrix. -/
theorem iblk0_w2 (c : Dev nD) (t : Fin cfg0.N) (h : Fin 64) (c' : Fin 256) :
    (iblk0 V c 2 t : Vec Ideal S64x256 .f32) (ix2 h c') = (V c main_arg2 : S64x256.Idx → EReal) (ix2 h c') := by
  obtain ⟨-, -, -, -, -, -, e0, e1, -⟩ := blockIdx t
  unfold iblk0
  show (V c main_arg2 : S64x256.Idx → EReal) (((cfg0.win 2).blk t).view.emb (ix2 h c')) = _
  congr 1
  funext a
  apply Fin.ext
  match a with
  | ⟨0, _⟩ => show win0_2.index t (0 : Fin 2) * 64 + 1 * h.val = h.val; rw [e0]; omega
  | ⟨1, _⟩ => show win0_2.index t (1 : Fin 2) * 256 + 1 * c'.val = c'.val; rw [e1]; omega

theorem iblk0_w3 (c : Dev nD) (t : Fin cfg0.N) (h : Fin 64) (c' : Fin 256) :
    (iblk0 V c 3 t : Vec Ideal S64x256 .f32) (ix2 h c') = (V c main_arg3 : S64x256.Idx → EReal) (ix2 h c') := by
  obtain ⟨-, -, -, -, -, -, -, -, e0, e1, -⟩ := blockIdx t
  unfold iblk0
  show (V c main_arg3 : S64x256.Idx → EReal) (((cfg0.win 3).blk t).view.emb (ix2 h c')) = _
  congr 1
  funext a
  apply Fin.ext
  match a with
  | ⟨0, _⟩ => show win0_3.index t (0 : Fin 2) * 64 + 1 * h.val = h.val; rw [e0]; omega
  | ⟨1, _⟩ => show win0_3.index t (1 : Fin 2) * 256 + 1 * c'.val = c'.val; rw [e1]; omega

theorem iblk0_w6 (c : Dev nD) (t : Fin cfg0.N) (h : Fin 64) (c' : Fin 256) :
    (iblk0 V c 6 t : Vec Ideal S64x256 .f32) (ix2 h c') = (V c main_arg6 : S64x256.Idx → EReal) (ix2 h c') := by
  obtain ⟨-, -, -, -, -, -, -, -, -, -, e0, e1, -⟩ := blockIdx t
  unfold iblk0
  show (V c main_arg6 : S64x256.Idx → EReal) (((cfg0.win 6).blk t).view.emb (ix2 h c')) = _
  congr 1
  funext a
  apply Fin.ext
  match a with
  | ⟨0, _⟩ => show win0_6.index t (0 : Fin 2) * 64 + 1 * h.val = h.val; rw [e0]; omega
  | ⟨1, _⟩ => show win0_6.index t (1 : Fin 2) * 256 + 1 * c'.val = c'.val; rw [e1]; omega

theorem iblk0_w7 (c : Dev nD) (t : Fin cfg0.N) (h : Fin 64) (c' : Fin 256) :
    (iblk0 V c 7 t : Vec Ideal S64x256 .f32) (ix2 h c') = (V c main_arg7 : S64x256.Idx → EReal) (ix2 h c') := by
  obtain ⟨-, -, -, -, -, -, -, -, -, -, -, -, e0, e1, -⟩ := blockIdx t
  unfold iblk0
  show (V c main_arg7 : S64x256.Idx → EReal) (((cfg0.win 7).blk t).view.emb (ix2 h c')) = _
  congr 1
  funext a
  apply Fin.ext
  match a with
  | ⟨0, _⟩ => show win0_7.index t (0 : Fin 2) * 64 + 1 * h.val = h.val; rw [e0]; omega
  | ⟨1, _⟩ => show win0_7.index t (1 : Fin 2) * 256 + 1 * c'.val = c'.val; rw [e1]; omega

/-! ## The tiles' scores and values are the reference's projections -/

theorem kAt0_eq (c : Dev nD) (b n' : Fin 4) (h : Fin 64) (n : Fin 4096) :
    kAt0 V c h (pos b n') n = proj (V c main_arg0) (V c main_arg2) (ix3 b (tok n' n) h) := by
  unfold kAt0 tileProj
  rw [proj_ix3]
  exact Finset.sum_congr rfl fun c' _ => congrArg₂ (· * ·) (iblk0_x0 V c b n' n c') (iblk0_w2 V c (pos b n') h c')

theorem vAt0_eq (c : Dev nD) (b n' : Fin 4) (d : Fin 64) (n : Fin 4096) :
    vAt0 V c d (pos b n') n = proj (V c main_arg0) (V c main_arg6) (ix3 b (tok n' n) d) := by
  unfold vAt0 tileProj
  rw [proj_ix3]
  exact Finset.sum_congr rfl fun c' _ => congrArg₂ (· * ·) (iblk0_x0 V c b n' n c') (iblk0_w6 V c (pos b n') d c')

theorem kAt1_eq (c : Dev nD) (b n' : Fin 4) (h : Fin 64) (n : Fin 4096) :
    kAt1 V c h (pos b n') n = proj (V c main_arg1) (V c main_arg3) (ix3 b (tok n' n) h) := by
  unfold kAt1 tileProj
  rw [proj_ix3]
  exact Finset.sum_congr rfl fun c' _ => congrArg₂ (· * ·) (iblk0_x1 V c b n' n c') (iblk0_w3 V c (pos b n') h c')

theorem vAt1_eq (c : Dev nD) (b n' : Fin 4) (d : Fin 64) (n : Fin 4096) :
    vAt1 V c d (pos b n') n = proj (V c main_arg1) (V c main_arg7) (ix3 b (tok n' n) d) := by
  unfold vAt1 tileProj
  rw [proj_ix3]
  exact Finset.sum_congr rfl fun c' _ => congrArg₂ (· * ·) (iblk0_x1 V c b n' n c') (iblk0_w7 V c (pos b n') d c')

/-- The online computation over a batch's four positions is the online computation over the reference's projections. -/
theorem run0_eq (c : Dev nD) (b : Fin 4) (h d : Fin 64) (m0 : EReal) :
    Cert.OnlineLaw.run4E (fun n' => kAt0 V c h (pos b n')) (fun n' => vAt0 V c d (pos b n'))
        (fun n' => tileMax (kAt0 V c h (pos b n'))) m0
      = onlineCol (proj (V c main_arg0) (V c main_arg2)) (proj (V c main_arg0) (V c main_arg6)) m0 b h d := by
  have hk : (fun n' => kAt0 V c h (pos b n')) = fun n' n => proj (V c main_arg0) (V c main_arg2) (ix3 b (tok n' n) h) :=
    funext fun n' => funext fun n => kAt0_eq V c b n' h n
  have hv : (fun n' => vAt0 V c d (pos b n')) = fun n' n => proj (V c main_arg0) (V c main_arg6) (ix3 b (tok n' n) d) :=
    funext fun n' => funext fun n => vAt0_eq V c b n' d n
  have hm : (fun n' => tileMax (kAt0 V c h (pos b n'))) = colTileMax (proj (V c main_arg0) (V c main_arg2)) b h :=
    funext fun n' => congrArg tileMax (congrFun hk n')
  rw [hk, hv, hm]
  rfl

theorem run1_eq (c : Dev nD) (b : Fin 4) (h d : Fin 64) (m0 : EReal) :
    Cert.OnlineLaw.run4E (fun n' => kAt1 V c h (pos b n')) (fun n' => vAt1 V c d (pos b n'))
        (fun n' => tileMax (kAt1 V c h (pos b n'))) m0
      = onlineCol (proj (V c main_arg1) (V c main_arg3)) (proj (V c main_arg1) (V c main_arg7)) m0 b h d := by
  have hk : (fun n' => kAt1 V c h (pos b n')) = fun n' n => proj (V c main_arg1) (V c main_arg3) (ix3 b (tok n' n) h) :=
    funext fun n' => funext fun n => kAt1_eq V c b n' h n
  have hv : (fun n' => vAt1 V c d (pos b n')) = fun n' n => proj (V c main_arg1) (V c main_arg7) (ix3 b (tok n' n) d) :=
    funext fun n' => funext fun n => vAt1_eq V c b n' d n
  have hm : (fun n' => tileMax (kAt1 V c h (pos b n'))) = colTileMax (proj (V c main_arg1) (V c main_arg3)) b h :=
    funext fun n' => congrArg tileMax (congrFun hk n')
  rw [hk, hv, hm]
  rfl

/-! ## The context arrays -/

/-- The reference's context matrix of a stream: its keys' softmax over the tokens contracted with its values. -/
def ctxOf (x : SX.Idx → EReal) (Wk Wv : SW.Idx → EReal) : SC.Idx → EReal := ctx (tokSoft (proj x Wk)) (proj x Wv)

/-- On real inputs the context block stored at a batch's last tile is the reference's context matrix at that batch. -/
theorem stored8_eq (c : Dev nD) (h0 : AllReal (V c main_arg0)) (h2 : AllReal (V c main_arg2)) (h6 : AllReal (V c main_arg6))
    (b : Fin 4) (h d : Fin 64) :
    ((dat0 V c).after 8 (pos b 3) : Vec Ideal S1x64x64 .f32) (ix3 (0 : Fin 1) h d)
      = ctxOf (V c main_arg0) (V c main_arg2) (V c main_arg6) (ix3 b h d) := by
  rw [stored8 V c b h d, run0_eq V c b h d]
  obtain ⟨r, hr⟩ := sentinel_real
  exact onlineCol_proj _ _ _ h0 h2 h6 _ ⟨r, hr⟩ b h d

theorem stored9_eq (c : Dev nD) (h1 : AllReal (V c main_arg1)) (h3 : AllReal (V c main_arg3)) (h7 : AllReal (V c main_arg7))
    (b : Fin 4) (h d : Fin 64) :
    ((dat0 V c).after 9 (pos b 3) : Vec Ideal S1x64x64 .f32) (ix3 (0 : Fin 1) h d)
      = ctxOf (V c main_arg1) (V c main_arg3) (V c main_arg7) (ix3 b h d) := by
  rw [stored9 V c b h d, run1_eq V c b h d]
  obtain ⟨r, hr⟩ := sentinel_real
  exact onlineCol_proj _ _ _ h1 h3 h7 _ ⟨r, hr⟩ b h d

/-- What a position writes back into context window 8, entry by entry: what the body left there. -/
theorem flushed8_apply (c : Dev nD) (t : Fin cfg0.N) (y : ((cfg0.win 8).xblock (cfg0.grid.coords t)).Idx) :
    (dat0 V c).flushed 8 t y
      = ((dat0 V c).after 8 t : Vec Ideal S1x64x64 .f32) ((cfg0.win 8).xinj (grid0.coords t) y) := rfl

/-- A block of an array read through the window, entry by entry. -/
theorem read_blk8 (t : Fin cfg0.N) (G : S4x64x64.Idx → EReal) (y : ((cfg0.win 8).xblock (cfg0.grid.coords t)).Idx) :
    ((cfg0.win 8).blk t).view.read (Elt Ideal) G y = G (((cfg0.win 8).blk t).view.emb y) := by
  rw [View.read_apply]
  rfl

/-- What a last-tile position writes back into context window 8 is its block of the reference's context matrix. -/
theorem flushed8_eq (c : Dev nD) (h0 : AllReal (V c main_arg0)) (h2 : AllReal (V c main_arg2)) (h6 : AllReal (V c main_arg6))
    (t : Fin cfg0.N) (hf : (cfg0.win 8).flush t = true) :
    (dat0 V c).flushed 8 t
      = ((cfg0.win 8).blk t).view.read (Elt Ideal) (ctxOf (V c main_arg0) (V c main_arg2) (V c main_arg6)) := by
  have hN : cfg0.N = 16 := N_0
  have hmod : t.val % 4 = 3 := (flush0_8 t).mp hf
  have htl := t.isLt
  obtain ⟨b, hbt⟩ : ∃ b : Fin 4, pos b 3 = t :=
    ⟨⟨t.val / 4, by omega⟩, Fin.ext (by show 4 * (t.val / 4) + 3 = t.val; omega)⟩
  have hbv : t.val / 4 = b.val := by rw [← hbt, pos_val]; have hb := b.isLt; omega
  obtain ⟨-, -, -, -, -, -, -, -, -, -, -, -, -, -, e0, e1, e2, -⟩ := blockIdx t
  funext y
  have hy0 : (y 0).val < 1 := (y 0).isLt
  have hy1 : (y 1).val < 64 := (y 1).isLt
  have hy2 : (y 2).val < 64 := (y 2).isLt
  have st := stored8_eq V c h0 h2 h6 b ⟨(y 1).val, hy1⟩ ⟨(y 2).val, hy2⟩
  rw [hbt] at st
  have ey : (cfg0.win 8).xinj (grid0.coords t) y = ix3 (0 : Fin 1) ⟨(y 1).val, hy1⟩ ⟨(y 2).val, hy2⟩ := by
    funext a
    apply Fin.ext
    match a with
    | ⟨0, _⟩ => show (y 0).val = 0; omega
    | ⟨1, _⟩ => rfl
    | ⟨2, _⟩ => rfl
  have ee : ((cfg0.win 8).blk t).view.emb y = ix3 b ⟨(y 1).val, hy1⟩ ⟨(y 2).val, hy2⟩ := by
    funext a
    apply Fin.ext
    match a with
    | ⟨0, _⟩ => show win0_8.index t (0 : Fin 3) * 1 + 1 * (y 0).val = b.val; rw [e0]; omega
    | ⟨1, _⟩ => show win0_8.index t (1 : Fin 3) * 64 + 1 * (y 1).val = (y 1).val; rw [e1]; omega
    | ⟨2, _⟩ => show win0_8.index t (2 : Fin 3) * 64 + 1 * (y 2).val = (y 2).val; rw [e2]; omega
  refine (flushed8_apply V c t y).trans ?_
  refine Eq.trans ?_ (read_blk8 t (ctxOf (V c main_arg0) (V c main_arg2) (V c main_arg6)) y).symm
  refine (congrArg ((dat0 V c).after 8 t : Vec Ideal S1x64x64 .f32) ey).trans ?_
  refine st.trans ?_
  exact (congrArg (ctxOf (V c main_arg0) (V c main_arg2) (V c main_arg6)) ee).symm

/-- An index of the first context array lies in position t's block iff each coordinate lies in the block's range. -/
theorem mem_blk8 (t : Fin cfg0.N) (i : S4x64x64.Idx) :
    i ∈ ((cfg0.win 8).blk t).view.set
      ↔ ∀ a : Fin 3, win0_8.index t a * S1x64x64.size a ≤ (i a).val ∧ (i a).val < win0_8.index t a * S1x64x64.size a + S1x64x64.size a := by
  show i ∈ ((View.whole main_v0_0).slice (win0_8.rect t)).set ↔ _
  rw [View.set_slice_whole, Rect.mem_set_unit]
  exact Iff.rfl

/-- Batch b of the first context array is written back at the batch's last tile. -/
theorem cover8 (i : S4x64x64.Idx) : ∃ t : Fin cfg0.N, (cfg0.win 8).flush t = true ∧ i ∈ ((cfg0.win 8).blk t).view.set := by
  have hi0 : (i 0).val < 4 := (i 0).isLt
  have hi1 : (i 1).val < 64 := (i 1).isLt
  have hi2 : (i 2).val < 64 := (i 2).isLt
  obtain ⟨-, -, -, -, -, -, -, -, -, -, -, -, -, -, e0, e1, e2, -⟩ := blockIdx (pos ⟨(i 0).val, hi0⟩ 3)
  rw [pos_val] at e0
  refine ⟨pos ⟨(i 0).val, hi0⟩ 3, (flush0_8 _).mpr (by rw [pos_val]; show (4 * (i 0).val + 3) % 4 = 3; omega), ?_⟩
  rw [mem_blk8]
  intro a
  match a with
  | ⟨0, _⟩ =>
    show win0_8.index (pos ⟨(i 0).val, hi0⟩ 3) (0 : Fin 3) * 1 ≤ (i 0).val ∧ (i 0).val < win0_8.index (pos ⟨(i 0).val, hi0⟩ 3) (0 : Fin 3) * 1 + 1
    rw [e0]; show (4 * (i 0).val + 3) / 4 * 1 ≤ (i 0).val ∧ (i 0).val < (4 * (i 0).val + 3) / 4 * 1 + 1; omega
  | ⟨1, _⟩ =>
    show win0_8.index (pos ⟨(i 0).val, hi0⟩ 3) (1 : Fin 3) * 64 ≤ (i 1).val ∧ (i 1).val < win0_8.index (pos ⟨(i 0).val, hi0⟩ 3) (1 : Fin 3) * 64 + 64
    rw [e1]; omega
  | ⟨2, _⟩ =>
    show win0_8.index (pos ⟨(i 0).val, hi0⟩ 3) (2 : Fin 3) * 64 ≤ (i 2).val ∧ (i 2).val < win0_8.index (pos ⟨(i 0).val, hi0⟩ 3) (2 : Fin 3) * 64 + 64
    rw [e2]; omega

/-- On real inputs the first context array ends holding the reference's context matrix of stream 0. -/
theorem final0_8 (c : Dev nD) (h0 : AllReal (V c main_arg0)) (h2 : AllReal (V c main_arg2)) (h6 : AllReal (V c main_arg6)) :
    (dat0 V c).arrAt 8 cfg0.N
      = Cert.RefSpec.ctx (Cert.RefSpec.tokSoft (Cert.RefSpec.proj (V c main_arg0) (V c main_arg2)))
          (Cert.RefSpec.proj (V c main_arg0) (V c main_arg6)) :=
  (dat0 V c).arrAt_eq_of_cover 8 (ctxOf (V c main_arg0) (V c main_arg2) (V c main_arg6))
    (fun t hf => flushed8_eq V c h0 h2 h6 t hf) cover8

/-- What a position writes back into context window 9, entry by entry: what the body left there. -/
theorem flushed9_apply (c : Dev nD) (t : Fin cfg0.N) (y : ((cfg0.win 9).xblock (cfg0.grid.coords t)).Idx) :
    (dat0 V c).flushed 9 t y
      = ((dat0 V c).after 9 t : Vec Ideal S1x64x64 .f32) ((cfg0.win 9).xinj (grid0.coords t) y) := rfl

/-- A block of an array read through the window, entry by entry. -/
theorem read_blk9 (t : Fin cfg0.N) (G : S4x64x64.Idx → EReal) (y : ((cfg0.win 9).xblock (cfg0.grid.coords t)).Idx) :
    ((cfg0.win 9).blk t).view.read (Elt Ideal) G y = G (((cfg0.win 9).blk t).view.emb y) := by
  rw [View.read_apply]
  rfl

/-- What a last-tile position writes back into context window 9 is its block of the reference's context matrix. -/
theorem flushed9_eq (c : Dev nD) (h1 : AllReal (V c main_arg1)) (h3 : AllReal (V c main_arg3)) (h7 : AllReal (V c main_arg7))
    (t : Fin cfg0.N) (hf : (cfg0.win 9).flush t = true) :
    (dat0 V c).flushed 9 t
      = ((cfg0.win 9).blk t).view.read (Elt Ideal) (ctxOf (V c main_arg1) (V c main_arg3) (V c main_arg7)) := by
  have hN : cfg0.N = 16 := N_0
  have hmod : t.val % 4 = 3 := (flush0_9 t).mp hf
  have htl := t.isLt
  obtain ⟨b, hbt⟩ : ∃ b : Fin 4, pos b 3 = t :=
    ⟨⟨t.val / 4, by omega⟩, Fin.ext (by show 4 * (t.val / 4) + 3 = t.val; omega)⟩
  have hbv : t.val / 4 = b.val := by rw [← hbt, pos_val]; have hb := b.isLt; omega
  obtain ⟨-, -, -, -, -, -, -, -, -, -, -, -, -, -, -, -, -, e0, e1, e2⟩ := blockIdx t
  funext y
  have hy0 : (y 0).val < 1 := (y 0).isLt
  have hy1 : (y 1).val < 64 := (y 1).isLt
  have hy2 : (y 2).val < 64 := (y 2).isLt
  have st := stored9_eq V c h1 h3 h7 b ⟨(y 1).val, hy1⟩ ⟨(y 2).val, hy2⟩
  rw [hbt] at st
  have ey : (cfg0.win 9).xinj (grid0.coords t) y = ix3 (0 : Fin 1) ⟨(y 1).val, hy1⟩ ⟨(y 2).val, hy2⟩ := by
    funext a
    apply Fin.ext
    match a with
    | ⟨0, _⟩ => show (y 0).val = 0; omega
    | ⟨1, _⟩ => rfl
    | ⟨2, _⟩ => rfl
  have ee : ((cfg0.win 9).blk t).view.emb y = ix3 b ⟨(y 1).val, hy1⟩ ⟨(y 2).val, hy2⟩ := by
    funext a
    apply Fin.ext
    match a with
    | ⟨0, _⟩ => show win0_9.index t (0 : Fin 3) * 1 + 1 * (y 0).val = b.val; rw [e0]; omega
    | ⟨1, _⟩ => show win0_9.index t (1 : Fin 3) * 64 + 1 * (y 1).val = (y 1).val; rw [e1]; omega
    | ⟨2, _⟩ => show win0_9.index t (2 : Fin 3) * 64 + 1 * (y 2).val = (y 2).val; rw [e2]; omega
  refine (flushed9_apply V c t y).trans ?_
  refine Eq.trans ?_ (read_blk9 t (ctxOf (V c main_arg1) (V c main_arg3) (V c main_arg7)) y).symm
  refine (congrArg ((dat0 V c).after 9 t : Vec Ideal S1x64x64 .f32) ey).trans ?_
  refine st.trans ?_
  exact (congrArg (ctxOf (V c main_arg1) (V c main_arg3) (V c main_arg7)) ee).symm

/-- An index of the second context array lies in position t's block iff each coordinate lies in the block's range. -/
theorem mem_blk9 (t : Fin cfg0.N) (i : S4x64x64.Idx) :
    i ∈ ((cfg0.win 9).blk t).view.set
      ↔ ∀ a : Fin 3, win0_9.index t a * S1x64x64.size a ≤ (i a).val ∧ (i a).val < win0_9.index t a * S1x64x64.size a + S1x64x64.size a := by
  show i ∈ ((View.whole main_v0_1).slice (win0_9.rect t)).set ↔ _
  rw [View.set_slice_whole, Rect.mem_set_unit]
  exact Iff.rfl

/-- Batch b of the second context array is written back at the batch's last tile. -/
theorem cover9 (i : S4x64x64.Idx) : ∃ t : Fin cfg0.N, (cfg0.win 9).flush t = true ∧ i ∈ ((cfg0.win 9).blk t).view.set := by
  have hi0 : (i 0).val < 4 := (i 0).isLt
  have hi1 : (i 1).val < 64 := (i 1).isLt
  have hi2 : (i 2).val < 64 := (i 2).isLt
  obtain ⟨-, -, -, -, -, -, -, -, -, -, -, -, -, -, -, -, -, e0, e1, e2⟩ := blockIdx (pos ⟨(i 0).val, hi0⟩ 3)
  rw [pos_val] at e0
  refine ⟨pos ⟨(i 0).val, hi0⟩ 3, (flush0_9 _).mpr (by rw [pos_val]; show (4 * (i 0).val + 3) % 4 = 3; omega), ?_⟩
  rw [mem_blk9]
  intro a
  match a with
  | ⟨0, _⟩ =>
    show win0_9.index (pos ⟨(i 0).val, hi0⟩ 3) (0 : Fin 3) * 1 ≤ (i 0).val ∧ (i 0).val < win0_9.index (pos ⟨(i 0).val, hi0⟩ 3) (0 : Fin 3) * 1 + 1
    rw [e0]; show (4 * (i 0).val + 3) / 4 * 1 ≤ (i 0).val ∧ (i 0).val < (4 * (i 0).val + 3) / 4 * 1 + 1; omega
  | ⟨1, _⟩ =>
    show win0_9.index (pos ⟨(i 0).val, hi0⟩ 3) (1 : Fin 3) * 64 ≤ (i 1).val ∧ (i 1).val < win0_9.index (pos ⟨(i 0).val, hi0⟩ 3) (1 : Fin 3) * 64 + 64
    rw [e1]; omega
  | ⟨2, _⟩ =>
    show win0_9.index (pos ⟨(i 0).val, hi0⟩ 3) (2 : Fin 3) * 64 ≤ (i 2).val ∧ (i 2).val < win0_9.index (pos ⟨(i 0).val, hi0⟩ 3) (2 : Fin 3) * 64 + 64
    rw [e2]; omega

/-- On real inputs the second context array ends holding the reference's context matrix of stream 1. -/
theorem final0_9 (c : Dev nD) (h1 : AllReal (V c main_arg1)) (h3 : AllReal (V c main_arg3)) (h7 : AllReal (V c main_arg7)) :
    (dat0 V c).arrAt 9 cfg0.N
      = Cert.RefSpec.ctx (Cert.RefSpec.tokSoft (Cert.RefSpec.proj (V c main_arg1) (V c main_arg3)))
          (Cert.RefSpec.proj (V c main_arg1) (V c main_arg7)) :=
  (dat0 V c).arrAt_eq_of_cover 9 (ctxOf (V c main_arg1) (V c main_arg3) (V c main_arg7))
    (fun t hf => flushed9_eq V c h1 h3 h7 t hf) cover9

end Cert.KernelIdeal.Val

end
-- ==== Proof.Value.Bridge.lean ====
/-
  The program's two results are the reference's.

  At the return, each result array holds what the second region's write-backs leave; that is the read-out of one half
  of the normalised queries against one context matrix; between the regions those three arrays hold what the first
  region's write-backs leave: the head-softmax of the projected queries, and the context matrices of the
  token-softmax of the projected keys against the projected values. Substituting one into the other gives the
  reference's two expressions.
-/
import proofs.«174424_j489626271899_2_alg».proof.Defs
import proofs.«174424_j489626271899_2_alg».proof.Proof.Gen.Pre_finite_inputs
import proofs.«174424_j489626271899_2_alg».proof.Proof.Ideal.MainRun
import proofs.«174424_j489626271899_2_alg».proof.Proof.Ideal.Region0
import proofs.«174424_j489626271899_2_alg».proof.Proof.Ideal.Region1
import proofs.«174424_j489626271899_2_alg».proof.Proof.Value.RefSpecDefs
import proofs.«174424_j489626271899_2_alg».proof.Proof.Value.OutSpec
import proofs.«174424_j489626271899_2_alg».proof.Proof.Value.FiniteInputs
import proofs.«174424_j489626271899_2_alg».proof.Proof.LibFiniteReal
import proofs.«174424_j489626271899_2_alg».proof.Proof.Value.Region1Value
import proofs.«174424_j489626271899_2_alg».proof.Proof.Value.QArray
import proofs.«174424_j489626271899_2_alg».proof.Proof.Value.CtxArray

noncomputable section

namespace Cert.KernelIdeal.Val

open Cert.KernelIdeal Cert.KernelIdeal.Gen Cert.KernelIdeal.Gen2
open Idealize.ShloMosaic Idealize.ShloMosaic.TcCoe Idealize.SL.Sem
open Cert.Lib.FiniteReal

/-- Under the precondition the program's two results are the reference's two expressions of the eight arguments. -/
theorem kernel_results [hP : Cert.Pre_finite_inputs.Facts]
    (m : (ℓ : Loc nD τ sig) → Buf (Elt Ideal) ℓ) (h : Cert.Pre_KernelIdeal m) (c : Dev nD) :
    Wend (dat0 (F := Ideal)) (dat1 (F := Ideal)) m c (Proc.devRef .tc main_v1_0)
      = Cert.RefSpec.refOut0 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
    ∧ Wend (dat0 (F := Ideal)) (dat1 (F := Ideal)) m c (Proc.devRef .tc main_v1_1)
      = Cert.RefSpec.refOut1 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  obtain ⟨r0, r1, r2, r3, r4, r5, r6, r7⟩ := Cert.FiniteInputs.allReal_of_pre m h c
  constructor
  · rw [Wend_main_v1_0, final1_3 (Vmid dat0 m) c, Vmid_main_v0_2, Vmid_main_v0_1, (final0_10 (Vin m) c).1,
      final0_9 (Vin m) c r1 r3 r7]
    rfl
  · rw [Wend_main_v1_1, final1_4 (Vmid dat0 m) c, Vmid_main_v0_2, Vmid_main_v0_0, (final0_10 (Vin m) c).2,
      final0_8 (Vin m) c r0 r2 r6]
    rfl

end Cert.KernelIdeal.Val

end
-- ==== Proof.Value.RefOps.lean ====
/-
  The host operations of the two softmaxes, read at an index over arbitrary arrays: the maximum of a column (of a row)
  started from −∞, the sum of a column (of a row) started from zero, and the two-step broadcast of a per-column
  (per-row) value back over the array. With these the reference's softmax over the token axis is `tokSoft` and its
  softmax over the head axis is `headSoft`.
-/
import proofs.«174424_j489626271899_2_alg».proof.Proof.Gen.ReferenceIdeal.Read
import proofs.«174424_j489626271899_2_alg».proof.Proof.Value.RefSpecDefs
import Idealize.ShloMosaic.Lib.ValueIdx
import Idealize.ShloMosaic.Lib.Pipeline.Value
import Idealize.ShloMosaic.PureOps.Ideal.Laws

noncomputable section

open scoped BigOperators

namespace Cert.RefSpec

open Cert.ReferenceIdeal Idealize.ShloMosaic Idealize.ShloMosaic.ValueIdx

/-- The f32 word of −∞ is the bottom element. -/
theorem ofBits_negInf : Ideal.ofBits .f32 0xFF800000#32 = (⊥ : EReal) := by simp [Ideal.ofBits, Ideal.ieee]

/-! ## The token axis (axis 1) -/

/-- Column (b, h) with token n put back is (b, n, h). -/
theorem lift_tok (hr : S4x16384x64.Reduces [1] S4x64) (b : Fin 4) (h : Fin 64) (n : Fin (S4x16384x64.size 1)) :
    hr.lift (ix2 b h) n = ix3 b (⟨n.val, n.isLt⟩ : Fin 16384) h := by
  funext c; apply Fin.ext
  fin_cases c <;> rfl

/-- The maximum over the tokens from −∞: the column's maximum. -/
theorem hostReduceMax_tok (k : SP.Idx → EReal) (h' : S4x16384x64.ReducesTo [1] S4x64) (hu : 0 < S_.numel) (b : Fin 4) (h : Fin 64) :
    Host.reduce (FloatOps.maximumf (F := Ideal) (φ := .f32)) k (constant (F := Ideal) S_ .f32 0xFF800000#32) h' hu (ix2 b h)
      = tokMax k b h := by
  have hr : S4x16384x64.Reduces [1] S4x64 := by decide
  refine (Host.reduce_eq_fold_single (FloatOps.maximumf (F := Ideal) (φ := .f32)) k
    (constant (F := Ideal) S_ .f32 0xFF800000#32) h' hr hu (ix2 b h)).trans ?_
  have hf : (k ∘ hr.lift (ix2 b h)) = fun n : Fin 16384 => k (ix3 b n h) := funext fun n => congrArg k (lift_tok hr b h n)
  have hb : (constant (F := Ideal) S_ .f32 0xFF800000#32) (Shape.Idx.first hu) = (⊥ : EReal) := ofBits_negInf
  rw [hf, hb]
  rfl

/-- A maximum against the −∞ splat changes nothing. -/
theorem maxNegInf_tok (hb0 : S_.BroadcastsInDim S4x64 (![] : Fin 0 → Fin S4x64.rank)) (R : S4x64.Idx → EReal) (j : S4x64.Idx) :
    (maximumf (F := Ideal) (broadcastInDim S4x64 ![] hb0 (constant (F := Ideal) S_ .f32 0xFF800000#32)) R : FVec Ideal S4x64 .f32) j = R j := by
  show max (Ideal.ofBits .f32 0xFF800000#32) (R j) = _
  rw [ofBits_negInf, max_bot_left]

/-- … so the reference's maximum, taken once more against −∞, is still the column's maximum. -/
theorem hostMax_tok (k : SP.Idx → EReal) (hb0 : S_.BroadcastsInDim S4x64 (![] : Fin 0 → Fin S4x64.rank))
    (h' : S4x16384x64.ReducesTo [1] S4x64) (hu : 0 < S_.numel) (b : Fin 4) (h : Fin 64) :
    (maximumf (F := Ideal) (broadcastInDim S4x64 ![] hb0 (constant (F := Ideal) S_ .f32 0xFF800000#32))
      (Host.reduce (FloatOps.maximumf (F := Ideal) (φ := .f32)) k (constant (F := Ideal) S_ .f32 0xFF800000#32) h' hu) : FVec Ideal S4x64 .f32) (ix2 b h)
      = tokMax k b h :=
  (maxNegInf_tok hb0 _ _).trans (hostReduceMax_tok k h' hu b h)

/-- The sum over the tokens from zero. -/
theorem hostSum_tok (e : SP.Idx → EReal) (h' : S4x16384x64.ReducesTo [1] S4x64) (hu : 0 < S_.numel) (b : Fin 4) (h : Fin 64) :
    (Host.reduceAdd (F := Ideal) e (constant (F := Ideal) S_ .f32 0x00000000#32) h' hu : FVec Ideal S4x64 .f32) (ix2 b h)
      = ∑ n : Fin 16384, e (ix3 b n h) := by
  have hr : S4x16384x64.Reduces [1] S4x64 := by decide
  simp only [Host.reduceAdd, Ideal.hostReduceAdd_def]
  rw [Ideal.hostReduceAdd_single h' hr]
  show Ideal.ofBits .f32 0x00000000#32 + _ = _
  rw [Ideal.ofBits_zero_f32, zero_add]
  exact Finset.sum_congr rfl fun n _ => congrArg e (lift_tok hr b h n)

/-- A per-column value broadcast back over the tokens, read at (b, n, h), is the value of column (b, h). -/
theorem bcast_tok (y : S4x64.Idx → EReal) (hb1 : S4x64.BroadcastsInDim S4x1x64 (![0, 2] : Fin 2 → Fin S4x1x64.rank))
    (hb2 : S4x1x64.BroadcastsInDim S4x16384x64 (![0, 1, 2] : Fin 3 → Fin S4x16384x64.rank)) (i : S4x16384x64.Idx) :
    broadcastInDim S4x16384x64 ![0, 1, 2] hb2 (broadcastInDim S4x1x64 ![0, 2] hb1 y) i = y (ix2 (i 0) (i 2)) := by
  rw [broadcastInDim_apply _ hb2 _ i (Read.idx_main_v10 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (64 : Nat) = 1 then 0 else (i 2).val; rw [if_neg (by decide)]),
    broadcastInDim_apply _ hb1 y (Read.idx_main_v10 i) (ix2 (i 0) (i 2)) (fun a => match a with
    | ⟨0, _⟩ => by show (i 0).val = if (4 : Nat) = 1 then 0 else (i 0).val; rw [if_neg (by decide)]
    | ⟨1, _⟩ => by show (i 2).val = if (64 : Nat) = 1 then 0 else (i 2).val; rw [if_neg (by decide)])]

/-! ## The head axis (axis 2) -/

/-- Row (b, n) with head h put back is (b, n, h). -/
theorem lift_head (hr : S4x16384x64.Reduces [2] S4x16384) (b : Fin 4) (n : Fin 16384) (h : Fin (S4x16384x64.size 2)) :
    hr.lift (ix2 b n) h = ix3 b n (⟨h.val, h.isLt⟩ : Fin 64) := by
  funext c; apply Fin.ext
  fin_cases c <;> rfl

/-- The maximum over the heads from −∞: the row's maximum. -/
theorem hostReduceMax_head (q : SP.Idx → EReal) (h' : S4x16384x64.ReducesTo [2] S4x16384) (hu : 0 < S_.numel) (b : Fin 4) (n : Fin 16384) :
    Host.reduce (FloatOps.maximumf (F := Ideal) (φ := .f32)) q (constant (F := Ideal) S_ .f32 0xFF800000#32) h' hu (ix2 b n)
      = headMax q b n := by
  have hr : S4x16384x64.Reduces [2] S4x16384 := by decide
  refine (Host.reduce_eq_fold_single (FloatOps.maximumf (F := Ideal) (φ := .f32)) q
    (constant (F := Ideal) S_ .f32 0xFF800000#32) h' hr hu (ix2 b n)).trans ?_
  have hf : (q ∘ hr.lift (ix2 b n)) = fun h : Fin 64 => q (ix3 b n h) := funext fun h => congrArg q (lift_head hr b n h)
  have hb : (constant (F := Ideal) S_ .f32 0xFF800000#32) (Shape.Idx.first hu) = (⊥ : EReal) := ofBits_negInf
  rw [hf, hb]
  rfl

/-- A maximum against the −∞ splat changes nothing. -/
theorem maxNegInf_head (hb0 : S_.BroadcastsInDim S4x16384 (![] : Fin 0 → Fin S4x16384.rank)) (R : S4x16384.Idx → EReal) (j : S4x16384.Idx) :
    (maximumf (F := Ideal) (broadcastInDim S4x16384 ![] hb0 (constant (F := Ideal) S_ .f32 0xFF800000#32)) R : FVec Ideal S4x16384 .f32) j = R j := by
  show max (Ideal.ofBits .f32 0xFF800000#32) (R j) = _
  rw [ofBits_negInf, max_bot_left]

/-- … so the reference's maximum, taken once more against −∞, is still the row's maximum. -/
theorem hostMax_head (q : SP.Idx → EReal) (hb0 : S_.BroadcastsInDim S4x16384 (![] : Fin 0 → Fin S4x16384.rank))
    (h' : S4x16384x64.ReducesTo [2] S4x16384) (hu : 0 < S_.numel) (b : Fin 4) (n : Fin 16384) :
    (maximumf (F := Ideal) (broadcastInDim S4x16384 ![] hb0 (constant (F := Ideal) S_ .f32 0xFF800000#32))
      (Host.reduce (FloatOps.maximumf (F := Ideal) (φ := .f32)) q (constant (F := Ideal) S_ .f32 0xFF800000#32) h' hu) : FVec Ideal S4x16384 .f32) (ix2 b n)
      = headMax q b n :=
  (maxNegInf_head hb0 _ _).trans (hostReduceMax_head q h' hu b n)

/-- The sum over the heads from zero. -/
theorem hostSum_head (e : SP.Idx → EReal) (h' : S4x16384x64.ReducesTo [2] S4x16384) (hu : 0 < S_.numel) (b : Fin 4) (n : Fin 16384) :
    (Host.reduceAdd (F := Ideal) e (constant (F := Ideal) S_ .f32 0x00000000#32) h' hu : FVec Ideal S4x16384 .f32) (ix2 b n)
      = ∑ h : Fin 64, e (ix3 b n h) := by
  have hr : S4x16384x64.Reduces [2] S4x16384 := by decide
  simp only [Host.reduceAdd, Ideal.hostReduceAdd_def]
  rw [Ideal.hostReduceAdd_single h' hr]
  show Ideal.ofBits .f32 0x00000000#32 + _ = _
  rw [Ideal.ofBits_zero_f32, zero_add]
  exact Finset.sum_congr rfl fun h _ => congrArg e (lift_head hr b n h)

/-- A per-row value broadcast back over the heads, read at (b, n, h), is the value of row (b, n). -/
theorem bcast_head (y : S4x16384.Idx → EReal) (hb1 : S4x16384.BroadcastsInDim S4x16384x1 (![0, 1] : Fin 2 → Fin S4x16384x1.rank))
    (hb2 : S4x16384x1.BroadcastsInDim S4x16384x64 (![0, 1, 2] : Fin 3 → Fin S4x16384x64.rank)) (i : S4x16384x64.Idx) :
    broadcastInDim S4x16384x64 ![0, 1, 2] hb2 (broadcastInDim S4x16384x1 ![0, 1] hb1 y) i = y (ix2 (i 0) (i 1)) := by
  rw [broadcastInDim_apply _ hb2 _ i (Read.idx_main_v32 i) (fun a => match a with
    | ⟨0, _⟩ => by show (i 0).val = if (4 : Nat) = 1 then 0 else (i 0).val; rw [if_neg (by decide)]
    | ⟨1, _⟩ => by show (i 1).val = if (16384 : Nat) = 1 then 0 else (i 1).val; rw [if_neg (by decide)]
    | ⟨2, _⟩ => by show 0 = if (1 : Nat) = 1 then 0 else (i 2).val; rw [if_pos rfl]),
    broadcastInDim_apply _ hb1 y (Read.idx_main_v32 i) (ix2 (i 0) (i 1)) (fun a => match a with
    | ⟨0, _⟩ => by show (i 0).val = if (4 : Nat) = 1 then 0 else (i 0).val; rw [if_neg (by decide)]
    | ⟨1, _⟩ => by show (i 1).val = if (16384 : Nat) = 1 then 0 else (i 1).val; rw [if_neg (by decide)])]

/-! ## Read at coordinates, and the pointwise operations -/

theorem bcast_tok_ix3 (y : S4x64.Idx → EReal) (hb1 : S4x64.BroadcastsInDim S4x1x64 (![0, 2] : Fin 2 → Fin S4x1x64.rank))
    (hb2 : S4x1x64.BroadcastsInDim S4x16384x64 (![0, 1, 2] : Fin 3 → Fin S4x16384x64.rank)) (b : Fin 4) (n : Fin 16384) (h : Fin 64) :
    broadcastInDim S4x16384x64 ![0, 1, 2] hb2 (broadcastInDim S4x1x64 ![0, 2] hb1 y) (ix3 b n h) = y (ix2 b h) :=
  bcast_tok y hb1 hb2 (ix3 b n h)

theorem bcast_head_ix3 (y : S4x16384.Idx → EReal) (hb1 : S4x16384.BroadcastsInDim S4x16384x1 (![0, 1] : Fin 2 → Fin S4x16384x1.rank))
    (hb2 : S4x16384x1.BroadcastsInDim S4x16384x64 (![0, 1, 2] : Fin 3 → Fin S4x16384x64.rank)) (b : Fin 4) (n : Fin 16384) (h : Fin 64) :
    broadcastInDim S4x16384x64 ![0, 1, 2] hb2 (broadcastInDim S4x16384x1 ![0, 1] hb1 y) (ix3 b n h) = y (ix2 b n) :=
  bcast_head y hb1 hb2 (ix3 b n h)

/-- The exponential of a difference of arrays, at an index. -/
theorem exp_sub_apply (k m : SP.Idx → EReal) (i : SP.Idx) :
    (Host.exp (F := Ideal) (subf (F := Ideal) k m) : FVec Ideal S4x16384x64 .f32) i = Ideal.exp (k i - m i) := rfl

/-- The quotient of two arrays, at an index. -/
theorem divf_apply (x y : SP.Idx → EReal) (i : SP.Idx) :
    (Host.divf (F := Ideal) x y : FVec Ideal S4x16384x64 .f32) i = Ideal.div (x i) (y i) := rfl

end Cert.RefSpec

end
-- ==== Proof.Value.RefStages.lean ====
/-
  The reference program stage by stage: each projection is `proj`, each token softmax `tokSoft`, each head softmax
  `headSoft`, each context matrix `ctx`, each result `out`; so the two results are `refOut0` and `refOut1` of the
  eight arguments.
-/
import proofs.«174424_j489626271899_2_alg».proof.Proof.Value.RefOps

noncomputable section

open scoped BigOperators

namespace Cert.RefSpec

open Cert.ReferenceIdeal Idealize.ShloMosaic Idealize.ShloMosaic.ValueIdx

/-! ## The two softmaxes over arbitrary arrays -/

/-- The reference's softmax over the token axis, as its host operations over any array, is `tokSoft`. -/
theorem tokSoft_ops (k : SP.Idx → EReal) (hb0 : S_.BroadcastsInDim S4x64 (![] : Fin 0 → Fin S4x64.rank))
    (hb1 : S4x64.BroadcastsInDim S4x1x64 (![0, 2] : Fin 2 → Fin S4x1x64.rank))
    (hb2 : S4x1x64.BroadcastsInDim S4x16384x64 (![0, 1, 2] : Fin 3 → Fin S4x16384x64.rank))
    (hr : S4x16384x64.ReducesTo [1] S4x64) (hu : 0 < S_.numel) :
    (Host.divf (F := Ideal)
      (Host.exp (F := Ideal) (subf (F := Ideal) k (broadcastInDim S4x16384x64 ![0, 1, 2] hb2 (broadcastInDim S4x1x64 ![0, 2] hb1
        (maximumf (F := Ideal) (broadcastInDim S4x64 ![] hb0 (constant (F := Ideal) S_ .f32 0xFF800000#32))
      (Host.reduce (FloatOps.maximumf (F := Ideal) (φ := .f32)) k (constant (F := Ideal) S_ .f32 0xFF800000#32) hr hu) : FVec Ideal S4x64 .f32)))))
      (broadcastInDim S4x16384x64 ![0, 1, 2] hb2 (broadcastInDim S4x1x64 ![0, 2] hb1
        (Host.reduceAdd (F := Ideal) (Host.exp (F := Ideal) (subf (F := Ideal) k (broadcastInDim S4x16384x64 ![0, 1, 2] hb2 (broadcastInDim S4x1x64 ![0, 2] hb1
          (maximumf (F := Ideal) (broadcastInDim S4x64 ![] hb0 (constant (F := Ideal) S_ .f32 0xFF800000#32))
      (Host.reduce (FloatOps.maximumf (F := Ideal) (φ := .f32)) k (constant (F := Ideal) S_ .f32 0xFF800000#32) hr hu) : FVec Ideal S4x64 .f32)))))
          (constant (F := Ideal) S_ .f32 0x00000000#32) hr hu))) : FVec Ideal S4x16384x64 .f32)
      = tokSoft k := by
  -- the maxima, as an opaque array with its reading
  have hM : ∀ (b : Fin 4) (h : Fin 64), (maximumf (F := Ideal) (broadcastInDim S4x64 ![] hb0 (constant (F := Ideal) S_ .f32 0xFF800000#32))
      (Host.reduce (FloatOps.maximumf (F := Ideal) (φ := .f32)) k (constant (F := Ideal) S_ .f32 0xFF800000#32) hr hu) : FVec Ideal S4x64 .f32) (ix2 b h) = tokMax k b h :=
    fun b h => hostMax_tok k hb0 hr hu b h
  generalize (maximumf (F := Ideal) (broadcastInDim S4x64 ![] hb0 (constant (F := Ideal) S_ .f32 0xFF800000#32))
      (Host.reduce (FloatOps.maximumf (F := Ideal) (φ := .f32)) k (constant (F := Ideal) S_ .f32 0xFF800000#32) hr hu) : FVec Ideal S4x64 .f32) = M at hM ⊢
  -- the shifted exponentials, likewise
  have hE : ∀ (b : Fin 4) (n : Fin 16384) (h : Fin 64),
      (Host.exp (F := Ideal) (subf (F := Ideal) k (broadcastInDim S4x16384x64 ![0, 1, 2] hb2 (broadcastInDim S4x1x64 ![0, 2] hb1 M))) : FVec Ideal S4x16384x64 .f32) (ix3 b n h)
        = Ideal.exp (k (ix3 b n h) - tokMax k b h) := fun b n h => by
    rw [exp_sub_apply, bcast_tok_ix3, hM]
  generalize (Host.exp (F := Ideal) (subf (F := Ideal) k (broadcastInDim S4x16384x64 ![0, 1, 2] hb2 (broadcastInDim S4x1x64 ![0, 2] hb1 M))) : FVec Ideal S4x16384x64 .f32) = E at hE ⊢
  -- the sums, likewise
  have hD : ∀ (b : Fin 4) (h : Fin 64), (Host.reduceAdd (F := Ideal) E (constant (F := Ideal) S_ .f32 0x00000000#32) hr hu : FVec Ideal S4x64 .f32) (ix2 b h)
      = ∑ n' : Fin 16384, E (ix3 b n' h) := fun b h => hostSum_tok E hr hu b h
  generalize (Host.reduceAdd (F := Ideal) E (constant (F := Ideal) S_ .f32 0x00000000#32) hr hu : FVec Ideal S4x64 .f32) = D at hD ⊢
  funext i
  obtain ⟨b, n, h, rfl⟩ : ∃ (b : Fin 4) (n : Fin 16384) (h : Fin 64), i = ix3 b n h := ⟨i 0, i 1, i 2, eq_ix3 i⟩
  rw [divf_apply, bcast_tok_ix3, hD, hE, tokSoft_ix3]
  unfold tokDen
  refine congrArg (Ideal.div _) (Finset.sum_congr rfl fun n' _ => ?_)
  rw [hE]

/-- The reference's softmax over the head axis, as its host operations over any array, is `headSoft`. -/
theorem headSoft_ops (k : SP.Idx → EReal) (hb0 : S_.BroadcastsInDim S4x16384 (![] : Fin 0 → Fin S4x16384.rank))
    (hb1 : S4x16384.BroadcastsInDim S4x16384x1 (![0, 1] : Fin 2 → Fin S4x16384x1.rank))
    (hb2 : S4x16384x1.BroadcastsInDim S4x16384x64 (![0, 1, 2] : Fin 3 → Fin S4x16384x64.rank))
    (hr : S4x16384x64.ReducesTo [2] S4x16384) (hu : 0 < S_.numel) :
    (Host.divf (F := Ideal)
      (Host.exp (F := Ideal) (subf (F := Ideal) k (broadcastInDim S4x16384x64 ![0, 1, 2] hb2 (broadcastInDim S4x16384x1 ![0, 1] hb1
        (maximumf (F := Ideal) (broadcastInDim S4x16384 ![] hb0 (constant (F := Ideal) S_ .f32 0xFF800000#32))
      (Host.reduce (FloatOps.maximumf (F := Ideal) (φ := .f32)) k (constant (F := Ideal) S_ .f32 0xFF800000#32) hr hu) : FVec Ideal S4x16384 .f32)))))
      (broadcastInDim S4x16384x64 ![0, 1, 2] hb2 (broadcastInDim S4x16384x1 ![0, 1] hb1
        (Host.reduceAdd (F := Ideal) (Host.exp (F := Ideal) (subf (F := Ideal) k (broadcastInDim S4x16384x64 ![0, 1, 2] hb2 (broadcastInDim S4x16384x1 ![0, 1] hb1
          (maximumf (F := Ideal) (broadcastInDim S4x16384 ![] hb0 (constant (F := Ideal) S_ .f32 0xFF800000#32))
      (Host.reduce (FloatOps.maximumf (F := Ideal) (φ := .f32)) k (constant (F := Ideal) S_ .f32 0xFF800000#32) hr hu) : FVec Ideal S4x16384 .f32)))))
          (constant (F := Ideal) S_ .f32 0x00000000#32) hr hu))) : FVec Ideal S4x16384x64 .f32)
      = headSoft k := by
  -- the maxima, as an opaque array with its reading
  have hM : ∀ (b : Fin 4) (n : Fin 16384), (maximumf (F := Ideal) (broadcastInDim S4x16384 ![] hb0 (constant (F := Ideal) S_ .f32 0xFF800000#32))
      (Host.reduce (FloatOps.maximumf (F := Ideal) (φ := .f32)) k (constant (F := Ideal) S_ .f32 0xFF800000#32) hr hu) : FVec Ideal S4x16384 .f32) (ix2 b n) = headMax k b n :=
    fun b n => hostMax_head k hb0 hr hu b n
  generalize (maximumf (F := Ideal) (broadcastInDim S4x16384 ![] hb0 (constant (F := Ideal) S_ .f32 0xFF800000#32))
      (Host.reduce (FloatOps.maximumf (F := Ideal) (φ := .f32)) k (constant (F := Ideal) S_ .f32 0xFF800000#32) hr hu) : FVec Ideal S4x16384 .f32) = M at hM ⊢
  -- the shifted exponentials, likewise
  have hE : ∀ (b : Fin 4) (n : Fin 16384) (h : Fin 64),
      (Host.exp (F := Ideal) (subf (F := Ideal) k (broadcastInDim S4x16384x64 ![0, 1, 2] hb2 (broadcastInDim S4x16384x1 ![0, 1] hb1 M))) : FVec Ideal S4x16384x64 .f32) (ix3 b n h)
        = Ideal.exp (k (ix3 b n h) - headMax k b n) := fun b n h => by
    rw [exp_sub_apply, bcast_head_ix3, hM]
  generalize (Host.exp (F := Ideal) (subf (F := Ideal) k (broadcastInDim S4x16384x64 ![0, 1, 2] hb2 (broadcastInDim S4x16384x1 ![0, 1] hb1 M))) : FVec Ideal S4x16384x64 .f32) = E at hE ⊢
  -- the sums, likewise
  have hD : ∀ (b : Fin 4) (n : Fin 16384), (Host.reduceAdd (F := Ideal) E (constant (F := Ideal) S_ .f32 0x00000000#32) hr hu : FVec Ideal S4x16384 .f32) (ix2 b n)
      = ∑ h' : Fin 64, E (ix3 b n h') := fun b n => hostSum_head E hr hu b n
  generalize (Host.reduceAdd (F := Ideal) E (constant (F := Ideal) S_ .f32 0x00000000#32) hr hu : FVec Ideal S4x16384 .f32) = D at hD ⊢
  funext i
  obtain ⟨b, n, h, rfl⟩ : ∃ (b : Fin 4) (n : Fin 16384) (h : Fin 64), i = ix3 b n h := ⟨i 0, i 1, i 2, eq_ix3 i⟩
  rw [divf_apply, bcast_head_ix3, hD, hE, headSoft_ix3]
  unfold headDen
  refine congrArg (Ideal.div _) (Finset.sum_congr rfl fun h' _ => ?_)
  rw [hE]

/-! ## The program's stages -/

/-- A projection of the program is `proj`. -/
theorem val_v0 (x : SX.Idx → EReal) (W : SW.Idx → EReal) : Read.val_main_v0 (F := Ideal) x W = proj x W := by
  funext i
  rw [Read.val_main_v0_apply]
  have el : ∀ c : Fin 256, Read.lidx_main_v0 i c = ix3 (i 0) (i 1) c := fun c => funext fun a => by
    match a with | ⟨0, _⟩ => rfl | ⟨1, _⟩ => rfl | ⟨2, _⟩ => rfl
  have er : ∀ c : Fin 256, Read.ridx_main_v0 i c = ix2 (i 2) c := fun c => funext fun a => by
    match a with | ⟨0, _⟩ => rfl | ⟨1, _⟩ => rfl
  exact Finset.sum_congr rfl fun c _ => congrArg₂ (· * ·) (congrArg x (el c)) (congrArg W (er c))

theorem val_v1 (x : SX.Idx → EReal) (W : SW.Idx → EReal) : Read.val_main_v1 (F := Ideal) x W = proj x W := val_v0 x W
theorem val_v2 (x : SX.Idx → EReal) (W : SW.Idx → EReal) : Read.val_main_v2 (F := Ideal) x W = proj x W := val_v0 x W
theorem val_v3 (x : SX.Idx → EReal) (W : SW.Idx → EReal) : Read.val_main_v3 (F := Ideal) x W = proj x W := val_v0 x W
theorem val_v4 (x : SX.Idx → EReal) (W : SW.Idx → EReal) : Read.val_main_v4 (F := Ideal) x W = proj x W := val_v0 x W
theorem val_v5 (x : SX.Idx → EReal) (W : SW.Idx → EReal) : Read.val_main_v5 (F := Ideal) x W = proj x W := val_v0 x W

/-- The softmax of stream 0's keys over the tokens. -/
theorem val_v16 (x : SX.Idx → EReal) (W : SW.Idx → EReal) : Read.val_main_v16 (F := Ideal) x W = tokSoft (proj x W) := by
  rw [← val_v0 x W]
  unfold Read.val_main_v16 Read.val_main_v15 Read.val_main_v14 Read.val_main_v13 Read.val_main_v12 Read.val_main_v11 Read.val_main_v10 Read.val_main_v9 Read.val_main_v8 Read.val_main_v7 Read.val_main_v6 Read.val_main_cst Read.val_main_cst_0 Read.val_main_cst_1
  exact tokSoft_ops (Read.val_main_v0 (F := Ideal) x W) _ _ _ _ _

/-- The softmax of stream 1's keys over the tokens. -/
theorem val_v27 (x : SX.Idx → EReal) (W : SW.Idx → EReal) : Read.val_main_v27 (F := Ideal) x W = tokSoft (proj x W) := by
  rw [← val_v1 x W]
  unfold Read.val_main_v27 Read.val_main_v26 Read.val_main_v25 Read.val_main_v24 Read.val_main_v23 Read.val_main_v22 Read.val_main_v21 Read.val_main_v20 Read.val_main_v19 Read.val_main_v18 Read.val_main_v17 Read.val_main_cst_2 Read.val_main_cst_3 Read.val_main_cst_4
  exact tokSoft_ops (Read.val_main_v1 (F := Ideal) x W) _ _ _ _ _

/-- The softmax of stream 0's queries over the heads. -/
theorem val_v38 (x : SX.Idx → EReal) (W : SW.Idx → EReal) : Read.val_main_v38 (F := Ideal) x W = headSoft (proj x W) := by
  rw [← val_v2 x W]
  unfold Read.val_main_v38 Read.val_main_v37 Read.val_main_v36 Read.val_main_v35 Read.val_main_v34 Read.val_main_v33 Read.val_main_v32 Read.val_main_v31 Read.val_main_v30 Read.val_main_v29 Read.val_main_v28 Read.val_main_cst_5 Read.val_main_cst_6 Read.val_main_cst_7
  exact headSoft_ops (Read.val_main_v2 (F := Ideal) x W) _ _ _ _ _

/-- The softmax of stream 1's queries over the heads. -/
theorem val_v49 (x : SX.Idx → EReal) (W : SW.Idx → EReal) : Read.val_main_v49 (F := Ideal) x W = headSoft (proj x W) := by
  rw [← val_v3 x W]
  unfold Read.val_main_v49 Read.val_main_v48 Read.val_main_v47 Read.val_main_v46 Read.val_main_v45 Read.val_main_v44 Read.val_main_v43 Read.val_main_v42 Read.val_main_v41 Read.val_main_v40 Read.val_main_v39 Read.val_main_cst_8 Read.val_main_cst_9 Read.val_main_cst_10
  exact headSoft_ops (Read.val_main_v3 (F := Ideal) x W) _ _ _ _ _

/-- Stream 0's context matrix. -/
theorem val_v50 (x : SX.Idx → EReal) (Wk Wv : SW.Idx → EReal) :
    Read.val_main_v50 (F := Ideal) x Wk Wv = ctx (tokSoft (proj x Wk)) (proj x Wv) := by
  funext i
  rw [Read.val_main_v50_apply, val_v16, val_v4]
  have el : ∀ n : Fin 16384, Read.lidx_main_v50 i n = ix3 (i 0) n (i 1) := fun n => funext fun a => by
    match a with | ⟨0, _⟩ => rfl | ⟨1, _⟩ => rfl | ⟨2, _⟩ => rfl
  have er : ∀ n : Fin 16384, Read.ridx_main_v50 i n = ix3 (i 0) n (i 2) := fun n => funext fun a => by
    match a with | ⟨0, _⟩ => rfl | ⟨1, _⟩ => rfl | ⟨2, _⟩ => rfl
  exact Finset.sum_congr rfl fun n _ => congrArg₂ (· * ·) (congrArg _ (el n)) (congrArg _ (er n))

/-- Stream 1's context matrix. -/
theorem val_v51 (x : SX.Idx → EReal) (Wk Wv : SW.Idx → EReal) :
    Read.val_main_v51 (F := Ideal) x Wk Wv = ctx (tokSoft (proj x Wk)) (proj x Wv) := by
  funext i
  rw [Read.val_main_v51_apply, val_v27, val_v5]
  have el : ∀ n : Fin 16384, Read.lidx_main_v51 i n = ix3 (i 0) n (i 1) := fun n => funext fun a => by
    match a with | ⟨0, _⟩ => rfl | ⟨1, _⟩ => rfl | ⟨2, _⟩ => rfl
  have er : ∀ n : Fin 16384, Read.ridx_main_v51 i n = ix3 (i 0) n (i 2) := fun n => funext fun a => by
    match a with | ⟨0, _⟩ => rfl | ⟨1, _⟩ => rfl | ⟨2, _⟩ => rfl
  exact Finset.sum_congr rfl fun n _ => congrArg₂ (· * ·) (congrArg _ (el n)) (congrArg _ (er n))

/-- The first result. -/
theorem val_v52 (x0 x1 : SX.Idx → EReal) (Wk0 Wk1 Wq0 Wq1 Wv0 Wv1 : SW.Idx → EReal) :
    Read.val_main_v52 (F := Ideal) x0 x1 Wk1 Wq0 Wv1 = refOut0 x0 x1 Wk0 Wk1 Wq0 Wq1 Wv0 Wv1 := by
  unfold refOut0
  funext i
  obtain ⟨b, n, d, rfl⟩ : ∃ (b : Fin 4) (n : Fin 16384) (d : Fin 64), i = ix3 b n d := ⟨i 0, i 1, i 2, eq_ix3 i⟩
  rw [Read.val_main_v52_apply, val_v38, val_v51, out_ix3]
  refine Finset.sum_congr rfl fun h _ => ?_
  rw [show Read.lidx_main_v52 (ix3 b n d) h = ix3 b n h from funext fun a => by
        match a with | ⟨0, _⟩ => rfl | ⟨1, _⟩ => rfl | ⟨2, _⟩ => rfl,
      show Read.ridx_main_v52 (ix3 b n d) h = ix3 b h d from funext fun a => by
        match a with | ⟨0, _⟩ => rfl | ⟨1, _⟩ => rfl | ⟨2, _⟩ => rfl]

/-- The second result. -/
theorem val_v53 (x0 x1 : SX.Idx → EReal) (Wk0 Wk1 Wq0 Wq1 Wv0 Wv1 : SW.Idx → EReal) :
    Read.val_main_v53 (F := Ideal) x0 x1 Wk0 Wq1 Wv0 = refOut1 x0 x1 Wk0 Wk1 Wq0 Wq1 Wv0 Wv1 := by
  unfold refOut1
  funext i
  obtain ⟨b, n, d, rfl⟩ : ∃ (b : Fin 4) (n : Fin 16384) (d : Fin 64), i = ix3 b n d := ⟨i 0, i 1, i 2, eq_ix3 i⟩
  rw [Read.val_main_v53_apply, val_v49, val_v50, out_ix3]
  refine Finset.sum_congr rfl fun h _ => ?_
  rw [show Read.lidx_main_v53 (ix3 b n d) h = ix3 b n h from funext fun a => by
        match a with | ⟨0, _⟩ => rfl | ⟨1, _⟩ => rfl | ⟨2, _⟩ => rfl,
      show Read.ridx_main_v53 (ix3 b n d) h = ix3 b h d from funext fun a => by
        match a with | ⟨0, _⟩ => rfl | ⟨1, _⟩ => rfl | ⟨2, _⟩ => rfl]

end Cert.RefSpec

end
-- ==== Proof.Value.RefSpec.lean ====
/-
  The reference program's run, with its two results named: from any memory every execution terminates with the first
  result `refOut0` and the second `refOut1` of the eight arguments' launch contents, the arguments unchanged.
-/
import proofs.«174424_j489626271899_2_alg».proof.Proof.Value.RefStages

noncomputable section

open scoped BigOperators

namespace Cert.RefSpec

open Cert.ReferenceIdeal Cert.ReferenceIdeal.Gen Idealize.ShloMosaic Idealize.ShloMosaic.TcCoe Idealize.SL.Sem Idealize.ShloMosaic.StableHlo

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52)
          = refOut0 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v53)
          = refOut1 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c).1.trans ((Read.val_main_v52_eq _ _ _ _ _).trans (val_v52 _ _ _ _ _ _ _ _)),
       (h c).2.1.trans ((Read.val_main_v53_eq _ _ _ _ _).trans (val_v53 _ _ _ _ _ _ _ _)),
       (h c).2.2⟩)
    (Value.run (F := Ideal) m ρ)

end Cert.RefSpec

end
-- ==== Proof.lean ====
/-
  The certificate of the cross-attention head: a two-pass kernel (a reduction pass that accumulates, tile by tile over the
  tokens, the softmax-weighted context matrices of the two streams with a running maximum, and stores the per-token head
  softmax of the queries; an apply pass that multiplies the stored queries by the other stream's context matrix) against
  the plain formulation (softmax over all tokens, then the two contractions).

  Frames: each kernel program's run is the launch over its two regions; region 0 carries six buffers between grid points,
  and its invariant names their contents after every point. The reference's frame is its run with the results dropped.
  Values, on the extended reals: region 1's outputs are the read-out of the stored query array against the stored context
  arrays; region 0's query array is the head softmax of the projected queries, entry by entry the same expression as the
  reference's; region 0's context arrays are accumulator / denominator after the fourth tile, which by the invariance of a
  softmax-weighted sum under the shift of its exponents (the running maximum, started at a finite number, is only ever a
  real shift) equals the reference's softmax over all tokens contracted with the values — the one step that uses that the
  inputs are finite, so that every score is a real number and every denominator is positive.
-/
import proofs.«174424_j489626271899_2_alg».proof.Defs
import proofs.«174424_j489626271899_2_alg».proof.Proof.Gen.Kernel
import proofs.«174424_j489626271899_2_alg».proof.Proof.Gen.Kernel.Skeleton
import proofs.«174424_j489626271899_2_alg».proof.Proof.Gen.Kernel.Launch
import proofs.«174424_j489626271899_2_alg».proof.Proof.Gen.Kernel.Regions
import proofs.«174424_j489626271899_2_alg».proof.Proof.Gen.Kernel.Points
import proofs.«174424_j489626271899_2_alg».proof.Proof.Gen.KernelIdeal
import proofs.«174424_j489626271899_2_alg».proof.Proof.Gen.KernelIdeal.Skeleton
import proofs.«174424_j489626271899_2_alg».proof.Proof.Gen.KernelIdeal.Launch
import proofs.«174424_j489626271899_2_alg».proof.Proof.Gen.KernelIdeal.Regions
import proofs.«174424_j489626271899_2_alg».proof.Proof.Gen.KernelIdeal.Points
import proofs.«174424_j489626271899_2_alg».proof.Proof.Gen.ReferenceIdeal
import proofs.«174424_j489626271899_2_alg».proof.Proof.Gen.ReferenceIdeal.Run
import proofs.«174424_j489626271899_2_alg».proof.Proof.Gen.ReferenceIdeal.Read
import proofs.«174424_j489626271899_2_alg».proof.Proof.Gen.Pre_finite_inputs
import proofs.«174424_j489626271899_2_alg».proof.Proof.Bits.Frames
import proofs.«174424_j489626271899_2_alg».proof.Proof.Ideal.Frames
import proofs.«174424_j489626271899_2_alg».proof.Proof.Value.Bridge
import proofs.«174424_j489626271899_2_alg».proof.Proof.Value.RefSpec
import Idealize.ShloMosaic.Adequacy
import Idealize.ShloMosaic.Init

noncomputable section

namespace Cert.Proof

open Idealize.ShloMosaic Idealize.SL.Sem

/-- The word-level kernel terminates, faults nowhere and leaves its arguments as launched. -/
theorem frame_k [hKernel : Cert.Kernel.Facts] [hP : Cert.Pre_finite_inputs.Facts] : Cert.frame_Kernel :=
  fun m ρ _ => Cert.Kernel.Gen2.frame_program m ρ

/-- So does the idealized kernel. -/
theorem frame_ki [hKernelIdeal : Cert.KernelIdeal.Facts] [hP : Cert.Pre_finite_inputs.Facts] : Cert.frame_KernelIdeal :=
  fun m ρ _ => Cert.KernelIdeal.Gen2.frame_program m ρ

/-- The reference's frame is its run with the results dropped. -/
theorem frame_ri [hReferenceIdeal : Cert.ReferenceIdeal.Facts] [hP : Cert.Pre_finite_inputs.Facts] : Cert.frame_ReferenceIdeal :=
  fun m ρ _ => (θ_run Cert.ReferenceIdeal.defs _ _).mono (fun _ h c => (h c).2.2) (Cert.RefSpec.ref_run m ρ)

/-- Both idealized programs end with the two results at the reference's functions of the arguments. -/
theorem algebraic [hKernelIdeal : Cert.KernelIdeal.Facts] [hReferenceIdeal : Cert.ReferenceIdeal.Facts] [hP : Cert.Pre_finite_inputs.Facts] :
    Cert.algebraic_KernelIdeal_ReferenceIdeal := by
  intro m ρ m' ρ' hpre hagree
  refine ⟨fun c => Cert.RefSpec.refOut0
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.RefSpec.refOut1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    ?_, ?_⟩
  · -- the kernel: every unscoped buffer ends at the fold's last contents; read the two results and the arguments
    refine (θ_run Cert.KernelIdeal.defs _ _).mono (fun r h c => ?_) (Cert.KernelIdeal.Gen2.run_program (F := Ideal) m ρ)
    have hres := Cert.KernelIdeal.Val.kernel_results m hpre c
    exact ⟨(h c _ (Cert.KernelIdeal.Gen2.mem_uc Cert.KernelIdeal.main_v1_0 (by decide))).trans hres.1,
      (h c _ (Cert.KernelIdeal.Gen2.mem_uc Cert.KernelIdeal.main_v1_1 (by decide))).trans hres.2,
      (h c _ (Cert.KernelIdeal.Gen2.mem_uc Cert.KernelIdeal.main_arg0 (by decide))).trans (Cert.KernelIdeal.Gen2.Wend_main_arg0 _ _ Cert.KernelIdeal.Gen2.A_eq0 m c),
      (h c _ (Cert.KernelIdeal.Gen2.mem_uc Cert.KernelIdeal.main_arg1 (by decide))).trans (Cert.KernelIdeal.Gen2.Wend_main_arg1 _ _ Cert.KernelIdeal.Gen2.A_eq0 m c),
      (h c _ (Cert.KernelIdeal.Gen2.mem_uc Cert.KernelIdeal.main_arg2 (by decide))).trans (Cert.KernelIdeal.Gen2.Wend_main_arg2 _ _ Cert.KernelIdeal.Gen2.A_eq0 m c),
      (h c _ (Cert.KernelIdeal.Gen2.mem_uc Cert.KernelIdeal.main_arg3 (by decide))).trans (Cert.KernelIdeal.Gen2.Wend_main_arg3 _ _ Cert.KernelIdeal.Gen2.A_eq0 m c),
      (h c _ (Cert.KernelIdeal.Gen2.mem_uc Cert.KernelIdeal.main_arg4 (by decide))).trans (Cert.KernelIdeal.Gen2.Wend_main_arg4 _ _ Cert.KernelIdeal.Gen2.A_eq0 m c),
      (h c _ (Cert.KernelIdeal.Gen2.mem_uc Cert.KernelIdeal.main_arg5 (by decide))).trans (Cert.KernelIdeal.Gen2.Wend_main_arg5 _ _ Cert.KernelIdeal.Gen2.A_eq0 m c),
      (h c _ (Cert.KernelIdeal.Gen2.mem_uc Cert.KernelIdeal.main_arg6 (by decide))).trans (Cert.KernelIdeal.Gen2.Wend_main_arg6 _ _ Cert.KernelIdeal.Gen2.A_eq0 m c),
      (h c _ (Cert.KernelIdeal.Gen2.mem_uc Cert.KernelIdeal.main_arg7 (by decide))).trans (Cert.KernelIdeal.Gen2.Wend_main_arg7 _ _ Cert.KernelIdeal.Gen2.A_eq0 m c)⟩
  · -- the reference: its run names the same two functions, of arguments that agree with the kernel's
    refine (θ_run Cert.ReferenceIdeal.defs _ _).mono (fun r h c => ?_) (Cert.RefSpec.ref_run m' ρ')
    obtain ⟨a0, a1, a2, a3, a4, a5, a6, a7⟩ := hagree c
    refine ⟨(h c).1.trans ?_, (h c).2.1.trans ?_, (h c).2.2⟩
    · rw [a0, a1, a2, a3, a4, a5, a6, a7]
    · rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
